-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S256x128 : Shape := ⟨2, ![256, 128]⟩
abbrev S256 : Shape := ⟨1, ![256]⟩
abbrev S768x256 : Shape := ⟨2, ![768, 256]⟩
abbrev S768 : Shape := ⟨1, ![768]⟩
abbrev S256x256 : Shape := ⟨2, ![256, 256]⟩
abbrev S256x512 : Shape := ⟨2, ![256, 512]⟩
abbrev S2x256 : Shape := ⟨2, ![2, 256]⟩
abbrev S2 : Shape := ⟨1, ![2]⟩
abbrev S256x131072 : Shape := ⟨2, ![256, 131072]⟩
abbrev S1x256 : Shape := ⟨2, ![1, 256]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S256x131072 : S_.BroadcastsInDim S256x131072 (![] : Fin 0 → Fin S256x131072.rank)
  reducesTo_S256x131072_S_d0_1 : S256x131072.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S256x131072 .f32) (main_arg12 : FVec F S256 .f32) (main_arg13 : FVec F S1x256 .f32) (main_arg14 : FVec F S1 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S256x131072 .f32 := Host.absf main_arg11
  let main_cst_20 : FVec F S_ .f32 := constant S_ .f32 0x7F800000#32
  let main_v55 : FVec F S256x131072 .f32 := broadcastInDim S256x131072 ![] bcast_S_S256x131072 main_cst_20
  let main_v56 : IVec S256x131072 1 := cmpf .olt main_v54 main_v55
  let main_c_21 : IVec S_ 1 := constantI S_ 1 1#1
  let main_v57 : IVec S_ 1 := (fun x v => Host.reduce IntOp.andi x v reducesTo_S256x131072_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S1x256 .f32 := Host.absf main_arg13
  let main_cst_24 : FVec F S_ .f32 := constant S_ .f32 0x7F800000#32
  let main_v65 : FVec F S1x256 .f32 := broadcastInDim S1x256 ![] bcast_S_S1x256 main_cst_24
  let main_v66 : IVec S1x256 1 := cmpf .olt main_v64 main_v65
  let main_c_25 : IVec S_ 1 := constantI S_ 1 1#1
  let main_v67 : IVec S_ 1 := (fun x v => Host.reduce IntOp.andi x v reducesTo_S1x256_S_d0_1 h_S_) main_v66 main_c_25
  fn_part4 (F := F) main_arg14 main_v63 main_v67

def fn_part2 {F : FTy → Type} [FloatOps F] (main_arg7 : FVec F S256x512 .f32) (main_arg8 : FVec F S256 .f32) (main_arg9 : FVec F S2x256 .f32) (main_arg10 : FVec F S2 .f32) (main_arg11 : FVec F S256x131072 .f32) (main_arg12 : FVec F S256 .f32) (main_arg13 : FVec F S1x256 .f32) (main_arg14 : FVec F S1 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S2x256 .f32 := Host.absf main_arg9
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg11 main_arg12 main_arg13 main_arg14 main_v48 main_v49 main_v50

def fn_part1 {F : FTy → Type} [FloatOps F] (main_arg4 : FVec F S768 .f32) (main_arg5 : FVec F S256x256 .f32) (main_arg6 : FVec F S256 .f32) (main_arg7 : FVec F S256x512 .f32) (main_arg8 : FVec F S256 .f32) (main_arg9 : FVec F S2x256 .f32) (main_arg10 : FVec F S2 .f32) (main_arg11 : FVec F S256x131072 .f32) (main_arg12 : FVec F S256 .f32) (main_arg13 : FVec F S1x256 .f32) (main_arg14 : FVec F S1 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S512x128 .f32) (main_arg1 : FVec F S256x128 .f32) (main_arg2 : FVec F S256 .f32) (main_arg3 : FVec F S768x256 .f32) (main_arg4 : FVec F S768 .f32) (main_arg5 : FVec F S256x256 .f32) (main_arg6 : FVec F S256 .f32) (main_arg7 : FVec F S256x512 .f32) (main_arg8 : FVec F S256 .f32) (main_arg9 : FVec F S2x256 .f32) (main_arg10 : FVec F S2 .f32) (main_arg11 : FVec F S256x131072 .f32) (main_arg12 : FVec F S256 .f32) (main_arg13 : FVec F S1x256 .f32) (main_arg14 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S512x128 : Shape := ⟨2, ![512, 128]⟩
abbrev S256x128 : Shape := ⟨2, ![256, 128]⟩
abbrev S256 : Shape := ⟨1, ![256]⟩
abbrev S768x256 : Shape := ⟨2, ![768, 256]⟩
abbrev S768 : Shape := ⟨1, ![768]⟩
abbrev S256x256 : Shape := ⟨2, ![256, 256]⟩
abbrev S256x512 : Shape := ⟨2, ![256, 512]⟩
abbrev S2x256 : Shape := ⟨2, ![2, 256]⟩
abbrev S2 : Shape := ⟨1, ![2]⟩
abbrev S256x131072 : Shape := ⟨2, ![256, 131072]⟩
abbrev S1x256 : Shape := ⟨2, ![1, 256]⟩
abbrev S1 : Shape := ⟨1, ![1]⟩
abbrev S1x768 : Shape := ⟨2, ![1, 768]⟩
abbrev S512x256 : Shape := ⟨2, ![512, 256]⟩
abbrev S128x256 : Shape := ⟨2, ![128, 256]⟩
abbrev S256x768 : Shape := ⟨2, ![256, 768]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S1x131072 : Shape := ⟨2, ![1, 131072]⟩
abbrev S1x1 : Shape := ⟨2, ![1, 1]⟩
abbrev S256x8192 : Shape := ⟨2, ![256, 8192]⟩
abbrev S1x8192 : Shape := ⟨2, ![1, 8192]⟩
abbrev S8192x256 : Shape := ⟨2, ![8192, 256]⟩
abbrev S256x1 : Shape := ⟨2, ![256, 1]⟩
abbrev S1x2 : Shape := ⟨2, ![1, 2]⟩
abbrev S512x512x2 : Shape := ⟨3, ![512, 512, 2]⟩
abbrev S64x256 : Shape := ⟨2, ![64, 256]⟩
abbrev S64x64x2 : Shape := ⟨3, ![64, 64, 2]⟩
abbrev S64x1x256 : Shape := ⟨3, ![64, 1, 256]⟩
abbrev S1x64x256 : Shape := ⟨3, ![1, 64, 256]⟩
abbrev S64x64x256 : Shape := ⟨3, ![64, 64, 256]⟩
abbrev S1x1x256 : Shape := ⟨3, ![1, 1, 256]⟩
abbrev S64x64 : Shape := ⟨2, ![64, 64]⟩
abbrev S64x64x1 : Shape := ⟨3, ![64, 64, 1]⟩
abbrev S_ : Shape := ⟨0, ![]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x2 : Shape := ⟨2, ![130816, 2]⟩
abbrev S130816x3 : Shape := ⟨2, ![130816, 3]⟩

abbrev nBuf : Space → Nat
  | .hbm => 165
  | .vmem => 29
  | .smem => 0
  | _ => 0

abbrev hbmTy0_0 (i : Nat) : BufTy := match i % 128 with
  | 0 => ⟨S512x128, .f32⟩
  | 1 => ⟨S256x128, .f32⟩
  | 2 => ⟨S256, .f32⟩
  | 3 => ⟨S768x256, .f32⟩
  | 4 => ⟨S768, .f32⟩
  | 5 => ⟨S256x256, .f32⟩
  | 6 => ⟨S256, .f32⟩
  | 7 => ⟨S256x512, .f32⟩
  | 8 => ⟨S256, .f32⟩
  | 9 => ⟨S2x256, .f32⟩
  | 10 => ⟨S2, .f32⟩
  | 11 => ⟨S256x131072, .f32⟩
  | 12 => ⟨S256, .f32⟩
  | 13 => ⟨S1x256, .f32⟩
  | 14 => ⟨S1, .f32⟩
  | 15 => ⟨S1x256, .f32⟩
  | 16 => ⟨S1x768, .f32⟩
  | 17 => ⟨S1x256, .f32⟩
  | 18 => ⟨S512x256, .f32⟩
  | 19 => ⟨S512x256, .f32⟩
  | 20 => ⟨S512x256, .f32⟩
  | 21 => ⟨S1x131072, .f32⟩
  | 22 => ⟨S1x256, .f32⟩
  | 23 => ⟨S1x1, .f32⟩
  | 24 => ⟨S1x1, .f32⟩
  | 25 => ⟨S1x256, .f32⟩
  | 26 => ⟨S1x2, .f32⟩
  | 27 => ⟨S512x512x2, .f32⟩
  | 28 => ⟨S_, .f32⟩
  | 29 => ⟨S512x512, .f32⟩
  | 30 => ⟨S512x512, .i32⟩
  | 31 => ⟨S_, .i32⟩
  | 32 => ⟨S512x512, .i32⟩
  | 33 => ⟨S512x512, .i32⟩
  | 34 => ⟨S512x512, .i32⟩
  | 35 => ⟨S512x512, .i1⟩
  | 36 => ⟨S_, .f32⟩
  | 37 => ⟨S512x512, .f32⟩
  | 38 => ⟨S512x512, .f32⟩
  | 39 => ⟨S_, .f32⟩
  | 40 => ⟨S512x512, .f32⟩
  | 41 => ⟨S512x512, .i1⟩
  | 42 => ⟨S262144, .i1⟩
  | 43 => ⟨S262144, .i32⟩
  | 44 => ⟨S_, .i32⟩
  | 45 => ⟨S_, .i32⟩
  | 46 => ⟨S262144, .i32⟩
  | 47 => ⟨S_, .i32⟩
  | 48 => ⟨S130816, .i32⟩
  | 49 => ⟨S_, .i32⟩
  | 50 => ⟨S_, .i32⟩
  | 51 => ⟨S262144, .i32⟩
  | 52 => ⟨S262144, .i32⟩
  | 53 => ⟨S_, .i32⟩
  | 54 => ⟨S262144, .i32⟩
  | 55 => ⟨S262144, .i1⟩
  | 56 => ⟨S_, .i32⟩
  | 57 => ⟨S262144, .i32⟩
  | 58 => ⟨S262144, .i32⟩
  | 59 => ⟨S262144, .i32⟩
  | 60 => ⟨S262144x1, .i32⟩
  | 61 => ⟨S_, .i32⟩
  | 62 => ⟨S262144, .i32⟩
  | 63 => ⟨S130816, .i32⟩
  | 64 => ⟨S_, .i32⟩
  | 65 => ⟨S_, .i32⟩
  | 66 => ⟨S130816, .i32⟩
  | 67 => ⟨S_, .i32⟩
  | 68 => ⟨S130816, .i32⟩
  | 69 => ⟨S130816, .i32⟩
  | 70 => ⟨S130816, .i32⟩
  | 71 => ⟨S_, .i32⟩
  | 72 => ⟨S130816, .i32⟩
  | 73 => ⟨S130816, .i1⟩
  | 74 => ⟨S130816, .i32⟩
  | 75 => ⟨S130816, .i32⟩
  | 76 => ⟨S_, .i32⟩
  | 77 => ⟨S130816, .i32⟩
  | 78 => ⟨S130816, .i1⟩
  | 79 => ⟨S130816, .i1⟩
  | 80 => ⟨S_, .i32⟩
  | 81 => ⟨S130816, .i32⟩
  | 82 => ⟨S130816, .i32⟩
  | 83 => ⟨S130816, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S130816, .i32⟩
  | 91 => ⟨S130816, .i32⟩
  | 92 => ⟨S_, .i32⟩
  | 93 => ⟨S130816, .i32⟩
  | 94 => ⟨S130816, .i1⟩
  | 95 => ⟨S_, .i32⟩
  | 96 => ⟨S130816, .i32⟩
  | 97 => ⟨S130816, .i1⟩
  | 98 => ⟨S_, .i32⟩
  | 99 => ⟨S_, .i1⟩
  | 100 => ⟨S130816, .i1⟩
  | 101 => ⟨S130816, .i1⟩
  | 102 => ⟨S130816, .i1⟩
  | 103 => ⟨S130816, .i32⟩
  | 104 => ⟨S130816, .i32⟩
  | 105 => ⟨S130816, .i32⟩
  | 106 => ⟨S_, .i32⟩
  | 107 => ⟨S130816, .i32⟩
  | 108 => ⟨S130816, .i32⟩
  | 109 => ⟨S130816, .i32⟩
  | 110 => ⟨S_, .i32⟩
  | 111 => ⟨S130816, .i32⟩
  | 112 => ⟨S130816, .i1⟩
  | 113 => ⟨S130816, .i32⟩
  | 114 => ⟨S130816, .i32⟩
  | 115 => ⟨S_, .i32⟩
  | 116 => ⟨S130816, .i32⟩
  | 117 => ⟨S130816, .i1⟩
  | 118 => ⟨S130816, .i1⟩
  | 119 => ⟨S_, .i32⟩
  | 120 => ⟨S130816, .i32⟩
  | 121 => ⟨S130816, .i32⟩
  | 122 => ⟨S130816, .i32⟩
  | 123 => ⟨S_, .i32⟩
  | 124 => ⟨S_, .i32⟩
  | 125 => ⟨S_, .i32⟩
  | 126 => ⟨S_, .i1⟩
  | 127 => ⟨S_, .i32⟩
  | _ => ⟨S512x128, .f32⟩

abbrev hbmTy0_1 (i : Nat) : BufTy := match i % 128 with
  | 0 => ⟨S_, .i32⟩
  | 1 => ⟨S130816, .i32⟩
  | 2 => ⟨S130816, .i32⟩
  | 3 => ⟨S_, .i32⟩
  | 4 => ⟨S130816, .i32⟩
  | 5 => ⟨S130816, .i1⟩
  | 6 => ⟨S_, .i32⟩
  | 7 => ⟨S130816, .i32⟩
  | 8 => ⟨S130816, .i1⟩
  | 9 => ⟨S_, .i32⟩
  | 10 => ⟨S_, .i1⟩
  | 11 => ⟨S130816, .i1⟩
  | 12 => ⟨S130816, .i1⟩
  | 13 => ⟨S130816, .i1⟩
  | 14 => ⟨S130816, .i32⟩
  | 15 => ⟨S130816, .i32⟩
  | 16 => ⟨S130816, .i32⟩
  | 17 => ⟨S_, .i32⟩
  | 18 => ⟨S130816, .i32⟩
  | 19 => ⟨S130816, .i1⟩
  | 20 => ⟨S_, .i32⟩
  | 21 => ⟨S130816, .i32⟩
  | 22 => ⟨S130816, .i32⟩
  | 23 => ⟨S130816, .i32⟩
  | 24 => ⟨S_, .i32⟩
  | 25 => ⟨S130816, .i32⟩
  | 26 => ⟨S130816, .i1⟩
  | 27 => ⟨S_, .i32⟩
  | 28 => ⟨S130816, .i32⟩
  | 29 => ⟨S130816, .i32⟩
  | 30 => ⟨S130816, .i32⟩
  | 31 => ⟨S130816x1, .i32⟩
  | 32 => ⟨S130816x1, .i32⟩
  | 33 => ⟨S130816x2, .i32⟩
  | 34 => ⟨S130816x2, .f32⟩
  | 35 => ⟨S130816x1, .f32⟩
  | 36 => ⟨S130816x3, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S256x128, .f32⟩
  | .local _ .vmem, ⟨2, _⟩ => ⟨S1x256, .f32⟩
  | .local _ .vmem, ⟨3, _⟩ => ⟨S768x256, .f32⟩
  | .local _ .vmem, ⟨4, _⟩ => ⟨S1x768, .f32⟩
  | .local _ .vmem, ⟨5, _⟩ => ⟨S256x256, .f32⟩
  | .local _ .vmem, ⟨6, _⟩ => ⟨S1x256, .f32⟩
  | .local _ .vmem, ⟨7, _⟩ => ⟨S256x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S256x8192, .f32⟩
  | .local _ .vmem, ⟨12, _⟩ => ⟨S256x8192, .f32⟩
  | .local _ .vmem, ⟨13, _⟩ => ⟨S1x8192, .f32⟩
  | .local _ .vmem, ⟨14, _⟩ => ⟨S1x8192, .f32⟩
  | .local _ .vmem, ⟨15, _⟩ => ⟨S1x256, .f32⟩
  | .local _ .vmem, ⟨16, _⟩ => ⟨S1x256, .f32⟩
  | .local _ .vmem, ⟨17, _⟩ => ⟨S1x1, .f32⟩
  | .local _ .vmem, ⟨18, _⟩ => ⟨S1x1, .f32⟩
  | .local _ .vmem, ⟨19, _⟩ => ⟨S1x256, .f32⟩
  | .local _ .vmem, ⟨20, _⟩ => ⟨S64x256, .f32⟩
  | .local _ .vmem, ⟨21, _⟩ => ⟨S64x256, .f32⟩
  | .local _ .vmem, ⟨22, _⟩ => ⟨S64x256, .f32⟩
  | .local _ .vmem, ⟨23, _⟩ => ⟨S64x256, .f32⟩
  | .local _ .vmem, ⟨24, _⟩ => ⟨S1x256, .f32⟩
  | .local _ .vmem, ⟨25, _⟩ => ⟨S2x256, .f32⟩
  | .local _ .vmem, ⟨26, _⟩ => ⟨S1x2, .f32⟩
  | .local _ .vmem, ⟨27, _⟩ => ⟨S64x64x2, .f32⟩
  | .local _ .vmem, ⟨28, _⟩ => ⟨S64x64x2, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_cst : Ref sig .tc := ⟨.hbm, 36, rfl⟩
abbrev main_call0_v5 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_call1_v0 : Ref sig .tc := ⟨.hbm, 42, rfl⟩
abbrev main_call1_v1 : Ref sig .tc := ⟨.hbm, 43, rfl⟩
abbrev main_call1_call0_c : Ref sig .tc := ⟨.hbm, 44, rfl⟩
abbrev main_call1_call0_v0 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_c_1 : Ref sig .tc := ⟨.hbm, 49, rfl⟩
abbrev main_call2_v0 : Ref sig .tc := ⟨.hbm, 50, rfl⟩
abbrev main_call2_v1 : Ref sig .tc := ⟨.hbm, 51, rfl⟩
abbrev main_v17 : Ref sig .tc := ⟨.hbm, 52, rfl⟩
abbrev main_c_2 : Ref sig .tc := ⟨.hbm, 53, rfl⟩
abbrev main_v18 : Ref sig .tc := ⟨.hbm, 54, rfl⟩
abbrev main_v19 : Ref sig .tc := ⟨.hbm, 55, rfl⟩
abbrev main_c_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_4 : Ref sig .tc := ⟨.hbm, 61, rfl⟩
abbrev main_v24 : Ref sig .tc := ⟨.hbm, 62, rfl⟩
abbrev main_v25 : Ref sig .tc := ⟨.hbm, 63, rfl⟩
abbrev main_call3_call0_c : Ref sig .tc := ⟨.hbm, 64, rfl⟩
abbrev main_call3_call0_v0 : Ref sig .tc := ⟨.hbm, 65, rfl⟩
abbrev main_v26 : Ref sig .tc := ⟨.hbm, 66, rfl⟩
abbrev main_c_5 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_c : Ref sig .tc := ⟨.hbm, 76, rfl⟩
abbrev main_call4_v8 : Ref sig .tc := ⟨.hbm, 77, rfl⟩
abbrev main_call4_v9 : Ref sig .tc := ⟨.hbm, 78, rfl⟩
abbrev main_call4_v10 : Ref sig .tc := ⟨.hbm, 79, rfl⟩
abbrev main_call4_c_0 : Ref sig .tc := ⟨.hbm, 80, rfl⟩
abbrev main_call4_v11 : Ref sig .tc := ⟨.hbm, 81, rfl⟩
abbrev main_call4_v12 : Ref sig .tc := ⟨.hbm, 82, rfl⟩
abbrev main_v27 : Ref sig .tc := ⟨.hbm, 83, rfl⟩
abbrev main_c_6 : Ref sig .tc := ⟨.hbm, 84, rfl⟩
abbrev main_call5_v0 : Ref sig .tc := ⟨.hbm, 85, rfl⟩
abbrev main_call5_c : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_c_1 : Ref sig .tc := ⟨.hbm, 92, rfl⟩
abbrev main_call5_v5 : Ref sig .tc := ⟨.hbm, 93, rfl⟩
abbrev main_call5_v6 : Ref sig .tc := ⟨.hbm, 94, rfl⟩
abbrev main_call5_c_2 : Ref sig .tc := ⟨.hbm, 95, rfl⟩
abbrev main_call5_v7 : Ref sig .tc := ⟨.hbm, 96, rfl⟩
abbrev main_call5_v8 : Ref sig .tc := ⟨.hbm, 97, rfl⟩
abbrev main_call5_c_3 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_v12 : Ref sig .tc := ⟨.hbm, 102, rfl⟩
abbrev main_call5_v13 : Ref sig .tc := ⟨.hbm, 103, rfl⟩
abbrev main_call5_v14 : Ref sig .tc := ⟨.hbm, 104, rfl⟩
abbrev main_v28 : Ref sig .tc := ⟨.hbm, 105, rfl⟩
abbrev main_c_7 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_call6_v5 : Ref sig .tc := ⟨.hbm, 112, rfl⟩
abbrev main_call6_v6 : Ref sig .tc := ⟨.hbm, 113, rfl⟩
abbrev main_call6_v7 : Ref sig .tc := ⟨.hbm, 114, rfl⟩
abbrev main_call6_c : Ref sig .tc := ⟨.hbm, 115, rfl⟩
abbrev main_call6_v8 : Ref sig .tc := ⟨.hbm, 116, rfl⟩
abbrev main_call6_v9 : Ref sig .tc := ⟨.hbm, 117, rfl⟩
abbrev main_call6_v10 : Ref sig .tc := ⟨.hbm, 118, rfl⟩
abbrev main_call6_c_0 : Ref sig .tc := ⟨.hbm, 119, rfl⟩
abbrev main_call6_v11 : Ref sig .tc := ⟨.hbm, 120, rfl⟩
abbrev main_call6_v12 : Ref sig .tc := ⟨.hbm, 121, rfl⟩
abbrev main_v29 : Ref sig .tc := ⟨.hbm, 122, rfl⟩
abbrev main_c_8 : Ref sig .tc := ⟨.hbm, 123, rfl⟩
abbrev main_call7_v0 : Ref sig .tc := ⟨.hbm, 124, rfl⟩
abbrev main_call7_c : Ref sig .tc := ⟨.hbm, 125, rfl⟩
abbrev main_call7_v1 : Ref sig .tc := ⟨.hbm, 126, rfl⟩
abbrev main_call7_c_0 : Ref sig .tc := ⟨.hbm, 127, rfl⟩
abbrev main_call7_v2 : Ref sig .tc := ⟨.hbm, 128, rfl⟩
abbrev main_call7_v3 : Ref sig .tc := ⟨.hbm, 129, rfl⟩
abbrev main_call7_v4 : Ref sig .tc := ⟨.hbm, 130, rfl⟩
abbrev main_call7_c_1 : Ref sig .tc := ⟨.hbm, 131, rfl⟩
abbrev main_call7_v5 : Ref sig .tc := ⟨.hbm, 132, rfl⟩
abbrev main_call7_v6 : Ref sig .tc := ⟨.hbm, 133, rfl⟩
abbrev main_call7_c_2 : Ref sig .tc := ⟨.hbm, 134, rfl⟩
abbrev main_call7_v7 : Ref sig .tc := ⟨.hbm, 135, rfl⟩
abbrev main_call7_v8 : Ref sig .tc := ⟨.hbm, 136, rfl⟩
abbrev main_call7_c_3 : Ref sig .tc := ⟨.hbm, 137, rfl⟩
abbrev main_call7_v9 : Ref sig .tc := ⟨.hbm, 138, rfl⟩
abbrev main_call7_v10 : Ref sig .tc := ⟨.hbm, 139, rfl⟩
abbrev main_call7_v11 : Ref sig .tc := ⟨.hbm, 140, rfl⟩
abbrev main_call7_v12 : Ref sig .tc := ⟨.hbm, 141, rfl⟩
abbrev main_call7_v13 : Ref sig .tc := ⟨.hbm, 142, rfl⟩
abbrev main_call7_v14 : Ref sig .tc := ⟨.hbm, 143, rfl⟩
abbrev main_v30 : Ref sig .tc := ⟨.hbm, 144, rfl⟩
abbrev main_c_9 : Ref sig .tc := ⟨.hbm, 145, rfl⟩
abbrev main_v31 : Ref sig .tc := ⟨.hbm, 146, rfl⟩
abbrev main_v32 : Ref sig .tc := ⟨.hbm, 147, rfl⟩
abbrev main_c_10 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_c_11 : Ref sig .tc := ⟨.hbm, 152, rfl⟩
abbrev main_v36 : Ref sig .tc := ⟨.hbm, 153, rfl⟩
abbrev main_v37 : Ref sig .tc := ⟨.hbm, 154, rfl⟩
abbrev main_c_12 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v15 : BitVec 1 := Scalar.cmpi .eq arg0 c15_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S64x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S2x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S64x64x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  shapeCasts_S256_S1x256 : S256.ShapeCasts S1x256
  shapeCasts_S768_S1x768 : S768.ShapeCasts S1x768
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S768x256_S768x256_0_0 : ∀ a, (![0, 0] : Fin 2 → Nat) a + S768x256.size a ≤ S768x256.size a
  h_S768x256 : 0 < S768x256.numel
  transposes_S768x256_p1_0_S256x768 : S768x256.Transposes [1, 0] S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  transposes_S512x256_p1_0_S256x512 : S512x256.Transposes [1, 0] S256x512
  reduces_S512x512_S512 : S512x512.Reduces [1] S512
  shapeCasts_S512_S512x1 : S512.ShapeCasts S512x1
  broadcasts_S512x1_S512x512 : S512x1.Broadcasts S512x512
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S256x512_S256x512_0_0 : ∀ a, (![0, 0] : Fin 2 → Nat) a + S256x512.size a ≤ S256x512.size a
  h_S256x512 : 0 < S256x512.numel
  slices_S256x512_o0_0_S256x256 : S256x512.Slices ![0, 0] S256x256
  slices_S256x512_o0_256_S256x256 : S256x512.Slices ![0, 256] S256x256
  inb_S512x256_S512x256_0_0 : ∀ a, (![0, 0] : Fin 2 → Nat) a + S512x256.size a ≤ S512x256.size a
  h_S512x256 : 0 < S512x256.numel
  shapeCasts_S512x256_S1x131072 : S512x256.ShapeCasts S1x131072
  shapeCasts_S1_S1x1 : S1.ShapeCasts S1x1
  inb_S256x8192_S256x8192_0_0 : ∀ a, (![0, 0] : Fin 2 → Nat) a + S256x8192.size a ≤ S256x8192.size a
  h_S256x8192 : 0 < S256x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  transposes_S256x8192_p1_0_S8192x256 : S256x8192.Transposes [1, 0] S8192x256
  transposes_S1x256_p1_0_S256x1 : S1x256.Transposes [1, 0] S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S2_S1x2 : S2.ShapeCasts S1x2
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  shapeCasts_S1x256_S1x1x256 : S1x256.ShapeCasts S1x1x256
  broadcasts_S1x1x256_S64x64x256 : S1x1x256.Broadcasts S64x64x256
  inb_S2x256_S2x256_0_0 : ∀ a, (![0, 0] : Fin 2 → Nat) a + S2x256.size a ≤ S2x256.size a
  h_S2x256 : 0 < S2x256.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S2x256_o0_0_S1x256 : S2x256.Slices ![0, 0] S1x256
  slices_S2x256_o1_0_S1x256 : S2x256.Slices ![1, 0] S1x256
  reduces_S64x64x256_S64x64 : S64x64x256.Reduces [2] S64x64
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  shapeCasts_S64x64_S64x64x1 : S64x64.ShapeCasts S64x64x1
  concatenates_S64x64x1_S64x64x1_S64x64x2_d2 : Shape.Concatenates [S64x64x1, S64x64x1] S64x64x2 2
  inb_S64x64x2_S64x64x2_0_0_0 : ∀ a, (![0, 0, 0] : Fin 3 → Nat) a + S64x64x2.size a ≤ S64x64x2.size a
  h_S64x64x2 : 0 < S64x64x2.numel
  bcast_S_S512x512 : S_.BroadcastsInDim S512x512 (![] : Fin 0 → Fin S512x512.rank)
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  concatenates_S130816x1_S130816x1_S130816x2_d1 : Shape.Concatenates [S130816x1, S130816x1] S130816x2 1
  bcast_S1x1_S130816x1_0_1 : S1x1.BroadcastsInDim S130816x1 (![0, 1] : Fin 2 → Fin S130816x1.rank)
  concatenates_S130816x2_S130816x1_S130816x3_d1 : Shape.Concatenates [S130816x2, S130816x1] S130816x3 1
  dot_S512x128_S128x256_S512x256_1_0_0_1_n_n_wf : DotDims.WF S512x128 S128x256 S512x256 [1] [0] [0] [1] [] []
  dot_S512x256_S256x768_S512x768_1_0_0_1_n_n_wf : DotDims.WF S512x256 S256x768 S512x768 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  dot_S1x8192_S8192x256_S1x256_1_0_0_1_n_n_wf : DotDims.WF S1x8192 S8192x256 S1x256 [1] [0] [0] [1] [] []
  dot_S1x256_S256x1_S1x1_1_0_0_1_n_n_wf : DotDims.WF S1x256 S256x1 S1x1 [1] [0] [0] [1] [] []
  scatter_S130816_S262144x1_S262144_n_0_0_1_wf : ScatterDims.WF S130816 S262144x1 S262144 [] [0] [0] 1
  gather_S512x512x2_S130816x2_S130816x2_1_01_n_n_01_1_112_wf : GatherDims.WF S512x512x2 S130816x2 S130816x2 [1] [0, 1] [] [0, 1] [] 1 ![1, 1, 2]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .f32 = 32 ∨ (Rect.block (s := S256x512) S256x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .f32 = 32 ∨ (Rect.block (s := S512x256) S512x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S256x131072.size a
  hwx1_0 : ∀ i : grid1.Coords, EltTy.bits .f32 = 32 ∨ (Rect.block (s := S256x131072) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x131072.size a
  hwx1_1 : ∀ i : grid1.Coords, EltTy.bits .f32 = 32 ∨ (Rect.block (s := S1x131072) S1x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x256.size a ≤ S512x256.size a
  hwx2_0 : ∀ i : grid2.Coords, EltTy.bits .f32 = 32 ∨ (Rect.block (s := S512x256) S64x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S512x256.size a
  hwx2_1 : ∀ i : grid2.Coords, EltTy.bits .f32 = 32 ∨ (Rect.block (s := S512x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x256.size a ≤ S2x256.size a
  hwx2_3 : ∀ i : grid2.Coords, EltTy.bits .f32 = 32 ∨ (Rect.block (s := S2x256) S2x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S64x64x2.size a ≤ S512x512x2.size a
  hwx2_5 : ∀ i : grid2.Coords, EltTy.bits .f32 = 32 ∨ (Rect.block (s := S512x512x2) S64x64x2.size (cc2_transform_5 i) (hinb2_5 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1x8192_S8192x256_S1x256_1_0_0_1_n_n : DotDims S1x8192 S8192x256 S1x256 where
  lhsContracting := [1]
  rhsContracting := [0]
  lhsNonContracting := [0]
  rhsNonContracting := [1]
  lhsBatch := []
  rhsBatch := []
  wf := dot_S1x8192_S8192x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf
def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x512x2_S130816x2_S130816x2_1_01_n_n_01_1_112 : GatherDims S512x512x2 S130816x2 S130816x2 where
  offsetDims := [1]
  collapsedSliceDims := [0, 1]
  operandBatchingDims := []
  startIndicesBatchingDims := []
  startIndexMap := [0, 1]
  indexVectorDim := 1
  sliceSizes := ![1, 1, 2]
  wf := gather_S512x512x2_S130816x2_S130816x2_1_01_n_n_01_1_112_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S512x256.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S512x256.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_2) S512x256.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg11) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v3_1) S64x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_2) S64x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S2x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S64x64x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S512x128 : Shape := ⟨2, ![512, 128]⟩
abbrev S256x128 : Shape := ⟨2, ![256, 128]⟩
abbrev S256 : Shape := ⟨1, ![256]⟩
abbrev S768x256 : Shape := ⟨2, ![768, 256]⟩
abbrev S768 : Shape := ⟨1, ![768]⟩
abbrev S256x256 : Shape := ⟨2, ![256, 256]⟩
abbrev S256x512 : Shape := ⟨2, ![256, 512]⟩
abbrev S2x256 : Shape := ⟨2, ![2, 256]⟩
abbrev S2 : Shape := ⟨1, ![2]⟩
abbrev S256x131072 : Shape := ⟨2, ![256, 131072]⟩
abbrev S1x256 : Shape := ⟨2, ![1, 256]⟩
abbrev S1 : Shape := ⟨1, ![1]⟩
abbrev S128x256 : Shape := ⟨2, ![128, 256]⟩
abbrev S512x256 : Shape := ⟨2, ![512, 256]⟩
abbrev S_ : Shape := ⟨0, ![]⟩
abbrev S256x768 : Shape := ⟨2, ![256, 768]⟩
abbrev S512x768 : Shape := ⟨2, ![512, 768]⟩
abbrev S1x768 : Shape := ⟨2, ![1, 768]⟩
abbrev S512x512 : Shape := ⟨2, ![512, 512]⟩
abbrev S512 : Shape := ⟨1, ![512]⟩
abbrev S512x1 : Shape := ⟨2, ![512, 1]⟩
abbrev S262144 : Shape := ⟨1, ![262144]⟩
abbrev S130816 : Shape := ⟨1, ![130816]⟩
abbrev S262144x1 : Shape := ⟨2, ![262144, 1]⟩
abbrev S130816x1 : Shape := ⟨2, ![130816, 1]⟩
abbrev S130816x256 : Shape := ⟨2, ![130816, 256]⟩
abbrev S130816x512 : Shape := ⟨2, ![130816, 512]⟩
abbrev S256x2 : Shape := ⟨2, ![256, 2]⟩
abbrev S130816x2 : Shape := ⟨2, ![130816, 2]⟩
abbrev S1x2 : Shape := ⟨2, ![1, 2]⟩
abbrev S1x131072 : Shape := ⟨2, ![1, 131072]⟩
abbrev S131072x256 : Shape := ⟨2, ![131072, 256]⟩
abbrev S256x1 : Shape := ⟨2, ![256, 1]⟩
abbrev S1x1 : Shape := ⟨2, ![1, 1]⟩
abbrev S130816x3 : Shape := ⟨2, ![130816, 3]⟩

abbrev nBuf : Space → Nat
  | .hbm => 234
  | .vmem => 0
  | .smem => 0
  | _ => 0

abbrev hbmTy0_0 (i : Nat) : BufTy := match i % 128 with
  | 0 => ⟨S512x128, .f32⟩
  | 1 => ⟨S256x128, .f32⟩
  | 2 => ⟨S256, .f32⟩
  | 3 => ⟨S768x256, .f32⟩
  | 4 => ⟨S768, .f32⟩
  | 5 => ⟨S256x256, .f32⟩
  | 6 => ⟨S256, .f32⟩
  | 7 => ⟨S256x512, .f32⟩
  | 8 => ⟨S256, .f32⟩
  | 9 => ⟨S2x256, .f32⟩
  | 10 => ⟨S2, .f32⟩
  | 11 => ⟨S256x131072, .f32⟩
  | 12 => ⟨S256, .f32⟩
  | 13 => ⟨S1x256, .f32⟩
  | 14 => ⟨S1, .f32⟩
  | 15 => ⟨S128x256, .f32⟩
  | 16 => ⟨S512x256, .f32⟩
  | 17 => ⟨S1x256, .f32⟩
  | 18 => ⟨S512x256, .f32⟩
  | 19 => ⟨S512x256, .f32⟩
  | 20 => ⟨S_, .f32⟩
  | 21 => ⟨S512x256, .f32⟩
  | 22 => ⟨S512x256, .f32⟩
  | 23 => ⟨S256x768, .f32⟩
  | 24 => ⟨S512x768, .f32⟩
  | 25 => ⟨S1x768, .f32⟩
  | 26 => ⟨S512x768, .f32⟩
  | 27 => ⟨S512x768, .f32⟩
  | 28 => ⟨S512x256, .f32⟩
  | 29 => ⟨S512x256, .f32⟩
  | 30 => ⟨S512x256, .f32⟩
  | 31 => ⟨S256x512, .f32⟩
  | 32 => ⟨S512x512, .f32⟩
  | 33 => ⟨S_, .f32⟩
  | 34 => ⟨S_, .f32⟩
  | 35 => ⟨S512x512, .f32⟩
  | 36 => ⟨S512x512, .f32⟩
  | 37 => ⟨S_, .f32⟩
  | 38 => ⟨S512, .f32⟩
  | 39 => ⟨S_, .f32⟩
  | 40 => ⟨S512, .f32⟩
  | 41 => ⟨S512, .f32⟩
  | 42 => ⟨S512x1, .f32⟩
  | 43 => ⟨S512x512, .f32⟩
  | 44 => ⟨S512x512, .f32⟩
  | 45 => ⟨S512x512, .f32⟩
  | 46 => ⟨S_, .f32⟩
  | 47 => ⟨S512, .f32⟩
  | 48 => ⟨S512x1, .f32⟩
  | 49 => ⟨S512x512, .f32⟩
  | 50 => ⟨S512x512, .f32⟩
  | 51 => ⟨S512x256, .f32⟩
  | 52 => ⟨S256x256, .f32⟩
  | 53 => ⟨S512x256, .f32⟩
  | 54 => ⟨S1x256, .f32⟩
  | 55 => ⟨S512x256, .f32⟩
  | 56 => ⟨S512x256, .f32⟩
  | 57 => ⟨S_, .f32⟩
  | 58 => ⟨S512x512, .f32⟩
  | 59 => ⟨S512x512, .i32⟩
  | 60 => ⟨S_, .i32⟩
  | 61 => ⟨S512x512, .i32⟩
  | 62 => ⟨S512x512, .i32⟩
  | 63 => ⟨S512x512, .i32⟩
  | 64 => ⟨S512x512, .i1⟩
  | 65 => ⟨S_, .f32⟩
  | 66 => ⟨S512x512, .f32⟩
  | 67 => ⟨S512x512, .f32⟩
  | 68 => ⟨S_, .f32⟩
  | 69 => ⟨S512x512, .f32⟩
  | 70 => ⟨S512x512, .i1⟩
  | 71 => ⟨S262144, .i1⟩
  | 72 => ⟨S262144, .i32⟩
  | 73 => ⟨S_, .i32⟩
  | 74 => ⟨S_, .i32⟩
  | 75 => ⟨S262144, .i32⟩
  | 76 => ⟨S_, .i32⟩
  | 77 => ⟨S130816, .i32⟩
  | 78 => ⟨S_, .i32⟩
  | 79 => ⟨S_, .i32⟩
  | 80 => ⟨S262144, .i32⟩
  | 81 => ⟨S262144, .i32⟩
  | 82 => ⟨S_, .i32⟩
  | 83 => ⟨S262144, .i32⟩
  | 84 => ⟨S262144, .i1⟩
  | 85 => ⟨S_, .i32⟩
  | 86 => ⟨S262144, .i32⟩
  | 87 => ⟨S262144, .i32⟩
  | 88 => ⟨S262144, .i32⟩
  | 89 => ⟨S262144x1, .i32⟩
  | 90 => ⟨S_, .i32⟩
  | 91 => ⟨S262144, .i32⟩
  | 92 => ⟨S130816, .i32⟩
  | 93 => ⟨S_, .i32⟩
  | 94 => ⟨S_, .i32⟩
  | 95 => ⟨S130816, .i32⟩
  | 96 => ⟨S_, .i32⟩
  | 97 => ⟨S130816, .i32⟩
  | 98 => ⟨S130816, .i32⟩
  | 99 => ⟨S130816, .i32⟩
  | 100 => ⟨S_, .i32⟩
  | 101 => ⟨S130816, .i32⟩
  | 102 => ⟨S130816, .i1⟩
  | 103 => ⟨S130816, .i32⟩
  | 104 => ⟨S130816, .i32⟩
  | 105 => ⟨S_, .i32⟩
  | 106 => ⟨S130816, .i32⟩
  | 107 => ⟨S130816, .i1⟩
  | 108 => ⟨S130816, .i1⟩
  | 109 => ⟨S_, .i32⟩
  | 110 => ⟨S130816, .i32⟩
  | 111 => ⟨S130816, .i32⟩
  | 112 => ⟨S130816, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S130816, .i32⟩
  | 120 => ⟨S130816, .i32⟩
  | 121 => ⟨S_, .i32⟩
  | 122 => ⟨S130816, .i32⟩
  | 123 => ⟨S130816, .i1⟩
  | 124 => ⟨S_, .i32⟩
  | 125 => ⟨S130816, .i32⟩
  | 126 => ⟨S130816, .i1⟩
  | 127 => ⟨S_, .i32⟩
  | _ => ⟨S512x128, .f32⟩

abbrev hbmTy0_1 (i : Nat) : BufTy := match i % 128 with
  | 0 => ⟨S_, .i1⟩
  | 1 => ⟨S130816, .i1⟩
  | 2 => ⟨S130816, .i1⟩
  | 3 => ⟨S130816, .i1⟩
  | 4 => ⟨S130816, .i32⟩
  | 5 => ⟨S130816, .i32⟩
  | 6 => ⟨S130816, .i32⟩
  | 7 => ⟨S_, .i32⟩
  | 8 => ⟨S130816, .i32⟩
  | 9 => ⟨S130816, .i32⟩
  | 10 => ⟨S130816, .i32⟩
  | 11 => ⟨S_, .i32⟩
  | 12 => ⟨S130816, .i32⟩
  | 13 => ⟨S130816, .i1⟩
  | 14 => ⟨S130816, .i32⟩
  | 15 => ⟨S130816, .i32⟩
  | 16 => ⟨S_, .i32⟩
  | 17 => ⟨S130816, .i32⟩
  | 18 => ⟨S130816, .i1⟩
  | 19 => ⟨S130816, .i1⟩
  | 20 => ⟨S_, .i32⟩
  | 21 => ⟨S130816, .i32⟩
  | 22 => ⟨S130816, .i32⟩
  | 23 => ⟨S130816, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S130816, .i32⟩
  | 31 => ⟨S130816, .i32⟩
  | 32 => ⟨S_, .i32⟩
  | 33 => ⟨S130816, .i32⟩
  | 34 => ⟨S130816, .i1⟩
  | 35 => ⟨S_, .i32⟩
  | 36 => ⟨S130816, .i32⟩
  | 37 => ⟨S130816, .i1⟩
  | 38 => ⟨S_, .i32⟩
  | 39 => ⟨S_, .i1⟩
  | 40 => ⟨S130816, .i1⟩
  | 41 => ⟨S130816, .i1⟩
  | 42 => ⟨S130816, .i1⟩
  | 43 => ⟨S130816, .i32⟩
  | 44 => ⟨S130816, .i32⟩
  | 45 => ⟨S130816, .i32⟩
  | 46 => ⟨S_, .i32⟩
  | 47 => ⟨S130816, .i32⟩
  | 48 => ⟨S130816, .i1⟩
  | 49 => ⟨S_, .i32⟩
  | 50 => ⟨S130816, .i32⟩
  | 51 => ⟨S130816, .i32⟩
  | 52 => ⟨S130816, .i32⟩
  | 53 => ⟨S130816x1, .i32⟩
  | 54 => ⟨S130816x256, .f32⟩
  | 55 => ⟨S_, .i32⟩
  | 56 => ⟨S130816, .i32⟩
  | 57 => ⟨S130816, .i1⟩
  | 58 => ⟨S_, .i32⟩
  | 59 => ⟨S130816, .i32⟩
  | 60 => ⟨S130816, .i32⟩
  | 61 => ⟨S130816, .i32⟩
  | 62 => ⟨S130816x1, .i32⟩
  | 63 => ⟨S130816x256, .f32⟩
  | 64 => ⟨S130816x512, .f32⟩
  | 65 => ⟨S512x256, .f32⟩
  | 66 => ⟨S130816x256, .f32⟩
  | 67 => ⟨S1x256, .f32⟩
  | 68 => ⟨S130816x256, .f32⟩
  | 69 => ⟨S130816x256, .f32⟩
  | 70 => ⟨S_, .f32⟩
  | 71 => ⟨S130816x256, .f32⟩
  | 72 => ⟨S130816x256, .f32⟩
  | 73 => ⟨S256x2, .f32⟩
  | 74 => ⟨S130816x2, .f32⟩
  | 75 => ⟨S1x2, .f32⟩
  | 76 => ⟨S130816x2, .f32⟩
  | 77 => ⟨S130816x2, .f32⟩
  | 78 => ⟨S_, .f32⟩
  | 79 => ⟨S130816, .f32⟩
  | 80 => ⟨S_, .f32⟩
  | 81 => ⟨S130816, .f32⟩
  | 82 => ⟨S130816, .f32⟩
  | 83 => ⟨S130816x1, .f32⟩
  | 84 => ⟨S130816x2, .f32⟩
  | 85 => ⟨S130816x2, .f32⟩
  | 86 => ⟨S130816x2, .f32⟩
  | 87 => ⟨S_, .f32⟩
  | 88 => ⟨S130816, .f32⟩
  | 89 => ⟨S130816x1, .f32⟩
  | 90 => ⟨S130816x2, .f32⟩
  | 91 => ⟨S130816x2, .f32⟩
  | 92 => ⟨S1x131072, .f32⟩
  | 93 => ⟨S131072x256, .f32⟩
  | 94 => ⟨S1x256, .f32⟩
  | 95 => ⟨S1x256, .f32⟩
  | 96 => ⟨S1x256, .f32⟩
  | 97 => ⟨S_, .f32⟩
  | 98 => ⟨S1x256, .f32⟩
  | 99 => ⟨S1x256, .f32⟩
  | 100 => ⟨S256x1, .f32⟩
  | 101 => ⟨S1x1, .f32⟩
  | 102 => ⟨S1x1, .f32⟩
  | 103 => ⟨S1x1, .f32⟩
  | 104 => ⟨S130816x1, .f32⟩
  | 105 => ⟨S130816x3, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_cst : Ref sig .tc := ⟨.hbm, 65, rfl⟩
abbrev main_call1_v5 : Ref sig .tc := ⟨.hbm, 66, rfl⟩
abbrev main_v37 : Ref sig .tc := ⟨.hbm, 67, rfl⟩
abbrev main_cst_4 : Ref sig .tc := ⟨.hbm, 68, rfl⟩
abbrev main_v38 : Ref sig .tc := ⟨.hbm, 69, rfl⟩
abbrev main_v39 : Ref sig .tc := ⟨.hbm, 70, rfl⟩
abbrev main_call2_v0 : Ref sig .tc := ⟨.hbm, 71, rfl⟩
abbrev main_call2_v1 : Ref sig .tc := ⟨.hbm, 72, rfl⟩
abbrev main_call2_call0_c : Ref sig .tc := ⟨.hbm, 73, rfl⟩
abbrev main_call2_call0_v0 : Ref sig .tc := ⟨.hbm, 74, rfl⟩
abbrev main_v40 : Ref sig .tc := ⟨.hbm, 75, rfl⟩
abbrev main_c : Ref sig .tc := ⟨.hbm, 76, rfl⟩
abbrev main_v41 : Ref sig .tc := ⟨.hbm, 77, rfl⟩
abbrev main_c_5 : Ref sig .tc := ⟨.hbm, 78, rfl⟩
abbrev main_call3_v0 : Ref sig .tc := ⟨.hbm, 79, rfl⟩
abbrev main_call3_v1 : Ref sig .tc := ⟨.hbm, 80, rfl⟩
abbrev main_v42 : Ref sig .tc := ⟨.hbm, 81, rfl⟩
abbrev main_c_6 : Ref sig .tc := ⟨.hbm, 82, rfl⟩
abbrev main_v43 : Ref sig .tc := ⟨.hbm, 83, rfl⟩
abbrev main_v44 : Ref sig .tc := ⟨.hbm, 84, rfl⟩
abbrev main_c_7 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_8 : Ref sig .tc := ⟨.hbm, 90, rfl⟩
abbrev main_v49 : Ref sig .tc := ⟨.hbm, 91, rfl⟩
abbrev main_v50 : Ref sig .tc := ⟨.hbm, 92, rfl⟩
abbrev main_call4_call0_c : Ref sig .tc := ⟨.hbm, 93, rfl⟩
abbrev main_call4_call0_v0 : Ref sig .tc := ⟨.hbm, 94, rfl⟩
abbrev main_v51 : Ref sig .tc := ⟨.hbm, 95, rfl⟩
abbrev main_c_9 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_v6 : Ref sig .tc := ⟨.hbm, 103, rfl⟩
abbrev main_call5_v7 : Ref sig .tc := ⟨.hbm, 104, rfl⟩
abbrev main_call5_c : Ref sig .tc := ⟨.hbm, 105, rfl⟩
abbrev main_call5_v8 : Ref sig .tc := ⟨.hbm, 106, rfl⟩
abbrev main_call5_v9 : Ref sig .tc := ⟨.hbm, 107, rfl⟩
abbrev main_call5_v10 : Ref sig .tc := ⟨.hbm, 108, rfl⟩
abbrev main_call5_c_0 : Ref sig .tc := ⟨.hbm, 109, rfl⟩
abbrev main_call5_v11 : Ref sig .tc := ⟨.hbm, 110, rfl⟩
abbrev main_call5_v12 : Ref sig .tc := ⟨.hbm, 111, rfl⟩
abbrev main_v52 : Ref sig .tc := ⟨.hbm, 112, rfl⟩
abbrev main_c_10 : Ref sig .tc := ⟨.hbm, 113, rfl⟩
abbrev main_call6_v0 : Ref sig .tc := ⟨.hbm, 114, rfl⟩
abbrev main_call6_c : Ref sig .tc := ⟨.hbm, 115, rfl⟩
abbrev main_call6_v1 : Ref sig .tc := ⟨.hbm, 116, rfl⟩
abbrev main_call6_c_0 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_call6_c_1 : Ref sig .tc := ⟨.hbm, 121, rfl⟩
abbrev main_call6_v5 : Ref sig .tc := ⟨.hbm, 122, rfl⟩
abbrev main_call6_v6 : Ref sig .tc := ⟨.hbm, 123, rfl⟩
abbrev main_call6_c_2 : Ref sig .tc := ⟨.hbm, 124, rfl⟩
abbrev main_call6_v7 : Ref sig .tc := ⟨.hbm, 125, rfl⟩
abbrev main_call6_v8 : Ref sig .tc := ⟨.hbm, 126, rfl⟩
abbrev main_call6_c_3 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_v12 : Ref sig .tc := ⟨.hbm, 131, rfl⟩
abbrev main_call6_v13 : Ref sig .tc := ⟨.hbm, 132, rfl⟩
abbrev main_call6_v14 : Ref sig .tc := ⟨.hbm, 133, rfl⟩
abbrev main_v53 : Ref sig .tc := ⟨.hbm, 134, rfl⟩
abbrev main_c_11 : Ref sig .tc := ⟨.hbm, 135, rfl⟩
abbrev main_call7_v0 : Ref sig .tc := ⟨.hbm, 136, rfl⟩
abbrev main_call7_v1 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_call7_v5 : Ref sig .tc := ⟨.hbm, 141, rfl⟩
abbrev main_call7_v6 : Ref sig .tc := ⟨.hbm, 142, rfl⟩
abbrev main_call7_v7 : Ref sig .tc := ⟨.hbm, 143, rfl⟩
abbrev main_call7_c : Ref sig .tc := ⟨.hbm, 144, rfl⟩
abbrev main_call7_v8 : Ref sig .tc := ⟨.hbm, 145, rfl⟩
abbrev main_call7_v9 : Ref sig .tc := ⟨.hbm, 146, rfl⟩
abbrev main_call7_v10 : Ref sig .tc := ⟨.hbm, 147, rfl⟩
abbrev main_call7_c_0 : Ref sig .tc := ⟨.hbm, 148, rfl⟩
abbrev main_call7_v11 : Ref sig .tc := ⟨.hbm, 149, rfl⟩
abbrev main_call7_v12 : Ref sig .tc := ⟨.hbm, 150, rfl⟩
abbrev main_v54 : Ref sig .tc := ⟨.hbm, 151, rfl⟩
abbrev main_c_12 : Ref sig .tc := ⟨.hbm, 152, rfl⟩
abbrev main_call8_v0 : Ref sig .tc := ⟨.hbm, 153, rfl⟩
abbrev main_call8_c : Ref sig .tc := ⟨.hbm, 154, rfl⟩
abbrev main_call8_v1 : Ref sig .tc := ⟨.hbm, 155, rfl⟩
abbrev main_call8_c_0 : Ref sig .tc := ⟨.hbm, 156, rfl⟩
abbrev main_call8_v2 : Ref sig .tc := ⟨.hbm, 157, rfl⟩
abbrev main_call8_v3 : Ref sig .tc := ⟨.hbm, 158, rfl⟩
abbrev main_call8_v4 : Ref sig .tc := ⟨.hbm, 159, rfl⟩
abbrev main_call8_c_1 : Ref sig .tc := ⟨.hbm, 160, rfl⟩
abbrev main_call8_v5 : Ref sig .tc := ⟨.hbm, 161, rfl⟩
abbrev main_call8_v6 : Ref sig .tc := ⟨.hbm, 162, rfl⟩
abbrev main_call8_c_2 : Ref sig .tc := ⟨.hbm, 163, rfl⟩
abbrev main_call8_v7 : Ref sig .tc := ⟨.hbm, 164, rfl⟩
abbrev main_call8_v8 : Ref sig .tc := ⟨.hbm, 165, rfl⟩
abbrev main_call8_c_3 : Ref sig .tc := ⟨.hbm, 166, rfl⟩
abbrev main_call8_v9 : Ref sig .tc := ⟨.hbm, 167, rfl⟩
abbrev main_call8_v10 : Ref sig .tc := ⟨.hbm, 168, rfl⟩
abbrev main_call8_v11 : Ref sig .tc := ⟨.hbm, 169, rfl⟩
abbrev main_call8_v12 : Ref sig .tc := ⟨.hbm, 170, rfl⟩
abbrev main_call8_v13 : Ref sig .tc := ⟨.hbm, 171, rfl⟩
abbrev main_call8_v14 : Ref sig .tc := ⟨.hbm, 172, rfl⟩
abbrev main_v55 : Ref sig .tc := ⟨.hbm, 173, rfl⟩
abbrev main_c_13 : Ref sig .tc := ⟨.hbm, 174, rfl⟩
abbrev main_v56 : Ref sig .tc := ⟨.hbm, 175, rfl⟩
abbrev main_v57 : Ref sig .tc := ⟨.hbm, 176, rfl⟩
abbrev main_c_14 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_c_15 : Ref sig .tc := ⟨.hbm, 183, rfl⟩
abbrev main_v63 : Ref sig .tc := ⟨.hbm, 184, rfl⟩
abbrev main_v64 : Ref sig .tc := ⟨.hbm, 185, rfl⟩
abbrev main_c_16 : Ref sig .tc := ⟨.hbm, 186, rfl⟩
abbrev main_v65 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_v71 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_call9_cst : Ref sig .tc := ⟨.hbm, 198, rfl⟩
abbrev main_call9_v0 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_cst_17 : Ref sig .tc := ⟨.hbm, 206, rfl⟩
abbrev main_v82 : Ref sig .tc := ⟨.hbm, 207, rfl⟩
abbrev main_cst_18 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_v88 : Ref sig .tc := ⟨.hbm, 214, rfl⟩
abbrev main_cst_19 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_v93 : Ref sig .tc := ⟨.hbm, 220, rfl⟩
abbrev main_v94 : Ref sig .tc := ⟨.hbm, 221, rfl⟩
abbrev main_v95 : Ref sig .tc := ⟨.hbm, 222, rfl⟩
abbrev main_v96 : Ref sig .tc := ⟨.hbm, 223, rfl⟩
abbrev main_v97 : Ref sig .tc := ⟨.hbm, 224, rfl⟩
abbrev main_call10_cst : Ref sig .tc := ⟨.hbm, 225, rfl⟩
abbrev main_call10_v0 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_v104 : Ref sig .tc := ⟨.hbm, 233, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  transposes_S768x256_S256x768_1_0 : S768x256.Transposes [1, 0] S256x768
  bcast_S768_S1x768_1 : S768.BroadcastsInDim S1x768 (![1] : Fin 1 → Fin S1x768.rank)
  bcast_S1x768_S512x768_0_1 : S1x768.BroadcastsInDim S512x768 (![0, 1] : Fin 2 → Fin S512x768.rank)
  slices_S512x768_S512x256_0_0 : S512x768.Slices ![0, 0] S512x256
  slices_S512x768_S512x256_0_256 : S512x768.Slices ![0, 256] S512x256
  slices_S512x768_S512x256_0_512 : S512x768.Slices ![0, 512] S512x256
  transposes_S512x256_S256x512_1_0 : S512x256.Transposes [1, 0] S256x512
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S256x256_S256x256_1_0 : S256x256.Transposes [1, 0] S256x256
  shapeCasts_S512x512_S262144 : S512x512.ShapeCasts S262144
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  bcast_S_S130816 : S_.BroadcastsInDim S130816 (![] : Fin 0 → Fin S130816.rank)
  bcast_S_S262144 : S_.BroadcastsInDim S262144 (![] : Fin 0 → Fin S262144.rank)
  bcast_S262144_S262144x1_0 : S262144.BroadcastsInDim S262144x1 (![0] : Fin 1 → Fin S262144x1.rank)
  reduceWindows_S130816_S130816_w130816s1p130815_0 : S130816.ReduceWindows (![130816] : Fin 1 → Nat) ![1] ![130815] ![0] S130816
  bcast_S130816_S130816x1_0 : S130816.BroadcastsInDim S130816x1 (![0] : Fin 1 → Fin S130816x1.rank)
  concatenates_S130816x256_S130816x256_S130816x512_d1 : Shape.Concatenates [S130816x256, S130816x256] S130816x512 1
  transposes_S256x512_S512x256_1_0 : S256x512.Transposes [1, 0] S512x256
  bcast_S1x256_S130816x256_0_1 : S1x256.BroadcastsInDim S130816x256 (![0, 1] : Fin 2 → Fin S130816x256.rank)
  bcast_S_S130816x256 : S_.BroadcastsInDim S130816x256 (![] : Fin 0 → Fin S130816x256.rank)
  transposes_S2x256_S256x2_1_0 : S2x256.Transposes [1, 0] S256x2
  bcast_S2_S1x2_1 : S2.BroadcastsInDim S1x2 (![1] : Fin 1 → Fin S1x2.rank)
  bcast_S1x2_S130816x2_0_1 : S1x2.BroadcastsInDim S130816x2 (![0, 1] : Fin 2 → Fin S130816x2.rank)
  reducesTo_S130816x2_S130816_d1 : S130816x2.ReducesTo [1] S130816
  bcast_S130816x1_S130816x2_0_1 : S130816x1.BroadcastsInDim S130816x2 (![0, 1] : Fin 2 → Fin S130816x2.rank)
  shapeCasts_S512x256_S1x131072 : S512x256.ShapeCasts S1x131072
  transposes_S256x131072_S131072x256_1_0 : S256x131072.Transposes [1, 0] S131072x256
  bcast_S_S1x256 : S_.BroadcastsInDim S1x256 (![] : Fin 0 → Fin S1x256.rank)
  transposes_S1x256_S256x1_1_0 : S1x256.Transposes [1, 0] S256x1
  bcast_S1_S1x1_1 : S1.BroadcastsInDim S1x1 (![1] : Fin 1 → Fin S1x1.rank)
  bcast_S1x1_S130816x1_0_1 : S1x1.BroadcastsInDim S130816x1 (![0, 1] : Fin 2 → Fin S130816x1.rank)
  concatenates_S130816x2_S130816x1_S130816x3_d1 : Shape.Concatenates [S130816x2, S130816x1] S130816x3 1
  dot_S512x128_S128x256_S512x256_1_0_0_1_n_n_wf : DotDims.WF S512x128 S128x256 S512x256 [1] [0] [0] [1] [] []
  dot_S512x256_S256x768_S512x768_1_0_0_1_n_n_wf : DotDims.WF S512x256 S256x768 S512x768 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  scatter_S130816_S262144x1_S262144_n_0_0_1_wf : ScatterDims.WF S130816 S262144x1 S262144 [] [0] [0] 1
  gather_S512x256_S130816x1_S130816x256_1_0_n_n_0_1_1256_wf : GatherDims.WF S512x256 S130816x1 S130816x256 [1] [0] [] [0] [] 1 ![1, 256]
  dot_S130816x512_S512x256_S130816x256_1_0_0_1_n_n_wf : DotDims.WF S130816x512 S512x256 S130816x256 [1] [0] [0] [1] [] []
  dot_S130816x256_S256x2_S130816x2_1_0_0_1_n_n_wf : DotDims.WF S130816x256 S256x2 S130816x2 [1] [0] [0] [1] [] []
  dot_S1x131072_S131072x256_S1x256_1_0_0_1_n_n_wf : DotDims.WF S1x131072 S131072x256 S1x256 [1] [0] [0] [1] [] []
  dot_S1x256_S256x1_S1x1_1_0_0_1_n_n_wf : DotDims.WF S1x256 S256x1 S1x1 [1] [0] [0] [1] [] []

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def scatter_S130816_S262144x1_S262144_n_0_0_1 : ScatterDims S130816 S262144x1 S262144 where
  updateWindowDims := []
  insertedWindowDims := [0]
  scatterDimsToOperandDims := [0]
  indexVectorDim := 1
  wf := scatter_S130816_S262144x1_S262144_n_0_0_1_wf
def gather_S512x256_S130816x1_S130816x256_1_0_n_n_0_1_1256 : GatherDims S512x256 S130816x1 S130816x256 where
  offsetDims := [1]
  collapsedSliceDims := [0]
  operandBatchingDims := []
  startIndicesBatchingDims := []
  startIndexMap := [0]
  indexVectorDim := 1
  sliceSizes := ![1, 256]
  wf := gather_S512x256_S130816x1_S130816x256_1_0_n_n_0_1_1256_wf
def dot_S130816x512_S512x256_S130816x256_1_0_0_1_n_n : DotDims S130816x512 S512x256 S130816x256 where
  lhsContracting := [1]
  rhsContracting := [0]
  lhsNonContracting := [0]
  rhsNonContracting := [1]
  lhsBatch := []
  rhsBatch := []
  wf := dot_S130816x512_S512x256_S130816x256_1_0_0_1_n_n_wf
def dot_S130816x256_S256x2_S130816x2_1_0_0_1_n_n : DotDims S130816x256 S256x2 S130816x2 where
  lhsContracting := [1]
  rhsContracting := [0]
  lhsNonContracting := [0]
  rhsNonContracting := [1]
  lhsBatch := []
  rhsBatch := []
  wf := dot_S130816x256_S256x2_S130816x2_1_0_0_1_n_n_wf
def dot_S1x131072_S131072x256_S1x256_1_0_0_1_n_n : DotDims S1x131072 S131072x256 S1x256 where
  lhsContracting := [1]
  rhsContracting := [0]
  lhsNonContracting := [0]
  rhsNonContracting := [1]
  lhsBatch := []
  rhsBatch := []
  wf := dot_S1x131072_S131072x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.K.Region0Body.lean ====
import proofs.«110368_j31911607009638_1_alg».proof.Proof.Gen.Kernel.Launch
import proofs.«110368_j31911607009638_1_alg».proof.Proof.Gen.Kernel.Skeleton
import proofs.«110368_j31911607009638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the embedding, the single-head attention and the two edge projections, one grid point

The kernel reads eight whole arrays (the observations, the three weight matrices with their biases as rows, the
edge weights) and writes three whole arrays: the embedding, and the two halves of the edge layer's pre-activation.
Everything below is stated at a parameter `V`, the buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, for any proof data whose array is `V`'s and whose body
    leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, for any proof data whose array is `V`'s and whose body
    leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S512x128 := Rect.unit (s := S512x128) ![0, 0] S512x128.size inb_S512x128_S512x128_0_0
abbrev rX1 : Rect S256x128 := Rect.unit (s := S256x128) ![0, 0] S256x128.size inb_S256x128_S256x128_0_0
abbrev rB : Rect S1x256 := Rect.unit (s := S1x256) ![0, 0] S1x256.size inb_S1x256_S1x256_0_0
abbrev rX3 : Rect S768x256 := Rect.unit (s := S768x256) ![0, 0] S768x256.size inb_S768x256_S768x256_0_0
abbrev rX4 : Rect S1x768 := Rect.unit (s := S1x768) ![0, 0] S1x768.size inb_S1x768_S1x768_0_0
abbrev rX5 : Rect S256x256 := Rect.unit (s := S256x256) ![0, 0] S256x256.size inb_S256x256_S256x256_0_0
abbrev rX7 : Rect S256x512 := Rect.unit (s := S256x512) ![0, 0] S256x512.size inb_S256x512_S256x512_0_0
abbrev rO : Rect S512x256 := Rect.unit (s := S512x256) ![0, 0] S512x256.size inb_S512x256_S512x256_0_0

/-! ## What the body leaves in each output buffer -/

/-- The embedding's buffer after the body: one store of the whole buffer. -/
def out0_8 (x0 : Vec F S512x128 .f32) (x1 : Vec F S256x128 .f32) (x2 : Vec F S1x256 .f32) : Vec F S512x256 .f32 :=
  View.canon [⟨rO, k0_pay4 (View.ld x0 rX0) (View.ld x1 rX1) (View.ld x2 rB)⟩]

/-- The first edge projection's buffer after the body. -/
def out0_9 (x0 : Vec F S512x128 .f32) (x1 : Vec F S256x128 .f32) (x2 : Vec F S1x256 .f32) (x3 : Vec F S768x256 .f32) (x4 : Vec F S1x768 .f32) (x5 : Vec F S256x256 .f32) (x6 : Vec F S1x256 .f32) (x7 : Vec F S256x512 .f32) : Vec F S512x256 .f32 :=
  View.canon [⟨rO, k0_pay2 (k0_pay6 (View.ld x0 rX0) (View.ld x1 rX1) (View.ld x2 rB) (View.ld x3 rX3) (View.ld x4 rX4)) (k0_pay7 (View.ld x0 rX0) (View.ld x1 rX1) (View.ld x2 rB) (View.ld x3 rX3) (View.ld x4 rX4)) (View.ld x5 rX5) (View.ld x6 rB) (View.ld x7 rX7)⟩]

/-- The second edge projection's buffer after the body. -/
def out0_10 (x0 : Vec F S512x128 .f32) (x1 : Vec F S256x128 .f32) (x2 : Vec F S1x256 .f32) (x3 : Vec F S768x256 .f32) (x4 : Vec F S1x768 .f32) (x5 : Vec F S256x256 .f32) (x6 : Vec F S1x256 .f32) (x7 : Vec F S256x512 .f32) : Vec F S512x256 .f32 :=
  View.canon [⟨rO, k0_pay3 (k0_pay6 (View.ld x0 rX0) (View.ld x1 rX1) (View.ld x2 rB) (View.ld x3 rX3) (View.ld x4 rX4)) (k0_pay7 (View.ld x0 rX0) (View.ld x1 rX1) (View.ld x2 rB) (View.ld x3 rX3) (View.ld x4 rX4)) (View.ld x5 rX5) (View.ld x6 rB) (View.ld x7 rX7)⟩]

/-- One store of the whole buffer covers it. -/
theorem cover0_O (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 4000000 in
/-- The kernel body on whole staging memrefs, the inputs' at read contents and the outputs' at anything, runs to the
    continuation holding the inputs' as they were and each output's at its `out0_W` of the inputs'. -/
theorem sound_kernel0 (c : Dev nD) (E : Set ℕ) (i : grid0.Coords) (arg1 : Memref sig .tc .vmem S512x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S768x256 .f32) (harg4 : arg4.IsWhole) (arg5 : Memref sig .tc .vmem S1x768 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole)
    (x0 : Vec F S512x128 .f32) (x1 : Vec F S256x128 .f32) (x2 : Vec F S1x256 .f32) (x3 : Vec F S768x256 .f32) (x4 : Vec F S1x768 .f32) (x5 : Vec F S256x256 .f32) (x6 : Vec F S1x256 .f32) (x7 : Vec F S256x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2)
            ∗ owns (c : Thread nD τ) arg10 fullShare (out0_9 x0 x1 x2 x3 x4 x5 x6 x7)
            ∗ owns (c : Thread nD τ) arg11 fullShare (out0_10 x0 x1 x2 x3 x4 x5 x6 x7)) -∗ K ⟨⟩))
      ⊢ wp frame (wpE (defs₀ (F := F)) Variants.none c none) E (cc0__trunk_kernel i arg1 harg1 arg2 harg2 arg3 harg3 arg4 harg4 arg5 harg5 arg6 harg6 arg7 harg7 arg8 harg8 arg9 harg9 arg10 harg10 arg11 harg11) K := by
  simp only [cc0__trunk_kernel_eq_skeleton]; unfold cc0__trunk_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_O _)
  isplitl [H9]
  · iexists _; isplitr
    swap; · iexact H9
    ipureintro
    exact View.read_writes_eq_canon _ _ _ (cover0_O _)
  iexists _; isplitr
  swap; · iexact H10
  ipureintro
  exact View.read_writes_eq_canon _ _ _ (cover0_O _)

end Cert.Kernel.Hand

end
-- ==== Proof.K.Region0.lean ====
import proofs.«110368_j31911607009638_1_alg».proof.Proof.K.Region0Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, continued: the proof data and the body obligation -/

variable (V : (c : Dev nD) → (b : Ref sig .tc) → Buf (Elt F) ((c : Thread nD τ).loc b))

/-- The proof data of this pipeline on core `c`: the arrays as the region finds them; after the body at point `t`
    each input's buffer at its block and each output's at what the body's store leaves, a function of the input
    blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

/-! Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 2000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Base.lean ====
import proofs.«110368_j31911607009638_1_alg».proof.Proof.Gen.Kernel.Launch
import proofs.«110368_j31911607009638_1_alg».proof.Proof.Gen.Kernel.Skeleton
import proofs.«110368_j31911607009638_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main (the value head), at the entry contents `V`: what the three cases of its body share -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: an unfetched point has the block index
    of the point before, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: an unfetched point has the block index
    of the point before, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: an unfetched point has the block index
    of the point before, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: an unfetched point has the block index
    of the point before, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: an unfetched point has the block index
    of the point before, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The first `scf.if` (the reset of the accumulator): the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second `scf.if` (the output store): the grid coordinate is 15. -/
abbrev cond1_1 (i : grid1.Coords) : Prop := k1_cond2 i = 1#1
/-- It holds at the last point only. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point the output window 5 is idle: the body stores nothing into it, -/
theorem idleAt1_5 : ∀ t : Fin cfg1.N, ¬cond1_1 (grid1.coords t) → cfg1.idle 5 (grid1.coords t) = true := by decide +kernel
/-- and the pipeline does not write its block back. -/
theorem noFlush1_5 : ∀ t : Fin cfg1.N, ¬cond1_1 (grid1.coords t) → (cfg1.win 5).flush t = false := by decide +kernel
/-- At the last point it is live: the body stores into it. -/
theorem liveAt1_5 : ∀ t : Fin cfg1.N, cond1_1 (grid1.coords t) → cfg1.idle 5 (grid1.coords t) = false := by decide +kernel

/-! ## The staging memrefs and the scratch -/

/-- Each window's current staging memref at point `t`, spelled as the pipeline passes it, and its wholeness. -/
abbrev ms1_0 (t : Fin cfg1.N) : Memref sig .tc .vmem S256x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
/-- The scratch operand: the 1x256 accumulator, a whole scoped buffer of the kernel's own, carried between points. -/
abbrev scM1 : Memref sig .tc .vmem S1x256 .f32 := Memref.whole cc1_scratch0

/-- The scratch is scoped and no staging buffer of the region's windows. -/
theorem scratch1_mem : ([cc1_scratch0] : List (Ref sig .tc)).Forall fun b =>
    b.isScoped = true ∧ ∀ (w : Fin 6) (s : Fin (spec1 w).nbuf), ((spec1 w).stage s).view.ref ≠ b := by decide

/-- The class's invariant with the accumulator split off as a memref owned at some contents; the other scoped
    buffers that are no staging buffer of this region stay unopened. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA
  rw [Pipeline.scopedRest_split_of_list spec1 c [cc1_scratch0] scratch1_mem (by decide)]
  simp only [scM1, owns_whole, bigSepL_singleton]; try rfl

/-! ## Loads and stores through a buffer's whole rectangle -/

/-- Two zero offsets, however spelt. -/
theorem zeros2 : (![0, 0] : Fin 2 → ℕ) = fun _ => 0 := by funext a; fin_cases a <;> rfl

/-- A load through the whole-shape rectangle at zero offsets reads what the view reads. -/
theorem readAt_whole {κ : Kind} {sp : Space} {S : Shape} {e : EltTy} (v : View sig κ sp S e) (f : v.ty.Contents (Elt F))
    {X : S.Idx → Elt F e} (hf : v.read (Elt F) f = X) {off : Fin S.rank → ℕ} (hz : off = fun _ => 0)
    (inb : ∀ a, off a + S.size a ≤ S.size a) :
    v.readAt (Elt F) (Rect.unit off S.size inb).toLoadRect f = X := by
  rw [← hf]; exact (View.readAt_eq_ld v f (Rect.unit off S.size inb)).trans (View.ld_unit_zero hz inb _)

/-- What a store through the whole-shape rectangle, made last, leaves in a buffer reads as its payload, whatever the
    buffer held and whatever was stored before. -/
theorem read_writes_whole {κ : Kind} {sp : Space} {S : Shape} {e : EltTy} (v : View sig κ sp S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero hz inb y⟩),
    View.canon_cons_unit_zero hz inb]

/-- A load through the whole-shape rectangle after a store through it reads the store's payload. -/
theorem readCov_whole {κ : Kind} {sp : Space} {S : Shape} {e : EltTy} (v : View sig κ sp S e)
    {off : Fin S.rank → ℕ} (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

end Cert.Kernel.Hand

end
-- ==== Proof.K.Region1Dat.lean ====
import proofs.«110368_j31911607009638_1_alg».proof.Proof.K.Region1Base

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main at the entry contents `V`: the accumulator point by point, the invariant, the proof data -/

variable (V : (c : Dev nD) → (b : Ref sig .tc) → Buf (Elt F) ((c : Thread nD τ).loc b))

/-! ## The accumulator after each point -/

/-- What the scratch accumulator holds after the body at point `n`: at the first point the weight block applied to the
    activations block and added to the zero fill; at each later point, added to what the point before left. -/
def acc1 (c : Dev nD) : (n : ℕ) → n < cfg1.N → Vec F S1x256 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) k1_pay1 := rfl

theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- At the first point. -/
theorem acc1_first (c : Dev nD) (t : Fin cfg1.N) (h : t.val = 0) :
    acc1 V c t.val t.isLt = k1_pay2 (iblk1 V c 0 t) (iblk1 V c 1 t) k1_pay1 := by
  obtain ⟨n, hn⟩ := t
  cases n with
  | zero => rfl
  | succ n => exact absurd h (Nat.succ_ne_zero n)

/-- At a later point: over what the point before left. -/
theorem acc1_pos (c : Dev nD) (t : Fin cfg1.N) (h : t.val ≠ 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd rfl h
  | succ n => rfl

/-- What the last point stores into the output window's buffer: the output payload of the finished accumulator and the
    three small operands. -/
def out1_5 (c : Dev nD) : Vec F S1x1 .f32 :=
  k1_pay3 (acc1 V c t1_15.val t1_15.isLt) (iblk1 V c 2 t1_15) (iblk1 V c 3 t1_15) (iblk1 V c 4 t1_15)

theorem out1_5_eq (c : Dev nD) :
    out1_5 V c = k1_pay3 (acc1 V c t1_15.val t1_15.isLt) (iblk1 V c 2 t1_15) (iblk1 V c 3 t1_15) (iblk1 V c 4 t1_15) := rfl

/-! ## The region invariant -/

/-- The invariant before position `n`: before the first point the class's (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
          ∗ Pipeline.scopedRestBut (Ix := Unit) (Name := ℕ) (U := UR sig nD τ) (Lvl := ℕ) (Val := Elt F) spec1 c [cc1_scratch0])
        ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
          ∗ Pipeline.scopedRestBut (Ix := Unit) (Name := ℕ) (U := UR sig nD τ) (Lvl := ℕ) (Val := Elt F) spec1 c [cc1_scratch0])
        ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
          ∗ Pipeline.scopedRestBut (Ix := Unit) (Name := ℕ) (U := UR sig nD τ) (Lvl := ℕ) (Val := Elt F) spec1 c [cc1_scratch0])
        ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the output's at the output payload of the accumulator there (consulted at the
    last point only: elsewhere the window is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (iblk1 V c 2 t) (iblk1 V c 3 t) (iblk1 V c 4 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- Full shares, nothing owed. -/
theorem q_eq1 (c : Dev nD) : (dat1 V c).q = fun _ => fullShare := rfl
theorem owed_eq1 (c : Dev nD) : (dat1 V c).owed = fun _ => 0 := rfl
theorem share_full1 (c : Dev nD) (w : Fin cfg1.W) : (dat1 V c).share w = fullShare := (dat1 V c).share_full (fun _ => rfl) w

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay3 (acc1 V c t.val t.isLt) (iblk1 V c 2 t) (iblk1 V c 3 t) (iblk1 V c 4 t) := by dsimp only [dat1]
/-- What window 5's buffer holds when it is written back, at the last point. -/
theorem after1_5_last (c : Dev nD) : (dat1 V c).after 5 t1_15 = out1_5 V c := by dsimp only [dat1, out1_5]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation's two sides, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Cert.Kernel.Hand

end
-- ==== Proof.K.Region1RunA.lean ====
import proofs.«110368_j31911607009638_1_alg».proof.Proof.K.Region1Base

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body, at the first point (the accumulator reset, then added to) -/

set_option maxHeartbeats 1000000 in
/-- At the first point (the accumulator reset, then added to): on whole staging memrefs, the inputs' at their contents, the body runs to the continuation holding the
    inputs' as they were and what its stores left, each store's value a payload of the loaded contents: each
    conditional is decided by the case's hypotheses, a load through a buffer's whole rectangle reads the buffer's
    contents, and a store through it leaves its payload. -/
theorem run1_A (c : Dev nD) (i : grid1.Coords)
    (arg1 : Memref sig .tc .vmem S256x8192 .f32) (harg1 : arg1.IsWhole) (arg2 : Memref sig .tc .vmem S1x8192 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x256 .f32) (harg7 : arg7.IsWhole) (hc0 : cond1_0 i) (hc1 : ¬cond1_1 i)
    (x0 : Vec F S256x8192 .f32) (x1 : Vec F S1x8192 .f32) (x2 : Vec F S1x256 .f32) (x3 : Vec F S1x256 .f32) (x4 : Vec F S1x1 .f32)
    (xi5 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 k1_pay1)) -∗ K ⟨⟩))
      ⊢ wp frame (wpE (defs₀ (F := F)) Variants.none c none) E (cc1__value_kernel i arg1 harg1 arg2 harg2 arg3 harg3 arg4 harg4 arg5 harg5 arg6 harg6 arg7 harg7) K := by
  rw [cc1__value_kernel_eq_skeleton]; unfold cc1__value_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS0
  ipureintro
  rw [read_writes_whole arg7.view fs0 zeros2 inb_S1x256_S1x256_0_0]
  rw [readAt_whole arg1.view _ (harg1.read_unread x0) zeros2, readAt_whole arg2.view _ (harg2.read_unread x1) zeros2]
  unfold run1_A.sl.v8 run1_A.sl.HS0_1
  rw [readCov_whole arg7.view inb_S1x256_S1x256_0_0]

end Cert.Kernel.Hand

end
-- ==== Proof.K.Region1RunB.lean ====
import proofs.«110368_j31911607009638_1_alg».proof.Proof.K.Region1Base

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body, at a middle point (the accumulator added to) -/

set_option maxHeartbeats 1000000 in
/-- At a middle point (the accumulator added to): on whole staging memrefs, the inputs' at their contents, the body runs to the continuation holding the
    inputs' as they were and what its stores left, each store's value a payload of the loaded contents: each
    conditional is decided by the case's hypotheses, a load through a buffer's whole rectangle reads the buffer's
    contents, and a store through it leaves its payload. -/
theorem run1_B (c : Dev nD) (i : grid1.Coords)
    (arg1 : Memref sig .tc .vmem S256x8192 .f32) (harg1 : arg1.IsWhole) (arg2 : Memref sig .tc .vmem S1x8192 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x256 .f32) (harg7 : arg7.IsWhole) (hc0 : ¬cond1_0 i) (hc1 : ¬cond1_1 i)
    (x0 : Vec F S256x8192 .f32) (x1 : Vec F S1x8192 .f32) (x2 : Vec F S1x256 .f32) (x3 : Vec F S1x256 .f32) (x4 : Vec F S1x1 .f32)
    (xi5 : Vec F S1x1 .f32) (xs : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 xs)) -∗ K ⟨⟩))
      ⊢ wp frame (wpE (defs₀ (F := F)) Variants.none c none) E (cc1__value_kernel i arg1 harg1 arg2 harg2 arg3 harg3 arg4 harg4 arg5 harg5 arg6 harg6 arg7 harg7) K := by
  rw [cc1__value_kernel_eq_skeleton]; unfold cc1__value_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS0
  ipureintro
  rw [read_writes_whole arg7.view _ zeros2 inb_S1x256_S1x256_0_0]
  rw [readAt_whole arg1.view _ (harg1.read_unread x0) zeros2, readAt_whole arg2.view _ (harg2.read_unread x1) zeros2,
    readAt_whole arg7.view _ (harg7.read_unread xs) zeros2]

end Cert.Kernel.Hand

end
-- ==== Proof.K.Region1RunC.lean ====
import proofs.«110368_j31911607009638_1_alg».proof.Proof.K.Region1Base

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body, at the last point (the accumulator added to, then the output stored) -/

set_option maxHeartbeats 1000000 in
/-- At the last point (the accumulator added to, then the output stored): on whole staging memrefs, the inputs' at their contents, the body runs to the continuation holding the
    inputs' as they were and what its stores left, each store's value a payload of the loaded contents: each
    conditional is decided by the case's hypotheses, a load through a buffer's whole rectangle reads the buffer's
    contents, and a store through it leaves its payload. -/
theorem run1_C (c : Dev nD) (i : grid1.Coords)
    (arg1 : Memref sig .tc .vmem S256x8192 .f32) (harg1 : arg1.IsWhole) (arg2 : Memref sig .tc .vmem S1x8192 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x256 .f32) (harg7 : arg7.IsWhole) (hc0 : ¬cond1_0 i) (hc1 : cond1_1 i)
    (x0 : Vec F S256x8192 .f32) (x1 : Vec F S1x8192 .f32) (x2 : Vec F S1x256 .f32) (x3 : Vec F S1x256 .f32) (x4 : Vec F S1x1 .f32)
    (xs : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k1_pay3 (k1_pay2 x0 x1 xs) x2 x3 x4)
            ∗ owns (c : Thread nD τ) arg7 fullShare (k1_pay2 x0 x1 xs)) -∗ K ⟨⟩))
      ⊢ wp frame (wpE (defs₀ (F := F)) Variants.none c none) E (cc1__value_kernel i arg1 harg1 arg2 harg2 arg3 harg3 arg4 harg4 arg5 harg5 arg6 harg6 arg7 harg7) K := by
  rw [cc1__value_kernel_eq_skeleton]; unfold cc1__value_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hacc : arg7.view.read (Elt F) (arg7.view.writes (Elt F) (harg7.unread xs) (run1_C.sl.HS0_1 c arg1 harg1 arg2 harg2 arg7 harg7 x0 x1 xs))
      = k1_pay2 x0 x1 xs := by
    unfold run1_C.sl.HS0_1
    rw [read_writes_whole arg7.view _ zeros2 inb_S1x256_S1x256_0_0]
    rw [readAt_whole arg1.view _ (harg1.read_unread x0) zeros2, readAt_whole arg2.view _ (harg2.read_unread x1) zeros2,
      readAt_whole arg7.view _ (harg7.read_unread xs) zeros2]
  have hv18 : run1_C.sl.v18 c arg1 harg1 arg2 harg2 arg7 harg7 x0 x1 xs = k1_pay2 x0 x1 xs := by
    unfold run1_C.sl.v18 run1_C.sl.HS0_1
    rw [readCov_whole arg7.view inb_S1x256_S1x256_0_0]
    rw [readAt_whole arg1.view _ (harg1.read_unread x0) zeros2, readAt_whole arg2.view _ (harg2.read_unread x1) zeros2,
      readAt_whole arg7.view _ (harg7.read_unread xs) zeros2]
  isplitl [H5]
  · iexists _; isplitr
    swap; · iexact H5
    ipureintro
    rw [read_writes_whole arg6.view f5 zeros2 inb_S1x1_S1x1_0_0, hv18]
    rw [readAt_whole arg3.view f2 hf2 zeros2, readAt_whole arg4.view f3 hf3 zeros2, readAt_whole arg5.view f4 hf4 zeros2]
  iexists _; isplitr
  swap; · iexact HS0
  ipureintro
  exact hacc

end Cert.Kernel.Hand

end
-- ==== Proof.K.Region1Body.lean ====
import proofs.«110368_j31911607009638_1_alg».proof.Proof.K.Region1Dat
import proofs.«110368_j31911607009638_1_alg».proof.Proof.K.Region1RunA
import proofs.«110368_j31911607009638_1_alg».proof.Proof.K.Region1RunB
import proofs.«110368_j31911607009638_1_alg».proof.Proof.K.Region1RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main at the entry contents `V`: the body at any point -/

variable (V : (c : Dev nD) → (b : Ref sig .tc) → Buf (Elt F) ((c : Thread nD τ).loc b))

set_option maxHeartbeats 4800000 in
/-- The body at any point. The inputs' buffers hold their blocks; the closed forms of the two conditions say which of the
    three cases the point is in; the invariant hands the body the accumulator — at anything at the first point, at what
    the point before left afterwards — and takes it back at this point's contents; off the last point the output
    window is idle and its buffer goes back as found, at the last point it holds the output payload; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · by_cases h1 : t.val % 16 = 15
    · exfalso; omega
    · have hz : t.val = 0 := by omega
      rw [Dat.leavesExact_idle (dat1 V c) 5 t (idleAt1_5 t (fun h => h1 ((hcond1_1 t).mp h))) (noFlush1_5 t (fun h => h1 ((hcond1_1 t).mp h)))]
      rw [acc1_first V c t hz]
      rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ ((hcond1_0 t).mpr h0) (fun h => h1 ((hcond1_1 t).mp h))
        (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [acc1_pos V c t hz]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ (fun h => h0 ((hcond1_0 t).mp h)) ((hcond1_1 t).mpr h1)
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      rw [acc1_pos V c t hz]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) ((dat1 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

end Cert.Kernel.Hand

end
-- ==== Proof.K.Region1.lean ====
import proofs.«110368_j31911607009638_1_alg».proof.Proof.K.Region1Body

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main at the entry contents `V`: the kernel half, assembled

The blocks `iblk1`, the accumulator `acc1` (`acc1_zero`, `acc1_succ`), the stored output `out1_5` (`out1_5_eq`,
`after1_5_last`), the proof data `dat1` (`A_eq1`, `q_eq1`, `owed_eq1`, `share_full1`) are upstream; here the body
obligation and the invariant's two ends. -/

variable (V : (c : Dev nD) → (b : Ref sig .tc) → Buf (Elt F) ((c : Thread nD τ).loc b))

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]; · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K.Region2Body.lean ====
import proofs.«110368_j31911607009638_1_alg».proof.Proof.Gen.Kernel.Launch
import proofs.«110368_j31911607009638_1_alg».proof.Proof.Gen.Kernel.Skeleton
import proofs.«110368_j31911607009638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the edge classifier over all ordered pairs of agents, an 8 by 8 grid of 64 by 64 tiles

At a grid point the kernel reads a block of 64 rows of each edge projection, the edge bias as a row, the two output
weight rows and the two output biases, and writes the 64 by 64 by 2 tile of class probabilities.
Everything below is stated at a parameter `V`, the buffer contents when the region is entered. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev qA : Rect S64x256 := Rect.unit (s := S64x256) ![0, 0] S64x256.size inb_S64x256_S64x256_0_0
abbrev qB : Rect S1x256 := Rect.unit (s := S1x256) ![0, 0] S1x256.size inb_S1x256_S1x256_0_0
abbrev qW : Rect S2x256 := Rect.unit (s := S2x256) ![0, 0] S2x256.size inb_S2x256_S2x256_0_0
abbrev qC : Rect S1x2 := Rect.unit (s := S1x2) ![0, 0] S1x2.size inb_S1x2_S1x2_0_0
abbrev qO : Rect S64x64x2 := Rect.unit (s := S64x64x2) ![0, 0, 0] S64x64x2.size inb_S64x64x2_S64x64x2_0_0_0

/-! ## What the body leaves in the output buffer -/

/-- The tile's buffer after the body: one store of the whole buffer, the two class probabilities stacked. -/
def out2_5 (x0 : Vec F S64x256 .f32) (x1 : Vec F S64x256 .f32) (x2 : Vec F S1x256 .f32) (x3 : Vec F S2x256 .f32) (x4 : Vec F S1x2 .f32) : Vec F S64x64x2 .f32 :=
  View.canon [⟨qO, k2_pay1 (k2_pay10 (View.ld x0 qA) (View.ld x1 qA) (View.ld x2 qB) (View.ld x3 qW) (View.ld x4 qC)) (k2_pay11 (View.ld x0 qA) (View.ld x1 qA) (View.ld x2 qB) (View.ld x3 qW) (View.ld x4 qC))⟩]

/-- One store of the whole buffer covers it. -/
theorem cover2_O (p0 : Vec F S64x64x2 .f32) (y : S64x64x2.Idx) :
    ∃ pc ∈ ([⟨qO, p0⟩] : List (View.Piece (Elt F) S64x64x2 .f32)), y ∈ pc.1.set :=
  View.cover_of_tiled [⟨qO, p0⟩] S64x64x2.size (by rfl) y

/-! ## The body's triple -/

set_option maxHeartbeats 4000000 in
/-- The kernel body on whole staging memrefs, the inputs' at read contents and the output's at anything, runs to the
    continuation holding the inputs' as they were and the output's at `out2_5` of the inputs'. -/
theorem sound_kernel2 (c : Dev nD) (E : Set ℕ) (i : grid2.Coords) (arg2 : Memref sig .tc .vmem S64x256 .f32) (harg2 : arg2.IsWhole) (arg3 : Memref sig .tc .vmem S64x256 .f32) (harg3 : arg3.IsWhole) (arg4 : Memref sig .tc .vmem S1x256 .f32) (harg4 : arg4.IsWhole) (arg5 : Memref sig .tc .vmem S2x256 .f32) (harg5 : arg5.IsWhole) (arg6 : Memref sig .tc .vmem S1x2 .f32) (harg6 : arg6.IsWhole) (arg7 : Memref sig .tc .vmem S64x64x2 .f32) (harg7 : arg7.IsWhole)
    (x0 : Vec F S64x256 .f32) (x1 : Vec F S64x256 .f32) (x2 : Vec F S1x256 .f32) (x3 : Vec F S2x256 .f32) (x4 : Vec F S1x2 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__pairs_kernel i arg2 harg2 arg3 harg3 arg4 harg4 arg5 harg5 arg6 harg6 arg7 harg7) K := by
  simp only [cc2__pairs_kernel_eq_skeleton]; unfold cc2__pairs_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_O _)

end Cert.Kernel.Hand

end
-- ==== Proof.K.Region2.lean ====
import proofs.«110368_j31911607009638_1_alg».proof.Proof.K.Region2Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, continued: the proof data and the body obligation -/

variable (V : (c : Dev nD) → (b : Ref sig .tc) → Buf (Elt F) ((c : Thread nD τ).loc b))

/-- The proof data of this pipeline on core `c`: the arrays as the region finds them; after the body at point `t`
    each input's buffer at its block and each output's at what the body's store leaves, a function of the input
    blocks; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-! Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«110368_j31911607009638_1_alg».proof.Proof.K.Region0
import proofs.«110368_j31911607009638_1_alg».proof.Proof.K.Region1
import proofs.«110368_j31911607009638_1_alg».proof.Proof.K.Region2
import proofs.«110368_j31911607009638_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three kernel regions among stretches of host operations

The contents of the core's buffers at every boundary between two items of the program are a fold from the launch
memory: a host stretch applies its operations; a region leaves its input arrays and every buffer it does not stage as
they were and each output array at what its write-backs leave. Every weakly fair execution ends with every buffer at
the last boundary's contents; in particular no item writes an argument array. -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)

/-- After the host stretch `hostOps0`. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
theorem B1_of (c : Dev nD) (r : Ref sig .tc) (h : r ∉ hostOps0_W) : B1 m ρ c r = B0 m ρ c r :=
  StableHlo.after_of_writes_sub hostOps0 _ hostOps0_writes h

/-- At region 0's exit: its arrays at what the pipeline leaves (the inputs as entered, each output's write-backs
    folded), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- Region 0 changes only its output arrays: an input array is flushed by no one and any other buffer is bypassed. -/
theorem B2_of (c : Dev nD) (r : Ref sig .tc) (h : r ∉ ([main_v3_0, main_v3_1, main_v3_2] : List (Ref sig .tc))) : B2 m ρ c r = B1 m ρ c r := by
  by_cases hx : ∃ w, Pipeline.arrRef spec0 w = r
  · obtain ⟨w, rfl⟩ := hx
    match w, h with
    | ⟨0, _⟩, _ => exact (B2_arr m ρ c 0).trans (((dat0 (E1 m ρ) c).arrAt_in 0 rfl _).trans (A_eq0 (E1 m ρ) c 0))
    | ⟨1, _⟩, _ => exact (B2_arr m ρ c 1).trans (((dat0 (E1 m ρ) c).arrAt_in 1 rfl _).trans (A_eq0 (E1 m ρ) c 1))
    | ⟨2, _⟩, _ => exact (B2_arr m ρ c 2).trans (((dat0 (E1 m ρ) c).arrAt_in 2 rfl _).trans (A_eq0 (E1 m ρ) c 2))
    | ⟨3, _⟩, _ => exact (B2_arr m ρ c 3).trans (((dat0 (E1 m ρ) c).arrAt_in 3 rfl _).trans (A_eq0 (E1 m ρ) c 3))
    | ⟨4, _⟩, _ => exact (B2_arr m ρ c 4).trans (((dat0 (E1 m ρ) c).arrAt_in 4 rfl _).trans (A_eq0 (E1 m ρ) c 4))
    | ⟨5, _⟩, _ => exact (B2_arr m ρ c 5).trans (((dat0 (E1 m ρ) c).arrAt_in 5 rfl _).trans (A_eq0 (E1 m ρ) c 5))
    | ⟨6, _⟩, _ => exact (B2_arr m ρ c 6).trans (((dat0 (E1 m ρ) c).arrAt_in 6 rfl _).trans (A_eq0 (E1 m ρ) c 6))
    | ⟨7, _⟩, _ => exact (B2_arr m ρ c 7).trans (((dat0 (E1 m ρ) c).arrAt_in 7 rfl _).trans (A_eq0 (E1 m ρ) c 7))
    | ⟨8, _⟩, h => exact absurd (show Pipeline.arrRef spec0 (8 : Fin cfg0.W) ∈ ([main_v3_0, main_v3_1, main_v3_2] : List (Ref sig .tc)) by decide) h
    | ⟨9, _⟩, h => exact absurd (show Pipeline.arrRef spec0 (9 : Fin cfg0.W) ∈ ([main_v3_0, main_v3_1, main_v3_2] : List (Ref sig .tc)) by decide) h
    | ⟨10, _⟩, h => exact absurd (show Pipeline.arrRef spec0 (10 : Fin cfg0.W) ∈ ([main_v3_0, main_v3_1, main_v3_2] : List (Ref sig .tc)) by decide) h
  · exact B2_of_ne m ρ c r fun w e => hx ⟨w, e⟩

/-- After the host stretch `hostOps1`. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
theorem B3_of (c : Dev nD) (r : Ref sig .tc) (h : r ∉ hostOps1_W) : B3 m ρ c r = B2 m ρ c r :=
  StableHlo.after_of_writes_sub hostOps1 _ hostOps1_writes h

/-- At region 1's exit: its arrays at what the pipeline leaves (the inputs as entered, each output's write-backs
    folded), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- Region 1 changes only its output arrays: an input array is flushed by no one and any other buffer is bypassed. -/
theorem B4_of (c : Dev nD) (r : Ref sig .tc) (h : r ∉ ([main_v7] : List (Ref sig .tc))) : B4 m ρ c r = B3 m ρ c r := by
  by_cases hx : ∃ w, Pipeline.arrRef spec1 w = r
  · obtain ⟨w, rfl⟩ := hx
    match w, h with
    | ⟨0, _⟩, _ => exact (B4_arr m ρ c 0).trans (((dat1 (E3 m ρ) c).arrAt_in 0 rfl _).trans (A_eq1 (E3 m ρ) c 0))
    | ⟨1, _⟩, _ => exact (B4_arr m ρ c 1).trans (((dat1 (E3 m ρ) c).arrAt_in 1 rfl _).trans (A_eq1 (E3 m ρ) c 1))
    | ⟨2, _⟩, _ => exact (B4_arr m ρ c 2).trans (((dat1 (E3 m ρ) c).arrAt_in 2 rfl _).trans (A_eq1 (E3 m ρ) c 2))
    | ⟨3, _⟩, _ => exact (B4_arr m ρ c 3).trans (((dat1 (E3 m ρ) c).arrAt_in 3 rfl _).trans (A_eq1 (E3 m ρ) c 3))
    | ⟨4, _⟩, _ => exact (B4_arr m ρ c 4).trans (((dat1 (E3 m ρ) c).arrAt_in 4 rfl _).trans (A_eq1 (E3 m ρ) c 4))
    | ⟨5, _⟩, h => exact absurd (show Pipeline.arrRef spec1 (5 : Fin cfg1.W) ∈ ([main_v7] : List (Ref sig .tc)) by decide) h
  · exact B4_of_ne m ρ c r fun w e => hx ⟨w, e⟩

/-- After the host stretch `hostOps2`. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
theorem B5_of (c : Dev nD) (r : Ref sig .tc) (h : r ∉ hostOps2_W) : B5 m ρ c r = B4 m ρ c r :=
  StableHlo.after_of_writes_sub hostOps2 _ hostOps2_writes h

/-- At region 2's exit: its arrays at what the pipeline leaves (the inputs as entered, each output's write-backs
    folded), every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- Region 2 changes only its output arrays: an input array is flushed by no one and any other buffer is bypassed. -/
theorem B6_of (c : Dev nD) (r : Ref sig .tc) (h : r ∉ ([main_v10] : List (Ref sig .tc))) : B6 m ρ c r = B5 m ρ c r := by
  by_cases hx : ∃ w, Pipeline.arrRef spec2 w = r
  · obtain ⟨w, rfl⟩ := hx
    match w, h with
    | ⟨0, _⟩, _ => exact (B6_arr m ρ c 0).trans (((dat2 (E5 m ρ) c).arrAt_in 0 rfl _).trans (A_eq2 (E5 m ρ) c 0))
    | ⟨1, _⟩, _ => exact (B6_arr m ρ c 1).trans (((dat2 (E5 m ρ) c).arrAt_in 1 rfl _).trans (A_eq2 (E5 m ρ) c 1))
    | ⟨2, _⟩, _ => exact (B6_arr m ρ c 2).trans (((dat2 (E5 m ρ) c).arrAt_in 2 rfl _).trans (A_eq2 (E5 m ρ) c 2))
    | ⟨3, _⟩, _ => exact (B6_arr m ρ c 3).trans (((dat2 (E5 m ρ) c).arrAt_in 3 rfl _).trans (A_eq2 (E5 m ρ) c 3))
    | ⟨4, _⟩, _ => exact (B6_arr m ρ c 4).trans (((dat2 (E5 m ρ) c).arrAt_in 4 rfl _).trans (A_eq2 (E5 m ρ) c 4))
    | ⟨5, _⟩, h => exact absurd (show Pipeline.arrRef spec2 (5 : Fin cfg2.W) ∈ ([main_v10] : List (Ref sig .tc)) by decide) h
  · exact B6_of_ne m ρ c r fun w e => hx ⟨w, e⟩

/-- After the host stretch `hostOps3`. -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
theorem B7_of (c : Dev nD) (r : Ref sig .tc) (h : r ∉ hostOps3_W) : B7 m ρ c r = B6 m ρ c r :=
  StableHlo.after_of_writes_sub hostOps3 _ hostOps3_writes h

/-- After the host stretch `hostOps3_1`. -/
abbrev B8 : Dev nD → Valuation τ sig (Elt F) := fun c => StableHlo.after hostOps3_1 (B7 m ρ c)
abbrev E8 : (c : Dev nD) → (b : Ref sig .tc) → Buf (Elt F) ((c : Thread nD τ).loc b) := fun c b => B8 m ρ c b
theorem B8_of (c : Dev nD) (r : Ref sig .tc) (h : r ∉ hostOps3_1_W) : B8 m ρ c r = B7 m ρ c r :=
  StableHlo.after_of_writes_sub hostOps3_1 _ hostOps3_1_writes h

/-- After the host stretch `hostOps3_2`. -/
abbrev B9 : Dev nD → Valuation τ sig (Elt F) := fun c => StableHlo.after hostOps3_2 (B8 m ρ c)
abbrev E9 : (c : Dev nD) → (b : Ref sig .tc) → Buf (Elt F) ((c : Thread nD τ).loc b) := fun c b => B9 m ρ c b
theorem B9_of (c : Dev nD) (r : Ref sig .tc) (h : r ∉ hostOps3_2_W) : B9 m ρ c r = B8 m ρ c r :=
  StableHlo.after_of_writes_sub hostOps3_2 _ hostOps3_2_writes h

/-- After the host stretch `hostOps3_3`. -/
abbrev B10 : Dev nD → Valuation τ sig (Elt F) := fun c => StableHlo.after hostOps3_3 (B9 m ρ c)
abbrev E10 : (c : Dev nD) → (b : Ref sig .tc) → Buf (Elt F) ((c : Thread nD τ).loc b) := fun c b => B10 m ρ c b
theorem B10_of (c : Dev nD) (r : Ref sig .tc) (h : r ∉ hostOps3_3_W) : B10 m ρ c r = B9 m ρ c r :=
  StableHlo.after_of_writes_sub hostOps3_3 _ hostOps3_3_writes h

/-- After the host stretch `hostOps3_4`. -/
abbrev B11 : Dev nD → Valuation τ sig (Elt F) := fun c => StableHlo.after hostOps3_4 (B10 m ρ c)
abbrev E11 : (c : Dev nD) → (b : Ref sig .tc) → Buf (Elt F) ((c : Thread nD τ).loc b) := fun c b => B11 m ρ c b
theorem B11_of (c : Dev nD) (r : Ref sig .tc) (h : r ∉ hostOps3_4_W) : B11 m ρ c r = B10 m ρ c r :=
  StableHlo.after_of_writes_sub hostOps3_4 _ hostOps3_4_writes h

/-- After the host stretch `hostOps3_5`. -/
abbrev B12 : Dev nD → Valuation τ sig (Elt F) := fun c => StableHlo.after hostOps3_5 (B11 m ρ c)
abbrev E12 : (c : Dev nD) → (b : Ref sig .tc) → Buf (Elt F) ((c : Thread nD τ).loc b) := fun c b => B12 m ρ c b
theorem B12_of (c : Dev nD) (r : Ref sig .tc) (h : r ∉ hostOps3_5_W) : B12 m ρ c r = B11 m ρ c r :=
  StableHlo.after_of_writes_sub hostOps3_5 _ hostOps3_5_writes h

/-- After the host stretch `hostOps3_6`. -/
abbrev B13 : Dev nD → Valuation τ sig (Elt F) := fun c => StableHlo.after hostOps3_6 (B12 m ρ c)
abbrev E13 : (c : Dev nD) → (b : Ref sig .tc) → Buf (Elt F) ((c : Thread nD τ).loc b) := fun c b => B13 m ρ c b
theorem B13_of (c : Dev nD) (r : Ref sig .tc) (h : r ∉ hostOps3_6_W) : B13 m ρ c r = B12 m ρ c r :=
  StableHlo.after_of_writes_sub hostOps3_6 _ hostOps3_6_writes h

/-- After the host stretch `hostOps3_7`. -/
abbrev B14 : Dev nD → Valuation τ sig (Elt F) := fun c => StableHlo.after hostOps3_7 (B13 m ρ c)
abbrev E14 : (c : Dev nD) → (b : Ref sig .tc) → Buf (Elt F) ((c : Thread nD τ).loc b) := fun c b => B14 m ρ c b
theorem B14_of (c : Dev nD) (r : Ref sig .tc) (h : r ∉ hostOps3_7_W) : B14 m ρ c r = B13 m ρ c r :=
  StableHlo.after_of_writes_sub hostOps3_7 _ hostOps3_7_writes h

/-- After the host stretch `hostOps3_8`. -/
abbrev B15 : Dev nD → Valuation τ sig (Elt F) := fun c => StableHlo.after hostOps3_8 (B14 m ρ c)
abbrev E15 : (c : Dev nD) → (b : Ref sig .tc) → Buf (Elt F) ((c : Thread nD τ).loc b) := fun c b => B15 m ρ c b
theorem B15_of (c : Dev nD) (r : Ref sig .tc) (h : r ∉ hostOps3_8_W) : B15 m ρ c r = B14 m ρ c r :=
  StableHlo.after_of_writes_sub hostOps3_8 _ hostOps3_8_writes h

/-- After the host stretch `hostOps3_9`. -/
abbrev B16 : Dev nD → Valuation τ sig (Elt F) := fun c => StableHlo.after hostOps3_9 (B15 m ρ c)
abbrev E16 : (c : Dev nD) → (b : Ref sig .tc) → Buf (Elt F) ((c : Thread nD τ).loc b) := fun c b => B16 m ρ c b
theorem B16_of (c : Dev nD) (r : Ref sig .tc) (h : r ∉ hostOps3_9_W) : B16 m ρ c r = B15 m ρ c r :=
  StableHlo.after_of_writes_sub hostOps3_9 _ hostOps3_9_writes h

/-- After the host stretch `hostOps3_10`. -/
abbrev B17 : Dev nD → Valuation τ sig (Elt F) := fun c => StableHlo.after hostOps3_10 (B16 m ρ c)
abbrev E17 : (c : Dev nD) → (b : Ref sig .tc) → Buf (Elt F) ((c : Thread nD τ).loc b) := fun c b => B17 m ρ c b
theorem B17_of (c : Dev nD) (r : Ref sig .tc) (h : r ∉ hostOps3_10_W) : B17 m ρ c r = B16 m ρ c r :=
  StableHlo.after_of_writes_sub hostOps3_10 _ hostOps3_10_writes h

/-- After the host stretch `hostOps3_11`. -/
abbrev B18 : Dev nD → Valuation τ sig (Elt F) := fun c => StableHlo.after hostOps3_11 (B17 m ρ c)
abbrev E18 : (c : Dev nD) → (b : Ref sig .tc) → Buf (Elt F) ((c : Thread nD τ).loc b) := fun c b => B18 m ρ c b
theorem B18_of (c : Dev nD) (r : Ref sig .tc) (h : r ∉ hostOps3_11_W) : B18 m ρ c r = B17 m ρ c r :=
  StableHlo.after_of_writes_sub hostOps3_11 _ hostOps3_11_writes h

/-- After the host stretch `hostOps3_12`. -/
abbrev B19 : Dev nD → Valuation τ sig (Elt F) := fun c => StableHlo.after hostOps3_12 (B18 m ρ c)
abbrev E19 : (c : Dev nD) → (b : Ref sig .tc) → Buf (Elt F) ((c : Thread nD τ).loc b) := fun c b => B19 m ρ c b
theorem B19_of (c : Dev nD) (r : Ref sig .tc) (h : r ∉ hostOps3_12_W) : B19 m ρ c r = B18 m ρ c r :=
  StableHlo.after_of_writes_sub hostOps3_12 _ hostOps3_12_writes h

/-- After the host stretch `hostOps3_13`. -/
abbrev B20 : Dev nD → Valuation τ sig (Elt F) := fun c => StableHlo.after hostOps3_13 (B19 m ρ c)
abbrev E20 : (c : Dev nD) → (b : Ref sig .tc) → Buf (Elt F) ((c : Thread nD τ).loc b) := fun c b => B20 m ρ c b
theorem B20_of (c : Dev nD) (r : Ref sig .tc) (h : r ∉ hostOps3_13_W) : B20 m ρ c r = B19 m ρ c r :=
  StableHlo.after_of_writes_sub hostOps3_13 _ hostOps3_13_writes h

/-- After the host stretch `hostOps3_14`. -/
abbrev B21 : Dev nD → Valuation τ sig (Elt F) := fun c => StableHlo.after hostOps3_14 (B20 m ρ c)
abbrev E21 : (c : Dev nD) → (b : Ref sig .tc) → Buf (Elt F) ((c : Thread nD τ).loc b) := fun c b => B21 m ρ c b
theorem B21_of (c : Dev nD) (r : Ref sig .tc) (h : r ∉ hostOps3_14_W) : B21 m ρ c r = B20 m ρ c r :=
  StableHlo.after_of_writes_sub hostOps3_14 _ hostOps3_14_writes h

/-- After the host stretch `hostOps3_15`. -/
abbrev B22 : Dev nD → Valuation τ sig (Elt F) := fun c => StableHlo.after hostOps3_15 (B21 m ρ c)
abbrev E22 : (c : Dev nD) → (b : Ref sig .tc) → Buf (Elt F) ((c : Thread nD τ).loc b) := fun c b => B22 m ρ c b
theorem B22_of (c : Dev nD) (r : Ref sig .tc) (h : r ∉ hostOps3_15_W) : B22 m ρ c r = B21 m ρ c r :=
  StableHlo.after_of_writes_sub hostOps3_15 _ hostOps3_15_writes h

/-- After the host stretch `hostOps3_16`. -/
abbrev B23 : Dev nD → Valuation τ sig (Elt F) := fun c => StableHlo.after hostOps3_16 (B22 m ρ c)
abbrev E23 : (c : Dev nD) → (b : Ref sig .tc) → Buf (Elt F) ((c : Thread nD τ).loc b) := fun c b => B23 m ρ c b
theorem B23_of (c : Dev nD) (r : Ref sig .tc) (h : r ∉ hostOps3_16_W) : B23 m ρ c r = B22 m ρ c r :=
  StableHlo.after_of_writes_sub hostOps3_16 _ hostOps3_16_writes h

/-- A buffer that no host stretch writes and that is no region's output ends as launched. -/
theorem B23_of_untouched (c : Dev nD) (r : Ref sig .tc) (h0 : r ∉ hostOps0_W) (h1 : r ∉ ([main_v3_0, main_v3_1, main_v3_2] : List (Ref sig .tc))) (h2 : r ∉ hostOps1_W) (h3 : r ∉ ([main_v7] : List (Ref sig .tc))) (h4 : r ∉ hostOps2_W) (h5 : r ∉ ([main_v10] : List (Ref sig .tc))) (h6 : r ∉ hostOps3_W) (h7 : r ∉ hostOps3_1_W) (h8 : r ∉ hostOps3_2_W) (h9 : r ∉ hostOps3_3_W) (h10 : r ∉ hostOps3_4_W) (h11 : r ∉ hostOps3_5_W) (h12 : r ∉ hostOps3_6_W) (h13 : r ∉ hostOps3_7_W) (h14 : r ∉ hostOps3_8_W) (h15 : r ∉ hostOps3_9_W) (h16 : r ∉ hostOps3_10_W) (h17 : r ∉ hostOps3_11_W) (h18 : r ∉ hostOps3_12_W) (h19 : r ∉ hostOps3_13_W) (h20 : r ∉ hostOps3_14_W) (h21 : r ∉ hostOps3_15_W) (h22 : r ∉ hostOps3_16_W) :
    B23 m ρ c r = m ((c : Thread nD τ).loc r) :=
  (B23_of m ρ c r h22).trans <| (B22_of m ρ c r h21).trans <| (B21_of m ρ c r h20).trans <| (B20_of m ρ c r h19).trans <| (B19_of m ρ c r h18).trans <| (B18_of m ρ c r h17).trans <| (B17_of m ρ c r h16).trans <| (B16_of m ρ c r h15).trans <| (B15_of m ρ c r h14).trans <| (B14_of m ρ c r h13).trans <| (B13_of m ρ c r h12).trans <| (B12_of m ρ c r h11).trans <| (B11_of m ρ c r h10).trans <| (B10_of m ρ c r h9).trans <| (B9_of m ρ c r h8).trans <| (B8_of m ρ c r h7).trans <| (B7_of m ρ c r h6).trans <| (B6_of m ρ c r h5).trans <| (B5_of m ρ c r h4).trans <| (B4_of m ρ c r h3).trans <| (B3_of m ρ c r h2).trans <| (B2_of m ρ c r h1).trans <| (B1_of m ρ c r h0)

theorem B23_main_arg0 (c : Dev nD) : B23 m ρ c main_arg0 = m ((c : Thread nD τ).loc main_arg0) :=
  B23_of_untouched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg1 (c : Dev nD) : B23 m ρ c main_arg1 = m ((c : Thread nD τ).loc main_arg1) :=
  B23_of_untouched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg2 (c : Dev nD) : B23 m ρ c main_arg2 = m ((c : Thread nD τ).loc main_arg2) :=
  B23_of_untouched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg3 (c : Dev nD) : B23 m ρ c main_arg3 = m ((c : Thread nD τ).loc main_arg3) :=
  B23_of_untouched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg4 (c : Dev nD) : B23 m ρ c main_arg4 = m ((c : Thread nD τ).loc main_arg4) :=
  B23_of_untouched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg5 (c : Dev nD) : B23 m ρ c main_arg5 = m ((c : Thread nD τ).loc main_arg5) :=
  B23_of_untouched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg6 (c : Dev nD) : B23 m ρ c main_arg6 = m ((c : Thread nD τ).loc main_arg6) :=
  B23_of_untouched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg7 (c : Dev nD) : B23 m ρ c main_arg7 = m ((c : Thread nD τ).loc main_arg7) :=
  B23_of_untouched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg8 (c : Dev nD) : B23 m ρ c main_arg8 = m ((c : Thread nD τ).loc main_arg8) :=
  B23_of_untouched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg9 (c : Dev nD) : B23 m ρ c main_arg9 = m ((c : Thread nD τ).loc main_arg9) :=
  B23_of_untouched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg10 (c : Dev nD) : B23 m ρ c main_arg10 = m ((c : Thread nD τ).loc main_arg10) :=
  B23_of_untouched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg11 (c : Dev nD) : B23 m ρ c main_arg11 = m ((c : Thread nD τ).loc main_arg11) :=
  B23_of_untouched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg12 (c : Dev nD) : B23 m ρ c main_arg12 = m ((c : Thread nD τ).loc main_arg12) :=
  B23_of_untouched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg13 (c : Dev nD) : B23 m ρ c main_arg13 = m ((c : Thread nD τ).loc main_arg13) :=
  B23_of_untouched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg14 (c : Dev nD) : B23 m ρ c main_arg14 = m ((c : Thread nD τ).loc main_arg14) :=
  B23_of_untouched m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c

/-- No core owes another anything: no level is assigned. -/
abbrev Lz : GSem nD τ sig → Finset Unit := fun _ => ∅
abbrev lvz : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)
/-- A host stretch as a segment over the unscoped buffers from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the dues. -/
abbrev Tfin (c : Dev nD) : sProp 𝕄 := iprop(StableHlo.held (c : Thread nD τ) (Pipeline.ucRefs τ sig) (B23 m ρ c) ∗ ∃ r, prngReg c r)

/-! ## The regions as segments -/

set_option backward.isDefEq.respectTransparency.types false in
/-- Region 0 over the thread state: entered from every unscoped buffer at `B1`, left at `B2`. Its arrays are split
    out of the unscoped buffers and put back at the exit contents; the generator register goes into the kernel's
    invariant and comes back; nothing is owed; the kernel has no semaphore of its own. -/
def reg0 : Pipeline.RegionSeg (pcfgs (F := F)) adm (pdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split
    out of the unscoped buffers and put back at the exit contents; the generator register goes into the kernel's
    invariant and comes back; nothing is owed; the kernel has no semaphore of its own. -/
def reg1 : Pipeline.RegionSeg (pcfgs (F := F)) adm (pdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest spec1 c ∗ ∃ r, prngReg c r) : sProp 𝕄) ⊢ (dat1 (E3 m ρ) c).Φ 0 := by
      have h := hin1 (E3 m ρ) c; unfold Pipeline.ΦA at h; exact h
    rw [show (pdats m ρ 1 c).Φ 0 = (dat1 (E3 m ρ) c).Φ 0 from rfl]
    iintro ⟨Hp, -, Hr⟩
    iapply h1
    isplitl [Hr]; · iexact Hr
    iexact Hp
  hout c := by
    have h2 : (dat1 (E3 m ρ) c).Φ (Fin.last cfg1.N) ⊢ (iprop(Pipeline.scopedRest spec1 c ∗ ∃ r, prngReg c r) : sProp 𝕄) := by
      have h := hout1 (E3 m ρ) c; unfold Pipeline.ΦA at h; exact h
    rw [Pipeline.ownSems0_none, show (pdats m ρ 1 c).Φ (Fin.last _) = (dat1 (E3 m ρ) c).Φ (Fin.last cfg1.N) from rfl]
    iintro Hphi
    ihave Hsplit := h2 $$ [Hphi]
    · iexact Hphi
    icases Hsplit with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split
    out of the unscoped buffers and put back at the exit contents; the generator register goes into the kernel's
    invariant and comes back; nothing is owed; the kernel has no semaphore of its own. -/
def reg2 : Pipeline.RegionSeg (pcfgs (F := F)) adm (pdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (B5 m ρ c) ∗ Rst c)
  post c := iprop(StableHlo.held (c : Thread nD τ) (Pipeline.ucRefs τ sig) (B6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 23 items in order. -/
abbrev segList : List (Pipeline.Seg (pcfgs (F := F)) adm (pdats m ρ) () defs₀ Variants.none Lz lvz) :=
  [ .host (hostSeg hostOps0 hostOps0_sub hostOps0_fresh (B0 m ρ)),
    .region (reg0 m ρ),
    .host (hostSeg hostOps1 hostOps1_sub hostOps1_fresh (B2 m ρ)),
    .region (reg1 m ρ),
    .host (hostSeg hostOps2 hostOps2_sub hostOps2_fresh (B4 m ρ)),
    .region (reg2 m ρ),
    .host (hostSeg hostOps3 hostOps3_sub hostOps3_fresh (B6 m ρ)),
    .host (hostSeg hostOps3_1 hostOps3_1_sub hostOps3_1_fresh (B7 m ρ)),
    .host (hostSeg hostOps3_2 hostOps3_2_sub hostOps3_2_fresh (B8 m ρ)),
    .host (hostSeg hostOps3_3 hostOps3_3_sub hostOps3_3_fresh (B9 m ρ)),
    .host (hostSeg hostOps3_4 hostOps3_4_sub hostOps3_4_fresh (B10 m ρ)),
    .host (hostSeg hostOps3_5 hostOps3_5_sub hostOps3_5_fresh (B11 m ρ)),
    .host (hostSeg hostOps3_6 hostOps3_6_sub hostOps3_6_fresh (B12 m ρ)),
    .host (hostSeg hostOps3_7 hostOps3_7_sub hostOps3_7_fresh (B13 m ρ)),
    .host (hostSeg hostOps3_8 hostOps3_8_sub hostOps3_8_fresh (B14 m ρ)),
    .host (hostSeg hostOps3_9 hostOps3_9_sub hostOps3_9_fresh (B15 m ρ)),
    .host (hostSeg hostOps3_10 hostOps3_10_sub hostOps3_10_fresh (B16 m ρ)),
    .host (hostSeg hostOps3_11 hostOps3_11_sub hostOps3_11_fresh (B17 m ρ)),
    .host (hostSeg hostOps3_12 hostOps3_12_sub hostOps3_12_fresh (B18 m ρ)),
    .host (hostSeg hostOps3_13 hostOps3_13_sub hostOps3_13_fresh (B19 m ρ)),
    .host (hostSeg hostOps3_14 hostOps3_14_sub hostOps3_14_fresh (B20 m ρ)),
    .host (hostSeg hostOps3_15 hostOps3_15_sub hostOps3_15_fresh (B21 m ρ)),
    .host (hostSeg hostOps3_16 hostOps3_16_sub hostOps3_16_fresh (B22 m ρ)) ]

theorem main_run (c : Dev nD) : main (F := F) c = Pipeline.Seg.run (segList m ρ) := (main_chain c).trans (by chain_rfl)

set_option backward.isDefEq.respectTransparency.types false in
/-- From any memory with zero counters every weakly fair execution of the program on the TensorCores terminates,
    nothing faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B23 m ρ c b) :=
  Pipeline.θ_run_regions_kit (pcfgs (F := F)) adm (pdats m ρ) () cellOf_inj emb₁ defs₀ Variants.none Lz lvz m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B23 m ρ c) ∗ Rst c) : sProp 𝕄)
        ⊢ iprop(Tfin m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B23 m ρ c b)
    (hfin := fun c s' => by
      iintro ⟨⟨Hh, -⟩, HSI⟩
      unfold StableHlo.held
      imodintro
      iapply (pointsTo_read_all (Pipeline.ucRefs τ sig) (fun b => (((c : Thread nD τ)).1, b)) (B23 m ρ c) s')
      isplitl [Hh] <;> iassumption)
    (hQ := fun s h c => h c)

end Cert.Kernel.Hand

end
-- ==== Proof.K.Frame.lean ====
import proofs.«110368_j31911607009638_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame: every argument array ends as launched -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From any memory with zero counters every weakly fair execution of the program terminates, nothing faulting, and
    every final state has the fifteen argument arrays as launched: the run's last boundary read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (B23_main_arg0 m ρ c),
     (h c _ (mem_uc main_arg1 (by decide))).trans (B23_main_arg1 m ρ c),
     (h c _ (mem_uc main_arg2 (by decide))).trans (B23_main_arg2 m ρ c),
     (h c _ (mem_uc main_arg3 (by decide))).trans (B23_main_arg3 m ρ c),
     (h c _ (mem_uc main_arg4 (by decide))).trans (B23_main_arg4 m ρ c),
     (h c _ (mem_uc main_arg5 (by decide))).trans (B23_main_arg5 m ρ c),
     (h c _ (mem_uc main_arg6 (by decide))).trans (B23_main_arg6 m ρ c),
     (h c _ (mem_uc main_arg7 (by decide))).trans (B23_main_arg7 m ρ c),
     (h c _ (mem_uc main_arg8 (by decide))).trans (B23_main_arg8 m ρ c),
     (h c _ (mem_uc main_arg9 (by decide))).trans (B23_main_arg9 m ρ c),
     (h c _ (mem_uc main_arg10 (by decide))).trans (B23_main_arg10 m ρ c),
     (h c _ (mem_uc main_arg11 (by decide))).trans (B23_main_arg11 m ρ c),
     (h c _ (mem_uc main_arg12 (by decide))).trans (B23_main_arg12 m ρ c),
     (h c _ (mem_uc main_arg13 (by decide))).trans (B23_main_arg13 m ρ c),
     (h c _ (mem_uc main_arg14 (by decide))).trans (B23_main_arg14 m ρ c)⟩)
    (run m ρ)

end Cert.Kernel.Hand

end
-- ==== Proof.KI.Region0Body.lean ====
import proofs.«110368_j31911607009638_1_alg».proof.Proof.Gen.KernelIdeal.Launch
import proofs.«110368_j31911607009638_1_alg».proof.Proof.Gen.KernelIdeal.Skeleton
import proofs.«110368_j31911607009638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the embedding, the single-head attention and the two edge projections, one grid point

The kernel reads eight whole arrays (the observations, the three weight matrices with their biases as rows, the
edge weights) and writes three whole arrays: the embedding, and the two halves of the edge layer's pre-activation.
Everything below is stated at a parameter `V`, the buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data whose array is `V`'s and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, for any proof data whose array is `V`'s and whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, for any proof data whose array is `V`'s and whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, for any proof data whose array is `V`'s and whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, for any proof data whose array is `V`'s and whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, for any proof data whose array is `V`'s and whose body
    leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds its block at every point, for any proof data whose array is `V`'s and whose body
    leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds its block at every point, for any proof data whose array is `V`'s and whose body
    leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S512x128 := Rect.unit (s := S512x128) ![0, 0] S512x128.size inb_S512x128_S512x128_0_0
abbrev rX1 : Rect S256x128 := Rect.unit (s := S256x128) ![0, 0] S256x128.size inb_S256x128_S256x128_0_0
abbrev rB : Rect S1x256 := Rect.unit (s := S1x256) ![0, 0] S1x256.size inb_S1x256_S1x256_0_0
abbrev rX3 : Rect S768x256 := Rect.unit (s := S768x256) ![0, 0] S768x256.size inb_S768x256_S768x256_0_0
abbrev rX4 : Rect S1x768 := Rect.unit (s := S1x768) ![0, 0] S1x768.size inb_S1x768_S1x768_0_0
abbrev rX5 : Rect S256x256 := Rect.unit (s := S256x256) ![0, 0] S256x256.size inb_S256x256_S256x256_0_0
abbrev rX7 : Rect S256x512 := Rect.unit (s := S256x512) ![0, 0] S256x512.size inb_S256x512_S256x512_0_0
abbrev rO : Rect S512x256 := Rect.unit (s := S512x256) ![0, 0] S512x256.size inb_S512x256_S512x256_0_0

/-! ## What the body leaves in each output buffer -/

/-- The embedding's buffer after the body: one store of the whole buffer. -/
def out0_8 (x0 : Vec F S512x128 .f32) (x1 : Vec F S256x128 .f32) (x2 : Vec F S1x256 .f32) : Vec F S512x256 .f32 :=
  View.canon [⟨rO, k0_pay4 (View.ld x0 rX0) (View.ld x1 rX1) (View.ld x2 rB)⟩]

/-- The first edge projection's buffer after the body. -/
def out0_9 (x0 : Vec F S512x128 .f32) (x1 : Vec F S256x128 .f32) (x2 : Vec F S1x256 .f32) (x3 : Vec F S768x256 .f32) (x4 : Vec F S1x768 .f32) (x5 : Vec F S256x256 .f32) (x6 : Vec F S1x256 .f32) (x7 : Vec F S256x512 .f32) : Vec F S512x256 .f32 :=
  View.canon [⟨rO, k0_pay2 (k0_pay6 (View.ld x0 rX0) (View.ld x1 rX1) (View.ld x2 rB) (View.ld x3 rX3) (View.ld x4 rX4)) (k0_pay7 (View.ld x0 rX0) (View.ld x1 rX1) (View.ld x2 rB) (View.ld x3 rX3) (View.ld x4 rX4)) (View.ld x5 rX5) (View.ld x6 rB) (View.ld x7 rX7)⟩]

/-- The second edge projection's buffer after the body. -/
def out0_10 (x0 : Vec F S512x128 .f32) (x1 : Vec F S256x128 .f32) (x2 : Vec F S1x256 .f32) (x3 : Vec F S768x256 .f32) (x4 : Vec F S1x768 .f32) (x5 : Vec F S256x256 .f32) (x6 : Vec F S1x256 .f32) (x7 : Vec F S256x512 .f32) : Vec F S512x256 .f32 :=
  View.canon [⟨rO, k0_pay3 (k0_pay6 (View.ld x0 rX0) (View.ld x1 rX1) (View.ld x2 rB) (View.ld x3 rX3) (View.ld x4 rX4)) (k0_pay7 (View.ld x0 rX0) (View.ld x1 rX1) (View.ld x2 rB) (View.ld x3 rX3) (View.ld x4 rX4)) (View.ld x5 rX5) (View.ld x6 rB) (View.ld x7 rX7)⟩]

/-- One store of the whole buffer covers it. -/
theorem cover0_O (p0 : Vec F S512x256 .f32) (y : S512x256.Idx) :
    ∃ pc ∈ ([⟨rO, p0⟩] : List (View.Piece (Elt F) S512x256 .f32)), y ∈ pc.1.set :=
  View.cover_of_tiled [⟨rO, p0⟩] S512x256.size (by rfl) y

/-! ## The body's triple -/

set_option maxHeartbeats 4000000 in
/-- The kernel body on whole staging memrefs, the inputs' at read contents and the outputs' at anything, runs to the
    continuation holding the inputs' as they were and each output's at its `out0_W` of the inputs'. -/
theorem sound_kernel0 (c : Dev nD) (E : Set ℕ) (i : grid0.Coords) (arg1 : Memref sig .tc .vmem S512x128 .f32) (harg1 : arg1.IsWhole) (arg2 : Memref sig .tc .vmem S256x128 .f32) (harg2 : arg2.IsWhole) (arg3 : Memref sig .tc .vmem S1x256 .f32) (harg3 : arg3.IsWhole) (arg4 : Memref sig .tc .vmem S768x256 .f32) (harg4 : arg4.IsWhole) (arg5 : Memref sig .tc .vmem S1x768 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x512 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole)
    (x0 : Vec F S512x128 .f32) (x1 : Vec F S256x128 .f32) (x2 : Vec F S1x256 .f32) (x3 : Vec F S768x256 .f32) (x4 : Vec F S1x768 .f32) (x5 : Vec F S256x256 .f32) (x6 : Vec F S1x256 .f32) (x7 : Vec F S256x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out0_8 x0 x1 x2)
            ∗ owns (c : Thread nD τ) arg10 fullShare (out0_9 x0 x1 x2 x3 x4 x5 x6 x7)
            ∗ owns (c : Thread nD τ) arg11 fullShare (out0_10 x0 x1 x2 x3 x4 x5 x6 x7)) -∗ K ⟨⟩))
      ⊢ wp frame (wpE (defs₀ (F := F)) Variants.none c none) E (cc0__trunk_kernel i arg1 harg1 arg2 harg2 arg3 harg3 arg4 harg4 arg5 harg5 arg6 harg6 arg7 harg7 arg8 harg8 arg9 harg9 arg10 harg10 arg11 harg11) K := by
  simp only [cc0__trunk_kernel_eq_skeleton]; unfold cc0__trunk_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_O _)
  isplitl [H9]
  · iexists _; isplitr
    swap; · iexact H9
    ipureintro
    exact View.read_writes_eq_canon _ _ _ (cover0_O _)
  iexists _; isplitr
  swap; · iexact H10
  ipureintro
  exact View.read_writes_eq_canon _ _ _ (cover0_O _)

end Cert.KernelIdeal.Hand

end
-- ==== Proof.KI.Region0.lean ====
import proofs.«110368_j31911607009638_1_alg».proof.Proof.KI.Region0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0, continued: the proof data and the body obligation -/

variable (V : (c : Dev nD) → (b : Ref sig .tc) → Buf (Elt F) ((c : Thread nD τ).loc b))

/-- The proof data of this pipeline on core `c`: the arrays as the region finds them; after the body at point `t`
    each input's buffer at its block and each output's at what the body's store leaves, a function of the input
    blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]

/-! Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 2000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Base.lean ====
import proofs.«110368_j31911607009638_1_alg».proof.Proof.Gen.KernelIdeal.Launch
import proofs.«110368_j31911607009638_1_alg».proof.Proof.Gen.KernelIdeal.Skeleton
import proofs.«110368_j31911607009638_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main (the value head), at the entry contents `V`: what the three cases of its body share -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: an unfetched point has the block index
    of the point before, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: an unfetched point has the block index
    of the point before, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: an unfetched point has the block index
    of the point before, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: an unfetched point has the block index
    of the point before, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: an unfetched point has the block index
    of the point before, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The first `scf.if` (the reset of the accumulator): the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second `scf.if` (the output store): the grid coordinate is 15. -/
abbrev cond1_1 (i : grid1.Coords) : Prop := k1_cond2 i = 1#1
/-- It holds at the last point only. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Off the last point the output window 5 is idle: the body stores nothing into it, -/
theorem idleAt1_5 : ∀ t : Fin cfg1.N, ¬cond1_1 (grid1.coords t) → cfg1.idle 5 (grid1.coords t) = true := by decide +kernel
/-- and the pipeline does not write its block back. -/
theorem noFlush1_5 : ∀ t : Fin cfg1.N, ¬cond1_1 (grid1.coords t) → (cfg1.win 5).flush t = false := by decide +kernel
/-- At the last point it is live: the body stores into it. -/
theorem liveAt1_5 : ∀ t : Fin cfg1.N, cond1_1 (grid1.coords t) → cfg1.idle 5 (grid1.coords t) = false := by decide +kernel

/-! ## The staging memrefs and the scratch -/

/-- Each window's current staging memref at point `t`, spelled as the pipeline passes it, and its wholeness. -/
abbrev ms1_0 (t : Fin cfg1.N) : Memref sig .tc .vmem S256x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
/-- The scratch operand: the 1x256 accumulator, a whole scoped buffer of the kernel's own, carried between points. -/
abbrev scM1 : Memref sig .tc .vmem S1x256 .f32 := Memref.whole cc1_scratch0

/-- The scratch is scoped and no staging buffer of the region's windows. -/
theorem scratch1_mem : ([cc1_scratch0] : List (Ref sig .tc)).Forall fun b =>
    b.isScoped = true ∧ ∀ (w : Fin 6) (s : Fin (spec1 w).nbuf), ((spec1 w).stage s).view.ref ≠ b := by decide

/-- The class's invariant with the accumulator split off as a memref owned at some contents; the other scoped
    buffers that are no staging buffer of this region stay unopened. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
        ∗ (∃ r, prngReg c r)) := by
  unfold Pipeline.ΦA
  rw [Pipeline.scopedRest_split_of_list spec1 c [cc1_scratch0] scratch1_mem (by decide)]
  simp only [scM1, owns_whole, bigSepL_singleton]; try rfl

/-! ## Loads and stores through a buffer's whole rectangle -/

/-- Two zero offsets, however spelt. -/
theorem zeros2 : (![0, 0] : Fin 2 → ℕ) = fun _ => 0 := by funext a; fin_cases a <;> rfl

/-- A load through the whole-shape rectangle at zero offsets reads what the view reads. -/
theorem readAt_whole {κ : Kind} {sp : Space} {S : Shape} {e : EltTy} (v : View sig κ sp S e) (f : v.ty.Contents (Elt F))
    {X : S.Idx → Elt F e} (hf : v.read (Elt F) f = X) {off : Fin S.rank → ℕ} (hz : off = fun _ => 0)
    (inb : ∀ a, off a + S.size a ≤ S.size a) :
    v.readAt (Elt F) (Rect.unit off S.size inb).toLoadRect f = X := by
  rw [← hf]; exact (View.readAt_eq_ld v f (Rect.unit off S.size inb)).trans (View.ld_unit_zero hz inb _)

/-- What a store through the whole-shape rectangle, made last, leaves in a buffer reads as its payload, whatever the
    buffer held and whatever was stored before. -/
theorem read_writes_whole {κ : Kind} {sp : Space} {S : Shape} {e : EltTy} (v : View sig κ sp S e) (f : v.ty.Contents (Elt F))
    {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero hz inb y⟩),
    View.canon_cons_unit_zero hz inb]

/-- A load through the whole-shape rectangle after a store through it reads the store's payload. -/
theorem readCov_whole {κ : Kind} {sp : Space} {S : Shape} {e : EltTy} (v : View sig κ sp S e)
    {off : Fin S.rank → ℕ} (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

end Cert.KernelIdeal.Hand

end
-- ==== Proof.KI.Region1Dat.lean ====
import proofs.«110368_j31911607009638_1_alg».proof.Proof.KI.Region1Base

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main at the entry contents `V`: the accumulator point by point, the invariant, the proof data -/

variable (V : (c : Dev nD) → (b : Ref sig .tc) → Buf (Elt F) ((c : Thread nD τ).loc b))

/-! ## The accumulator after each point -/

/-- What the scratch accumulator holds after the body at point `n`: at the first point the weight block applied to the
    activations block and added to the zero fill; at each later point, added to what the point before left. -/
def acc1 (c : Dev nD) : (n : ℕ) → n < cfg1.N → Vec F S1x256 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) k1_pay1 := rfl

theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- At the first point. -/
theorem acc1_first (c : Dev nD) (t : Fin cfg1.N) (h : t.val = 0) :
    acc1 V c t.val t.isLt = k1_pay2 (iblk1 V c 0 t) (iblk1 V c 1 t) k1_pay1 := by
  obtain ⟨n, hn⟩ := t
  cases n with
  | zero => rfl
  | succ n => exact absurd h (Nat.succ_ne_zero n)

/-- At a later point: over what the point before left. -/
theorem acc1_pos (c : Dev nD) (t : Fin cfg1.N) (h : t.val ≠ 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd rfl h
  | succ n => rfl

/-- What the last point stores into the output window's buffer: the output payload of the finished accumulator and the
    three small operands. -/
def out1_5 (c : Dev nD) : Vec F S1x1 .f32 :=
  k1_pay3 (acc1 V c t1_15.val t1_15.isLt) (iblk1 V c 2 t1_15) (iblk1 V c 3 t1_15) (iblk1 V c 4 t1_15)

theorem out1_5_eq (c : Dev nD) :
    out1_5 V c = k1_pay3 (acc1 V c t1_15.val t1_15.isLt) (iblk1 V c 2 t1_15) (iblk1 V c 3 t1_15) (iblk1 V c 4 t1_15) := rfl

/-! ## The region invariant -/

/-- The invariant before position `n`: before the first point the class's (every scoped buffer that is no staging
    buffer at anything, the generator register at some state); afterwards the same with the accumulator at what the
    point before left in it. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
          ∗ Pipeline.scopedRestBut (Ix := Unit) (Name := ℕ) (U := UR sig nD τ) (Lvl := ℕ) (Val := Elt F) spec1 c [cc1_scratch0])
        ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
          ∗ Pipeline.scopedRestBut (Ix := Unit) (Name := ℕ) (U := UR sig nD τ) (Lvl := ℕ) (Val := Elt F) spec1 c [cc1_scratch0])
        ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
          ∗ Pipeline.scopedRestBut (Ix := Unit) (Name := ℕ) (U := UR sig nD τ) (Lvl := ℕ) (Val := Elt F) spec1 c [cc1_scratch0])
        ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the output's at the output payload of the accumulator there (consulted at the
    last point only: elsewhere the window is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (iblk1 V c 2 t) (iblk1 V c 3 t) (iblk1 V c 4 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- Full shares, nothing owed. -/
theorem q_eq1 (c : Dev nD) : (dat1 V c).q = fun _ => fullShare := rfl
theorem owed_eq1 (c : Dev nD) : (dat1 V c).owed = fun _ => 0 := rfl
theorem share_full1 (c : Dev nD) (w : Fin cfg1.W) : (dat1 V c).share w = fullShare := (dat1 V c).share_full (fun _ => rfl) w

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay3 (acc1 V c t.val t.isLt) (iblk1 V c 2 t) (iblk1 V c 3 t) (iblk1 V c 4 t) := by dsimp only [dat1]
/-- What window 5's buffer holds when it is written back, at the last point. -/
theorem after1_5_last (c : Dev nD) : (dat1 V c).after 5 t1_15 = out1_5 V c := by dsimp only [dat1, out1_5]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation's two sides, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Cert.KernelIdeal.Hand

end
-- ==== Proof.KI.Region1RunA.lean ====
import proofs.«110368_j31911607009638_1_alg».proof.Proof.KI.Region1Base

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body, at the first point (the accumulator reset, then added to) -/

set_option maxHeartbeats 1000000 in
/-- At the first point (the accumulator reset, then added to): on whole staging memrefs, the inputs' at their contents, the body runs to the continuation holding the
    inputs' as they were and what its stores left, each store's value a payload of the loaded contents: each
    conditional is decided by the case's hypotheses, a load through a buffer's whole rectangle reads the buffer's
    contents, and a store through it leaves its payload. -/
theorem run1_A (c : Dev nD) (i : grid1.Coords)
    (arg1 : Memref sig .tc .vmem S256x8192 .f32) (harg1 : arg1.IsWhole) (arg2 : Memref sig .tc .vmem S1x8192 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x256 .f32) (harg7 : arg7.IsWhole) (hc0 : cond1_0 i) (hc1 : ¬cond1_1 i)
    (x0 : Vec F S256x8192 .f32) (x1 : Vec F S1x8192 .f32) (x2 : Vec F S1x256 .f32) (x3 : Vec F S1x256 .f32) (x4 : Vec F S1x1 .f32)
    (xi5 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 k1_pay1)) -∗ K ⟨⟩))
      ⊢ wp frame (wpE (defs₀ (F := F)) Variants.none c none) E (cc1__value_kernel i arg1 harg1 arg2 harg2 arg3 harg3 arg4 harg4 arg5 harg5 arg6 harg6 arg7 harg7) K := by
  rw [cc1__value_kernel_eq_skeleton]; unfold cc1__value_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS0
  ipureintro
  rw [read_writes_whole arg7.view fs0 zeros2 inb_S1x256_S1x256_0_0]
  rw [readAt_whole arg1.view _ (harg1.read_unread x0) zeros2, readAt_whole arg2.view _ (harg2.read_unread x1) zeros2]
  unfold run1_A.sl.v8 run1_A.sl.HS0_1
  rw [readCov_whole arg7.view inb_S1x256_S1x256_0_0]

end Cert.KernelIdeal.Hand

end
-- ==== Proof.KI.Region1RunB.lean ====
import proofs.«110368_j31911607009638_1_alg».proof.Proof.KI.Region1Base

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body, at a middle point (the accumulator added to) -/

set_option maxHeartbeats 1000000 in
/-- At a middle point (the accumulator added to): on whole staging memrefs, the inputs' at their contents, the body runs to the continuation holding the
    inputs' as they were and what its stores left, each store's value a payload of the loaded contents: each
    conditional is decided by the case's hypotheses, a load through a buffer's whole rectangle reads the buffer's
    contents, and a store through it leaves its payload. -/
theorem run1_B (c : Dev nD) (i : grid1.Coords)
    (arg1 : Memref sig .tc .vmem S256x8192 .f32) (harg1 : arg1.IsWhole) (arg2 : Memref sig .tc .vmem S1x8192 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x256 .f32) (harg7 : arg7.IsWhole) (hc0 : ¬cond1_0 i) (hc1 : ¬cond1_1 i)
    (x0 : Vec F S256x8192 .f32) (x1 : Vec F S1x8192 .f32) (x2 : Vec F S1x256 .f32) (x3 : Vec F S1x256 .f32) (x4 : Vec F S1x1 .f32)
    (xi5 : Vec F S1x1 .f32) (xs : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 xs)) -∗ K ⟨⟩))
      ⊢ wp frame (wpE (defs₀ (F := F)) Variants.none c none) E (cc1__value_kernel i arg1 harg1 arg2 harg2 arg3 harg3 arg4 harg4 arg5 harg5 arg6 harg6 arg7 harg7) K := by
  rw [cc1__value_kernel_eq_skeleton]; unfold cc1__value_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact HS0
  ipureintro
  rw [read_writes_whole arg7.view _ zeros2 inb_S1x256_S1x256_0_0]
  rw [readAt_whole arg1.view _ (harg1.read_unread x0) zeros2, readAt_whole arg2.view _ (harg2.read_unread x1) zeros2,
    readAt_whole arg7.view _ (harg7.read_unread xs) zeros2]

end Cert.KernelIdeal.Hand

end
-- ==== Proof.KI.Region1RunC.lean ====
import proofs.«110368_j31911607009638_1_alg».proof.Proof.KI.Region1Base

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's body, at the last point (the accumulator added to, then the output stored) -/

set_option maxHeartbeats 1000000 in
/-- At the last point (the accumulator added to, then the output stored): on whole staging memrefs, the inputs' at their contents, the body runs to the continuation holding the
    inputs' as they were and what its stores left, each store's value a payload of the loaded contents: each
    conditional is decided by the case's hypotheses, a load through a buffer's whole rectangle reads the buffer's
    contents, and a store through it leaves its payload. -/
theorem run1_C (c : Dev nD) (i : grid1.Coords)
    (arg1 : Memref sig .tc .vmem S256x8192 .f32) (harg1 : arg1.IsWhole) (arg2 : Memref sig .tc .vmem S1x8192 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x256 .f32) (harg7 : arg7.IsWhole) (hc0 : ¬cond1_0 i) (hc1 : cond1_1 i)
    (x0 : Vec F S256x8192 .f32) (x1 : Vec F S1x8192 .f32) (x2 : Vec F S1x256 .f32) (x3 : Vec F S1x256 .f32) (x4 : Vec F S1x1 .f32)
    (xs : Vec F S1x256 .f32) (E : Set ℕ) (K : PUnit → sProp 𝕄) :
    iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k1_pay3 (k1_pay2 x0 x1 xs) x2 x3 x4)
            ∗ owns (c : Thread nD τ) arg7 fullShare (k1_pay2 x0 x1 xs)) -∗ K ⟨⟩))
      ⊢ wp frame (wpE (defs₀ (F := F)) Variants.none c none) E (cc1__value_kernel i arg1 harg1 arg2 harg2 arg3 harg3 arg4 harg4 arg5 harg5 arg6 harg6 arg7 harg7) K := by
  rw [cc1__value_kernel_eq_skeleton]; unfold cc1__value_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  have hacc : arg7.view.read (Elt F) (arg7.view.writes (Elt F) (harg7.unread xs) (run1_C.sl.HS0_1 c arg1 harg1 arg2 harg2 arg7 harg7 x0 x1 xs))
      = k1_pay2 x0 x1 xs := by
    unfold run1_C.sl.HS0_1
    rw [read_writes_whole arg7.view _ zeros2 inb_S1x256_S1x256_0_0]
    rw [readAt_whole arg1.view _ (harg1.read_unread x0) zeros2, readAt_whole arg2.view _ (harg2.read_unread x1) zeros2,
      readAt_whole arg7.view _ (harg7.read_unread xs) zeros2]
  have hv18 : run1_C.sl.v18 c arg1 harg1 arg2 harg2 arg7 harg7 x0 x1 xs = k1_pay2 x0 x1 xs := by
    unfold run1_C.sl.v18 run1_C.sl.HS0_1
    rw [readCov_whole arg7.view inb_S1x256_S1x256_0_0]
    rw [readAt_whole arg1.view _ (harg1.read_unread x0) zeros2, readAt_whole arg2.view _ (harg2.read_unread x1) zeros2,
      readAt_whole arg7.view _ (harg7.read_unread xs) zeros2]
  isplitl [H5]
  · iexists _; isplitr
    swap; · iexact H5
    ipureintro
    rw [read_writes_whole arg6.view f5 zeros2 inb_S1x1_S1x1_0_0, hv18]
    rw [readAt_whole arg3.view f2 hf2 zeros2, readAt_whole arg4.view f3 hf3 zeros2, readAt_whole arg5.view f4 hf4 zeros2]
  iexists _; isplitr
  swap; · iexact HS0
  ipureintro
  exact hacc

end Cert.KernelIdeal.Hand

end
-- ==== Proof.KI.Region1Body.lean ====
import proofs.«110368_j31911607009638_1_alg».proof.Proof.KI.Region1Dat
import proofs.«110368_j31911607009638_1_alg».proof.Proof.KI.Region1RunA
import proofs.«110368_j31911607009638_1_alg».proof.Proof.KI.Region1RunB
import proofs.«110368_j31911607009638_1_alg».proof.Proof.KI.Region1RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main at the entry contents `V`: the body at any point -/

variable (V : (c : Dev nD) → (b : Ref sig .tc) → Buf (Elt F) ((c : Thread nD τ).loc b))

set_option maxHeartbeats 4800000 in
/-- The body at any point. The inputs' buffers hold their blocks; the closed forms of the two conditions say which of the
    three cases the point is in; the invariant hands the body the accumulator — at anything at the first point, at what
    the point before left afterwards — and takes it back at this point's contents; off the last point the output
    window is idle and its buffer goes back as found, at the last point it holds the output payload; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · by_cases h1 : t.val % 16 = 15
    · exfalso; omega
    · have hz : t.val = 0 := by omega
      rw [Dat.leavesExact_idle (dat1 V c) 5 t (idleAt1_5 t (fun h => h1 ((hcond1_1 t).mp h))) (noFlush1_5 t (fun h => h1 ((hcond1_1 t).mp h)))]
      rw [acc1_first V c t hz]
      rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ ((hcond1_0 t).mpr h0) (fun h => h1 ((hcond1_1 t).mp h))
        (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [acc1_pos V c t hz]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ (fun h => h0 ((hcond1_0 t).mp h)) ((hcond1_1 t).mpr h1)
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      rw [acc1_pos V c t hz]
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) ((dat1 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

end Cert.KernelIdeal.Hand

end
-- ==== Proof.KI.Region1.lean ====
import proofs.«110368_j31911607009638_1_alg».proof.Proof.KI.Region1Body

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main at the entry contents `V`: the kernel half, assembled

The blocks `iblk1`, the accumulator `acc1` (`acc1_zero`, `acc1_succ`), the stored output `out1_5` (`out1_5_eq`,
`after1_5_last`), the proof data `dat1` (`A_eq1`, `q_eq1`, `owed_eq1`, `share_full1`) are upstream; here the body
obligation and the invariant's two ends. -/

variable (V : (c : Dev nD) → (b : Ref sig .tc) → Buf (Elt F) ((c : Thread nD τ).loc b))

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]; · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Region2Body.lean ====
import proofs.«110368_j31911607009638_1_alg».proof.Proof.Gen.KernelIdeal.Launch
import proofs.«110368_j31911607009638_1_alg».proof.Proof.Gen.KernelIdeal.Skeleton
import proofs.«110368_j31911607009638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the edge classifier over all ordered pairs of agents, an 8 by 8 grid of 64 by 64 tiles

At a grid point the kernel reads a block of 64 rows of each edge projection, the edge bias as a row, the two output
weight rows and the two output biases, and writes the 64 by 64 by 2 tile of class probabilities.
Everything below is stated at a parameter `V`, the buffer contents when the region is entered. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev qA : Rect S64x256 := Rect.unit (s := S64x256) ![0, 0] S64x256.size inb_S64x256_S64x256_0_0
abbrev qB : Rect S1x256 := Rect.unit (s := S1x256) ![0, 0] S1x256.size inb_S1x256_S1x256_0_0
abbrev qW : Rect S2x256 := Rect.unit (s := S2x256) ![0, 0] S2x256.size inb_S2x256_S2x256_0_0
abbrev qC : Rect S1x2 := Rect.unit (s := S1x2) ![0, 0] S1x2.size inb_S1x2_S1x2_0_0
abbrev qO : Rect S64x64x2 := Rect.unit (s := S64x64x2) ![0, 0, 0] S64x64x2.size inb_S64x64x2_S64x64x2_0_0_0

/-! ## What the body leaves in the output buffer -/

/-- The tile's buffer after the body: one store of the whole buffer, the two class probabilities stacked. -/
def out2_5 (x0 : Vec F S64x256 .f32) (x1 : Vec F S64x256 .f32) (x2 : Vec F S1x256 .f32) (x3 : Vec F S2x256 .f32) (x4 : Vec F S1x2 .f32) : Vec F S64x64x2 .f32 :=
  View.canon [⟨qO, k2_pay1 (k2_pay10 (View.ld x0 qA) (View.ld x1 qA) (View.ld x2 qB) (View.ld x3 qW) (View.ld x4 qC)) (k2_pay11 (View.ld x0 qA) (View.ld x1 qA) (View.ld x2 qB) (View.ld x3 qW) (View.ld x4 qC))⟩]

/-- One store of the whole buffer covers it. -/
theorem cover2_O (p0 : Vec F S64x64x2 .f32) (y : S64x64x2.Idx) :
    ∃ pc ∈ ([⟨qO, p0⟩] : List (View.Piece (Elt F) S64x64x2 .f32)), y ∈ pc.1.set :=
  View.cover_of_tiled [⟨qO, p0⟩] S64x64x2.size (by rfl) y

/-! ## The body's triple -/

set_option maxHeartbeats 4000000 in
/-- The kernel body on whole staging memrefs, the inputs' at read contents and the output's at anything, runs to the
    continuation holding the inputs' as they were and the output's at `out2_5` of the inputs'. -/
theorem sound_kernel2 (c : Dev nD) (E : Set ℕ) (i : grid2.Coords) (arg2 : Memref sig .tc .vmem S64x256 .f32) (harg2 : arg2.IsWhole) (arg3 : Memref sig .tc .vmem S64x256 .f32) (harg3 : arg3.IsWhole) (arg4 : Memref sig .tc .vmem S1x256 .f32) (harg4 : arg4.IsWhole) (arg5 : Memref sig .tc .vmem S2x256 .f32) (harg5 : arg5.IsWhole) (arg6 : Memref sig .tc .vmem S1x2 .f32) (harg6 : arg6.IsWhole) (arg7 : Memref sig .tc .vmem S64x64x2 .f32) (harg7 : arg7.IsWhole)
    (x0 : Vec F S64x256 .f32) (x1 : Vec F S64x256 .f32) (x2 : Vec F S1x256 .f32) (x3 : Vec F S2x256 .f32) (x4 : Vec F S1x2 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out2_5 x0 x1 x2 x3 x4)) -∗ K ⟨⟩))
      ⊢ wp frame (wpE (defs₀ (F := F)) Variants.none c none) E (cc2__pairs_kernel i arg2 harg2 arg3 harg3 arg4 harg4 arg5 harg5 arg6 harg6 arg7 harg7) K := by
  simp only [cc2__pairs_kernel_eq_skeleton]; unfold cc2__pairs_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_O _)

end Cert.KernelIdeal.Hand

end
-- ==== Proof.KI.Region2.lean ====
import proofs.«110368_j31911607009638_1_alg».proof.Proof.KI.Region2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2, continued: the proof data and the body obligation -/

variable (V : (c : Dev nD) → (b : Ref sig .tc) → Buf (Elt F) ((c : Thread nD τ).loc b))

/-- The proof data of this pipeline on core `c`: the arrays as the region finds them; after the body at point `t`
    each input's buffer at its block and each output's at what the body's store leaves, a function of the input
    blocks; the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-! Each input's staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«110368_j31911607009638_1_alg».proof.Proof.KI.Region0
import proofs.«110368_j31911607009638_1_alg».proof.Proof.KI.Region1
import proofs.«110368_j31911607009638_1_alg».proof.Proof.KI.Region2
import proofs.«110368_j31911607009638_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: three kernel regions among stretches of host operations

The contents of the core's buffers at every boundary between two items of the program are a fold from the launch
memory: a host stretch applies its operations; a region leaves its input arrays and every buffer it does not stage as
they were and each output array at what its write-backs leave. Every weakly fair execution ends with every buffer at
the last boundary's contents; in particular no item writes an argument array. -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)

/-- After the host stretch `hostOps0`. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
theorem B1_of (c : Dev nD) (r : Ref sig .tc) (h : r ∉ hostOps0_W) : B1 m ρ c r = B0 m ρ c r :=
  StableHlo.after_of_writes_sub hostOps0 _ hostOps0_writes h

/-- At region 0's exit: its arrays at what the pipeline leaves (the inputs as entered, each output's write-backs
    folded), every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- Region 0 changes only its output arrays: an input array is flushed by no one and any other buffer is bypassed. -/
theorem B2_of (c : Dev nD) (r : Ref sig .tc) (h : r ∉ ([main_v3_0, main_v3_1, main_v3_2] : List (Ref sig .tc))) : B2 m ρ c r = B1 m ρ c r := by
  by_cases hx : ∃ w, Pipeline.arrRef spec0 w = r
  · obtain ⟨w, rfl⟩ := hx
    match w, h with
    | ⟨0, _⟩, _ => exact (B2_arr m ρ c 0).trans (((dat0 (E1 m ρ) c).arrAt_in 0 rfl _).trans (A_eq0 (E1 m ρ) c 0))
    | ⟨1, _⟩, _ => exact (B2_arr m ρ c 1).trans (((dat0 (E1 m ρ) c).arrAt_in 1 rfl _).trans (A_eq0 (E1 m ρ) c 1))
    | ⟨2, _⟩, _ => exact (B2_arr m ρ c 2).trans (((dat0 (E1 m ρ) c).arrAt_in 2 rfl _).trans (A_eq0 (E1 m ρ) c 2))
    | ⟨3, _⟩, _ => exact (B2_arr m ρ c 3).trans (((dat0 (E1 m ρ) c).arrAt_in 3 rfl _).trans (A_eq0 (E1 m ρ) c 3))
    | ⟨4, _⟩, _ => exact (B2_arr m ρ c 4).trans (((dat0 (E1 m ρ) c).arrAt_in 4 rfl _).trans (A_eq0 (E1 m ρ) c 4))
    | ⟨5, _⟩, _ => exact (B2_arr m ρ c 5).trans (((dat0 (E1 m ρ) c).arrAt_in 5 rfl _).trans (A_eq0 (E1 m ρ) c 5))
    | ⟨6, _⟩, _ => exact (B2_arr m ρ c 6).trans (((dat0 (E1 m ρ) c).arrAt_in 6 rfl _).trans (A_eq0 (E1 m ρ) c 6))
    | ⟨7, _⟩, _ => exact (B2_arr m ρ c 7).trans (((dat0 (E1 m ρ) c).arrAt_in 7 rfl _).trans (A_eq0 (E1 m ρ) c 7))
    | ⟨8, _⟩, h => exact absurd (show Pipeline.arrRef spec0 (8 : Fin cfg0.W) ∈ ([main_v3_0, main_v3_1, main_v3_2] : List (Ref sig .tc)) by decide) h
    | ⟨9, _⟩, h => exact absurd (show Pipeline.arrRef spec0 (9 : Fin cfg0.W) ∈ ([main_v3_0, main_v3_1, main_v3_2] : List (Ref sig .tc)) by decide) h
    | ⟨10, _⟩, h => exact absurd (show Pipeline.arrRef spec0 (10 : Fin cfg0.W) ∈ ([main_v3_0, main_v3_1, main_v3_2] : List (Ref sig .tc)) by decide) h
  · exact B2_of_ne m ρ c r fun w e => hx ⟨w, e⟩

/-- After the host stretch `hostOps1`. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
theorem B3_of (c : Dev nD) (r : Ref sig .tc) (h : r ∉ hostOps1_W) : B3 m ρ c r = B2 m ρ c r :=
  StableHlo.after_of_writes_sub hostOps1 _ hostOps1_writes h

/-- At region 1's exit: its arrays at what the pipeline leaves (the inputs as entered, each output's write-backs
    folded), every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- Region 1 changes only its output arrays: an input array is flushed by no one and any other buffer is bypassed. -/
theorem B4_of (c : Dev nD) (r : Ref sig .tc) (h : r ∉ ([main_v7] : List (Ref sig .tc))) : B4 m ρ c r = B3 m ρ c r := by
  by_cases hx : ∃ w, Pipeline.arrRef spec1 w = r
  · obtain ⟨w, rfl⟩ := hx
    match w, h with
    | ⟨0, _⟩, _ => exact (B4_arr m ρ c 0).trans (((dat1 (E3 m ρ) c).arrAt_in 0 rfl _).trans (A_eq1 (E3 m ρ) c 0))
    | ⟨1, _⟩, _ => exact (B4_arr m ρ c 1).trans (((dat1 (E3 m ρ) c).arrAt_in 1 rfl _).trans (A_eq1 (E3 m ρ) c 1))
    | ⟨2, _⟩, _ => exact (B4_arr m ρ c 2).trans (((dat1 (E3 m ρ) c).arrAt_in 2 rfl _).trans (A_eq1 (E3 m ρ) c 2))
    | ⟨3, _⟩, _ => exact (B4_arr m ρ c 3).trans (((dat1 (E3 m ρ) c).arrAt_in 3 rfl _).trans (A_eq1 (E3 m ρ) c 3))
    | ⟨4, _⟩, _ => exact (B4_arr m ρ c 4).trans (((dat1 (E3 m ρ) c).arrAt_in 4 rfl _).trans (A_eq1 (E3 m ρ) c 4))
    | ⟨5, _⟩, h => exact absurd (show Pipeline.arrRef spec1 (5 : Fin cfg1.W) ∈ ([main_v7] : List (Ref sig .tc)) by decide) h
  · exact B4_of_ne m ρ c r fun w e => hx ⟨w, e⟩

/-- After the host stretch `hostOps2`. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
theorem B5_of (c : Dev nD) (r : Ref sig .tc) (h : r ∉ hostOps2_W) : B5 m ρ c r = B4 m ρ c r :=
  StableHlo.after_of_writes_sub hostOps2 _ hostOps2_writes h

/-- At region 2's exit: its arrays at what the pipeline leaves (the inputs as entered, each output's write-backs
    folded), every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- Region 2 changes only its output arrays: an input array is flushed by no one and any other buffer is bypassed. -/
theorem B6_of (c : Dev nD) (r : Ref sig .tc) (h : r ∉ ([main_v10] : List (Ref sig .tc))) : B6 m ρ c r = B5 m ρ c r := by
  by_cases hx : ∃ w, Pipeline.arrRef spec2 w = r
  · obtain ⟨w, rfl⟩ := hx
    match w, h with
    | ⟨0, _⟩, _ => exact (B6_arr m ρ c 0).trans (((dat2 (E5 m ρ) c).arrAt_in 0 rfl _).trans (A_eq2 (E5 m ρ) c 0))
    | ⟨1, _⟩, _ => exact (B6_arr m ρ c 1).trans (((dat2 (E5 m ρ) c).arrAt_in 1 rfl _).trans (A_eq2 (E5 m ρ) c 1))
    | ⟨2, _⟩, _ => exact (B6_arr m ρ c 2).trans (((dat2 (E5 m ρ) c).arrAt_in 2 rfl _).trans (A_eq2 (E5 m ρ) c 2))
    | ⟨3, _⟩, _ => exact (B6_arr m ρ c 3).trans (((dat2 (E5 m ρ) c).arrAt_in 3 rfl _).trans (A_eq2 (E5 m ρ) c 3))
    | ⟨4, _⟩, _ => exact (B6_arr m ρ c 4).trans (((dat2 (E5 m ρ) c).arrAt_in 4 rfl _).trans (A_eq2 (E5 m ρ) c 4))
    | ⟨5, _⟩, h => exact absurd (show Pipeline.arrRef spec2 (5 : Fin cfg2.W) ∈ ([main_v10] : List (Ref sig .tc)) by decide) h
  · exact B6_of_ne m ρ c r fun w e => hx ⟨w, e⟩

/-- After the host stretch `hostOps3`. -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
theorem B7_of (c : Dev nD) (r : Ref sig .tc) (h : r ∉ hostOps3_W) : B7 m ρ c r = B6 m ρ c r :=
  StableHlo.after_of_writes_sub hostOps3 _ hostOps3_writes h

/-- After the host stretch `hostOps3_1`. -/
abbrev B8 : Dev nD → Valuation τ sig (Elt F) := fun c => StableHlo.after hostOps3_1 (B7 m ρ c)
abbrev E8 : (c : Dev nD) → (b : Ref sig .tc) → Buf (Elt F) ((c : Thread nD τ).loc b) := fun c b => B8 m ρ c b
theorem B8_of (c : Dev nD) (r : Ref sig .tc) (h : r ∉ hostOps3_1_W) : B8 m ρ c r = B7 m ρ c r :=
  StableHlo.after_of_writes_sub hostOps3_1 _ hostOps3_1_writes h

/-- After the host stretch `hostOps3_2`. -/
abbrev B9 : Dev nD → Valuation τ sig (Elt F) := fun c => StableHlo.after hostOps3_2 (B8 m ρ c)
abbrev E9 : (c : Dev nD) → (b : Ref sig .tc) → Buf (Elt F) ((c : Thread nD τ).loc b) := fun c b => B9 m ρ c b
theorem B9_of (c : Dev nD) (r : Ref sig .tc) (h : r ∉ hostOps3_2_W) : B9 m ρ c r = B8 m ρ c r :=
  StableHlo.after_of_writes_sub hostOps3_2 _ hostOps3_2_writes h

/-- After the host stretch `hostOps3_3`. -/
abbrev B10 : Dev nD → Valuation τ sig (Elt F) := fun c => StableHlo.after hostOps3_3 (B9 m ρ c)
abbrev E10 : (c : Dev nD) → (b : Ref sig .tc) → Buf (Elt F) ((c : Thread nD τ).loc b) := fun c b => B10 m ρ c b
theorem B10_of (c : Dev nD) (r : Ref sig .tc) (h : r ∉ hostOps3_3_W) : B10 m ρ c r = B9 m ρ c r :=
  StableHlo.after_of_writes_sub hostOps3_3 _ hostOps3_3_writes h

/-- After the host stretch `hostOps3_4`. -/
abbrev B11 : Dev nD → Valuation τ sig (Elt F) := fun c => StableHlo.after hostOps3_4 (B10 m ρ c)
abbrev E11 : (c : Dev nD) → (b : Ref sig .tc) → Buf (Elt F) ((c : Thread nD τ).loc b) := fun c b => B11 m ρ c b
theorem B11_of (c : Dev nD) (r : Ref sig .tc) (h : r ∉ hostOps3_4_W) : B11 m ρ c r = B10 m ρ c r :=
  StableHlo.after_of_writes_sub hostOps3_4 _ hostOps3_4_writes h

/-- After the host stretch `hostOps3_5`. -/
abbrev B12 : Dev nD → Valuation τ sig (Elt F) := fun c => StableHlo.after hostOps3_5 (B11 m ρ c)
abbrev E12 : (c : Dev nD) → (b : Ref sig .tc) → Buf (Elt F) ((c : Thread nD τ).loc b) := fun c b => B12 m ρ c b
theorem B12_of (c : Dev nD) (r : Ref sig .tc) (h : r ∉ hostOps3_5_W) : B12 m ρ c r = B11 m ρ c r :=
  StableHlo.after_of_writes_sub hostOps3_5 _ hostOps3_5_writes h

/-- After the host stretch `hostOps3_6`. -/
abbrev B13 : Dev nD → Valuation τ sig (Elt F) := fun c => StableHlo.after hostOps3_6 (B12 m ρ c)
abbrev E13 : (c : Dev nD) → (b : Ref sig .tc) → Buf (Elt F) ((c : Thread nD τ).loc b) := fun c b => B13 m ρ c b
theorem B13_of (c : Dev nD) (r : Ref sig .tc) (h : r ∉ hostOps3_6_W) : B13 m ρ c r = B12 m ρ c r :=
  StableHlo.after_of_writes_sub hostOps3_6 _ hostOps3_6_writes h

/-- After the host stretch `hostOps3_7`. -/
abbrev B14 : Dev nD → Valuation τ sig (Elt F) := fun c => StableHlo.after hostOps3_7 (B13 m ρ c)
abbrev E14 : (c : Dev nD) → (b : Ref sig .tc) → Buf (Elt F) ((c : Thread nD τ).loc b) := fun c b => B14 m ρ c b
theorem B14_of (c : Dev nD) (r : Ref sig .tc) (h : r ∉ hostOps3_7_W) : B14 m ρ c r = B13 m ρ c r :=
  StableHlo.after_of_writes_sub hostOps3_7 _ hostOps3_7_writes h

/-- After the host stretch `hostOps3_8`. -/
abbrev B15 : Dev nD → Valuation τ sig (Elt F) := fun c => StableHlo.after hostOps3_8 (B14 m ρ c)
abbrev E15 : (c : Dev nD) → (b : Ref sig .tc) → Buf (Elt F) ((c : Thread nD τ).loc b) := fun c b => B15 m ρ c b
theorem B15_of (c : Dev nD) (r : Ref sig .tc) (h : r ∉ hostOps3_8_W) : B15 m ρ c r = B14 m ρ c r :=
  StableHlo.after_of_writes_sub hostOps3_8 _ hostOps3_8_writes h

/-- After the host stretch `hostOps3_9`. -/
abbrev B16 : Dev nD → Valuation τ sig (Elt F) := fun c => StableHlo.after hostOps3_9 (B15 m ρ c)
abbrev E16 : (c : Dev nD) → (b : Ref sig .tc) → Buf (Elt F) ((c : Thread nD τ).loc b) := fun c b => B16 m ρ c b
theorem B16_of (c : Dev nD) (r : Ref sig .tc) (h : r ∉ hostOps3_9_W) : B16 m ρ c r = B15 m ρ c r :=
  StableHlo.after_of_writes_sub hostOps3_9 _ hostOps3_9_writes h

/-- After the host stretch `hostOps3_10`. -/
abbrev B17 : Dev nD → Valuation τ sig (Elt F) := fun c => StableHlo.after hostOps3_10 (B16 m ρ c)
abbrev E17 : (c : Dev nD) → (b : Ref sig .tc) → Buf (Elt F) ((c : Thread nD τ).loc b) := fun c b => B17 m ρ c b
theorem B17_of (c : Dev nD) (r : Ref sig .tc) (h : r ∉ hostOps3_10_W) : B17 m ρ c r = B16 m ρ c r :=
  StableHlo.after_of_writes_sub hostOps3_10 _ hostOps3_10_writes h

/-- After the host stretch `hostOps3_11`. -/
abbrev B18 : Dev nD → Valuation τ sig (Elt F) := fun c => StableHlo.after hostOps3_11 (B17 m ρ c)
abbrev E18 : (c : Dev nD) → (b : Ref sig .tc) → Buf (Elt F) ((c : Thread nD τ).loc b) := fun c b => B18 m ρ c b
theorem B18_of (c : Dev nD) (r : Ref sig .tc) (h : r ∉ hostOps3_11_W) : B18 m ρ c r = B17 m ρ c r :=
  StableHlo.after_of_writes_sub hostOps3_11 _ hostOps3_11_writes h

/-- After the host stretch `hostOps3_12`. -/
abbrev B19 : Dev nD → Valuation τ sig (Elt F) := fun c => StableHlo.after hostOps3_12 (B18 m ρ c)
abbrev E19 : (c : Dev nD) → (b : Ref sig .tc) → Buf (Elt F) ((c : Thread nD τ).loc b) := fun c b => B19 m ρ c b
theorem B19_of (c : Dev nD) (r : Ref sig .tc) (h : r ∉ hostOps3_12_W) : B19 m ρ c r = B18 m ρ c r :=
  StableHlo.after_of_writes_sub hostOps3_12 _ hostOps3_12_writes h

/-- After the host stretch `hostOps3_13`. -/
abbrev B20 : Dev nD → Valuation τ sig (Elt F) := fun c => StableHlo.after hostOps3_13 (B19 m ρ c)
abbrev E20 : (c : Dev nD) → (b : Ref sig .tc) → Buf (Elt F) ((c : Thread nD τ).loc b) := fun c b => B20 m ρ c b
theorem B20_of (c : Dev nD) (r : Ref sig .tc) (h : r ∉ hostOps3_13_W) : B20 m ρ c r = B19 m ρ c r :=
  StableHlo.after_of_writes_sub hostOps3_13 _ hostOps3_13_writes h

/-- After the host stretch `hostOps3_14`. -/
abbrev B21 : Dev nD → Valuation τ sig (Elt F) := fun c => StableHlo.after hostOps3_14 (B20 m ρ c)
abbrev E21 : (c : Dev nD) → (b : Ref sig .tc) → Buf (Elt F) ((c : Thread nD τ).loc b) := fun c b => B21 m ρ c b
theorem B21_of (c : Dev nD) (r : Ref sig .tc) (h : r ∉ hostOps3_14_W) : B21 m ρ c r = B20 m ρ c r :=
  StableHlo.after_of_writes_sub hostOps3_14 _ hostOps3_14_writes h

/-- After the host stretch `hostOps3_15`. -/
abbrev B22 : Dev nD → Valuation τ sig (Elt F) := fun c => StableHlo.after hostOps3_15 (B21 m ρ c)
abbrev E22 : (c : Dev nD) → (b : Ref sig .tc) → Buf (Elt F) ((c : Thread nD τ).loc b) := fun c b => B22 m ρ c b
theorem B22_of (c : Dev nD) (r : Ref sig .tc) (h : r ∉ hostOps3_15_W) : B22 m ρ c r = B21 m ρ c r :=
  StableHlo.after_of_writes_sub hostOps3_15 _ hostOps3_15_writes h

/-- After the host stretch `hostOps3_16`. -/
abbrev B23 : Dev nD → Valuation τ sig (Elt F) := fun c => StableHlo.after hostOps3_16 (B22 m ρ c)
abbrev E23 : (c : Dev nD) → (b : Ref sig .tc) → Buf (Elt F) ((c : Thread nD τ).loc b) := fun c b => B23 m ρ c b
theorem B23_of (c : Dev nD) (r : Ref sig .tc) (h : r ∉ hostOps3_16_W) : B23 m ρ c r = B22 m ρ c r :=
  StableHlo.after_of_writes_sub hostOps3_16 _ hostOps3_16_writes h

/-- A buffer that no host stretch writes and that is no region's output ends as launched. -/
theorem B23_of_untouched (c : Dev nD) (r : Ref sig .tc) (h0 : r ∉ hostOps0_W) (h1 : r ∉ ([main_v3_0, main_v3_1, main_v3_2] : List (Ref sig .tc))) (h2 : r ∉ hostOps1_W) (h3 : r ∉ ([main_v7] : List (Ref sig .tc))) (h4 : r ∉ hostOps2_W) (h5 : r ∉ ([main_v10] : List (Ref sig .tc))) (h6 : r ∉ hostOps3_W) (h7 : r ∉ hostOps3_1_W) (h8 : r ∉ hostOps3_2_W) (h9 : r ∉ hostOps3_3_W) (h10 : r ∉ hostOps3_4_W) (h11 : r ∉ hostOps3_5_W) (h12 : r ∉ hostOps3_6_W) (h13 : r ∉ hostOps3_7_W) (h14 : r ∉ hostOps3_8_W) (h15 : r ∉ hostOps3_9_W) (h16 : r ∉ hostOps3_10_W) (h17 : r ∉ hostOps3_11_W) (h18 : r ∉ hostOps3_12_W) (h19 : r ∉ hostOps3_13_W) (h20 : r ∉ hostOps3_14_W) (h21 : r ∉ hostOps3_15_W) (h22 : r ∉ hostOps3_16_W) :
    B23 m ρ c r = m ((c : Thread nD τ).loc r) :=
  (B23_of m ρ c r h22).trans <| (B22_of m ρ c r h21).trans <| (B21_of m ρ c r h20).trans <| (B20_of m ρ c r h19).trans <| (B19_of m ρ c r h18).trans <| (B18_of m ρ c r h17).trans <| (B17_of m ρ c r h16).trans <| (B16_of m ρ c r h15).trans <| (B15_of m ρ c r h14).trans <| (B14_of m ρ c r h13).trans <| (B13_of m ρ c r h12).trans <| (B12_of m ρ c r h11).trans <| (B11_of m ρ c r h10).trans <| (B10_of m ρ c r h9).trans <| (B9_of m ρ c r h8).trans <| (B8_of m ρ c r h7).trans <| (B7_of m ρ c r h6).trans <| (B6_of m ρ c r h5).trans <| (B5_of m ρ c r h4).trans <| (B4_of m ρ c r h3).trans <| (B3_of m ρ c r h2).trans <| (B2_of m ρ c r h1).trans <| (B1_of m ρ c r h0)

theorem B23_main_arg0 (c : Dev nD) : B23 m ρ c main_arg0 = m ((c : Thread nD τ).loc main_arg0) :=
  B23_of_untouched m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg1 (c : Dev nD) : B23 m ρ c main_arg1 = m ((c : Thread nD τ).loc main_arg1) :=
  B23_of_untouched m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg2 (c : Dev nD) : B23 m ρ c main_arg2 = m ((c : Thread nD τ).loc main_arg2) :=
  B23_of_untouched m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg3 (c : Dev nD) : B23 m ρ c main_arg3 = m ((c : Thread nD τ).loc main_arg3) :=
  B23_of_untouched m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg4 (c : Dev nD) : B23 m ρ c main_arg4 = m ((c : Thread nD τ).loc main_arg4) :=
  B23_of_untouched m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg5 (c : Dev nD) : B23 m ρ c main_arg5 = m ((c : Thread nD τ).loc main_arg5) :=
  B23_of_untouched m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg6 (c : Dev nD) : B23 m ρ c main_arg6 = m ((c : Thread nD τ).loc main_arg6) :=
  B23_of_untouched m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg7 (c : Dev nD) : B23 m ρ c main_arg7 = m ((c : Thread nD τ).loc main_arg7) :=
  B23_of_untouched m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg8 (c : Dev nD) : B23 m ρ c main_arg8 = m ((c : Thread nD τ).loc main_arg8) :=
  B23_of_untouched m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg9 (c : Dev nD) : B23 m ρ c main_arg9 = m ((c : Thread nD τ).loc main_arg9) :=
  B23_of_untouched m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg10 (c : Dev nD) : B23 m ρ c main_arg10 = m ((c : Thread nD τ).loc main_arg10) :=
  B23_of_untouched m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg11 (c : Dev nD) : B23 m ρ c main_arg11 = m ((c : Thread nD τ).loc main_arg11) :=
  B23_of_untouched m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg12 (c : Dev nD) : B23 m ρ c main_arg12 = m ((c : Thread nD τ).loc main_arg12) :=
  B23_of_untouched m ρ c main_arg12 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg13 (c : Dev nD) : B23 m ρ c main_arg13 = m ((c : Thread nD τ).loc main_arg13) :=
  B23_of_untouched m ρ c main_arg13 (by decide) (by decide) (by decide) (by decide) (by decide) (by decide) (by decide) (by decide) (by decide) (by decide) (by decide) (by decide) (by decide) (by decide) (by decide) (by decide) (by decide) (by decide) (by decide) (by decide) (by decide) (by decide) (by decide)
theorem B23_main_arg14 (c : Dev nD) : B23 m ρ c main_arg14 = m ((c : Thread nD τ).loc main_arg14) :=
  B23_of_untouched m ρ c main_arg14 (by decide) (by decide) (by decide) (by decide) (by decide) (by decide) (by decide) (by decide) (by decide) (by decide) (by decide) (by decide) (by decide) (by decide) (by decide) (by decide) (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c

/-- No core owes another anything: no level is assigned. -/
abbrev Lz : GSem nD τ sig → Finset Unit := fun _ => ∅
abbrev lvz : GSem nD τ sig → Unit → ℕ := fun _ _ => 0
/-- What rides beside the buffers through every item: the core's generator register at some state and its dues, none. -/
abbrev Rst (c : Dev nD) : sProp 𝕄 := iprop((∃ r, prngReg c r) ∗ ∃ W, owes (c : Thread nD τ) (0 : CellTallies nD τ sig Unit) W)
/-- A host stretch as a segment over the unscoped buffers from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the dues. -/
abbrev Tfin (c : Dev nD) : sProp 𝕄 := iprop(StableHlo.held (c : Thread nD τ) (Pipeline.ucRefs τ sig) (B23 m ρ c) ∗ ∃ r, prngReg c r)

/-! ## The regions as segments -/

set_option backward.isDefEq.respectTransparency.types false in
/-- Region 0 over the thread state: entered from every unscoped buffer at `B1`, left at `B2`. Its arrays are split
    out of the unscoped buffers and put back at the exit contents; the generator register goes into the kernel's
    invariant and comes back; nothing is owed; the kernel has no semaphore of its own. -/
def reg0 : Pipeline.RegionSeg (pcfgs (F := F)) adm (pdats m ρ) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lz lvz 0 fun _ _ => rfl
  pre c := iprop(StableHlo.held (c : Thread nD τ) (Pipeline.ucRefs τ sig) (B1 m ρ c) ∗ Rst c)
  post c := iprop(StableHlo.held (c : Thread nD τ) (Pipeline.ucRefs τ sig) (B2 m ρ c) ∗ Rst c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split
    out of the unscoped buffers and put back at the exit contents; the generator register goes into the kernel's
    invariant and comes back; nothing is owed; the kernel has no semaphore of its own. -/
def reg1 : Pipeline.RegionSeg (pcfgs (F := F)) adm (pdats m ρ) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lz lvz 1 fun _ _ => rfl
  pre c := iprop(StableHlo.held (c : Thread nD τ) (Pipeline.ucRefs τ sig) (B3 m ρ c) ∗ Rst c)
  post c := iprop(StableHlo.held (c : Thread nD τ) (Pipeline.ucRefs τ sig) (B4 m ρ c) ∗ Rst c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest spec1 c ∗ ∃ r, prngReg c r) : sProp 𝕄) ⊢ (dat1 (E3 m ρ) c).Φ 0 := by
      have h := hin1 (E3 m ρ) c; unfold Pipeline.ΦA at h; exact h
    rw [show (pdats m ρ 1 c).Φ 0 = (dat1 (E3 m ρ) c).Φ 0 from rfl]
    iintro ⟨Hp, -, Hr⟩
    iapply h1
    isplitl [Hr]; · iexact Hr
    iexact Hp
  hout c := by
    have h2 : (dat1 (E3 m ρ) c).Φ (Fin.last cfg1.N) ⊢ (iprop(Pipeline.scopedRest spec1 c ∗ ∃ r, prngReg c r) : sProp 𝕄) := by
      have h := hout1 (E3 m ρ) c; unfold Pipeline.ΦA at h; exact h
    rw [Pipeline.ownSems0_none, show (pdats m ρ 1 c).Φ (Fin.last _) = (dat1 (E3 m ρ) c).Φ (Fin.last cfg1.N) from rfl]
    iintro Hphi
    ihave Hsplit := h2 $$ [Hphi]
    · iexact Hphi
    icases Hsplit with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split
    out of the unscoped buffers and put back at the exit contents; the generator register goes into the kernel's
    invariant and comes back; nothing is owed; the kernel has no semaphore of its own. -/
def reg2 : Pipeline.RegionSeg (pcfgs (F := F)) adm (pdats m ρ) () defs₀ Variants.none Lz lvz 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lz lvz 2 fun _ _ => rfl
  pre c := iprop(StableHlo.held (c : Thread nD τ) (Pipeline.ucRefs τ sig) (B5 m ρ c) ∗ Rst c)
  post c := iprop(StableHlo.held (c : Thread nD τ) (Pipeline.ucRefs τ sig) (B6 m ρ c) ∗ Rst c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 23 items in order. -/
abbrev segList : List (Pipeline.Seg (pcfgs (F := F)) adm (pdats m ρ) () defs₀ Variants.none Lz lvz) :=
  [ .host (hostSeg hostOps0 hostOps0_sub hostOps0_fresh (B0 m ρ)),
    .region (reg0 m ρ),
    .host (hostSeg hostOps1 hostOps1_sub hostOps1_fresh (B2 m ρ)),
    .region (reg1 m ρ),
    .host (hostSeg hostOps2 hostOps2_sub hostOps2_fresh (B4 m ρ)),
    .region (reg2 m ρ),
    .host (hostSeg hostOps3 hostOps3_sub hostOps3_fresh (B6 m ρ)),
    .host (hostSeg hostOps3_1 hostOps3_1_sub hostOps3_1_fresh (B7 m ρ)),
    .host (hostSeg hostOps3_2 hostOps3_2_sub hostOps3_2_fresh (B8 m ρ)),
    .host (hostSeg hostOps3_3 hostOps3_3_sub hostOps3_3_fresh (B9 m ρ)),
    .host (hostSeg hostOps3_4 hostOps3_4_sub hostOps3_4_fresh (B10 m ρ)),
    .host (hostSeg hostOps3_5 hostOps3_5_sub hostOps3_5_fresh (B11 m ρ)),
    .host (hostSeg hostOps3_6 hostOps3_6_sub hostOps3_6_fresh (B12 m ρ)),
    .host (hostSeg hostOps3_7 hostOps3_7_sub hostOps3_7_fresh (B13 m ρ)),
    .host (hostSeg hostOps3_8 hostOps3_8_sub hostOps3_8_fresh (B14 m ρ)),
    .host (hostSeg hostOps3_9 hostOps3_9_sub hostOps3_9_fresh (B15 m ρ)),
    .host (hostSeg hostOps3_10 hostOps3_10_sub hostOps3_10_fresh (B16 m ρ)),
    .host (hostSeg hostOps3_11 hostOps3_11_sub hostOps3_11_fresh (B17 m ρ)),
    .host (hostSeg hostOps3_12 hostOps3_12_sub hostOps3_12_fresh (B18 m ρ)),
    .host (hostSeg hostOps3_13 hostOps3_13_sub hostOps3_13_fresh (B19 m ρ)),
    .host (hostSeg hostOps3_14 hostOps3_14_sub hostOps3_14_fresh (B20 m ρ)),
    .host (hostSeg hostOps3_15 hostOps3_15_sub hostOps3_15_fresh (B21 m ρ)),
    .host (hostSeg hostOps3_16 hostOps3_16_sub hostOps3_16_fresh (B22 m ρ)) ]

theorem main_run (c : Dev nD) : main (F := F) c = Pipeline.Seg.run (segList m ρ) := (main_chain c).trans (by chain_rfl)

set_option backward.isDefEq.respectTransparency.types false in
/-- From any memory with zero counters every weakly fair execution of the program on the TensorCores terminates,
    nothing faulting, and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = B23 m ρ c b) :=
  Pipeline.θ_run_regions_kit (pcfgs (F := F)) adm (pdats m ρ) () cellOf_inj emb₁ defs₀ Variants.none Lz lvz m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rst c)) (Tₙ := Tfin m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (B23 m ρ c) ∗ Rst c) : sProp 𝕄)
        ⊢ iprop(Tfin m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B23 m ρ c b)
    (hfin := fun c s' => by
      iintro ⟨⟨Hh, -⟩, HSI⟩
      unfold StableHlo.held
      imodintro
      iapply (pointsTo_read_all (Pipeline.ucRefs τ sig) (fun b => (((c : Thread nD τ)).1, b)) (B23 m ρ c) s')
      isplitl [Hh] <;> iassumption)
    (hQ := fun s h c => h c)

end Cert.KernelIdeal.Hand

end
-- ==== Proof.KI.Frame.lean ====
import proofs.«110368_j31911607009638_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame: every argument array ends as launched -/

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- From any memory with zero counters every weakly fair execution of the program terminates, nothing faulting, and
    every final state has the fifteen argument arrays as launched: the run's last boundary read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (B23_main_arg0 m ρ c),
     (h c _ (mem_uc main_arg1 (by decide))).trans (B23_main_arg1 m ρ c),
     (h c _ (mem_uc main_arg2 (by decide))).trans (B23_main_arg2 m ρ c),
     (h c _ (mem_uc main_arg3 (by decide))).trans (B23_main_arg3 m ρ c),
     (h c _ (mem_uc main_arg4 (by decide))).trans (B23_main_arg4 m ρ c),
     (h c _ (mem_uc main_arg5 (by decide))).trans (B23_main_arg5 m ρ c),
     (h c _ (mem_uc main_arg6 (by decide))).trans (B23_main_arg6 m ρ c),
     (h c _ (mem_uc main_arg7 (by decide))).trans (B23_main_arg7 m ρ c),
     (h c _ (mem_uc main_arg8 (by decide))).trans (B23_main_arg8 m ρ c),
     (h c _ (mem_uc main_arg9 (by decide))).trans (B23_main_arg9 m ρ c),
     (h c _ (mem_uc main_arg10 (by decide))).trans (B23_main_arg10 m ρ c),
     (h c _ (mem_uc main_arg11 (by decide))).trans (B23_main_arg11 m ρ c),
     (h c _ (mem_uc main_arg12 (by decide))).trans (B23_main_arg12 m ρ c),
     (h c _ (mem_uc main_arg13 (by decide))).trans (B23_main_arg13 m ρ c),
     (h c _ (mem_uc main_arg14 (by decide))).trans (B23_main_arg14 m ρ c)⟩)
    (run m ρ)

end Cert.KernelIdeal.Hand

end
-- ==== Proof.KI.RunResult.lean ====
import proofs.«110368_j31911607009638_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run, re-posted for the result: the result buffer at the last boundary's contents, the arguments as launched -/

variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
      r.2.mem ((c.tc : Thread nD τ).loc main_v46) = B23 m ρ c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v46 (by decide)),
     (h c _ (mem_uc main_arg0 (by decide))).trans (B23_main_arg0 m ρ c),
     (h c _ (mem_uc main_arg1 (by decide))).trans (B23_main_arg1 m ρ c),
     (h c _ (mem_uc main_arg2 (by decide))).trans (B23_main_arg2 m ρ c),
     (h c _ (mem_uc main_arg3 (by decide))).trans (B23_main_arg3 m ρ c),
     (h c _ (mem_uc main_arg4 (by decide))).trans (B23_main_arg4 m ρ c),
     (h c _ (mem_uc main_arg5 (by decide))).trans (B23_main_arg5 m ρ c),
     (h c _ (mem_uc main_arg6 (by decide))).trans (B23_main_arg6 m ρ c),
     (h c _ (mem_uc main_arg7 (by decide))).trans (B23_main_arg7 m ρ c),
     (h c _ (mem_uc main_arg8 (by decide))).trans (B23_main_arg8 m ρ c),
     (h c _ (mem_uc main_arg9 (by decide))).trans (B23_main_arg9 m ρ c),
     (h c _ (mem_uc main_arg10 (by decide))).trans (B23_main_arg10 m ρ c),
     (h c _ (mem_uc main_arg11 (by decide))).trans (B23_main_arg11 m ρ c),
     (h c _ (mem_uc main_arg12 (by decide))).trans (B23_main_arg12 m ρ c),
     (h c _ (mem_uc main_arg13 (by decide))).trans (B23_main_arg13 m ρ c),
     (h c _ (mem_uc main_arg14 (by decide))).trans (B23_main_arg14 m ρ c)⟩)
    (run m ρ)

end Cert.KernelIdeal.Hand

end
-- ==== Proof.KI.Region0Value.lean ====
import proofs.«110368_j31911607009638_1_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0's arrays after the region

The grid has one point and every block is its whole array, so each output array ends holding the body's result of
the input arrays themselves. -/

variable (V : (c : Dev nD) → (b : Ref sig .tc) → Buf (Elt F) ((c : Thread nD τ).loc b))

theorem hz2 : (![0, 0] : Fin 2 → Nat) = fun _ => 0 := funext fun a => by fin_cases a <;> rfl

/-- Every window's block index is zero on both axes at the one grid point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Window 0's block embeds an index of the block as the same index of the array. -/
theorem emb0_0 (t : Fin cfg0.N) (j : S512x128.Idx) : ((cfg0.win 0).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_0.index t (0 : Fin 2) * 512 + 1 * (j 0).val = (j 0).val; omega
  | ⟨1, _⟩ => show win0_0.index t (1 : Fin 2) * 128 + 1 * (j 1).val = (j 1).val; omega

/-- Window 1's block embeds an index of the block as the same index of the array. -/
theorem emb0_1 (t : Fin cfg0.N) (j : S256x128.Idx) : ((cfg0.win 1).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_1.index t (0 : Fin 2) * 256 + 1 * (j 0).val = (j 0).val; omega
  | ⟨1, _⟩ => show win0_1.index t (1 : Fin 2) * 128 + 1 * (j 1).val = (j 1).val; omega

/-- Window 2's block embeds an index of the block as the same index of the array. -/
theorem emb0_2 (t : Fin cfg0.N) (j : S1x256.Idx) : ((cfg0.win 2).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

/-- Window 3's block embeds an index of the block as the same index of the array. -/
theorem emb0_3 (t : Fin cfg0.N) (j : S768x256.Idx) : ((cfg0.win 3).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_3.index t (0 : Fin 2) * 768 + 1 * (j 0).val = (j 0).val; omega
  | ⟨1, _⟩ => show win0_3.index t (1 : Fin 2) * 256 + 1 * (j 1).val = (j 1).val; omega

/-- Window 4's block embeds an index of the block as the same index of the array. -/
theorem emb0_4 (t : Fin cfg0.N) (j : S1x768.Idx) : ((cfg0.win 4).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_4.index t (0 : Fin 2) * 1 + 1 * (j 0).val = (j 0).val; omega
  | ⟨1, _⟩ => show win0_4.index t (1 : Fin 2) * 768 + 1 * (j 1).val = (j 1).val; omega

/-- Window 5's block embeds an index of the block as the same index of the array. -/
theorem emb0_5 (t : Fin cfg0.N) (j : S256x256.Idx) : ((cfg0.win 5).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_5.index t (0 : Fin 2) * 256 + 1 * (j 0).val = (j 0).val; omega
  | ⟨1, _⟩ => show win0_5.index t (1 : Fin 2) * 256 + 1 * (j 1).val = (j 1).val; omega

/-- Window 6's block embeds an index of the block as the same index of the array. -/
theorem emb0_6 (t : Fin cfg0.N) (j : S1x256.Idx) : ((cfg0.win 6).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_6.index t (0 : Fin 2) * 1 + 1 * (j 0).val = (j 0).val; omega
  | ⟨1, _⟩ => show win0_6.index t (1 : Fin 2) * 256 + 1 * (j 1).val = (j 1).val; omega

/-- Window 7's block embeds an index of the block as the same index of the array. -/
theorem emb0_7 (t : Fin cfg0.N) (j : S256x512.Idx) : ((cfg0.win 7).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_7.index t (0 : Fin 2) * 256 + 1 * (j 0).val = (j 0).val; omega
  | ⟨1, _⟩ => show win0_7.index t (1 : Fin 2) * 512 + 1 * (j 1).val = (j 1).val; omega

/-- Window 8's block embeds an index of the block as the same index of the array. -/
theorem emb0_8 (t : Fin cfg0.N) (j : S512x256.Idx) : ((cfg0.win 8).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_8.index t (0 : Fin 2) * 512 + 1 * (j 0).val = (j 0).val; omega
  | ⟨1, _⟩ => show win0_8.index t (1 : Fin 2) * 256 + 1 * (j 1).val = (j 1).val; omega

/-- Window 9's block embeds an index of the block as the same index of the array. -/
theorem emb0_9 (t : Fin cfg0.N) (j : S512x256.Idx) : ((cfg0.win 9).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_9.index t (0 : Fin 2) * 512 + 1 * (j 0).val = (j 0).val; omega
  | ⟨1, _⟩ => show win0_9.index t (1 : Fin 2) * 256 + 1 * (j 1).val = (j 1).val; omega

/-- Window 10's block embeds an index of the block as the same index of the array. -/
theorem emb0_10 (t : Fin cfg0.N) (j : S512x256.Idx) : ((cfg0.win 10).blk t).view.emb j = j := by
  obtain ⟨e0, e1, e2, e3, e4, e5, e6, e7, e8, e9, e10, e11, e12, e13, e14, e15, e16, e17, e18, e19, e20, e21⟩ := idx_facts0 t
  funext a; apply Fin.ext
  match a with
  | ⟨0, _⟩ => show win0_10.index t (0 : Fin 2) * 512 + 1 * (j 0).val = (j 0).val; omega
  | ⟨1, _⟩ => show win0_10.index t (1 : Fin 2) * 256 + 1 * (j 1).val = (j 1).val; omega

/-- Input window 0's block is its whole array. -/
theorem iblk0_0 (c : Dev nD) (t : Fin cfg0.N) : iblk0 V c 0 t = V c (Pipeline.arrRef spec0 0) := by
  funext j
  unfold iblk0
  show V c (Pipeline.arrRef spec0 0) (((cfg0.win 0).blk t).view.emb j) = V c (Pipeline.arrRef spec0 0) j
  rw [emb0_0]

/-- Input window 1's block is its whole array. -/
theorem iblk0_1 (c : Dev nD) (t : Fin cfg0.N) : iblk0 V c 1 t = V c (Pipeline.arrRef spec0 1) := by
  funext j
  unfold iblk0
  show V c (Pipeline.arrRef spec0 1) (((cfg0.win 1).blk t).view.emb j) = V c (Pipeline.arrRef spec0 1) j
  rw [emb0_1]

/-- Input window 2's block is its whole array. -/
theorem iblk0_2 (c : Dev nD) (t : Fin cfg0.N) : iblk0 V c 2 t = V c (Pipeline.arrRef spec0 2) := by
  funext j
  unfold iblk0
  show V c (Pipeline.arrRef spec0 2) (((cfg0.win 2).blk t).view.emb j) = V c (Pipeline.arrRef spec0 2) j
  rw [emb0_2]

/-- Input window 3's block is its whole array. -/
theorem iblk0_3 (c : Dev nD) (t : Fin cfg0.N) : iblk0 V c 3 t = V c (Pipeline.arrRef spec0 3) := by
  funext j
  unfold iblk0
  show V c (Pipeline.arrRef spec0 3) (((cfg0.win 3).blk t).view.emb j) = V c (Pipeline.arrRef spec0 3) j
  rw [emb0_3]

/-- Input window 4's block is its whole array. -/
theorem iblk0_4 (c : Dev nD) (t : Fin cfg0.N) : iblk0 V c 4 t = V c (Pipeline.arrRef spec0 4) := by
  funext j
  unfold iblk0
  show V c (Pipeline.arrRef spec0 4) (((cfg0.win 4).blk t).view.emb j) = V c (Pipeline.arrRef spec0 4) j
  rw [emb0_4]

/-- Input window 5's block is its whole array. -/
theorem iblk0_5 (c : Dev nD) (t : Fin cfg0.N) : iblk0 V c 5 t = V c (Pipeline.arrRef spec0 5) := by
  funext j
  unfold iblk0
  show V c (Pipeline.arrRef spec0 5) (((cfg0.win 5).blk t).view.emb j) = V c (Pipeline.arrRef spec0 5) j
  rw [emb0_5]

/-- Input window 6's block is its whole array. -/
theorem iblk0_6 (c : Dev nD) (t : Fin cfg0.N) : iblk0 V c 6 t = V c (Pipeline.arrRef spec0 6) := by
  funext j
  unfold iblk0
  show V c (Pipeline.arrRef spec0 6) (((cfg0.win 6).blk t).view.emb j) = V c (Pipeline.arrRef spec0 6) j
  rw [emb0_6]

/-- Input window 7's block is its whole array. -/
theorem iblk0_7 (c : Dev nD) (t : Fin cfg0.N) : iblk0 V c 7 t = V c (Pipeline.arrRef spec0 7) := by
  funext j
  unfold iblk0
  show V c (Pipeline.arrRef spec0 7) (((cfg0.win 7).blk t).view.emb j) = V c (Pipeline.arrRef spec0 7) j
  rw [emb0_7]

/-- Output window 8's array after the region, as a function of the region's input arrays. -/
def G0_8 (c : Dev nD) : S512x256.Idx → Elt F .f32 :=
  k0_pay4 (V c (Pipeline.arrRef spec0 0)) (V c (Pipeline.arrRef spec0 1)) (V c (Pipeline.arrRef spec0 2))

/-- What the one grid point writes back into window 8's array. -/
theorem flushed0_8_eq (c : Dev nD) (t : Fin cfg0.N) :
    (dat0 V c).flushed 8 t = ((cfg0.win 8).blk t).view.read (Elt F) (G0_8 V c) := by
  show (cfg0.win 8).cut (grid0.coords t) ((dat0 V c).after 8 t) = _
  rw [after0_8]
  unfold out0_8
  rw [View.canon_unit_zero hz2]
  simp only [View.ld_unit_zero (S := S512x128) hz2, View.ld_unit_zero (S := S256x128) hz2, View.ld_unit_zero (S := S1x256) hz2]
  rw [iblk0_0, iblk0_1, iblk0_2]
  funext j
  show G0_8 V c j = G0_8 V c (((cfg0.win 8).blk t).view.emb j)
  rw [emb0_8]

/-- An index of the array lies in the point's block iff each coordinate lies in the block's range. -/
theorem mem_blk0_8 (t : Fin cfg0.N) (i : S512x256.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v3_0).slice (win0_8.rect t)).set ↔ _
  rw [View.set_slice_whole, Rect.mem_set_unit]
  exact Iff.rfl

/-- The one block covers the array. -/
theorem cover0_8 (i : S512x256.Idx) : ∃ t : Fin cfg0.N, (cfg0.win 8).flush t = true ∧ i ∈ ((cfg0.win 8).blk t).view.set := by
  refine ⟨t0_0, flush0_8 t0_0, ?_⟩
  obtain ⟨e0, e1, e2, e3, e4, e5, e6, e7, e8, e9, e10, e11, e12, e13, e14, e15, e16, e17, e18, e19, e20, e21⟩ := idx_facts0 t0_0
  rw [mem_blk0_8]
  intro a
  have hi0 : (i 0).val < 512 := (i 0).isLt
  have hi1 : (i 1).val < 256 := (i 1).isLt
  match a with
  | ⟨0, _⟩ => show win0_8.index t0_0 (0 : Fin 2) * 512 ≤ (i 0).val ∧ (i 0).val < win0_8.index t0_0 (0 : Fin 2) * 512 + 512; omega
  | ⟨1, _⟩ => show win0_8.index t0_0 (1 : Fin 2) * 256 ≤ (i 1).val ∧ (i 1).val < win0_8.index t0_0 (1 : Fin 2) * 256 + 256; omega

/-- Window 8's array after the region. -/
theorem final0_8 (c : Dev nD) : (dat0 V c).arrAt 8 cfg0.N = G0_8 V c :=
  (dat0 V c).arrAt_eq_of_cover 8 (G0_8 V c) (fun t _ => flushed0_8_eq V c t) (cover0_8)

/-- Output window 9's array after the region, as a function of the region's input arrays. -/
def G0_9 (c : Dev nD) : S512x256.Idx → Elt F .f32 :=
  k0_pay2 (k0_pay6 (V c (Pipeline.arrRef spec0 0)) (V c (Pipeline.arrRef spec0 1)) (V c (Pipeline.arrRef spec0 2)) (V c (Pipeline.arrRef spec0 3)) (V c (Pipeline.arrRef spec0 4))) (k0_pay7 (V c (Pipeline.arrRef spec0 0)) (V c (Pipeline.arrRef spec0 1)) (V c (Pipeline.arrRef spec0 2)) (V c (Pipeline.arrRef spec0 3)) (V c (Pipeline.arrRef spec0 4))) (V c (Pipeline.arrRef spec0 5)) (V c (Pipeline.arrRef spec0 6)) (V c (Pipeline.arrRef spec0 7))

/-- What the one grid point writes back into window 9's array. -/
theorem flushed0_9_eq (c : Dev nD) (t : Fin cfg0.N) :
    (dat0 V c).flushed 9 t = ((cfg0.win 9).blk t).view.read (Elt F) (G0_9 V c) := by
  show (cfg0.win 9).cut (grid0.coords t) ((dat0 V c).after 9 t) = _
  rw [after0_9]
  unfold out0_9
  rw [View.canon_unit_zero hz2]
  simp only [View.ld_unit_zero (S := S512x128) hz2, View.ld_unit_zero (S := S256x128) hz2, View.ld_unit_zero (S := S1x256) hz2, View.ld_unit_zero (S := S768x256) hz2, View.ld_unit_zero (S := S1x768) hz2, View.ld_unit_zero (S := S256x256) hz2, View.ld_unit_zero (S := S256x512) hz2]
  rw [iblk0_0, iblk0_1, iblk0_2, iblk0_3, iblk0_4, iblk0_5, iblk0_6, iblk0_7]
  funext j
  show G0_9 V c j = G0_9 V c (((cfg0.win 9).blk t).view.emb j)
  rw [emb0_9]

/-- An index of the array lies in the point's block iff each coordinate lies in the block's range. -/
theorem mem_blk0_9 (t : Fin cfg0.N) (i : S512x256.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v3_1).slice (win0_9.rect t)).set ↔ _
  rw [View.set_slice_whole, Rect.mem_set_unit]
  exact Iff.rfl

/-- The one block covers the array. -/
theorem cover0_9 (i : S512x256.Idx) : ∃ t : Fin cfg0.N, (cfg0.win 9).flush t = true ∧ i ∈ ((cfg0.win 9).blk t).view.set := by
  refine ⟨t0_0, flush0_9 t0_0, ?_⟩
  obtain ⟨e0, e1, e2, e3, e4, e5, e6, e7, e8, e9, e10, e11, e12, e13, e14, e15, e16, e17, e18, e19, e20, e21⟩ := idx_facts0 t0_0
  rw [mem_blk0_9]
  intro a
  have hi0 : (i 0).val < 512 := (i 0).isLt
  have hi1 : (i 1).val < 256 := (i 1).isLt
  match a with
  | ⟨0, _⟩ => show win0_9.index t0_0 (0 : Fin 2) * 512 ≤ (i 0).val ∧ (i 0).val < win0_9.index t0_0 (0 : Fin 2) * 512 + 512; omega
  | ⟨1, _⟩ => show win0_9.index t0_0 (1 : Fin 2) * 256 ≤ (i 1).val ∧ (i 1).val < win0_9.index t0_0 (1 : Fin 2) * 256 + 256; omega

/-- Window 9's array after the region. -/
theorem final0_9 (c : Dev nD) : (dat0 V c).arrAt 9 cfg0.N = G0_9 V c :=
  (dat0 V c).arrAt_eq_of_cover 9 (G0_9 V c) (fun t _ => flushed0_9_eq V c t) (cover0_9)

/-- Output window 10's array after the region, as a function of the region's input arrays. -/
def G0_10 (c : Dev nD) : S512x256.Idx → Elt F .f32 :=
  k0_pay3 (k0_pay6 (V c (Pipeline.arrRef spec0 0)) (V c (Pipeline.arrRef spec0 1)) (V c (Pipeline.arrRef spec0 2)) (V c (Pipeline.arrRef spec0 3)) (V c (Pipeline.arrRef spec0 4))) (k0_pay7 (V c (Pipeline.arrRef spec0 0)) (V c (Pipeline.arrRef spec0 1)) (V c (Pipeline.arrRef spec0 2)) (V c (Pipeline.arrRef spec0 3)) (V c (Pipeline.arrRef spec0 4))) (V c (Pipeline.arrRef spec0 5)) (V c (Pipeline.arrRef spec0 6)) (V c (Pipeline.arrRef spec0 7))

/-- What the one grid point writes back into window 10's array. -/
theorem flushed0_10_eq (c : Dev nD) (t : Fin cfg0.N) :
    (dat0 V c).flushed 10 t = ((cfg0.win 10).blk t).view.read (Elt F) (G0_10 V c) := by
  show (cfg0.win 10).cut (grid0.coords t) ((dat0 V c).after 10 t) = _
  rw [after0_10]
  unfold out0_10
  rw [View.canon_unit_zero hz2]
  simp only [View.ld_unit_zero (S := S512x128) hz2, View.ld_unit_zero (S := S256x128) hz2, View.ld_unit_zero (S := S1x256) hz2, View.ld_unit_zero (S := S768x256) hz2, View.ld_unit_zero (S := S1x768) hz2, View.ld_unit_zero (S := S256x256) hz2, View.ld_unit_zero (S := S256x512) hz2]
  rw [iblk0_0, iblk0_1, iblk0_2, iblk0_3, iblk0_4, iblk0_5, iblk0_6, iblk0_7]
  funext j
  show G0_10 V c j = G0_10 V c (((cfg0.win 10).blk t).view.emb j)
  rw [emb0_10]

/-- An index of the array lies in the point's block iff each coordinate lies in the block's range. -/
theorem mem_blk0_10 (t : Fin cfg0.N) (i : S512x256.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v3_2).slice (win0_10.rect t)).set ↔ _
  rw [View.set_slice_whole, Rect.mem_set_unit]
  exact Iff.rfl

/-- The one block covers the array. -/
theorem cover0_10 (i : S512x256.Idx) : ∃ t : Fin cfg0.N, (cfg0.win 10).flush t = true ∧ i ∈ ((cfg0.win 10).blk t).view.set := by
  refine ⟨t0_0, flush0_10 t0_0, ?_⟩
  obtain ⟨e0, e1, e2, e3, e4, e5, e6, e7, e8, e9, e10, e11, e12, e13, e14, e15, e16, e17, e18, e19, e20, e21⟩ := idx_facts0 t0_0
  rw [mem_blk0_10]
  intro a
  have hi0 : (i 0).val < 512 := (i 0).isLt
  have hi1 : (i 1).val < 256 := (i 1).isLt
  match a with
  | ⟨0, _⟩ => show win0_10.index t0_0 (0 : Fin 2) * 512 ≤ (i 0).val ∧ (i 0).val < win0_10.index t0_0 (0 : Fin 2) * 512 + 512; omega
  | ⟨1, _⟩ => show win0_10.index t0_0 (1 : Fin 2) * 256 ≤ (i 1).val ∧ (i 1).val < win0_10.index t0_0 (1 : Fin 2) * 256 + 256; omega

/-- Window 10's array after the region. -/
theorem final0_10 (c : Dev nD) : (dat0 V c).arrAt 10 cfg0.N = G0_10 V c :=
  (dat0 V c).arrAt_eq_of_cover 10 (G0_10 V c) (fun t _ => flushed0_10_eq V c t) (cover0_10)

end Cert.KernelIdeal.Hand

end
-- ==== Proof.KI.Region1Value.lean ====
import proofs.«110368_j31911607009638_1_alg».proof.Proof.KI.Region1Dat

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 of @main at the entry contents `V`: what the region leaves in the output window's array -/

variable (V : (c : Dev nD) → (b : Ref sig .tc) → Buf (Elt F) ((c : Thread nD τ).loc b))

/-- Only the last point writes window 5's block back. -/
theorem flush1_5_last (t : Fin cfg1.N) (h : (cfg1.win 5).flush t = true) : t = t1_15 := by
  have h15 := (flush1_5 t).mp h
  have hN : t.val < 16 := lt_of_lt_of_eq t.isLt (show cfg1.N = 16 from N_1)
  exact Fin.ext (by show t.val = 15; omega)

/-- The last point does. -/
theorem flush1_5_t15 : (cfg1.win 5).flush t1_15 = true := (flush1_5 t1_15).mpr rfl

/-- After the region, the block of window 5's array that the last point wrote back reads the stored output: no other
    point writes the array. -/
theorem read_arrAt1_5 (c : Dev nD) :
    ((cfg1.win 5).blk t1_15).view.read (Elt F) ((dat1 V c).arrAt 5 cfg1.N) = out1_5 V c := by
  rw [(dat1 V c).read_blk_arrAt_eq_flushed 5
    (fun t t' h h' hne => absurd ((flush1_5_last t h).trans (flush1_5_last t' h').symm) hne) cfg1.N t1_15 t1_15.isLt flush1_5_t15]
  show (cfg1.win 5).cut (cfg1.grid.coords t1_15) ((dat1 V c).after 5 t1_15) = out1_5 V c
  rw [after1_5_last]; rfl

end Cert.KernelIdeal.Hand

end
-- ==== Proof.KI.ValueHeadFinal.lean ====
import proofs.«110368_j31911607009638_1_alg».proof.Proof.KI.Region1Value

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's output array after the region

Window 5 is written back at the last point only, and its one block is the whole 1x1 array: the array ends holding the
stored output. -/

variable (V : (c : Dev nD) → (b : Ref sig .tc) → Buf (Elt F) ((c : Thread nD τ).loc b))

/-- Window 5's block index is zero on both axes at every point. -/
theorem idx_facts1_5 : ∀ t : Fin cfg1.N, win1_5.index t (0 : Fin 2) = 0 ∧ win1_5.index t (1 : Fin 2) = 0 :=
  (by decide +kernel : ∀ t : Fin grid1.N, _)

/-- Window 5's block embeds an index of the block as the same index of the array. -/
theorem emb1_5 (t : Fin cfg1.N) (j : S1x1.Idx) : ((cfg1.win 5).blk t).view.emb j = j := by
  obtain ⟨e0, e1⟩ := idx_facts1_5 t
  funext a; apply Fin.ext
  match a with
  | ⟨0, _⟩ => show win1_5.index t (0 : Fin 2) * 1 + 1 * (j 0).val = (j 0).val; omega
  | ⟨1, _⟩ => show win1_5.index t (1 : Fin 2) * 1 + 1 * (j 1).val = (j 1).val; omega

/-- What a point that writes window 5's block back writes: the block of the stored output. -/
theorem flushed1_5_eq (c : Dev nD) (t : Fin cfg1.N) (hf : (cfg1.win 5).flush t = true) :
    (dat1 V c).flushed 5 t = ((cfg1.win 5).blk t).view.read (Elt F) (out1_5 V c) := by
  obtain rfl := flush1_5_last t hf
  show (cfg1.win 5).cut (grid1.coords t1_15) ((dat1 V c).after 5 t1_15) = _
  rw [after1_5_last]
  funext j
  show out1_5 V c j = out1_5 V c (((cfg1.win 5).blk t1_15).view.emb j)
  rw [emb1_5]

/-- An index of the array lies in a point's block iff each coordinate lies in the block's range. -/
theorem mem_blk1_5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v7).slice (win1_5.rect t)).set ↔ _
  rw [View.set_slice_whole, Rect.mem_set_unit]
  exact Iff.rfl

/-- The last point's block covers the array. -/
theorem cover1_5 (i : S1x1.Idx) : ∃ t : Fin cfg1.N, (cfg1.win 5).flush t = true ∧ i ∈ ((cfg1.win 5).blk t).view.set := by
  refine ⟨t1_15, flush1_5_t15, ?_⟩
  obtain ⟨e0, e1⟩ := idx_facts1_5 t1_15
  rw [mem_blk1_5]
  intro a
  have hi0 : (i 0).val < 1 := (i 0).isLt
  have hi1 : (i 1).val < 1 := (i 1).isLt
  match a with
  | ⟨0, _⟩ => show win1_5.index t1_15 (0 : Fin 2) * 1 ≤ (i 0).val ∧ (i 0).val < win1_5.index t1_15 (0 : Fin 2) * 1 + 1; omega
  | ⟨1, _⟩ => show win1_5.index t1_15 (1 : Fin 2) * 1 ≤ (i 1).val ∧ (i 1).val < win1_5.index t1_15 (1 : Fin 2) * 1 + 1; omega

/-- Window 5's array after the region: the stored output. -/
theorem final1_5 (c : Dev nD) : (dat1 V c).arrAt 5 cfg1.N = out1_5 V c :=
  (dat1 V c).arrAt_eq_of_cover 5 (out1_5 V c) (fun t hf => flushed1_5_eq V c t hf) cover1_5

end Cert.KernelIdeal.Hand

end
-- ==== Proof.KI.Entries.lean ====
import proofs.«110368_j31911607009638_1_alg».proof.Proof.KI.Run
import proofs.«110368_j31911607009638_1_alg».proof.Proof.KI.Region0Value
import proofs.«110368_j31911607009638_1_alg».proof.Proof.KI.ValueHeadFinal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each region is entered with and what it leaves, in terms of the launch memory

Before each region a short stretch of host operations reshapes bias vectors into rows (and, before the second region,
flattens the embedding into one row). An argument array reaches every boundary as launched. -/

variable (m : (ℓ : Loc nD τ sig) → Buf (Elt F) ℓ) (ρ : Dev nD → PrngReg)

/-! ## Arguments at the boundaries where a region or a reshape reads them -/
theorem B1_main_arg0 (c : Dev nD) : B1 m ρ c main_arg0 = m ((c : Thread nD τ).loc main_arg0) :=
  (B1_of m ρ c main_arg0 (by decide))
theorem B1_main_arg1 (c : Dev nD) : B1 m ρ c main_arg1 = m ((c : Thread nD τ).loc main_arg1) :=
  (B1_of m ρ c main_arg1 (by decide))
theorem B1_main_arg3 (c : Dev nD) : B1 m ρ c main_arg3 = m ((c : Thread nD τ).loc main_arg3) :=
  (B1_of m ρ c main_arg3 (by decide))
theorem B1_main_arg5 (c : Dev nD) : B1 m ρ c main_arg5 = m ((c : Thread nD τ).loc main_arg5) :=
  (B1_of m ρ c main_arg5 (by decide))
theorem B1_main_arg7 (c : Dev nD) : B1 m ρ c main_arg7 = m ((c : Thread nD τ).loc main_arg7) :=
  (B1_of m ρ c main_arg7 (by decide))
theorem B2_main_arg12 (c : Dev nD) : B2 m ρ c main_arg12 = m ((c : Thread nD τ).loc main_arg12) :=
  (B2_of m ρ c main_arg12 (by decide)).trans <| (B1_of m ρ c main_arg12 (by decide))
theorem B2_main_arg14 (c : Dev nD) : B2 m ρ c main_arg14 = m ((c : Thread nD τ).loc main_arg14) :=
  (B2_of m ρ c main_arg14 (by decide)).trans <| (B1_of m ρ c main_arg14 (by decide))
theorem B3_main_arg11 (c : Dev nD) : B3 m ρ c main_arg11 = m ((c : Thread nD τ).loc main_arg11) :=
  (B3_of m ρ c main_arg11 (by decide)).trans <| (B2_of m ρ c main_arg11 (by decide)).trans <| (B1_of m ρ c main_arg11 (by decide))
theorem B3_main_arg13 (c : Dev nD) : B3 m ρ c main_arg13 = m ((c : Thread nD τ).loc main_arg13) :=
  (B3_of m ρ c main_arg13 (by decide)).trans <| (B2_of m ρ c main_arg13 (by decide)).trans <| (B1_of m ρ c main_arg13 (by decide))
theorem B4_main_arg8 (c : Dev nD) : B4 m ρ c main_arg8 = m ((c : Thread nD τ).loc main_arg8) :=
  (B4_of m ρ c main_arg8 (by decide)).trans <| (B3_of m ρ c main_arg8 (by decide)).trans <| (B2_of m ρ c main_arg8 (by decide)).trans <| (B1_of m ρ c main_arg8 (by decide))
theorem B4_main_arg10 (c : Dev nD) : B4 m ρ c main_arg10 = m ((c : Thread nD τ).loc main_arg10) :=
  (B4_of m ρ c main_arg10 (by decide)).trans <| (B3_of m ρ c main_arg10 (by decide)).trans <| (B2_of m ρ c main_arg10 (by decide)).trans <| (B1_of m ρ c main_arg10 (by decide))
theorem B5_main_arg9 (c : Dev nD) : B5 m ρ c main_arg9 = m ((c : Thread nD τ).loc main_arg9) :=
  (B5_of m ρ c main_arg9 (by decide)).trans <| (B4_of m ρ c main_arg9 (by decide)).trans <| (B3_of m ρ c main_arg9 (by decide)).trans <| (B2_of m ρ c main_arg9 (by decide)).trans <| (B1_of m ρ c main_arg9 (by decide))

/-! ## The reshapes -/

open Idealize.ShloMosaic.StableHlo in
theorem B1_main_v0 (c : Dev nD) :
    B1 m ρ c (Proc.devRef .tc main_v0) = shapeCast S1x256 (B0 m ρ c (Proc.devRef .tc main_arg2)) shapeCasts_S256_S1x256 := by
  show StableHlo.after (hostOps0 (F := F)) (B0 m ρ c) (Proc.devRef .tc main_v0) = _
  dsimp only [hostOps0]
  after_results
  rfl
open Idealize.ShloMosaic.StableHlo in
theorem B1_main_v1 (c : Dev nD) :
    B1 m ρ c (Proc.devRef .tc main_v1) = shapeCast S1x768 (B0 m ρ c (Proc.devRef .tc main_arg4)) shapeCasts_S768_S1x768 := by
  show StableHlo.after (hostOps0 (F := F)) (B0 m ρ c) (Proc.devRef .tc main_v1) = _
  dsimp only [hostOps0]
  after_results
  rfl
open Idealize.ShloMosaic.StableHlo in
theorem B1_main_v2 (c : Dev nD) :
    B1 m ρ c (Proc.devRef .tc main_v2) = shapeCast S1x256 (B0 m ρ c (Proc.devRef .tc main_arg6)) shapeCasts_S256_S1x256 := by
  show StableHlo.after (hostOps0 (F := F)) (B0 m ρ c) (Proc.devRef .tc main_v2) = _
  dsimp only [hostOps0]
  after_results
  rfl
open Idealize.ShloMosaic.StableHlo in
theorem B3_main_v4 (c : Dev nD) :
    B3 m ρ c (Proc.devRef .tc main_v4) = shapeCast S1x131072 (B2 m ρ c (Proc.devRef .tc main_v3_0)) shapeCasts_S512x256_S1x131072 := by
  show StableHlo.after (hostOps1 (F := F)) (B2 m ρ c) (Proc.devRef .tc main_v4) = _
  dsimp only [hostOps1]
  after_results
  rfl
open Idealize.ShloMosaic.StableHlo in
theorem B3_main_v5 (c : Dev nD) :
    B3 m ρ c (Proc.devRef .tc main_v5) = shapeCast S1x256 (B2 m ρ c (Proc.devRef .tc main_arg12)) shapeCasts_S256_S1x256 := by
  show StableHlo.after (hostOps1 (F := F)) (B2 m ρ c) (Proc.devRef .tc main_v5) = _
  dsimp only [hostOps1]
  after_results
  rfl
open Idealize.ShloMosaic.StableHlo in
theorem B3_main_v6 (c : Dev nD) :
    B3 m ρ c (Proc.devRef .tc main_v6) = shapeCast S1x1 (B2 m ρ c (Proc.devRef .tc main_arg14)) shapeCasts_S1_S1x1 := by
  show StableHlo.after (hostOps1 (F := F)) (B2 m ρ c) (Proc.devRef .tc main_v6) = _
  dsimp only [hostOps1]
  after_results
  rfl
open Idealize.ShloMosaic.StableHlo in
theorem B5_main_v8 (c : Dev nD) :
    B5 m ρ c (Proc.devRef .tc main_v8) = shapeCast S1x256 (B4 m ρ c (Proc.devRef .tc main_arg8)) shapeCasts_S256_S1x256 := by
  show StableHlo.after (hostOps2 (F := F)) (B4 m ρ c) (Proc.devRef .tc main_v8) = _
  dsimp only [hostOps2]
  after_results
  rfl
open Idealize.ShloMosaic.StableHlo in
theorem B5_main_v9 (c : Dev nD) :
    B5 m ρ c (Proc.devRef .tc main_v9) = shapeCast S1x2 (B4 m ρ c (Proc.devRef .tc main_arg10)) shapeCasts_S2_S1x2 := by
  show StableHlo.after (hostOps2 (F := F)) (B4 m ρ c) (Proc.devRef .tc main_v9) = _
  dsimp only [hostOps2]
  after_results
  rfl

/-! ## What the regions leave -/

/-- The embedding array after region 0. -/
theorem B2_main_v3_0 (c : Dev nD) : B2 m ρ c main_v3_0 = G0_8 (E1 m ρ) c :=
  (B2_arr m ρ c 8).trans (final0_8 (E1 m ρ) c)
/-- The first edge projection after region 0. -/
theorem B2_main_v3_1 (c : Dev nD) : B2 m ρ c main_v3_1 = G0_9 (E1 m ρ) c :=
  (B2_arr m ρ c 9).trans (final0_9 (E1 m ρ) c)
/-- The second edge projection after region 0. -/
theorem B2_main_v3_2 (c : Dev nD) : B2 m ρ c main_v3_2 = G0_10 (E1 m ρ) c :=
  (B2_arr m ρ c 10).trans (final0_10 (E1 m ρ) c)
/-- The value head's scalar after region 1. -/
theorem B4_main_v7 (c : Dev nD) : B4 m ρ c main_v7 = out1_5 (E3 m ρ) c :=
  (B4_arr m ρ c 5).trans (final1_5 (E3 m ρ) c)
/-- The edge projections reach region 2 as region 0 left them. -/
theorem B5_main_v3_1 (c : Dev nD) : B5 m ρ c main_v3_1 = B2 m ρ c main_v3_1 :=
  (B5_of m ρ c main_v3_1 (by decide)).trans <| (B4_of m ρ c main_v3_1 (by decide)).trans <| (B3_of m ρ c main_v3_1 (by decide))
theorem B5_main_v3_2 (c : Dev nD) : B5 m ρ c main_v3_2 = B2 m ρ c main_v3_2 :=
  (B5_of m ρ c main_v3_2 (by decide)).trans <| (B4_of m ρ c main_v3_2 (by decide)).trans <| (B3_of m ρ c main_v3_2 (by decide))

end Cert.KernelIdeal.Hand

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«110368_j31911607009638_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«110368_j31911607009638_1_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.LibAttentionScale.lean ====
/-
  Three whole-matrix functions over the extended reals that an attention layer is assembled from, besides the matrix
  product, the clamp and the row addition: the transpose (entry (q, p) of the result is entry (p, q) of the operand), the
  entrywise product with one sixteenth, and a group of consecutive columns.

  The transpose and the column group are layout operations, so a vector unit and a host spell them with the same
  operation and one reading serves both. The scaling is spelled in two ways that denote the same function: as the product
  with the splat of the float word of 2⁻⁴, and as the quotient by the broadcast of the square root of the float word of
  256. The square root of 256 is 16, and dividing an extended real by the real 16 is multiplying it by 1/16, at the
  infinities too.
-/
import proofs.«110368_j31911607009638_1_alg».proof.Proof.LibLayers
import Idealize.ShloMosaic.Lib.IdealHost

noncomputable section

namespace Cert.LibAttention

open Idealize.ShloMosaic Idealize.ShloMosaic.ValueIdx Cert.Layers

/-! ## The transpose -/

/-- The transpose: entry (q, p) of the result is entry (p, q) of the operand. -/
def transposeM {M N : ℕ} (a : Mat M N) : Mat N M := fun i => a (ix2 (i 1) (i 0))

theorem transposeM_apply {M N : ℕ} (a : Mat M N) (q : Fin N) (p : Fin M) : transposeM a (ix2 q p) = a (ix2 p q) := rfl

/-- A vector unit's transpose of a matrix, held in any float format, is the transpose. -/
theorem unit_transpose {M N : ℕ} {φ : FTy} (a : FVec Ideal ⟨2, ![M, N]⟩ φ)
    (h : (⟨2, ![M, N]⟩ : Shape).Transposes [1, 0] ⟨2, ![N, M]⟩) :
    transpose ⟨2, ![N, M]⟩ [1, 0] a h = transposeM (a : Mat M N) := by
  funext j
  obtain ⟨q, p, rfl⟩ : ∃ (q : Fin N) (p : Fin M), j = ix2 q p := ⟨j 0, j 1, eq_ix2 j⟩
  exact transpose_ix2_apply a h q p

/-- A host's transpose of a matrix is the transpose (a host spells it with the same layout operation). -/
theorem host_transpose {M N : ℕ} (a : FVec Ideal ⟨2, ![M, N]⟩ .f32)
    (h : (⟨2, ![M, N]⟩ : Shape).Transposes [1, 0] ⟨2, ![N, M]⟩) :
    transpose ⟨2, ![N, M]⟩ [1, 0] a h = transposeM (a : Mat M N) :=
  unit_transpose a h

/-- Transposing twice gives the matrix back. -/
theorem transposeM_transposeM {M N : ℕ} (a : Mat M N) : transposeM (transposeM a) = a := by
  funext j
  obtain ⟨p, q, rfl⟩ : ∃ (p : Fin M) (q : Fin N), j = ix2 p q := ⟨j 0, j 1, eq_ix2 j⟩
  rfl

/-! ## The scaling by one sixteenth -/

/-- Entry by entry, the product with the real 1/16. -/
def scale16 {M N : ℕ} (a : Mat M N) : Mat M N := fun i => a i * (((1 : ℝ) / 16 : ℝ) : EReal)

theorem scale16_apply {M N : ℕ} (a : Mat M N) (i : (⟨2, ![M, N]⟩ : Shape).Idx) :
    scale16 a i = a i * (((1 : ℝ) / 16 : ℝ) : EReal) := rfl

/-- The f32 word 0x3D800000 is the real 2⁻⁴, one sixteenth. -/
theorem ofBits_sixteenth_f32 : Ideal.ofBits .f32 0x3D800000#32 = (((1 : ℝ) / 16 : ℝ) : EReal) := by
  simp [Ideal.ofBits, Ideal.ieee, -EReal.coe_mul]; norm_num

/-- The f32 word 0x43800000 is the real 2⁸ = 256. -/
theorem ofBits_256_f32 : Ideal.ofBits .f32 0x43800000#32 = ((256 : ℝ) : EReal) := by
  simp [Ideal.ofBits, Ideal.ieee, -EReal.coe_mul]; norm_num

/-- The square root of 256 is 16. -/
theorem sqrt_256 : Ideal.sqrt ((256 : ℝ) : EReal) = ((16 : ℝ) : EReal) := by
  have h16 : Real.sqrt 256 = 16 := by
    rw [show (256 : ℝ) = 16 ^ 2 by norm_num]
    exact Real.sqrt_sq (by norm_num)
  rw [Ideal.sqrt_coe, if_neg (by norm_num), h16]

/-- A vector unit's spelling: the product with the splat of the word of one sixteenth. -/
theorem unit_scale {M N : ℕ} (a : FVec Ideal ⟨2, ![M, N]⟩ .f32) :
    mulf a (broadcast ⟨2, ![M, N]⟩ (Scalar.ofBits (F := Ideal) .f32 0x3D800000#32)) = scale16 (a : Mat M N) := by
  funext j
  rw [mulf_apply, broadcast_apply, scale16_apply]
  exact congrArg (a j * ·) ofBits_sixteenth_f32

/-- A host's spelling: the quotient by the broadcast of the square root of the word of 256. -/
theorem host_scale {M N : ℕ} (a : FVec Ideal ⟨2, ![M, N]⟩ .f32)
    (h0 : (⟨0, ![]⟩ : Shape).BroadcastsInDim ⟨2, ![M, N]⟩ ![]) :
    Host.divf (F := Ideal) a (broadcastInDim ⟨2, ![M, N]⟩ ![] h0
        (Host.sqrt (F := Ideal) (constant (F := Ideal) ⟨0, ![]⟩ .f32 0x43800000#32)))
      = scale16 (a : Mat M N) := by
  funext j
  have hs : broadcastInDim ⟨2, ![M, N]⟩ ![] h0
      (Host.sqrt (F := Ideal) (constant (F := Ideal) ⟨0, ![]⟩ .f32 0x43800000#32)) j = ((16 : ℝ) : EReal) := by
    refine (broadcastInDim_scalar_apply h0 _ j).trans ?_
    show Ideal.sqrt (Ideal.ofBits .f32 0x43800000#32) = _
    rw [ofBits_256_f32, sqrt_256]
  rw [hostDivf_apply, hs, scale16_apply]
  exact Ideal.div_coe (by norm_num) (a j)

/-! ## A group of consecutive columns -/

/-- Columns off, …, off + W − 1 of a matrix. -/
def cols {M N : ℕ} (off W : ℕ) (h : off + W ≤ N) (u : Mat M N) : Mat M W :=
  fun i => u (ix2 (i 0) ⟨off + (i 1).val, by have := idx2_lt1 i; omega⟩)

theorem cols_apply {M N : ℕ} (off W : ℕ) (h : off + W ≤ N) (u : Mat M N) (p : Fin M) (q : Fin W) :
    cols off W h u (ix2 p q) = u (ix2 p ⟨off + q.val, by have := q.isLt; omega⟩) := rfl

/-- A cut of W columns from column off of a matrix (a vector unit and a host spell it with the same operation) is that
    group of columns. -/
theorem slice_cols {M N W : ℕ} (off : ℕ) (h : (⟨2, ![M, N]⟩ : Shape).Slices ![0, off] ⟨2, ![M, W]⟩) (hh : off + W ≤ N)
    (u : Mat M N) : extractStridedSlice ⟨2, ![M, W]⟩ ![0, off] u h = cols off W hh u := by
  funext j
  obtain ⟨p, q, rfl⟩ : ∃ (p : Fin M) (q : Fin W), j = ix2 p q := ⟨j 0, j 1, eq_ix2 j⟩
  refine (extractStridedSlice_apply _ u h _ (ix2 p (⟨off + q.val, by have := q.isLt; omega⟩ : Fin N)) (fun a => ?_)).trans rfl
  match a with
  | ⟨0, _⟩ => exact (Nat.zero_add _).symm
  | ⟨1, _⟩ => rfl

/-- A band of rows of a column group is the column group of the band. -/
theorem band_cols {M N : ℕ} (T r : ℕ) (hb : r + T ≤ M) (off W : ℕ) (h : off + W ≤ N) (u : Mat M N) :
    cols off W h (band T r hb u) = band T r hb (cols off W h u) := rfl

end Cert.LibAttention

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibRowLogSoftmax.lean ====
/-
  The logarithm of the softmax along the rows of a matrix, over the extended reals: with m the largest entry of row p
  (the fold of max over the row, from the word of minus infinity), the entry (p, q) is
  (v (p, q) - m) - log (sum over k of exp (v (p, k) - m)).

  Three readings of it. A vector unit reduces each row to its maximum and to its sum, re-lays each of the two vectors as
  one column and spreads the column along the rows. The host reduces with the same two bodies, takes one more maximum
  against minus infinity (which changes nothing: the fold already starts there), starts its sum from the zero word (which
  adds nothing), and broadcasts in two steps. And a band of consecutive rows of the result is the same function of that
  band of rows of v: a row of the result depends on the same row of v only.
-/
import proofs.«110368_j31911607009638_1_alg».proof.Proof.LibKeepdims
import proofs.«110368_j31911607009638_1_alg».proof.Proof.LibColumn

noncomputable section

namespace Cert.RowLogSoftmax

open Idealize.ShloMosaic Idealize.ShloMosaic.ValueIdx

/-- The largest entry of row p: the fold of max over the row, from the value of the word of minus infinity. -/
def rowMax {M N : ℕ} (v : FVec Ideal ⟨2, ![M, N]⟩ .f32) (p : Fin M) : EReal :=
  (Finset.univ : Finset (Fin N)).fold max (Ideal.ofBits .f32 0xFF800000#32) (fun k : Fin N => v (ix2 p k))

/-- (v (p, q) - m) - log (sum over k of exp (v (p, k) - m)), m the largest entry of row p. -/
def logSoftmax {M N : ℕ} (v : FVec Ideal ⟨2, ![M, N]⟩ .f32) : FVec Ideal ⟨2, ![M, N]⟩ .f32 :=
  fun i => (v i - rowMax v (i 0)) - Ideal.log (∑ k : Fin N, Ideal.exp (v (ix2 (i 0) k) - rowMax v (i 0)))

theorem logSoftmax_apply {M N : ℕ} (v : FVec Ideal ⟨2, ![M, N]⟩ .f32) (p : Fin M) (q : Fin N) :
    logSoftmax v (ix2 p q)
      = (v (ix2 p q) - rowMax v p) - Ideal.log (∑ k : Fin N, Ideal.exp (v (ix2 p k) - rowMax v p)) := rfl

/-! ## The vector unit's form -/

/-- A vector re-laid as one column and spread along the rows reads, at (p, q), the vector at p. -/
theorem column_spread {T N : ℕ} (u : FVec Ideal ⟨1, ![T]⟩ .f32) (hc : (⟨1, ![T]⟩ : Shape).ShapeCasts ⟨2, ![T, 1]⟩)
    (hb : (⟨2, ![T, 1]⟩ : Shape).Broadcasts ⟨2, ![T, N]⟩) (p : Fin T) (q : Fin N) :
    broadcastTo ⟨2, ![T, N]⟩ (shapeCast ⟨2, ![T, 1]⟩ u hc) hb (ix2 p q) = u (ix1 p) :=
  (Cert.LibColumn.broadcastTo_a1_ab_apply _ hb p q).trans (Cert.LibColumn.shapeCast_a_a1_apply u hc p 0)

/-- Each entry less its row's maximum, the maximum taken by a lane reduction and spread back as a column. -/
theorem unit_shift {T N : ℕ} (x0 : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hc : (⟨1, ![T]⟩ : Shape).ShapeCasts ⟨2, ![T, 1]⟩) (hb : (⟨2, ![T, 1]⟩ : Shape).Broadcasts ⟨2, ![T, N]⟩)
    (p : Fin T) (k : Fin N) :
    subf x0 (broadcastTo ⟨2, ![T, N]⟩ (shapeCast ⟨2, ![T, 1]⟩
        (multiReduction .maximumf [1] ⟨1, ![T]⟩ x0 0xFF800000#32 hr hφ hmax) hc) hb) (ix2 p k)
      = x0 (ix2 p k) - rowMax x0 p := by
  rw [subf_apply, column_spread]
  exact congrArg (x0 (ix2 p k) - ·) (Cert.LibKeepdims.max_last2_apply x0 _ hr hφ hmax p)

/-- The vector unit's form: the operand through an identity re-lay; the row maximum and the row sum by lane reductions,
    each re-laid as a column and spread along the rows; the logarithm taken on the column. -/
theorem unit_form {T N : ℕ} (x0 : FVec Ideal ⟨2, ![T, N]⟩ .f32)
    (hs : (⟨2, ![T, N]⟩ : Shape).ShapeCasts ⟨2, ![T, N]⟩)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    subf (subf (shapeCast ⟨2, ![T, N]⟩ x0 hs) (broadcastTo ⟨2, ![T, N]⟩ (shapeCast ⟨2, ![T, 1]⟩
          (multiReduction .maximumf [1] ⟨1, ![T]⟩ (shapeCast ⟨2, ![T, N]⟩ x0 hs) 0xFF800000#32 hr hφ hmax) hc) hb))
        (broadcastTo ⟨2, ![T, N]⟩ (log (shapeCast ⟨2, ![T, 1]⟩
          (multiReduction .add [1] ⟨1, ![T]⟩
            (exp (subf (shapeCast ⟨2, ![T, N]⟩ x0 hs) (broadcastTo ⟨2, ![T, N]⟩ (shapeCast ⟨2, ![T, 1]⟩
              (multiReduction .maximumf [1] ⟨1, ![T]⟩ (shapeCast ⟨2, ![T, N]⟩ x0 hs) 0xFF800000#32 hr hφ hmax) hc) hb)))
            0x00000000#32 hr hφ hadd) hc)) hb)
      = logSoftmax x0 := by
  rw [shapeCast_self]
  funext j
  obtain ⟨p, q, rfl⟩ : ∃ (p : Fin T) (q : Fin N), j = ix2 p q := ⟨j 0, j 1, eq_ix2 j⟩
  rw [logSoftmax_apply, subf_apply, unit_shift x0 hr hφ hmax hc hb p q, Cert.LibColumn.broadcastTo_a1_ab_apply]
  refine congrArg (fun z => x0 (ix2 p q) - rowMax x0 p - z) ?_
  rw [Cert.LibKeepdims.log_apply, Cert.LibColumn.shapeCast_a_a1_apply, Cert.LibKeepdims.sum_last2_apply]
  refine congrArg Ideal.log (Finset.sum_congr rfl fun k _ => ?_)
  rw [Cert.LibKeepdims.exp_apply, unit_shift x0 hr hφ hmax hc hb p k]

/-! ## The host's form -/

/-- A scalar broadcast to every entry reads, anywhere, the scalar. -/
theorem splat_apply {s : Shape} (x : (⟨0, ![]⟩ : Shape).Idx → EReal) (h : (⟨0, ![]⟩ : Shape).BroadcastsInDim s ![])
    (i : s.Idx) : broadcastInDim s ![] h x i = x ix0 :=
  broadcastInDim_apply _ h x i ix0 (fun a => a.elim0)

/-- A vector broadcast to one column reads, at (p, u), the vector at p. -/
theorem column_apply {a : ℕ} (x : (⟨1, ![a]⟩ : Shape).Idx → EReal)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ (ix1 p) (fun ax => match ax with
    | ⟨0, _⟩ => by
      show p.val = if a = 1 then 0 else p.val
      split
      · have := p.isLt; omega
      · rfl)

/-- One column broadcast along the rows reads, at (p, c), the column at p. -/
theorem spread_apply {a b : ℕ} (v : (⟨2, ![a, 1]⟩ : Shape).Idx → EReal)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- The host's logarithm and exponential, at an index. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The host's row maximum, and one more maximum against minus infinity, is the row's maximum: the fold starts at the
    value it is compared with once more. -/
theorem host_rowMax {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![]) (p : Fin M) :
    maximumf (broadcastInDim ⟨1, ![M]⟩ ![] hS (constant (F := Ideal) ⟨0, ![]⟩ .f32 0xFF800000#32))
        (Host.reduce (FloatOps.maximumf (F := Ideal) (φ := .f32)) v (constant (F := Ideal) ⟨0, ![]⟩ .f32 0xFF800000#32) hrt hu)
        (ix1 p)
      = rowMax v p := by
  have hf : (v ∘ hr.lift (ix1 p)) = fun k : Fin N => v (ix2 p k) :=
    funext fun k => congrArg v (Cert.LibKeepdims.lift_last2 hr p k)
  rw [maximumf_apply, splat_apply]
  refine (congrArg (max (Ideal.ofBits .f32 0xFF800000#32))
    ((Host.reduce_eq_fold_single (FloatOps.maximumf (F := Ideal) (φ := .f32)) v _ hrt hr hu (ix1 p)).trans
      (congrArg (fun f => Finset.fold max (Ideal.ofBits .f32 0xFF800000#32) f (Finset.univ : Finset (Fin N))) hf))).trans ?_
  exact max_eq_right ((Finset.le_fold_max _).mpr (Or.inl le_rfl))

/-- The host's row sum from the zero word is the row's sum. -/
theorem host_rowSum {M N : ℕ} (x : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel) (p : Fin M) :
    Host.reduceAdd (F := Ideal) x (constant (F := Ideal) ⟨0, ![]⟩ .f32 0x00000000#32) hrt hu (ix1 p)
      = ∑ k : Fin N, x (ix2 p k) := by
  simp only [Host.reduceAdd, Ideal.hostReduceAdd_def]
  rw [Ideal.hostReduceAdd_single hrt hr, constant_apply, Ideal.ofBits_zero_f32, zero_add]
  exact Finset.sum_congr rfl fun k _ => congrArg x (Cert.LibKeepdims.lift_last2 hr p k)

/-- Each entry less its row's maximum, in the host's form. -/
theorem host_shift {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) (p : Fin M) (k : Fin N) :
    subf v (broadcastInDim ⟨2, ![M, N]⟩ ![0, 1] h01 (broadcastInDim ⟨2, ![M, 1]⟩ ![0] h0
        (maximumf (broadcastInDim ⟨1, ![M]⟩ ![] hS (constant (F := Ideal) ⟨0, ![]⟩ .f32 0xFF800000#32))
          (Host.reduce (FloatOps.maximumf (F := Ideal) (φ := .f32)) v (constant (F := Ideal) ⟨0, ![]⟩ .f32 0xFF800000#32) hrt hu))))
        (ix2 p k)
      = v (ix2 p k) - rowMax v p := by
  rw [subf_apply, spread_apply, column_apply, host_rowMax v hrt hr hu hS p]

/-- The host's form of the whole function. -/
theorem host_form {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) :
    subf (subf v (broadcastInDim ⟨2, ![M, N]⟩ ![0, 1] h01 (broadcastInDim ⟨2, ![M, 1]⟩ ![0] h0
          (maximumf (broadcastInDim ⟨1, ![M]⟩ ![] hS (constant (F := Ideal) ⟨0, ![]⟩ .f32 0xFF800000#32))
            (Host.reduce (FloatOps.maximumf (F := Ideal) (φ := .f32)) v (constant (F := Ideal) ⟨0, ![]⟩ .f32 0xFF800000#32) hrt hu)))))
        (broadcastInDim ⟨2, ![M, N]⟩ ![0, 1] h01 (Host.log (F := Ideal) (broadcastInDim ⟨2, ![M, 1]⟩ ![0] h0
          (Host.reduceAdd (F := Ideal)
            (Host.exp (F := Ideal) (subf v (broadcastInDim ⟨2, ![M, N]⟩ ![0, 1] h01 (broadcastInDim ⟨2, ![M, 1]⟩ ![0] h0
              (maximumf (broadcastInDim ⟨1, ![M]⟩ ![] hS (constant (F := Ideal) ⟨0, ![]⟩ .f32 0xFF800000#32))
                (Host.reduce (FloatOps.maximumf (F := Ideal) (φ := .f32)) v (constant (F := Ideal) ⟨0, ![]⟩ .f32 0xFF800000#32) hrt hu))))))
            (constant (F := Ideal) ⟨0, ![]⟩ .f32 0x00000000#32) hrt hu))))
      = logSoftmax v := by
  funext j
  obtain ⟨p, q, rfl⟩ : ∃ (p : Fin M) (q : Fin N), j = ix2 p q := ⟨j 0, j 1, eq_ix2 j⟩
  rw [logSoftmax_apply, subf_apply, host_shift v hrt hr hu hS h0 h01 p q, spread_apply]
  refine congrArg (fun z => v (ix2 p q) - rowMax v p - z) ?_
  rw [hostLog_apply, column_apply, host_rowSum _ hrt hr hu p]
  refine congrArg Ideal.log (Finset.sum_congr rfl fun k _ => ?_)
  rw [hostExp_apply, host_shift v hrt hr hu hS h0 h01 p k]

/-! ## A band of rows -/

/-- Rows r, …, r + T − 1 of the result: when x holds those rows of V, the entry of the block's result at y is the entry of
    the whole result at the index whose row is r plus y's row and whose column is y's. -/
theorem logSoftmax_rows {M N T : ℕ} (V : FVec Ideal ⟨2, ![M, N]⟩ .f32) (x : FVec Ideal ⟨2, ![T, N]⟩ .f32) (r : ℕ)
    (hx : ∀ (p : Fin T) (k : Fin N) (hp : r + p.val < M), x (ix2 p k) = V (ix2 ⟨r + p.val, hp⟩ k))
    (y : (⟨2, ![T, N]⟩ : Shape).Idx) (i : (⟨2, ![M, N]⟩ : Shape).Idx)
    (hi0 : (i 0).val = r + (y 0).val) (hi1 : (i 1).val = (y 1).val) :
    logSoftmax x y = logSoftmax V i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  have hrow : ∀ k : Fin N, x (ix2 p k) = V (ix2 p' k) := fun k => by rw [hx p k (h0 ▸ p'.isLt), ← hp']
  have hm : rowMax x p = rowMax V p' :=
    congrArg (fun f => Finset.fold max (Ideal.ofBits .f32 0xFF800000#32) f (Finset.univ : Finset (Fin N))) (funext hrow)
  rw [logSoftmax_apply, logSoftmax_apply, hm]
  simp only [hrow]

end Cert.RowLogSoftmax

end
-- ==== Proof.LibAttentionSoftmax.lean ====
/-
  The softmax along the rows of a matrix, over the extended reals: with m the largest entry of row p (the fold of max
  over the row, from the word of minus infinity), the entry (p, q) is
  exp (v (p, q) - m) divided by the sum over k of exp (v (p, k) - m).
  The function is written once, in the order in which both programs compute it — subtract the row's maximum, exponentiate,
  divide by the row's sum — so that no algebra on extended reals is needed to compare the two.

  Two readings of it. A vector unit reduces each row to its maximum by a lane reduction from minus infinity, takes one more
  maximum against a splat of minus infinity (which changes nothing: the fold already starts there), re-lays the vector as
  one column and spreads the column along the rows; it sums the exponentials by a lane reduction from zero and spreads the
  sums the same way. The host reduces with the same two bodies, takes the same extra maximum against a broadcast minus
  infinity, starts its sum from the zero word (which adds nothing), and broadcasts in two steps.
-/
import proofs.«110368_j31911607009638_1_alg».proof.Proof.LibRowLogSoftmax
import proofs.«110368_j31911607009638_1_alg».proof.Proof.LibLayers
import Idealize.ShloMosaic.Lib.IdealHost

noncomputable section

namespace Cert.LibAttention

open Idealize.ShloMosaic Idealize.ShloMosaic.ValueIdx Cert.Layers Cert.RowLogSoftmax

/-- exp (v (p, q) - m) / (sum over k of exp (v (p, k) - m)), m the largest entry of row p. -/
def rowSoftmax {M N : ℕ} (v : Mat M N) : Mat M N := fun i =>
  Ideal.div (Ideal.exp (v i - rowMax v (i 0))) (∑ k : Fin N, Ideal.exp (v (ix2 (i 0) k) - rowMax v (i 0)))

theorem rowSoftmax_apply {M N : ℕ} (v : Mat M N) (p : Fin M) (q : Fin N) :
    rowSoftmax v (ix2 p q)
      = Ideal.div (Ideal.exp (v (ix2 p q) - rowMax v p)) (∑ k : Fin N, Ideal.exp (v (ix2 p k) - rowMax v p)) := rfl

/-! ## The vector unit's form -/

/-- The row maximum by a lane reduction from minus infinity, and one more maximum against a splat of minus infinity, is
    the row's maximum: the fold starts at the value it is compared with once more. -/
theorem unit_rowMax {T N : ℕ} (x : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ) (p : Fin T) :
    maximumf (broadcast ⟨1, ![T]⟩ (Scalar.ofBits (F := Ideal) .f32 0xFF800000#32))
        (multiReduction .maximumf [1] ⟨1, ![T]⟩ x 0xFF800000#32 hr hφ hmax) (ix1 p)
      = rowMax x p := by
  rw [maximumf_apply, broadcast_apply, Cert.LibKeepdims.max_last2_apply x _ hr hφ hmax p]
  exact max_eq_right ((Finset.le_fold_max _).mpr (Or.inl le_rfl))

/-- Each entry less its row's maximum, the maximum spread back as a column. -/
theorem unit_shifted {T N : ℕ} (x : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hc : (⟨1, ![T]⟩ : Shape).ShapeCasts ⟨2, ![T, 1]⟩) (hb : (⟨2, ![T, 1]⟩ : Shape).Broadcasts ⟨2, ![T, N]⟩)
    (p : Fin T) (k : Fin N) :
    subf x (broadcastTo ⟨2, ![T, N]⟩ (shapeCast ⟨2, ![T, 1]⟩
        (maximumf (broadcast ⟨1, ![T]⟩ (Scalar.ofBits (F := Ideal) .f32 0xFF800000#32))
          (multiReduction .maximumf [1] ⟨1, ![T]⟩ x 0xFF800000#32 hr hφ hmax)) hc) hb) (ix2 p k)
      = x (ix2 p k) - rowMax x p := by
  rw [subf_apply, column_spread, unit_rowMax x hr hφ hmax p]

/-- The vector unit's form of the row softmax. -/
theorem unit_softmax {T N : ℕ} (x : FVec Ideal ⟨2, ![T, N]⟩ .f32)
    (hr : (⟨2, ![T, N]⟩ : Shape).Reduces [1] (⟨1, ![T]⟩ : Shape)) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![T]⟩ : Shape).ShapeCasts ⟨2, ![T, 1]⟩) (hb : (⟨2, ![T, 1]⟩ : Shape).Broadcasts ⟨2, ![T, N]⟩) :
    divf
        (exp (subf x (broadcastTo ⟨2, ![T, N]⟩ (shapeCast ⟨2, ![T, 1]⟩
          (maximumf (broadcast ⟨1, ![T]⟩ (Scalar.ofBits (F := Ideal) .f32 0xFF800000#32))
            (multiReduction .maximumf [1] ⟨1, ![T]⟩ x 0xFF800000#32 hr hφ hmax)) hc) hb)))
        (broadcastTo ⟨2, ![T, N]⟩ (shapeCast ⟨2, ![T, 1]⟩
          (multiReduction .add [1] ⟨1, ![T]⟩
            (exp (subf x (broadcastTo ⟨2, ![T, N]⟩ (shapeCast ⟨2, ![T, 1]⟩
              (maximumf (broadcast ⟨1, ![T]⟩ (Scalar.ofBits (F := Ideal) .f32 0xFF800000#32))
                (multiReduction .maximumf [1] ⟨1, ![T]⟩ x 0xFF800000#32 hr hφ hmax)) hc) hb)))
            0x00000000#32 hr hφ hadd) hc) hb)
      = rowSoftmax (x : Mat T N) := by
  funext j
  obtain ⟨p, q, rfl⟩ : ∃ (p : Fin T) (q : Fin N), j = ix2 p q := ⟨j 0, j 1, eq_ix2 j⟩
  rw [rowSoftmax_apply, divf_apply, Cert.LibKeepdims.exp_apply, unit_shifted x hr hφ hmax hc hb p q, column_spread,
    Cert.LibKeepdims.sum_last2_apply]
  refine congrArg (Ideal.div _) (Finset.sum_congr rfl fun k _ => ?_)
  rw [Cert.LibKeepdims.exp_apply, unit_shifted x hr hφ hmax hc hb p k]

/-! ## The host's form -/

/-- The host's form of the row softmax. -/
theorem host_softmax {M N : ℕ} (v : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, N]⟩ ![0, 1]) :
    Host.divf (F := Ideal)
        (Host.exp (F := Ideal) (subf v (broadcastInDim ⟨2, ![M, N]⟩ ![0, 1] h01 (broadcastInDim ⟨2, ![M, 1]⟩ ![0] h0
          (maximumf (broadcastInDim ⟨1, ![M]⟩ ![] hS (constant (F := Ideal) ⟨0, ![]⟩ .f32 0xFF800000#32))
            (Host.reduce (FloatOps.maximumf (F := Ideal) (φ := .f32)) v (constant (F := Ideal) ⟨0, ![]⟩ .f32 0xFF800000#32) hrt hu))))))
        (broadcastInDim ⟨2, ![M, N]⟩ ![0, 1] h01 (broadcastInDim ⟨2, ![M, 1]⟩ ![0] h0
          (Host.reduceAdd (F := Ideal)
            (Host.exp (F := Ideal) (subf v (broadcastInDim ⟨2, ![M, N]⟩ ![0, 1] h01 (broadcastInDim ⟨2, ![M, 1]⟩ ![0] h0
              (maximumf (broadcastInDim ⟨1, ![M]⟩ ![] hS (constant (F := Ideal) ⟨0, ![]⟩ .f32 0xFF800000#32))
                (Host.reduce (FloatOps.maximumf (F := Ideal) (φ := .f32)) v (constant (F := Ideal) ⟨0, ![]⟩ .f32 0xFF800000#32) hrt hu))))))
            (constant (F := Ideal) ⟨0, ![]⟩ .f32 0x00000000#32) hrt hu)))
      = rowSoftmax (v : Mat M N) := by
  funext j
  obtain ⟨p, q, rfl⟩ : ∃ (p : Fin M) (q : Fin N), j = ix2 p q := ⟨j 0, j 1, eq_ix2 j⟩
  rw [rowSoftmax_apply, hostDivf_apply, hostExp_apply, host_shift v hrt hr hu hS h0 h01 p q, spread_apply, column_apply,
    host_rowSum _ hrt hr hu p]
  refine congrArg (Ideal.div _) (Finset.sum_congr rfl fun k _ => ?_)
  rw [hostExp_apply, host_shift v hrt hr hu hS h0 h01 p k]

/-! ## A band of rows -/

/-- A band of rows of the row softmax is the row softmax of the band: a row of the result depends on the same row of the
    operand only. -/
theorem band_rowSoftmax {M N : ℕ} (T r : ℕ) (h : r + T ≤ M) (v : Mat M N) :
    rowSoftmax (band T r h v) = band T r h (rowSoftmax v) := rfl

end Cert.LibAttention

end
-- ==== Proof.KI.TrunkValue.lean ====
/-
  The trunk of the network as whole-matrix functions over the extended reals, and the first kernel's stored values as
  those functions of its loaded arrays.

  With X the 512 × 128 input, the trunk computes
    hid  = clamp (X · W1ᵀ + b1)                                  (512 × 256)
    qkv  = hid · Winᵀ + bin                                      (512 × 768)
    q, k, v = the three groups of 256 consecutive columns of qkv
    attn = rowSoftmax ((q · kᵀ) / 16)                            (512 × 512)
    h    = (attn · v) · Woutᵀ + bout                             (512 × 256)
    A    = h · (columns 0–255 of W2)ᵀ,   B = h · (columns 256–511 of W2)ᵀ.
  Each stored value of the kernel is a composition of matrix-unit products of operands narrowed to bf16 (the identity on
  exact values), transposes, row additions, a clamp, column cuts and the row softmax in the vector unit's spelling; each is
  read through the layer lemmas, one rewrite per operation.
-/
import proofs.«110368_j31911607009638_1_alg».proof.Proof.Gen.KernelIdeal.Skeleton
import proofs.«110368_j31911607009638_1_alg».proof.Proof.LibAttentionScale
import proofs.«110368_j31911607009638_1_alg».proof.Proof.LibAttentionSoftmax

noncomputable section

namespace Cert.KernelIdeal.TrunkValue

open Idealize.ShloMosaic Idealize.ShloMosaic.ValueIdx Cert.LibMatProd Cert.Layers Cert.LibAttention Cert.KernelIdeal.Gen

/-! ## The specification -/

/-- The hidden layer: clamp (X · W1ᵀ + b1). -/
def specHid (X : Mat 512 128) (W1 : Mat 256 128) (b1 : Mat 1 256) : Mat 512 256 :=
  clamp (dense X (transposeM W1) b1)

/-- The joint projection: hid · Winᵀ + bin. -/
def specQkv (hid : Mat 512 256) (Win : Mat 768 256) (bin : Mat 1 768) : Mat 512 768 :=
  dense hid (transposeM Win) bin

/-- The queries, keys and values: columns 0–255, 256–511 and 512–767 of the joint projection. -/
def specQ (qkv : Mat 512 768) : Mat 512 256 := cols 0 256 (by norm_num) qkv
def specK (qkv : Mat 512 768) : Mat 512 256 := cols 256 256 (by norm_num) qkv
def specV (qkv : Mat 512 768) : Mat 512 256 := cols 512 256 (by norm_num) qkv

/-- The attention weights: the row softmax of (q · kᵀ) / 16. -/
def specAttn (qkv : Mat 512 768) : Mat 512 512 :=
  rowSoftmax (scale16 (matProd (specQ qkv) (transposeM (specK qkv))))

/-- The output projection of the weighted values: (attn · v) · Woutᵀ + bout. -/
def specHv (attn : Mat 512 512) (v : Mat 512 256) (Wout : Mat 256 256) (bout : Mat 1 256) : Mat 512 256 :=
  dense (matProd attn v) (transposeM Wout) bout

/-- The trunk's output: (attn · v) · Woutᵀ + bout with v the values of the joint projection. -/
def specH (attn : Mat 512 512) (qkv : Mat 512 768) (Wout : Mat 256 256) (bout : Mat 1 256) : Mat 512 256 :=
  specHv attn (specV qkv) Wout bout

/-- The first half of the pair layer's first product: h · (columns 0–255 of W2)ᵀ. -/
def specA (h : Mat 512 256) (W2 : Mat 256 512) : Mat 512 256 :=
  matProd h (transposeM (cols 0 256 (by norm_num) W2))

/-- The second half: h · (columns 256–511 of W2)ᵀ. -/
def specB (h : Mat 512 256) (W2 : Mat 256 512) : Mat 512 256 :=
  matProd h (transposeM (cols 256 256 (by norm_num) W2))

/-! ## The kernel's stored values -/

/-- Narrowing to another float format is the identity on exact values. -/
theorem narrow_eq {s : Shape} {φ ψ : FTy} (a : FVec Ideal s φ) (h : ψ.bits < φ.bits) :
    (truncf ψ a h : FVec Ideal s ψ) = a := rfl

theorem pay4_eq (v0 : Vec Ideal S512x128 .f32) (v2 : Vec Ideal S256x128 .f32) (v6 : Vec Ideal S1x256 .f32) :
    k0_pay4 (F := Ideal) v0 v2 v6 = specHid v0 v2 v6 := by
  unfold k0_pay4
  dsimp only
  rw [unit_transpose, unit_prod dot_S512x128_S128x256_S512x256_1_0_0_1_n_n rfl rfl rfl rfl rfl rfl, unit_addRow, unit_clamp,
    narrow_eq, narrow_eq]
  rfl

/-- The joint projection as the kernel computes it. -/
theorem pay5_eq (v0 : Vec Ideal S512x128 .f32) (v2 : Vec Ideal S256x128 .f32) (v6 : Vec Ideal S1x256 .f32)
    (v13 : Vec Ideal S768x256 .f32) (v17 : Vec Ideal S1x768 .f32) :
    k0_pay5 (F := Ideal) v0 v2 v6 v13 v17 = specQkv (specHid v0 v2 v6) v13 v17 := by
  unfold k0_pay5
  dsimp only
  rw [unit_transpose, unit_prod dot_S512x256_S256x768_S512x768_1_0_0_1_n_n rfl rfl rfl rfl rfl rfl, unit_addRow,
    narrow_eq, narrow_eq, pay4_eq]
  rfl

/-- The values: the third column group of the joint projection. -/
theorem pay6_eq (v0 : Vec Ideal S512x128 .f32) (v2 : Vec Ideal S256x128 .f32) (v6 : Vec Ideal S1x256 .f32)
    (v13 : Vec Ideal S768x256 .f32) (v17 : Vec Ideal S1x768 .f32) :
    k0_pay6 (F := Ideal) v0 v2 v6 v13 v17 = specV (specQkv (specHid v0 v2 v6) v13 v17) := by
  unfold k0_pay6
  dsimp only
  rw [pay5_eq, slice_cols 512 slices_S512x768_o0_512_S512x256 (by norm_num)]
  rfl

/-- The attention weights as the kernel computes them. -/
theorem pay7_eq (v0 : Vec Ideal S512x128 .f32) (v2 : Vec Ideal S256x128 .f32) (v6 : Vec Ideal S1x256 .f32)
    (v13 : Vec Ideal S768x256 .f32) (v17 : Vec Ideal S1x768 .f32) :
    k0_pay7 (F := Ideal) v0 v2 v6 v13 v17 = specAttn (specQkv (specHid v0 v2 v6) v13 v17) := by
  unfold k0_pay7
  dsimp only
  refine (unit_softmax _ reduces_S512x512_S512 (.inl rfl) rfl rfl shapeCasts_S512_S512x1 broadcasts_S512x1_S512x512).trans ?_
  rw [unit_scale, unit_transpose, unit_prod dot_S512x256_S256x512_S512x512_1_0_0_1_n_n rfl rfl rfl rfl rfl rfl,
    narrow_eq, narrow_eq, slice_cols 0 slices_S512x768_o0_0_S512x256 (by norm_num),
    slice_cols 256 slices_S512x768_o0_256_S512x256 (by norm_num), pay5_eq]
  rfl

/-- The trunk's output from the attention weights and the values. -/
theorem pay1_eq (v23 : FVec Ideal S512x256 .f32) (v40 : FVec Ideal S512x512 .f32) (v44 : Vec Ideal S256x256 .f32)
    (v49 : Vec Ideal S1x256 .f32) :
    k0_pay1 (F := Ideal) v23 v40 v44 v49 = specHv v40 v23 v44 v49 := by
  unfold k0_pay1
  dsimp only
  rw [unit_transpose, unit_prod dot_S512x512_S512x256_S512x256_1_0_0_1_n_n rfl rfl rfl rfl rfl rfl,
    unit_prod dot_S512x256_S256x256_S512x256_1_0_0_1_n_n rfl rfl rfl rfl rfl rfl, unit_addRow]
  simp only [narrow_eq]
  rfl

/-- The first stored product from the trunk's output. -/
theorem pay2_core (v23 : FVec Ideal S512x256 .f32) (v40 : FVec Ideal S512x512 .f32) (v44 : Vec Ideal S256x256 .f32)
    (v49 : Vec Ideal S1x256 .f32) (v53 : Vec Ideal S256x512 .f32) :
    k0_pay2 (F := Ideal) v23 v40 v44 v49 v53 = specA (specHv v40 v23 v44 v49) v53 := by
  unfold k0_pay2
  dsimp only
  rw [unit_transpose, unit_prod dot_S512x256_S256x256_S512x256_1_0_0_1_n_n rfl rfl rfl rfl rfl rfl, narrow_eq,
    slice_cols 0 slices_S256x512_o0_0_S256x256 (by norm_num), pay1_eq]
  rfl

/-- The second stored product from the trunk's output. -/
theorem pay3_core (v23 : FVec Ideal S512x256 .f32) (v40 : FVec Ideal S512x512 .f32) (v44 : Vec Ideal S256x256 .f32)
    (v49 : Vec Ideal S1x256 .f32) (v53 : Vec Ideal S256x512 .f32) :
    k0_pay3 (F := Ideal) v23 v40 v44 v49 v53 = specB (specHv v40 v23 v44 v49) v53 := by
  unfold k0_pay3
  dsimp only
  rw [unit_transpose, unit_prod dot_S512x256_S256x256_S512x256_1_0_0_1_n_n rfl rfl rfl rfl rfl rfl, narrow_eq,
    slice_cols 256 slices_S256x512_o0_256_S256x256 (by norm_num), pay1_eq]
  rfl

/-- The trunk's output as the kernel computes it from its loaded arrays. -/
theorem pay1_full (v0 : Vec Ideal S512x128 .f32) (v2 : Vec Ideal S256x128 .f32) (v6 : Vec Ideal S1x256 .f32)
    (v13 : Vec Ideal S768x256 .f32) (v17 : Vec Ideal S1x768 .f32) (v44 : Vec Ideal S256x256 .f32) (v49 : Vec Ideal S1x256 .f32) :
    k0_pay1 (F := Ideal) (k0_pay6 v0 v2 v6 v13 v17) (k0_pay7 v0 v2 v6 v13 v17) v44 v49
      = specH (specAttn (specQkv (specHid v0 v2 v6) v13 v17)) (specQkv (specHid v0 v2 v6) v13 v17) v44 v49 := by
  rw [pay1_eq, pay6_eq, pay7_eq]
  rfl

/-- The first stored product as a function of the kernel's loaded arrays. -/
theorem pay2_eq (v0 : Vec Ideal S512x128 .f32) (v2 : Vec Ideal S256x128 .f32) (v6 : Vec Ideal S1x256 .f32)
    (v13 : Vec Ideal S768x256 .f32) (v17 : Vec Ideal S1x768 .f32) (v44 : Vec Ideal S256x256 .f32) (v49 : Vec Ideal S1x256 .f32)
    (v53 : Vec Ideal S256x512 .f32) :
    k0_pay2 (F := Ideal) (k0_pay6 v0 v2 v6 v13 v17) (k0_pay7 v0 v2 v6 v13 v17) v44 v49 v53
      = specA (specH (specAttn (specQkv (specHid v0 v2 v6) v13 v17)) (specQkv (specHid v0 v2 v6) v13 v17) v44 v49) v53 := by
  rw [pay2_core, pay6_eq, pay7_eq]
  rfl

/-- The second stored product as a function of the kernel's loaded arrays. -/
theorem pay3_eq (v0 : Vec Ideal S512x128 .f32) (v2 : Vec Ideal S256x128 .f32) (v6 : Vec Ideal S1x256 .f32)
    (v13 : Vec Ideal S768x256 .f32) (v17 : Vec Ideal S1x768 .f32) (v44 : Vec Ideal S256x256 .f32) (v49 : Vec Ideal S1x256 .f32)
    (v53 : Vec Ideal S256x512 .f32) :
    k0_pay3 (F := Ideal) (k0_pay6 v0 v2 v6 v13 v17) (k0_pay7 v0 v2 v6 v13 v17) v44 v49 v53
      = specB (specH (specAttn (specQkv (specHid v0 v2 v6) v13 v17)) (specQkv (specHid v0 v2 v6) v13 v17) v44 v49) v53 := by
  rw [pay3_core, pay6_eq, pay7_eq]
  rfl

end Cert.KernelIdeal.TrunkValue

end
-- ==== Proof.KI.KernelValue0.lean ====
import proofs.«110368_j31911607009638_1_alg».proof.Proof.KI.Entries
import proofs.«110368_j31911607009638_1_alg».proof.Proof.KI.TrunkValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 0's arrays at the ideal instance, as whole-matrix layers of the arguments -/

open Cert.KernelIdeal.TrunkValue Cert.Layers Cert.LibAttention

variable (m : (ℓ : Loc nD τ sig) → Buf (Elt Ideal) ℓ) (ρ : Dev nD → PrngReg)

/-- The embedding after region 0: relu of the observations times the transposed first weight plus its bias row. -/
theorem hid_eq (c : Dev nD) :
    B2 m ρ c main_v3_0 = (specHid (m ((c : Thread nD τ).loc main_arg0)) (m ((c : Thread nD τ).loc main_arg1)) (shapeCast S1x256 (m ((c : Thread nD τ).loc main_arg2)) shapeCasts_S256_S1x256)) := by
  rw [B2_main_v3_0]
  show k0_pay4 (B1 m ρ c main_arg0) (B1 m ρ c main_arg1) (B1 m ρ c (Proc.devRef .tc main_v0)) = _
  rw [B1_main_arg0, B1_main_arg1, B1_main_v0]
  exact pay4_eq _ _ _

/-- The first edge projection after region 0. -/
theorem edgeA_eq (c : Dev nD) :
    B2 m ρ c main_v3_1 = specA (specH (specAttn (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768))) (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768)) (m ((c : Thread nD τ).loc main_arg5)) (shapeCast S1x256 (m ((c : Thread nD τ).loc main_arg6)) shapeCasts_S256_S1x256)) (m ((c : Thread nD τ).loc main_arg7)) := by
  rw [B2_main_v3_1]
  show k0_pay2 (k0_pay6 (B1 m ρ c main_arg0) (B1 m ρ c main_arg1) (B1 m ρ c (Proc.devRef .tc main_v0)) (B1 m ρ c main_arg3) (B1 m ρ c (Proc.devRef .tc main_v1)))
      (k0_pay7 (B1 m ρ c main_arg0) (B1 m ρ c main_arg1) (B1 m ρ c (Proc.devRef .tc main_v0)) (B1 m ρ c main_arg3) (B1 m ρ c (Proc.devRef .tc main_v1)))
      (B1 m ρ c main_arg5) (B1 m ρ c (Proc.devRef .tc main_v2)) (B1 m ρ c main_arg7) = _
  rw [B1_main_arg0, B1_main_arg1, B1_main_v0, B1_main_arg3, B1_main_v1, B1_main_arg5, B1_main_v2, B1_main_arg7]
  exact pay2_eq _ _ _ _ _ _ _ _

/-- The second edge projection after region 0. -/
theorem edgeB_eq (c : Dev nD) :
    B2 m ρ c main_v3_2 = specB (specH (specAttn (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768))) (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768)) (m ((c : Thread nD τ).loc main_arg5)) (shapeCast S1x256 (m ((c : Thread nD τ).loc main_arg6)) shapeCasts_S256_S1x256)) (m ((c : Thread nD τ).loc main_arg7)) := by
  rw [B2_main_v3_2]
  show k0_pay3 (k0_pay6 (B1 m ρ c main_arg0) (B1 m ρ c main_arg1) (B1 m ρ c (Proc.devRef .tc main_v0)) (B1 m ρ c main_arg3) (B1 m ρ c (Proc.devRef .tc main_v1)))
      (k0_pay7 (B1 m ρ c main_arg0) (B1 m ρ c main_arg1) (B1 m ρ c (Proc.devRef .tc main_v0)) (B1 m ρ c main_arg3) (B1 m ρ c (Proc.devRef .tc main_v1)))
      (B1 m ρ c main_arg5) (B1 m ρ c (Proc.devRef .tc main_v2)) (B1 m ρ c main_arg7) = _
  rw [B1_main_arg0, B1_main_arg1, B1_main_v0, B1_main_arg3, B1_main_v1, B1_main_arg5, B1_main_v2, B1_main_arg7]
  exact pay3_eq _ _ _ _ _ _ _ _

end Cert.KernelIdeal.Hand

end
-- ==== Proof.KI.PairsValueSpec.lean ====
/-
  The edge classifier on one ordered pair of agents, as a function of the two agents' rows of the edge projections,
  the edge bias, the two output weight rows and the two output biases; and the array of all pairs' class
  probabilities. The order of the operations is fixed: the two projections are added first and the bias onto their
  sum; a logit is the sum over the hidden units of unit times weight, the output bias added last; the larger logit is
  subtracted from both before the exponentials, and each exponential is divided by the sum of the two.
-/
import Idealize.ShloMosaic.PureOps.Ideal
import Idealize.ShloMosaic.Lib.ValueIdx

noncomputable section

namespace Cert.KernelIdeal.PairsValue

open Idealize.ShloMosaic Idealize.ShloMosaic.ValueIdx
open scoped BigOperators

/-- Hidden unit `k` of a pair: the two projections added, the bias added onto their sum, clamped below at zero. -/
def pairHidden (a b bias : Fin 256 → EReal) (k : Fin 256) : EReal :=
  max ((a k + b k) + bias k) (Ideal.ofBits .f32 0x00000000#32)

/-- One class's logit: the sum over the hidden units of unit times weight, and the class's bias added to the sum. -/
def classLogit (a b bias w : Fin 256 → EReal) (β : EReal) : EReal :=
  (∑ k : Fin 256, pairHidden a b bias k * w k) + β

/-- The logit of class `c`. -/
def pairLogit (a b bias : Fin 256 → EReal) (w3 : Fin 2 → Fin 256 → EReal) (b3 : Fin 2 → EReal) (c : Fin 2) : EReal :=
  classLogit a b bias (w3 c) (b3 c)

/-- The exponential of class `c`'s logit less the larger of the two logits. -/
def pairExp (a b bias : Fin 256 → EReal) (w3 : Fin 2 → Fin 256 → EReal) (b3 : Fin 2 → EReal) (c : Fin 2) : EReal :=
  Ideal.exp (pairLogit a b bias w3 b3 c - max (pairLogit a b bias w3 b3 0) (pairLogit a b bias w3 b3 1))

/-- The two class probabilities of a pair: each exponential over the sum of the two. -/
def pairProb (a b bias : Fin 256 → EReal) (w3 : Fin 2 → Fin 256 → EReal) (b3 : Fin 2 → EReal) : Fin 2 → EReal :=
  fun c => Ideal.div (pairExp a b bias w3 b3 c) (pairExp a b bias w3 b3 0 + pairExp a b bias w3 b3 1)

/-- All ordered pairs: entry `(i, j, c)` is class `c`'s probability for row `i` of the first projection and row `j` of
    the second. -/
def pairsFull (A B : (⟨2, ![512, 256]⟩ : Shape).Idx → EReal) (bias : (⟨2, ![1, 256]⟩ : Shape).Idx → EReal)
    (w3 : (⟨2, ![2, 256]⟩ : Shape).Idx → EReal) (b3 : (⟨2, ![1, 2]⟩ : Shape).Idx → EReal) :
    (⟨3, ![512, 512, 2]⟩ : Shape).Idx → EReal :=
  fun i => pairProb (fun k => A (ix2 (i 0 : Fin 512) k)) (fun k => B (ix2 (i 1 : Fin 512) k)) (fun k => bias (ix2 (0 : Fin 1) k))
    (fun c k => w3 (ix2 c k)) (fun c => b3 (ix2 (0 : Fin 1) c)) (i 2 : Fin 2)

/-- `pairsFull` at an index written by coordinates. -/
theorem pairsFull_apply (A B : (⟨2, ![512, 256]⟩ : Shape).Idx → EReal) (bias : (⟨2, ![1, 256]⟩ : Shape).Idx → EReal)
    (w3 : (⟨2, ![2, 256]⟩ : Shape).Idx → EReal) (b3 : (⟨2, ![1, 2]⟩ : Shape).Idx → EReal) (i j : Fin 512) (c : Fin 2) :
    pairsFull A B bias w3 b3 (ix3 i j c)
      = pairProb (fun k => A (ix2 i k)) (fun k => B (ix2 j k)) (fun k => bias (ix2 (0 : Fin 1) k))
          (fun c k => w3 (ix2 c k)) (fun c => b3 (ix2 (0 : Fin 1) c)) c := rfl

end Cert.KernelIdeal.PairsValue

end
-- ==== Proof.KI.PairsValueTile.lean ====
/-
  One 64 by 64 tile of the edge classifier, read at an entry: the stored value at `(p, q, c)` is class `c`'s
  probability for row `p` of the first block and row `q` of the second, in the specification's order of operations.
  The hidden layer spreads the first block along the second axis and the second block along the first, adds them, adds
  the bias row spread along both, and clamps at zero; each logit is a sum over the last axis of the hidden layer times
  a weight row spread along the first two, plus one entry of the bias pair; the two probabilities are stacked on a new
  last axis.
-/
import proofs.«110368_j31911607009638_1_alg».proof.Proof.Gen.KernelIdeal.Skeleton
import proofs.«110368_j31911607009638_1_alg».proof.Proof.LibKeepdims
import proofs.«110368_j31911607009638_1_alg».proof.Proof.KI.PairsValueSpec
import Idealize.ShloMosaic.Lib.ValueLayout

noncomputable section
namespace Cert.KernelIdeal.PairsValue
open Idealize.ShloMosaic Idealize.ShloMosaic.ValueIdx Cert.KernelIdeal Cert.KernelIdeal.Gen Cert.LibKeepdims

variable {α : Type}

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The hidden layer at `(p, q, k)`: hidden unit `k` of row `p` of the first block and row `q` of the second. -/
theorem pay2_apply (x0 x1 : Vec Ideal S64x256 .f32) (x2 : Vec Ideal S1x256 .f32) (p q : Fin 64) (k : Fin 256) :
    k2_pay2 x0 x1 x2 (ix3 p q k) = pairHidden (fun k => x0 (ix2 p k)) (fun k => x1 (ix2 q k)) (fun k => x2 (ix2 (0 : Fin 1) k)) k := by
  unfold k2_pay2 pairHidden
  rw [shapeCast_self, shapeCast_self, shapeCast_self]
  rw [maximumf_apply, addf_apply, addf_apply, broadcast_apply]
  rw [broadcastTo_a1c_abc_apply, shapeCast_ac_a1c_apply, broadcastTo_1bc_abc_apply, shapeCast_ab_1ab_apply,
    broadcastTo_11c_abc_apply, shapeCast_ab_1ab_apply]
  rfl

/-- The first logit at `(p, q)`: the first weight row and the first entry of the bias pair. -/
theorem pay4_apply (x0 x1 : Vec Ideal S64x256 .f32) (x2 : Vec Ideal S1x256 .f32) (x3 : Vec Ideal S2x256 .f32) (x4 : Vec Ideal S1x2 .f32) (p q : Fin 64) :
    k2_pay4 x0 x1 x2 x3 x4 (ix2 p q) = classLogit (fun k => x0 (ix2 p k)) (fun k => x1 (ix2 q k)) (fun k => x2 (ix2 (0 : Fin 1) k)) (fun k => x3 (ix2 (0 : Fin 2) k)) (x4 (ix2 (0 : Fin 1) (0 : Fin 2))) := by
  unfold k2_pay4 classLogit
  rw [addf_apply, broadcast_apply]
  refine congrArg₂ (· + ·) ?_ ?_
  · refine (sum_last3_apply _ _ _ _ _ p q).trans (Finset.sum_congr rfl fun k _ => ?_)
    rw [mulf_apply, pay2_apply, broadcastTo_11c_abc_apply, shapeCast_ab_1ab_apply]
    rw [slice2_axis0_apply 0 x3 _ (0 : Fin 1) k (0 : Fin 2) rfl]
  · unfold extractAt k2_pay3
    rw [shapeCast_self]
    exact extractStridedSlice_apply _ x4 _ _ (ix2 (0 : Fin 1) (0 : Fin 2)) (fun a => by match a with | ⟨0, _⟩ => rfl | ⟨1, _⟩ => rfl)

/-- The second logit at `(p, q)`: the second weight row and the second entry of the bias pair. -/
theorem pay5_apply (x0 x1 : Vec Ideal S64x256 .f32) (x2 : Vec Ideal S1x256 .f32) (x3 : Vec Ideal S2x256 .f32) (x4 : Vec Ideal S1x2 .f32) (p q : Fin 64) :
    k2_pay5 x0 x1 x2 x3 x4 (ix2 p q) = classLogit (fun k => x0 (ix2 p k)) (fun k => x1 (ix2 q k)) (fun k => x2 (ix2 (0 : Fin 1) k)) (fun k => x3 (ix2 (1 : Fin 2) k)) (x4 (ix2 (0 : Fin 1) (1 : Fin 2))) := by
  unfold k2_pay5 classLogit
  rw [addf_apply, broadcast_apply]
  refine congrArg₂ (· + ·) ?_ ?_
  · refine (sum_last3_apply _ _ _ _ _ p q).trans (Finset.sum_congr rfl fun k _ => ?_)
    rw [mulf_apply, pay2_apply, broadcastTo_11c_abc_apply, shapeCast_ab_1ab_apply]
    rw [slice2_axis0_apply 1 x3 _ (0 : Fin 1) k (1 : Fin 2) rfl]
  · unfold extractAt k2_pay3
    rw [shapeCast_self]
    exact extractStridedSlice_apply _ x4 _ _ (ix2 (0 : Fin 1) (1 : Fin 2)) (fun a => by match a with | ⟨0, _⟩ => rfl | ⟨1, _⟩ => rfl)

/-- The first class's probability at `(p, q)`. -/
theorem pay10_apply (x0 x1 : Vec Ideal S64x256 .f32) (x2 : Vec Ideal S1x256 .f32) (x3 : Vec Ideal S2x256 .f32) (x4 : Vec Ideal S1x2 .f32) (p q : Fin 64) :
    k2_pay10 x0 x1 x2 x3 x4 (ix2 p q) = pairProb (fun k => x0 (ix2 p k)) (fun k => x1 (ix2 q k)) (fun k => x2 (ix2 (0 : Fin 1) k)) (fun c k => x3 (ix2 c k)) (fun c => x4 (ix2 (0 : Fin 1) c)) 0 := by
  unfold k2_pay10 k2_pay9 k2_pay7 k2_pay8 k2_pay6 pairProb pairExp pairLogit
  simp only [divf_apply, addf_apply, exp_apply, subf_apply, maximumf_apply, pay4_apply, pay5_apply]

/-- The second class's probability at `(p, q)`. -/
theorem pay11_apply (x0 x1 : Vec Ideal S64x256 .f32) (x2 : Vec Ideal S1x256 .f32) (x3 : Vec Ideal S2x256 .f32) (x4 : Vec Ideal S1x2 .f32) (p q : Fin 64) :
    k2_pay11 x0 x1 x2 x3 x4 (ix2 p q) = pairProb (fun k => x0 (ix2 p k)) (fun k => x1 (ix2 q k)) (fun k => x2 (ix2 (0 : Fin 1) k)) (fun c k => x3 (ix2 c k)) (fun c => x4 (ix2 (0 : Fin 1) c)) 1 := by
  unfold k2_pay11 k2_pay9 k2_pay7 k2_pay8 k2_pay6 pairProb pairExp pairLogit
  simp only [divf_apply, addf_apply, exp_apply, subf_apply, maximumf_apply, pay4_apply, pay5_apply]

/-- THE TILE AT AN ENTRY: the two probabilities stacked on the last axis, entry `(p, q, c)` is class `c`'s. -/
theorem tile_apply (x0 x1 : Vec Ideal S64x256 .f32) (x2 : Vec Ideal S1x256 .f32) (x3 : Vec Ideal S2x256 .f32) (x4 : Vec Ideal S1x2 .f32) (p q : Fin 64) (c : Fin 2) :
    k2_pay1 (k2_pay10 x0 x1 x2 x3 x4) (k2_pay11 x0 x1 x2 x3 x4) (ix3 p q c)
      = pairProb (fun k => x0 (ix2 p k)) (fun k => x1 (ix2 q k)) (fun k => x2 (ix2 (0 : Fin 1) k)) (fun c k => x3 (ix2 c k)) (fun c => x4 (ix2 (0 : Fin 1) c)) c := by
  unfold k2_pay1
  match c with
  | ⟨0, _⟩ =>
    refine (concatenate_pair_apply_left (t := S64x64x2) (s₁ := S64x64x1) (s₂ := S64x64x1) (2 : Fin 3) _ _ _ (ix3 p q (0 : Fin 2)) rfl (ix3 p q (0 : Fin 1)) (fun b => ?_)).trans ?_
    · match b with
      | ⟨0, _⟩ => rfl
      | ⟨1, _⟩ => rfl
      | ⟨2, _⟩ => rfl
    · rw [shapeCast_ab_ab1_apply]; exact pay10_apply x0 x1 x2 x3 x4 p q
  | ⟨1, _⟩ =>
    refine (concatenate_pair_apply_right (t := S64x64x2) (s₁ := S64x64x1) (s₂ := S64x64x1) (2 : Fin 3) _ _ _ (ix3 p q (1 : Fin 2)) rfl rfl (ix3 p q (0 : Fin 1)) (fun b hb => ?_) ?_).trans ?_
    · match b with
      | ⟨0, _⟩ => rfl
      | ⟨1, _⟩ => rfl
      | ⟨2, _⟩ => exact absurd rfl hb
    · rfl
    · rw [shapeCast_ab_ab1_apply]; exact pay11_apply x0 x1 x2 x3 x4 p q

end Cert.KernelIdeal.PairsValue
end
-- ==== Proof.KI.PairsValueArray.lean ====
/-
  From tiles to the array. The edge classifier runs on an 8 by 8 grid; at point `(ti, tj)` it reads rows
  `64·ti …` of the first projection, rows `64·tj …` of the second, the whole bias row, weight rows and bias pair,
  and writes tile `(ti, tj)` of the `512 × 512 × 2` result. What a point writes back is its tile of ONE function of
  the arrays as the region finds them, `pairsFull`; the 64 tiles cover the result; so the result ends holding
  `pairsFull` of those arrays.
-/
import proofs.«110368_j31911607009638_1_alg».proof.Proof.KI.Region2
import proofs.«110368_j31911607009638_1_alg».proof.Proof.KI.PairsValueTile
import Idealize.ShloMosaic.Lib.Pipeline.Value

set_option maxRecDepth 16384
noncomputable section
namespace Cert.KernelIdeal.PairsValue
open Cert.KernelIdeal Cert.KernelIdeal.Gen Cert.KernelIdeal.Hand Idealize.ShloMosaic Idealize.ShloMosaic.ValueIdx Idealize.ShloMosaic.TcCoe Idealize.SL.Sem
open Idealize.ShloMosaic.Pipeline (Dat)

/-- Zero offsets on two axes, as the constant function. -/
theorem zeros2 : (![0, 0] : Fin 2 → Nat) = fun _ => 0 := funext fun a => by fin_cases a <;> rfl
/-- Zero offsets on three axes, as the constant function. -/
theorem zeros3 : (![0, 0, 0] : Fin 3 → Nat) = fun _ => 0 := funext fun a => by fin_cases a <;> rfl

/-- The printed index maps, decided over the 64 grid points: the first projection's block index is the tile's first
    coordinate, the second projection's the tile's second, the three small operands' blocks are constant, and the tile's
    coordinates are below 8 with last coordinate 0. -/
theorem idx_facts : ∀ t : Fin cfg2.N,
    win2_0.index t (0 : Fin 2) = win2_5.index t (0 : Fin 3) ∧ win2_0.index t (1 : Fin 2) = 0
    ∧ win2_1.index t (0 : Fin 2) = win2_5.index t (1 : Fin 3) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) ≤ 7 ∧ win2_5.index t (1 : Fin 3) ≤ 7 ∧ win2_5.index t (2 : Fin 3) = 0 :=
  (by decide +kernel : ∀ t : Fin grid2.N, _)

/-- Every tile of the 8 by 8 arrangement is some grid point's. -/
theorem idx_onto : ∀ (q0 q1 : Fin 8), ∃ t : Fin cfg2.N, win2_5.index t = ![q0.val, q1.val, 0] :=
  (by decide +kernel : ∀ (q0 q1 : Fin 8), ∃ t : Fin grid2.N, win2_5.index t = ![q0.val, q1.val, 0])

/-- An entry of a tile is the entry of `pairsFull` that lies under it: stated over variables for the five blocks, with
    each block's entries given as entries of its array (`h0` … `h4`) and the array index given coordinate by coordinate as
    tile coordinate times tile extent plus the coordinate inside the tile (`hi0`, `hi1`, `hi2`). -/
theorem tile_eq_full (A B : S512x256.Idx → EReal) (bias : S1x256.Idx → EReal) (w3 : S2x256.Idx → EReal) (b3 : S1x2.Idx → EReal)
    (x0 x1 : Vec Ideal S64x256 .f32) (x2 : Vec Ideal S1x256 .f32) (x3 : Vec Ideal S2x256 .f32) (x4 : Vec Ideal S1x2 .f32) (ti tj tk : ℕ) (htk : tk = 0)
    (h0 : ∀ (p : Fin 64) (k : Fin 256) (r : Fin 512), r.val = ti * 64 + p.val → x0 (ix2 p k) = A (ix2 r k))
    (h1 : ∀ (q : Fin 64) (k : Fin 256) (r : Fin 512), r.val = tj * 64 + q.val → x1 (ix2 q k) = B (ix2 r k))
    (h2 : ∀ k : Fin 256, x2 (ix2 (0 : Fin 1) k) = bias (ix2 (0 : Fin 1) k))
    (h3 : ∀ (c : Fin 2) (k : Fin 256), x3 (ix2 c k) = w3 (ix2 c k))
    (h4 : ∀ c : Fin 2, x4 (ix2 (0 : Fin 1) c) = b3 (ix2 (0 : Fin 1) c))
    (j : S64x64x2.Idx) (i : S512x512x2.Idx)
    (hi0 : (i 0).val = ti * 64 + 1 * (j 0).val) (hi1 : (i 1).val = tj * 64 + 1 * (j 1).val) (hi2 : (i 2).val = tk * 2 + 1 * (j 2).val) :
    k2_pay1 (k2_pay10 x0 x1 x2 x3 x4) (k2_pay11 x0 x1 x2 x3 x4) j = pairsFull A B bias w3 b3 i := by
  obtain ⟨p, q, c, rfl⟩ : ∃ (p : Fin 64) (q : Fin 64) (c : Fin 2), j = ix3 p q c := ⟨j 0, j 1, j 2, eq_ix3 j⟩
  obtain ⟨r, s, c', rfl⟩ : ∃ (r : Fin 512) (s : Fin 512) (c' : Fin 2), i = ix3 r s c' := ⟨i 0, i 1, i 2, eq_ix3 i⟩
  have hr : r.val = ti * 64 + 1 * p.val := hi0
  have hs : s.val = tj * 64 + 1 * q.val := hi1
  have hc : c'.val = tk * 2 + 1 * c.val := hi2
  obtain rfl : c' = c := Fin.ext (by omega)
  rw [tile_apply, pairsFull_apply]
  have ea : (fun k => x0 (ix2 p k)) = fun k => A (ix2 r k) := funext fun k => h0 p k r (by omega)
  have eb : (fun k => x1 (ix2 q k)) = fun k => B (ix2 s k) := funext fun k => h1 q k s (by omega)
  have ec : (fun k => x2 (ix2 (0 : Fin 1) k)) = fun k => bias (ix2 (0 : Fin 1) k) := funext h2
  have ed : (fun c k => x3 (ix2 c k)) = fun c k => w3 (ix2 c k) := funext fun c => funext fun k => h3 c k
  have ee : (fun c => x4 (ix2 (0 : Fin 1) c)) = fun c => b3 (ix2 (0 : Fin 1) c) := funext h4
  rw [ea, eb, ec, ed, ee]

variable (V : (c : Dev nD) → (b : Ref sig .tc) → Buf (Elt Ideal) ((c : Thread nD τ).loc b))

/-- WHAT POINT `t` WRITES BACK is tile `t` of `pairsFull` of the arrays as the region finds them. -/
theorem flushed2_5_eq (c : Dev nD) (t : Fin cfg2.N) :
    (dat2 (F := Ideal) V c).flushed 5 t = ((cfg2.win 5).blk t).view.read (Elt Ideal)
      (pairsFull (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero zeros3]
  simp only [View.ld_unit_zero (S := S64x256) zeros2, View.ld_unit_zero (S := S1x256) zeros2,
    View.ld_unit_zero (S := S2x256) zeros2, View.ld_unit_zero (S := S1x2) zeros2]
  obtain ⟨e00, e01, e10, e11, e20, e21, e30, e31, e40, e41, b0, b1, e52⟩ := idx_facts t
  funext j
  refine tile_eq_full (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t)
    (win2_5.index t (0 : Fin 3)) (win2_5.index t (1 : Fin 3)) (win2_5.index t (2 : Fin 3)) e52
    (fun p k r hr => ?_) (fun q k r hr => ?_) (fun k => ?_) (fun cc k => ?_) (fun cc => ?_)
    j (((cfg2.win 5).blk t).view.emb j) rfl rfl rfl
  · show V c (Pipeline.arrRef spec2 0) (((cfg2.win 0).blk t).view.emb (ix2 p k)) = V c (Pipeline.arrRef spec2 0) (ix2 r k)
    refine congrArg _ (funext fun a => Fin.ext ?_)
    match a with
    | ⟨0, _⟩ => show win2_0.index t (0 : Fin 2) * 64 + 1 * p.val = r.val; omega
    | ⟨1, _⟩ => show win2_0.index t (1 : Fin 2) * 256 + 1 * k.val = k.val; omega
  · show V c (Pipeline.arrRef spec2 1) (((cfg2.win 1).blk t).view.emb (ix2 q k)) = V c (Pipeline.arrRef spec2 1) (ix2 r k)
    refine congrArg _ (funext fun a => Fin.ext ?_)
    match a with
    | ⟨0, _⟩ => show win2_1.index t (0 : Fin 2) * 64 + 1 * q.val = r.val; omega
    | ⟨1, _⟩ => show win2_1.index t (1 : Fin 2) * 256 + 1 * k.val = k.val; omega
  · show V c (Pipeline.arrRef spec2 2) (((cfg2.win 2).blk t).view.emb (ix2 (0 : Fin 1) k)) = V c (Pipeline.arrRef spec2 2) (ix2 (0 : Fin 1) k)
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * k.val = k.val; omega
  · show V c (Pipeline.arrRef spec2 3) (((cfg2.win 3).blk t).view.emb (ix2 cc k)) = V c (Pipeline.arrRef spec2 3) (ix2 cc k)
    refine congrArg _ (funext fun a => Fin.ext ?_)
    match a with
    | ⟨0, _⟩ => show win2_3.index t (0 : Fin 2) * 2 + 1 * cc.val = cc.val; omega
    | ⟨1, _⟩ => show win2_3.index t (1 : Fin 2) * 256 + 1 * k.val = k.val; omega
  · show V c (Pipeline.arrRef spec2 4) (((cfg2.win 4).blk t).view.emb (ix2 (0 : Fin 1) cc)) = V c (Pipeline.arrRef spec2 4) (ix2 (0 : Fin 1) cc)
    refine congrArg _ (funext fun a => Fin.ext ?_)
    match a with
    | ⟨0, _⟩ => show win2_4.index t (0 : Fin 2) * 1 + 1 * 0 = 0; omega
    | ⟨1, _⟩ => show win2_4.index t (1 : Fin 2) * 2 + 1 * cc.val = cc.val; omega

/-- An index of the result is under point `t`'s tile iff each coordinate is in the tile's range on its axis. -/
theorem mem_blk2_5 (t : Fin cfg2.N) (i : S512x512x2.Idx) :
    i ∈ ((cfg2.win 5).blk t).view.set ↔ ∀ a : Fin 3, win2_5.index t a * S64x64x2.size a ≤ (i a).val ∧ (i a).val < win2_5.index t a * S64x64x2.size a + S64x64x2.size a := by
  show i ∈ ((View.whole main_v10).slice (win2_5.rect t)).set ↔ _
  rw [View.set_slice_whole, Rect.mem_set_unit]
  exact Iff.rfl

/-- The tiles cover the result: index `(r, s, c)` is under the tile of the point with coordinates `(r / 64, s / 64)`. -/
theorem cover2_5 (i : S512x512x2.Idx) : ∃ t : Fin cfg2.N, (cfg2.win 5).flush t = true ∧ i ∈ ((cfg2.win 5).blk t).view.set := by
  have hi0 : (i 0).val < 512 := (i 0).isLt
  have hi1 : (i 1).val < 512 := (i 1).isLt
  have hi2 : (i 2).val < 2 := (i 2).isLt
  obtain ⟨t, ht⟩ := idx_onto ⟨(i 0).val / 64, by omega⟩ ⟨(i 1).val / 64, by omega⟩
  have q0 : win2_5.index t (0 : Fin 3) = (i 0).val / 64 := congrFun ht 0
  have q1 : win2_5.index t (1 : Fin 3) = (i 1).val / 64 := congrFun ht 1
  have q2 : win2_5.index t (2 : Fin 3) = 0 := congrFun ht 2
  refine ⟨t, flush2_5 t, ?_⟩
  rw [mem_blk2_5]
  intro a
  match a with
  | ⟨0, _⟩ => show win2_5.index t (0 : Fin 3) * 64 ≤ (i 0).val ∧ (i 0).val < win2_5.index t (0 : Fin 3) * 64 + 64; omega
  | ⟨1, _⟩ => show win2_5.index t (1 : Fin 3) * 64 ≤ (i 1).val ∧ (i 1).val < win2_5.index t (1 : Fin 3) * 64 + 64; omega
  | ⟨2, _⟩ => show win2_5.index t (2 : Fin 3) * 2 ≤ (i 2).val ∧ (i 2).val < win2_5.index t (2 : Fin 3) * 2 + 2; omega

/-- THE RESULT ARRAY after the region: `pairsFull` of the five operand arrays as the region finds them. -/
theorem final2_5 (c : Dev nD) :
    (dat2 (F := Ideal) V c).arrAt 5 cfg2.N
      = pairsFull (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5
    (pairsFull (V c (Pipeline.arrRef spec2 0)) (V c (Pipeline.arrRef spec2 1)) (V c (Pipeline.arrRef spec2 2))
      (V c (Pipeline.arrRef spec2 3)) (V c (Pipeline.arrRef spec2 4)))
    (fun t _ => flushed2_5_eq V c t) cover2_5

end Cert.KernelIdeal.PairsValue
end
-- ==== Proof.KI.PairsValueLaw.lean ====
/-
  The law joining the two arrangements of the edge classifier on one pair. One side forms the pair's row of 512
  entries, the two agents' rows side by side, and takes ONE product with the 512-column weight matrix; the other takes
  the product of each agent's row with its own half of the columns and adds the two. A sum over 512 terms is the sum
  of its two halves in any additive commutative monoid, so the hidden layers agree with no finiteness assumed. The
  two-way softmax of the first side folds `max` from minus infinity and adds from zero; on the extended reals
  `max ⊥ x = x` and `0 + x = x`, so it is the plain one.
-/
import proofs.«110368_j31911607009638_1_alg».proof.Proof.KI.PairsValueSpec
import Idealize.ShloMosaic.PureOps.Ideal.Laws

noncomputable section
namespace Cert.KernelIdeal.PairsValue
open Idealize.ShloMosaic Idealize.ShloMosaic.ValueIdx
open scoped BigOperators

/-- Column `m` of the left half of a row of 512. -/
def leftCol (m : Fin 256) : Fin 512 := ⟨m.val, by omega⟩
/-- Column `m` of the right half of a row of 512. -/
def rightCol (m : Fin 256) : Fin 512 := ⟨256 + m.val, by omega⟩

/-- Two rows of 256 side by side as one row of 512. -/
def beside (u v : Fin 256 → EReal) : Fin 512 → EReal :=
  fun m => if h : m.val < 256 then u ⟨m.val, h⟩ else v ⟨m.val - 256, by omega⟩

/-- The left half of two rows side by side is the first row. -/
theorem beside_left (u v : Fin 256 → EReal) (m : Fin 256) : beside u v (leftCol m) = u m := by
  unfold beside leftCol
  rw [dif_pos m.isLt]

/-- The right half of two rows side by side is the second row. -/
theorem beside_right (u v : Fin 256 → EReal) (m : Fin 256) : beside u v (rightCol m) = v m := by
  unfold beside rightCol
  rw [dif_neg (by show ¬(256 + m.val < 256); omega)]
  exact congrArg v (Fin.ext (by show 256 + m.val - 256 = m.val; omega))

/-- A sum over a row of 512 is the sum over its left half plus the sum over its right half. -/
theorem sum_halves {M : Type*} [AddCommMonoid M] (f : Fin 512 → M) :
    ∑ m : Fin 512, f m = (∑ m : Fin 256, f (leftCol m)) + ∑ m : Fin 256, f (rightCol m) :=
  Fin.sum_univ_add (a := 256) (b := 256) f

/-- The hidden unit as the reference computes it: one sum over the 512 columns of the two rows side by side, the bias
    added to the sum, clamped below at zero. -/
def refHidden (hi hj : Fin 256 → EReal) (W : Fin 256 → Fin 512 → EReal) (β : Fin 256 → EReal) (n : Fin 256) : EReal :=
  max ((∑ m : Fin 512, beside hi hj m * W n m) + β n) (Ideal.ofBits .f32 0x00000000#32)

/-- The reference's logit of class `c`. -/
def refLogit (hi hj : Fin 256 → EReal) (W : Fin 256 → Fin 512 → EReal) (β : Fin 256 → EReal)
    (w3 : Fin 2 → Fin 256 → EReal) (b3 : Fin 2 → EReal) (c : Fin 2) : EReal :=
  (∑ k : Fin 256, refHidden hi hj W β k * w3 c k) + b3 c

/-- The two-way softmax as the reference spells it: the maximum is a fold of `max` over the two classes from the
    word of minus infinity, then `max` with that word once more; the denominator is the zero word plus the sum over the
    two classes. -/
def refSoftmax2 (l : Fin 2 → EReal) (c : Fin 2) : EReal :=
  Ideal.div
    (Ideal.exp (l c - max (Ideal.ofBits .f32 0xFF800000#32)
      ((Finset.univ : Finset (Fin 2)).fold max (Ideal.ofBits .f32 0xFF800000#32) l)))
    (Ideal.ofBits .f32 0x00000000#32 + ∑ c' : Fin 2, Ideal.exp (l c' - max (Ideal.ofBits .f32 0xFF800000#32)
      ((Finset.univ : Finset (Fin 2)).fold max (Ideal.ofBits .f32 0xFF800000#32) l)))

/-- The reference's class probabilities of a pair, in its order of operations. -/
def refPairProb (hi hj : Fin 256 → EReal) (W : Fin 256 → Fin 512 → EReal) (β : Fin 256 → EReal)
    (w3 : Fin 2 → Fin 256 → EReal) (b3 : Fin 2 → EReal) : Fin 2 → EReal :=
  refSoftmax2 (refLogit hi hj W β w3 b3)

/-- The word of minus infinity is the bottom extended real. -/
theorem ofBits_neg_inf_f32 : Ideal.ofBits .f32 0xFF800000#32 = ⊥ := by simp [Ideal.ofBits, Ideal.ieee]

/-- The fold of `max` over the two classes from the bottom is the larger of the two. -/
theorem fold_max_two (l : Fin 2 → EReal) : (Finset.univ : Finset (Fin 2)).fold max ⊥ l = max (l 0) (l 1) := by
  rw [show (Finset.univ : Finset (Fin 2)) = insert 0 {1} from by decide,
    Finset.fold_insert (by decide), Finset.fold_singleton, max_bot_right]

/-- The reference's spelling of the two-way softmax is the plain one. -/
theorem refSoftmax2_eq (l : Fin 2 → EReal) (c : Fin 2) :
    refSoftmax2 l c = Ideal.div (Ideal.exp (l c - max (l 0) (l 1)))
      (Ideal.exp (l 0 - max (l 0) (l 1)) + Ideal.exp (l 1 - max (l 0) (l 1))) := by
  unfold refSoftmax2
  rw [ofBits_neg_inf_f32, Ideal.ofBits_zero_f32, fold_max_two, max_bot_left, zero_add, Fin.sum_univ_two]

/-- The reference's hidden unit is the pair's hidden unit of the two half sums: the sum over the 512 columns splits
    into the sum over the left 256 and the sum over the right 256. -/
theorem refHidden_eq (hi hj : Fin 256 → EReal) (W : Fin 256 → Fin 512 → EReal) (β : Fin 256 → EReal) (n : Fin 256) :
    refHidden hi hj W β n
      = pairHidden (fun k => ∑ m : Fin 256, hi m * W k (leftCol m)) (fun k => ∑ m : Fin 256, hj m * W k (rightCol m)) β n := by
  unfold refHidden pairHidden
  rw [sum_halves]
  simp only [beside_left, beside_right]

/-- THE LAW: the reference's class probabilities of a pair are the specification's, at the two half products. -/
theorem refPairProb_eq (hi hj : Fin 256 → EReal) (W : Fin 256 → Fin 512 → EReal) (β : Fin 256 → EReal)
    (w3 : Fin 2 → Fin 256 → EReal) (b3 : Fin 2 → EReal) :
    refPairProb hi hj W β w3 b3
      = pairProb (fun k => ∑ m : Fin 256, hi m * W k (leftCol m)) (fun k => ∑ m : Fin 256, hj m * W k (rightCol m)) β w3 b3 := by
  funext c
  unfold refPairProb
  rw [refSoftmax2_eq]
  unfold pairProb pairExp pairLogit classLogit refLogit
  simp only [refHidden_eq]

/-- The array of all pairs, when its two projection arrays are the two half products of one matrix `h` of agent rows
    with the 512-column weight matrix: entry `(i, j, c)` is the reference's class-`c` probability for rows `i` and `j`
    of `h`. -/
theorem pairsFull_eq_ref (A B : (⟨2, ![512, 256]⟩ : Shape).Idx → EReal) (bias : (⟨2, ![1, 256]⟩ : Shape).Idx → EReal)
    (w3 : (⟨2, ![2, 256]⟩ : Shape).Idx → EReal) (b3 : (⟨2, ![1, 2]⟩ : Shape).Idx → EReal)
    (h : (⟨2, ![512, 256]⟩ : Shape).Idx → EReal) (W : Fin 256 → Fin 512 → EReal)
    (hA : ∀ (i : Fin 512) (k : Fin 256), A (ix2 i k) = ∑ m : Fin 256, h (ix2 i m) * W k (leftCol m))
    (hB : ∀ (j : Fin 512) (k : Fin 256), B (ix2 j k) = ∑ m : Fin 256, h (ix2 j m) * W k (rightCol m))
    (i j : Fin 512) (c : Fin 2) :
    pairsFull A B bias w3 b3 (ix3 i j c)
      = refPairProb (fun m => h (ix2 i m)) (fun m => h (ix2 j m)) W (fun k => bias (ix2 (0 : Fin 1) k))
          (fun c k => w3 (ix2 c k)) (fun c => b3 (ix2 (0 : Fin 1) c)) c := by
  rw [pairsFull_apply, refPairProb_eq]
  have ea : (fun k => A (ix2 i k)) = fun k => ∑ m : Fin 256, h (ix2 i m) * W k (leftCol m) := funext fun k => hA i k
  have eb : (fun k => B (ix2 j k)) = fun k => ∑ m : Fin 256, h (ix2 j m) * W k (rightCol m) := funext fun k => hB j k
  rw [ea, eb]

end Cert.KernelIdeal.PairsValue
end
-- ==== Proof.KI.PairsValue.lean ====
/-
  The edge classifier's value, assembled: the specification of one pair's class probabilities and of the array of
  all pairs (`pairProb`, `pairsFull`), a tile read at an entry (`tile_apply`), the result array after the region (`final2_5`), and the law
  between the one-product and the two-half-products arrangements (`refPairProb_eq`).
-/
import proofs.«110368_j31911607009638_1_alg».proof.Proof.KI.PairsValueSpec
import proofs.«110368_j31911607009638_1_alg».proof.Proof.KI.PairsValueTile
import proofs.«110368_j31911607009638_1_alg».proof.Proof.KI.PairsValueArray
import proofs.«110368_j31911607009638_1_alg».proof.Proof.KI.PairsValueLaw
-- ==== Proof.KI.KernelValue2.lean ====
import proofs.«110368_j31911607009638_1_alg».proof.Proof.KI.KernelValue0
import proofs.«110368_j31911607009638_1_alg».proof.Proof.KI.PairsValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Region 2's array at the ideal instance: the class probabilities of every ordered pair of agents -/

open Cert.KernelIdeal.TrunkValue Cert.KernelIdeal.PairsValue Cert.Layers Cert.LibAttention

variable (m : (ℓ : Loc nD τ sig) → Buf (Elt Ideal) ℓ) (ρ : Dev nD → PrngReg)

/-- The array of pair probabilities after region 2, in terms of the arguments. -/
theorem pairs_eq (c : Dev nD) :
    B6 m ρ c main_v10 = (pairsFull (specA (specH (specAttn (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768))) (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768)) (m ((c : Thread nD τ).loc main_arg5)) (shapeCast S1x256 (m ((c : Thread nD τ).loc main_arg6)) shapeCasts_S256_S1x256)) (m ((c : Thread nD τ).loc main_arg7))) (specB (specH (specAttn (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768))) (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768)) (m ((c : Thread nD τ).loc main_arg5)) (shapeCast S1x256 (m ((c : Thread nD τ).loc main_arg6)) shapeCasts_S256_S1x256)) (m ((c : Thread nD τ).loc main_arg7))) (shapeCast S1x256 (m ((c : Thread nD τ).loc main_arg8)) shapeCasts_S256_S1x256) (m ((c : Thread nD τ).loc main_arg9)) (shapeCast S1x2 (m ((c : Thread nD τ).loc main_arg10)) shapeCasts_S2_S1x2)) := by
  rw [show B6 m ρ c main_v10 = (dat2 (E5 m ρ) c).arrAt 5 cfg2.N from B6_arr m ρ c 5, final2_5]
  show pairsFull (B5 m ρ c main_v3_1) (B5 m ρ c main_v3_2) (B5 m ρ c (Proc.devRef .tc main_v8)) (B5 m ρ c main_arg9) (B5 m ρ c (Proc.devRef .tc main_v9)) = _
  rw [B5_main_v3_1, B5_main_v3_2, B5_main_v8, B5_main_arg9, B5_main_v9, edgeA_eq, edgeB_eq]
  rw [show B4 m ρ c (Proc.devRef .tc main_arg8) = m ((c : Thread nD τ).loc main_arg8) from B4_main_arg8 m ρ c,
    show B4 m ρ c (Proc.devRef .tc main_arg10) = m ((c : Thread nD τ).loc main_arg10) from B4_main_arg10 m ρ c]

end Cert.KernelIdeal.Hand

end
-- ==== Proof.LibBlockSum.lean ====
/-
  A finite sum over n·b consecutive indices regroups into n consecutive blocks of b indices each: the sum over K below
  n·b of f K is the sum over t below n of the sum over k below b of f (t·b + k). The indices below n·b are exactly the
  numbers t·b + k with t below n and k below b, each once, so the two sums have the same terms; addition being
  commutative and associative, their order and grouping do not matter. This holds in any additive commutative monoid —
  the extended reals among them, where no finiteness of the terms is needed.

  It is what lets a contraction over a long axis that a kernel walks block by block, adding each block's partial
  contraction to an accumulator, be read as the one contraction over the whole axis.
-/
import Mathlib.Algebra.BigOperators.Fin
import Mathlib.Data.Fintype.BigOperators

namespace Cert.LibBlockSum

/-- The k-th index of the t-th block of b indices lies below n·b. -/
theorem block_lt {n b : ℕ} (t : Fin n) (k : Fin b) : t.val * b + k.val < n * b :=
  calc t.val * b + k.val < t.val * b + b := Nat.add_lt_add_left k.isLt _
    _ = (t.val + 1) * b := (Nat.succ_mul _ _).symm
    _ ≤ n * b := Nat.mul_le_mul_right b t.isLt

/-- A sum over n·b consecutive indices is the sum, over the n consecutive blocks of b indices, of each block's sum. -/
theorem sum_blocks {M : Type*} [AddCommMonoid M] (n b : ℕ) (f : Fin (n * b) → M) :
    ∑ K : Fin (n * b), f K = ∑ t : Fin n, ∑ k : Fin b, f ⟨t.val * b + k.val, block_lt t k⟩ := by
  rw [← Fintype.sum_prod_type' (fun (t : Fin n) (k : Fin b) => f ⟨t.val * b + k.val, block_lt t k⟩)]
  refine (Fintype.sum_equiv finProdFinEquiv _ _ fun p => ?_).symm
  refine congrArg f (Fin.ext ?_)
  show p.1.val * b + p.2.val = p.2.val + b * p.1.val
  rw [Nat.mul_comm, Nat.add_comm]

/-- The same for a function of the natural number t·b + k that does not read the bound's proof: the sum over K below N of
    g K, where N is n·b, is the sum over the blocks. -/
theorem sum_blocks_of_eq {M : Type*} [AddCommMonoid M] {N : ℕ} (n b : ℕ) (hN : N = n * b) (f : Fin N → M) :
    ∑ K : Fin N, f K = ∑ t : Fin n, ∑ k : Fin b, f ⟨t.val * b + k.val, hN ▸ block_lt t k⟩ := by
  subst hN
  exact sum_blocks n b f

end Cert.LibBlockSum
-- ==== Proof.KI.ValueHeadPay.lean ====
import proofs.«110368_j31911607009638_1_alg».proof.Proof.Gen.KernelIdeal.Skeleton
import proofs.«110368_j31911607009638_1_alg».proof.Proof.LibAttentionScale
import proofs.«110368_j31911607009638_1_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Layers Cert.LibAttention Cert.LibMatProd Cert.LibBlockSum

/-! # The value head's three stored values, at the extended reals, as whole-matrix functions

The accumulator's reset stores the zero row; each point adds to the accumulator the product of the activations block
with the transposed weight block; the last point adds the first bias row to the accumulator, clamps below at zero,
multiplies by the transposed second weight row and adds the second bias. Narrowing a format is the identity on exact
values and an identity re-lay changes nothing, so each stored value is the matrix function its operations spell. -/

/-- In a one-row matrix every index is in row 0. -/
theorem row0 {N : ℕ} (i : (⟨2, ![1, N]⟩ : Shape).Idx) : ix2 (0 : Fin 1) (i 1) = i :=
  (congrArg (fun a => ix2 a (i 1)) (Subsingleton.elim (0 : Fin 1) (i 0))).trans (eq_ix2 i).symm

/-- Adding two one-row matrices entry by entry is the row addition. -/
theorem addf_row {N : ℕ} (a row : Mat 1 N) :
    (addf (F := Ideal) (s := ⟨2, ![1, N]⟩) (φ := .f32) a row : Mat 1 N) = addRow a row := by
  funext i
  exact congrArg (fun z => a i + row z) (row0 i).symm

/-- The reset stores the zero row. -/
theorem pay1_eq : (k1_pay1 (F := Ideal) : Mat 1 256) = fun _ => 0 := by
  funext j
  simp only [k1_pay1, shapeCast_self, broadcast_apply]
  exact Ideal.ofBits_zero_f32

/-- A point stores the accumulator plus the activations block times the transposed weight block. -/
theorem pay2_eq (v3 : Mat 256 8192) (v5 : Mat 1 8192) (v8 : Mat 1 256) :
    (k1_pay2 (F := Ideal) v3 v5 v8 : Mat 1 256) = fun j => v8 j + matProd v5 (transposeM v3) j := by
  funext j
  simp only [k1_pay2, shapeCast_self]
  rw [addf_apply]
  refine congrArg (v8 j + ·) ?_
  refine (congrFun (unit_prod dot_S1x8192_S8192x256_S1x256_1_0_0_1_n_n rfl rfl rfl rfl rfl rfl _ _) j).trans ?_
  rw [unit_transpose]
  rfl

/-- The last point stores the dense layer of the clamped, biased accumulator. -/
theorem pay3_eq (v18 v19 v25 : Mat 1 256) (v29 : Mat 1 1) :
    (k1_pay3 (F := Ideal) v18 v19 v25 v29 : Mat 1 1) = dense (clamp (addRow v18 v19)) (transposeM v25) v29 := by
  simp only [k1_pay3, shapeCast_self]
  rw [addf_row, unit_prod dot_S1x256_S256x1_S1x1_1_0_0_1_n_n rfl rfl rfl rfl rfl rfl, unit_transpose, addf_row]
  rfl

end Cert.KernelIdeal.Hand

end
-- ==== Proof.KI.ValueHeadAcc.lean ====
import proofs.«110368_j31911607009638_1_alg».proof.Proof.KI.Region1Dat
import proofs.«110368_j31911607009638_1_alg».proof.Proof.KI.ValueHeadPay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Layers Cert.LibAttention Cert.LibMatProd Cert.LibBlockSum

/-! # The accumulator after the last point is the whole product

Point t adds to the accumulator the product of columns 8192·t … 8192·t + 8191 of the activations with the same columns
of the weights, transposed; the sixteen blocks are the whole axis of 131072, and a sum over it regroups into the
sixteen consecutive blocks. -/

variable (V : (c : Dev nD) → (b : Ref sig .tc) → Buf (Elt Ideal) ((c : Thread nD τ).loc b))

/-- The block indices of the region's input windows: windows 0 and 1 walk the long axis, windows 2, 3, 4 stay at the
    origin. -/
theorem idx_facts1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Window 0's block at point t embeds column k of the block as column 8192·t + k of the array. -/
theorem emb1_0 (t : Fin cfg1.N) (j : S256x8192.Idx) (i : S256x131072.Idx)
    (h0 : (i 0).val = (j 0).val) (h1 : (i 1).val = t.val * 8192 + (j 1).val) : ((cfg1.win 0).blk t).view.emb j = i := by
  obtain ⟨e0, e1, -⟩ := idx_facts1 t
  funext a; apply Fin.ext
  match a with
  | ⟨0, _⟩ => show win1_0.index t (0 : Fin 2) * 256 + 1 * (j 0).val = (i 0).val; omega
  | ⟨1, _⟩ => show win1_0.index t (1 : Fin 2) * 8192 + 1 * (j 1).val = (i 1).val; omega

/-- Window 1's block at point t embeds column k of the block as column 8192·t + k of the array. -/
theorem emb1_1 (t : Fin cfg1.N) (j : S1x8192.Idx) (i : S1x131072.Idx)
    (h0 : (i 0).val = (j 0).val) (h1 : (i 1).val = t.val * 8192 + (j 1).val) : ((cfg1.win 1).blk t).view.emb j = i := by
  obtain ⟨-, -, e2, e3, -⟩ := idx_facts1 t
  funext a; apply Fin.ext
  match a with
  | ⟨0, _⟩ => show win1_1.index t (0 : Fin 2) * 1 + 1 * (j 0).val = (i 0).val; omega
  | ⟨1, _⟩ => show win1_1.index t (1 : Fin 2) * 8192 + 1 * (j 1).val = (i 1).val; omega

/-- An entry of the weight block at point t is the weights' entry in column 8192·t + k. -/
theorem iblk1_0_apply (c : Dev nD) (t : Fin cfg1.N) (p : Fin 256) (k : Fin 8192) (K : Fin 131072) (hK : K.val = t.val * 8192 + k.val) :
    iblk1 V c 0 t (ix2 p k) = V c (Pipeline.arrRef spec1 0) (ix2 p K) := by
  unfold iblk1
  show V c (Pipeline.arrRef spec1 0) (((cfg1.win 0).blk t).view.emb (ix2 p k)) = V c (Pipeline.arrRef spec1 0) (ix2 p K)
  rw [emb1_0 t (ix2 p k) (ix2 p K) rfl hK]

/-- An entry of the activations block at point t is the activations' entry in column 8192·t + k. -/
theorem iblk1_1_apply (c : Dev nD) (t : Fin cfg1.N) (u : Fin 1) (k : Fin 8192) (K : Fin 131072) (hK : K.val = t.val * 8192 + k.val) :
    iblk1 V c 1 t (ix2 u k) = V c (Pipeline.arrRef spec1 1) (ix2 u K) := by
  unfold iblk1
  show V c (Pipeline.arrRef spec1 1) (((cfg1.win 1).blk t).view.emb (ix2 u k)) = V c (Pipeline.arrRef spec1 1) (ix2 u K)
  rw [emb1_1 t (ix2 u k) (ix2 u K) rfl hK]

/-- Window 2's block is its whole array: it embeds an index of the block as the same index of the array. -/
theorem emb1_2 (t : Fin cfg1.N) (j : S1x256.Idx) : ((cfg1.win 2).blk t).view.emb j = j := by
  obtain ⟨-, -, -, -, e4, e5, e6, e7, e8, e9⟩ := idx_facts1 t
  funext a; apply Fin.ext
  match a with
  | ⟨0, _⟩ => show win1_2.index t (0 : Fin 2) * 1 + 1 * (j 0).val = (j 0).val; omega
  | ⟨1, _⟩ => show win1_2.index t (1 : Fin 2) * 256 + 1 * (j 1).val = (j 1).val; omega

/-- Input window 2's block is its whole array. -/
theorem iblk1_2 (c : Dev nD) (t : Fin cfg1.N) : iblk1 V c 2 t = V c (Pipeline.arrRef spec1 2) := by
  funext j
  unfold iblk1
  show V c (Pipeline.arrRef spec1 2) (((cfg1.win 2).blk t).view.emb j) = V c (Pipeline.arrRef spec1 2) j
  rw [emb1_2]

/-- Window 3's block is its whole array: it embeds an index of the block as the same index of the array. -/
theorem emb1_3 (t : Fin cfg1.N) (j : S1x256.Idx) : ((cfg1.win 3).blk t).view.emb j = j := by
  obtain ⟨-, -, -, -, e4, e5, e6, e7, e8, e9⟩ := idx_facts1 t
  funext a; apply Fin.ext
  match a with
  | ⟨0, _⟩ => show win1_3.index t (0 : Fin 2) * 1 + 1 * (j 0).val = (j 0).val; omega
  | ⟨1, _⟩ => show win1_3.index t (1 : Fin 2) * 256 + 1 * (j 1).val = (j 1).val; omega

/-- Input window 3's block is its whole array. -/
theorem iblk1_3 (c : Dev nD) (t : Fin cfg1.N) : iblk1 V c 3 t = V c (Pipeline.arrRef spec1 3) := by
  funext j
  unfold iblk1
  show V c (Pipeline.arrRef spec1 3) (((cfg1.win 3).blk t).view.emb j) = V c (Pipeline.arrRef spec1 3) j
  rw [emb1_3]

/-- Window 4's block is its whole array: it embeds an index of the block as the same index of the array. -/
theorem emb1_4 (t : Fin cfg1.N) (j : S1x1.Idx) : ((cfg1.win 4).blk t).view.emb j = j := by
  obtain ⟨-, -, -, -, e4, e5, e6, e7, e8, e9⟩ := idx_facts1 t
  funext a; apply Fin.ext
  match a with
  | ⟨0, _⟩ => show win1_4.index t (0 : Fin 2) * 1 + 1 * (j 0).val = (j 0).val; omega
  | ⟨1, _⟩ => show win1_4.index t (1 : Fin 2) * 1 + 1 * (j 1).val = (j 1).val; omega

/-- Input window 4's block is its whole array. -/
theorem iblk1_4 (c : Dev nD) (t : Fin cfg1.N) : iblk1 V c 4 t = V c (Pipeline.arrRef spec1 4) := by
  funext j
  unfold iblk1
  show V c (Pipeline.arrRef spec1 4) (((cfg1.win 4).blk t).view.emb j) = V c (Pipeline.arrRef spec1 4) j
  rw [emb1_4]

/-! ## The accumulator as a sum of block products -/

/-- What point t adds to the accumulator: the activations block times the transposed weight block. -/
def blockProd (c : Dev nD) (t : Fin cfg1.N) : Mat 1 256 :=
  matProd (iblk1 V c 1 t : Mat 1 8192) (transposeM (iblk1 V c 0 t : Mat 256 8192))

theorem acc1_step0 (c : Dev nD) (hn : 0 < cfg1.N) (j : (⟨2, ![1, 256]⟩ : Shape).Idx) :
    acc1 V c 0 hn j = 0 + blockProd V c ⟨0, hn⟩ j := by
  rw [acc1_zero]
  exact (congrFun (pay2_eq _ _ _) j).trans (congrArg (· + blockProd V c ⟨0, hn⟩ j) (congrFun pay1_eq j))

theorem acc1_step (c : Dev nD) (n : ℕ) (hn : n + 1 < cfg1.N) (j : (⟨2, ![1, 256]⟩ : Shape).Idx) :
    acc1 V c (n + 1) hn j = acc1 V c n (Nat.lt_of_succ_lt hn) j + blockProd V c ⟨n + 1, hn⟩ j := by
  rw [acc1_succ]
  exact congrFun (pay2_eq _ _ _) j

/-- After point n the accumulator is zero plus the block products of the points up to n. -/
theorem acc1_closed (c : Dev nD) : ∀ (n : ℕ) (hn : n < cfg1.N) (j : (⟨2, ![1, 256]⟩ : Shape).Idx),
    acc1 V c n hn j = 0 + ∑ t : Fin (n + 1), blockProd V c ⟨t.val, lt_of_lt_of_le t.isLt hn⟩ j
  | 0, hn, j => by
    rw [acc1_step0, Fin.sum_univ_one]; rfl
  | n + 1, hn, j => by
    rw [acc1_step, acc1_closed c n (Nat.lt_of_succ_lt hn) j, Fin.sum_univ_castSucc (n := n + 1), add_assoc]
    rfl

/-- After the last point the accumulator is the activations times the transposed weights: the contraction over the
    whole axis, regrouped into the sixteen blocks. -/
theorem acc1_last (c : Dev nD) :
    (acc1 V c t1_15.val t1_15.isLt : Mat 1 256)
      = matProd (V c (Pipeline.arrRef spec1 1) : Mat 1 131072) (transposeM (V c (Pipeline.arrRef spec1 0) : Mat 256 131072)) := by
  funext j
  obtain ⟨u, q, rfl⟩ : ∃ (u : Fin 1) (q : Fin 256), j = ix2 u q := ⟨j 0, j 1, eq_ix2 j⟩
  refine (acc1_closed V c t1_15.val t1_15.isLt (ix2 u q)).trans ?_
  rw [zero_add, matProd_apply, sum_blocks_of_eq 16 8192 rfl]
  refine Finset.sum_congr rfl fun t _ => ?_
  unfold blockProd
  rw [matProd_apply]
  refine Finset.sum_congr rfl fun k _ => ?_
  rw [transposeM_apply, transposeM_apply]
  exact congrArg₂ (· * ·) (iblk1_1_apply V c _ u k _ rfl) (iblk1_0_apply V c _ q k _ rfl)

end Cert.KernelIdeal.Hand

end
-- ==== Proof.KI.ValueHead.lean ====
import proofs.«110368_j31911607009638_1_alg».proof.Proof.KI.ValueHeadAcc
import proofs.«110368_j31911607009638_1_alg».proof.Proof.KI.ValueHeadFinal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Layers Cert.LibAttention Cert.LibMatProd Cert.LibBlockSum

/-! # The value head as one function of its whole arrays

The region's output array, after the region, is a dense layer of the clamped dense layer of the activations: with W the
256 x 131072 weights, x the 1 x 131072 activations, vb and w3 the 1 x 256 bias and second weights, b3 the 1 x 1 second
bias, it is (max (x · Wᵀ + vb) 0) · w3ᵀ + b3. -/

variable (V : (c : Dev nD) → (b : Ref sig .tc) → Buf (Elt Ideal) ((c : Thread nD τ).loc b))

/-- The value head: two dense layers, the first clamped below at zero. -/
def valueSpec (W : Mat 256 131072) (x : Mat 1 131072) (vb : Mat 1 256) (w3 : Mat 1 256) (b3 : Mat 1 1) : Mat 1 1 :=
  dense (clamp (dense x (transposeM W) vb)) (transposeM w3) b3

/-- What the last point stores is the value head of the region's five input arrays. -/
theorem out1_5_spec (c : Dev nD) :
    (out1_5 (F := Ideal) V c : Mat 1 1)
      = valueSpec (V c (Pipeline.arrRef spec1 0)) (V c (Pipeline.arrRef spec1 1)) (V c (Pipeline.arrRef spec1 2))
          (V c (Pipeline.arrRef spec1 3)) (V c (Pipeline.arrRef spec1 4)) := by
  rw [out1_5_eq]
  refine (pay3_eq _ _ _ _).trans ?_
  rw [acc1_last, iblk1_2, iblk1_3, iblk1_4]
  rfl

/-- The region's output array after the region is the value head of its five input arrays. -/
theorem final1_5_spec (c : Dev nD) :
    (dat1 (F := Ideal) V c).arrAt 5 cfg1.N
      = valueSpec (V c (Pipeline.arrRef spec1 0)) (V c (Pipeline.arrRef spec1 1)) (V c (Pipeline.arrRef spec1 2))
          (V c (Pipeline.arrRef spec1 3)) (V c (Pipeline.arrRef spec1 4)) :=
  (final1_5 V c).trans (out1_5_spec V c)

end Cert.KernelIdeal.Hand

end
-- ==== Proof.KI.Tail.lean ====
import proofs.«110368_j31911607009638_1_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The end of the program: the result as a function of what the regions and the index computation leave

The last stretch of host operations wraps the two raw index vectors of the strict upper triangle (a negative entry
gets the axis length added), stacks them as the two columns of an index matrix, gathers from the 512 by 512 by 2 array
of pair probabilities the 2-vector at each index pair, and appends the value head's scalar as a third column. -/

/-- The wrap of a raw index vector: an entry below zero gets 512 added. -/
def wrap512 (r : (⟨S130816, .i32⟩ : BufTy).Contents (Elt F)) : (⟨S130816, .i32⟩ : BufTy).Contents (Elt F) :=
  select (cmpi .slt r (broadcastInDim S130816 ![] bcast_S_S130816 (constantI S_ 32 0#32)))
    (addi r (broadcastInDim S130816 ![] bcast_S_S130816 (constantI S_ 32 512#32))) r

/-- The index matrix: the two wrapped index vectors as columns. -/
def idxMat (r0 r1 : (⟨S130816, .i32⟩ : BufTy).Contents (Elt F)) : (⟨S130816x2, .i32⟩ : BufTy).Contents (Elt F) :=
  concatenate S130816x2 1 [⟨S130816x1, broadcastInDim S130816x1 ![0] bcast_S130816_S130816x1_0 (wrap512 r0)⟩,
    ⟨S130816x1, broadcastInDim S130816x1 ![0] bcast_S130816_S130816x1_0 (wrap512 r1)⟩] concatenates_S130816x1_S130816x1_S130816x2_d1

/-- The program's result from the array of pair probabilities `P`, the two raw index vectors and the value `v`. -/
def tailK (P : (⟨S512x512x2, .f32⟩ : BufTy).Contents (Elt F)) (r0 r1 : (⟨S130816, .i32⟩ : BufTy).Contents (Elt F))
    (v : (⟨S1x1, .f32⟩ : BufTy).Contents (Elt F)) : (⟨S130816x3, .f32⟩ : BufTy).Contents (Elt F) :=
  concatenate S130816x3 1 [⟨S130816x2, Host.gather gather_S512x512x2_S130816x2_S130816x2_1_01_n_n_01_1_112 P (idxMat r0 r1)⟩,
    ⟨S130816x1, broadcastInDim S130816x1 ![0, 1] bcast_S1x1_S130816x1_0_1 v⟩] concatenates_S130816x2_S130816x1_S130816x3_d1

set_option maxHeartbeats 4000000 in
open Idealize.ShloMosaic.StableHlo in
/-- The last stretch, from any contents: the result buffer ends at `tailK` of the four buffers the stretch reads. -/
theorem tail16 (W : Valuation τ sig (Elt F)) :
    StableHlo.after (hostOps3_16 (F := F)) W (Proc.devRef .tc main_v46)
      = tailK (W (Proc.devRef .tc main_v10)) (W (Proc.devRef .tc main_v28)) (W (Proc.devRef .tc main_v30)) (W (Proc.devRef .tc main_v7)) := by
  obtain ⟨T, h1, h2⟩ : ∃ T, StableHlo.after (hostOps3_16 (F := F)) W (Proc.devRef .tc main_v46) = T
      ∧ T = tailK (W (Proc.devRef .tc main_v10)) (W (Proc.devRef .tc main_v28)) (W (Proc.devRef .tc main_v30)) (W (Proc.devRef .tc main_v7)) := by
    refine ⟨?T, ?h1, ?h2⟩
    case h1 =>
      dsimp only [hostOps3_16]
      after_results
    case h2 =>
      unfold tailK idxMat wrap512
      rfl
  exact h1.trans h2

variable (m : (ℓ : Loc nD τ sig) → Buf (Elt F) ℓ) (ρ : Dev nD → PrngReg)

/-- The array of pair probabilities reaches the last stretch as region 2 left it. -/
theorem B22_main_v10 (c : Dev nD) : B22 m ρ c main_v10 = B6 m ρ c main_v10 :=
  (B22_of m ρ c main_v10 (by decide)).trans <| (B21_of m ρ c main_v10 (by decide)).trans <| (B20_of m ρ c main_v10 (by decide)).trans <| (B19_of m ρ c main_v10 (by decide)).trans <| (B18_of m ρ c main_v10 (by decide)).trans <| (B17_of m ρ c main_v10 (by decide)).trans <| (B16_of m ρ c main_v10 (by decide)).trans <| (B15_of m ρ c main_v10 (by decide)).trans <| (B14_of m ρ c main_v10 (by decide)).trans <| (B13_of m ρ c main_v10 (by decide)).trans <| (B12_of m ρ c main_v10 (by decide)).trans <| (B11_of m ρ c main_v10 (by decide)).trans <| (B10_of m ρ c main_v10 (by decide)).trans <| (B9_of m ρ c main_v10 (by decide)).trans <| (B8_of m ρ c main_v10 (by decide)).trans <| (B7_of m ρ c main_v10 (by decide))

/-- The value head's scalar reaches the last stretch as region 1 left it. -/
theorem B22_main_v7 (c : Dev nD) : B22 m ρ c main_v7 = B4 m ρ c main_v7 :=
  (B22_of m ρ c main_v7 (by decide)).trans <| (B21_of m ρ c main_v7 (by decide)).trans <| (B20_of m ρ c main_v7 (by decide)).trans <| (B19_of m ρ c main_v7 (by decide)).trans <| (B18_of m ρ c main_v7 (by decide)).trans <| (B17_of m ρ c main_v7 (by decide)).trans <| (B16_of m ρ c main_v7 (by decide)).trans <| (B15_of m ρ c main_v7 (by decide)).trans <| (B14_of m ρ c main_v7 (by decide)).trans <| (B13_of m ρ c main_v7 (by decide)).trans <| (B12_of m ρ c main_v7 (by decide)).trans <| (B11_of m ρ c main_v7 (by decide)).trans <| (B10_of m ρ c main_v7 (by decide)).trans <| (B9_of m ρ c main_v7 (by decide)).trans <| (B8_of m ρ c main_v7 (by decide)).trans <| (B7_of m ρ c main_v7 (by decide)).trans <| (B6_of m ρ c main_v7 (by decide)).trans <| (B5_of m ρ c main_v7 (by decide))

/-- The result buffer at the end of the program. -/
theorem B23_main_v46 (c : Dev nD) :
    B23 m ρ c main_v46 = tailK (B6 m ρ c main_v10) (B22 m ρ c main_v28) (B22 m ρ c main_v30) (B4 m ρ c main_v7) := by
  show StableHlo.after (hostOps3_16 (F := F)) (B22 m ρ c) (Proc.devRef .tc main_v46) = _
  rw [tail16, show B22 m ρ c (Proc.devRef .tc main_v10) = B6 m ρ c main_v10 from B22_main_v10 m ρ c,
    show B22 m ρ c (Proc.devRef .tc main_v7) = B4 m ρ c main_v7 from B22_main_v7 m ρ c]

end Cert.KernelIdeal.Hand

end
-- ==== Proof.KI.KernelValue.lean ====
import proofs.«110368_j31911607009638_1_alg».proof.Proof.KI.KernelValue2
import proofs.«110368_j31911607009638_1_alg».proof.Proof.KI.ValueHead
import proofs.«110368_j31911607009638_1_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The kernel program's result at the ideal instance, in terms of the arguments -/

open Cert.KernelIdeal.TrunkValue Cert.KernelIdeal.PairsValue Cert.Layers Cert.LibAttention

variable (m : (ℓ : Loc nD τ sig) → Buf (Elt Ideal) ℓ) (ρ : Dev nD → PrngReg)

/-- The value head's scalar after region 1: relu of the flattened embedding times the transposed value weight plus its
    bias row, times the transposed output row plus its bias. -/
theorem value_eq (c : Dev nD) :
    B4 m ρ c main_v7 = (valueSpec (m ((c : Thread nD τ).loc main_arg11)) (shapeCast S1x131072 (specHid (m ((c : Thread nD τ).loc main_arg0)) (m ((c : Thread nD τ).loc main_arg1)) (shapeCast S1x256 (m ((c : Thread nD τ).loc main_arg2)) shapeCasts_S256_S1x256)) shapeCasts_S512x256_S1x131072) (shapeCast S1x256 (m ((c : Thread nD τ).loc main_arg12)) shapeCasts_S256_S1x256) (m ((c : Thread nD τ).loc main_arg13)) (shapeCast S1x1 (m ((c : Thread nD τ).loc main_arg14)) shapeCasts_S1_S1x1)) := by
  rw [show B4 m ρ c main_v7 = (dat1 (E3 m ρ) c).arrAt 5 cfg1.N from B4_arr m ρ c 5, final1_5_spec]
  show valueSpec (B3 m ρ c main_arg11) (B3 m ρ c (Proc.devRef .tc main_v4)) (B3 m ρ c (Proc.devRef .tc main_v5)) (B3 m ρ c main_arg13) (B3 m ρ c (Proc.devRef .tc main_v6)) = _
  rw [B3_main_arg11, B3_main_v4, B3_main_v5, B3_main_arg13, B3_main_v6]
  rw [show B2 m ρ c (Proc.devRef .tc main_v3_0) = _ from hid_eq m ρ c,
    show B2 m ρ c (Proc.devRef .tc main_arg12) = m ((c : Thread nD τ).loc main_arg12) from B2_main_arg12 m ρ c,
    show B2 m ρ c (Proc.devRef .tc main_arg14) = m ((c : Thread nD τ).loc main_arg14) from B2_main_arg14 m ρ c]

/-- The result buffer at the end of the kernel program. -/
theorem kernel_result (c : Dev nD) :
    B23 m ρ c main_v46 = tailK (pairsFull (specA (specH (specAttn (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768))) (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768)) (m ((c : Thread nD τ).loc main_arg5)) (shapeCast S1x256 (m ((c : Thread nD τ).loc main_arg6)) shapeCasts_S256_S1x256)) (m ((c : Thread nD τ).loc main_arg7))) (specB (specH (specAttn (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768))) (specQkv (specHid (m ((c : Thread nD τ).loc main_arg0)) (m ((c : Thread nD τ).loc main_arg1)) (shapeCast S1x256 (m ((c : Thread nD τ).loc main_arg2)) shapeCasts_S256_S1x256)) (m ((c : Thread nD τ).loc main_arg3)) (shapeCast S1x768 (m ((c : Thread nD τ).loc main_arg4)) shapeCasts_S768_S1x768)) (m ((c : Thread nD τ).loc main_arg5)) (shapeCast S1x256 (m ((c : Thread nD τ).loc main_arg6)) shapeCasts_S256_S1x256)) (m ((c : Thread nD τ).loc main_arg7))) (shapeCast S1x256 (m ((c : Thread nD τ).loc main_arg8)) shapeCasts_S256_S1x256) (m ((c : Thread nD τ).loc main_arg9)) (shapeCast S1x2 (m ((c : Thread nD τ).loc main_arg10)) shapeCasts_S2_S1x2)) (B22 m ρ c main_v28) (B22 m ρ c main_v30) (valueSpec (m ((c : Thread nD τ).loc main_arg11)) (shapeCast S1x131072 (specHid (m ((c : Thread nD τ).loc main_arg0)) (m ((c : Thread nD τ).loc main_arg1)) (shapeCast S1x256 (m ((c : Thread nD τ).loc main_arg2)) shapeCasts_S256_S1x256)) shapeCasts_S512x256_S1x131072) (shapeCast S1x256 (m ((c : Thread nD τ).loc main_arg12)) shapeCasts_S256_S1x256) (m ((c : Thread nD τ).loc main_arg13)) (shapeCast S1x1 (m ((c : Thread nD τ).loc main_arg14)) shapeCasts_S1_S1x1)) := by
  rw [B23_main_v46, pairs_eq, value_eq]

end Cert.KernelIdeal.Hand

end
-- ==== Proof.LibGatherPairs.lean ====
/-
  A gather by PAIRS of start indices, read at an index: `stablehlo.gather` of a rank-3 operand `[N1, N2, C]` along its
  first two axes at a matrix `[M, 2]` of start indices (what `x[i, j, :]` with two index vectors lowers to) is the
  operand's vector at the pair of start indices, each read signed and clamped into its own axis.
-/
import Idealize.ShloMosaic.Lib.ValueIdx
import Idealize.ShloMosaic.Lib.Pipeline.Value
import Idealize.ShloMosaic.Lib.IdealHost
import Idealize.ShloMosaic.PureOps.ShapeOps
import Idealize.ShloMosaic.PureOps.Dims

noncomputable section

open Idealize.ShloMosaic Idealize.ShloMosaic.ValueIdx

namespace Idealize.ShloMosaic.GatherPairs

variable {α : Type}

/-- The dimension numbers of a gather from an operand `[N1, N2, C]` at start indices `[M, 2]` with result `[M, C]`:
    axes 0 and 1 are collapsed and indexed by the two components of the index vector, which lies on axis 1 of the
    start indices; axis 2 is taken whole as the result's offset axis. -/
abbrev pairGather (N1 N2 M C : Nat)
    (wf : GatherDims.WF ⟨3, ![N1, N2, C]⟩ ⟨2, ![M, 2]⟩ ⟨2, ![M, C]⟩ [1] [0, 1] [] [0, 1] [] 1 ![1, 1, C]) :
    GatherDims ⟨3, ![N1, N2, C]⟩ ⟨2, ![M, 2]⟩ ⟨2, ![M, C]⟩ where
  offsetDims := [1]
  collapsedSliceDims := [0, 1]
  operandBatchingDims := []
  startIndicesBatchingDims := []
  startIndexMap := [0, 1]
  indexVectorDim := 1
  sliceSizes := ![1, 1, C]
  wf := wf

/-- The first coordinate that entry `e` of the index matrix selects: its component 0 read as a signed integer and
    clamped into `[0, N1 − 1]`. -/
def src0 {N1 M w : Nat} (hN : 0 < N1) (idx : IVec ⟨2, ![M, 2]⟩ w) (e : Fin M) : Fin N1 :=
  ⟨min (idx (ix2 e 0)).toInt.toNat (N1 - 1), by omega⟩

/-- The second coordinate that entry `e` of the index matrix selects: its component 1, clamped into `[0, N2 − 1]`. -/
def src1 {N2 M w : Nat} (hN : 0 < N2) (idx : IVec ⟨2, ![M, 2]⟩ w) (e : Fin M) : Fin N2 :=
  ⟨min (idx (ix2 e 1)).toInt.toNat (N2 - 1), by omega⟩

/-- The start-indices position at which result position `(e, f)` reads component `c` of its start index is `(e, c)`. -/
theorem pairGather_siIdx {N1 N2 M C : Nat}
    (wf : GatherDims.WF ⟨3, ![N1, N2, C]⟩ ⟨2, ![M, 2]⟩ ⟨2, ![M, C]⟩ [1] [0, 1] [] [0, 1] [] 1 ![1, 1, C])
    (e : Fin M) (f : Fin C) (c : Fin (pairGather N1 N2 M C wf).startIndexMap.length) :
    (pairGather N1 N2 M C wf).siIdx (ix2 e f) c = ix2 e ⟨c.val, c.isLt⟩ := by
  funext b; refine Fin.ext ?_
  match b with
  | ⟨0, _⟩ => rfl
  | ⟨1, _⟩ => rfl

/-- The first operand coordinate that result position `(e, f)` reads: the clamped first component alone. -/
theorem pairGather_coord0 {N1 N2 M C w : Nat} (hN : 0 < N1)
    (wf : GatherDims.WF ⟨3, ![N1, N2, C]⟩ ⟨2, ![M, 2]⟩ ⟨2, ![M, C]⟩ [1] [0, 1] [] [0, 1] [] 1 ![1, 1, C])
    (idx : IVec ⟨2, ![M, 2]⟩ w) (e : Fin M) (f : Fin C) :
    (pairGather N1 N2 M C wf).start (ix2 e f) idx 0 + (pairGather N1 N2 M C wf).batchCoord (ix2 e f) 0
      + (pairGather N1 N2 M C wf).offCoord (ix2 e f) 0 = (src0 hN idx e).val := by
  rw [GatherDims.batchCoord_eq_zero _ _ _ List.not_mem_nil,
    GatherDims.offCoord_eq_zero _ _ _ (fun h => ((GatherDims.mem_sKept _ _).mp h).1 (List.mem_cons_self))]
  simp only [Nat.add_zero]
  unfold GatherDims.start
  rw [dif_pos (show (0 : Fin 3) ∈ (pairGather N1 N2 M C wf).startIndexMap from List.mem_cons_self)]
  rw [pairGather_siIdx]
  rfl

/-- The second operand coordinate that result position `(e, f)` reads: the clamped second component alone. -/
theorem pairGather_coord1 {N1 N2 M C w : Nat} (hN : 0 < N2)
    (wf : GatherDims.WF ⟨3, ![N1, N2, C]⟩ ⟨2, ![M, 2]⟩ ⟨2, ![M, C]⟩ [1] [0, 1] [] [0, 1] [] 1 ![1, 1, C])
    (idx : IVec ⟨2, ![M, 2]⟩ w) (e : Fin M) (f : Fin C) :
    (pairGather N1 N2 M C wf).start (ix2 e f) idx 1 + (pairGather N1 N2 M C wf).batchCoord (ix2 e f) 1
      + (pairGather N1 N2 M C wf).offCoord (ix2 e f) 1 = (src1 hN idx e).val := by
  rw [GatherDims.batchCoord_eq_zero _ _ _ List.not_mem_nil,
    GatherDims.offCoord_eq_zero _ _ _ (fun h => ((GatherDims.mem_sKept _ _).mp h).1 (List.mem_cons_of_mem _ (List.mem_singleton.mpr rfl)))]
  simp only [Nat.add_zero]
  unfold GatherDims.start
  rw [dif_pos (show (1 : Fin 3) ∈ (pairGather N1 N2 M C wf).startIndexMap from List.mem_cons_of_mem _ (List.mem_singleton.mpr rfl))]
  rw [pairGather_siIdx]
  rfl

/-- The third operand coordinate that result position `(e, f)` reads: the offset `f` alone. -/
theorem pairGather_coord2 {N1 N2 M C w : Nat}
    (wf : GatherDims.WF ⟨3, ![N1, N2, C]⟩ ⟨2, ![M, 2]⟩ ⟨2, ![M, C]⟩ [1] [0, 1] [] [0, 1] [] 1 ![1, 1, C])
    (idx : IVec ⟨2, ![M, 2]⟩ w) (e : Fin M) (f : Fin C) :
    (pairGather N1 N2 M C wf).start (ix2 e f) idx 2 + (pairGather N1 N2 M C wf).batchCoord (ix2 e f) 2
      + (pairGather N1 N2 M C wf).offCoord (ix2 e f) 2 = f.val := by
  rw [GatherDims.batchCoord_eq_zero _ _ _ List.not_mem_nil]
  have hne : (2 : Fin 3) ∉ ([0, 1] : List (Fin 3)) := by decide
  have hs : (pairGather N1 N2 M C wf).start (ix2 e f) idx 2 = 0 := by
    unfold GatherDims.start
    rw [dif_neg hne]
  have hmem : (2 : Fin 3) ∈ (pairGather N1 N2 M C wf).sKept :=
    (GatherDims.mem_sKept _ _).mpr ⟨hne, List.not_mem_nil⟩
  rw [hs]
  unfold GatherDims.offCoord
  rw [dif_pos hmem]
  simp only [Nat.zero_add, Nat.add_zero]
  rfl

/-- A gather by pairs read at `(e, f)`: the operand's entry `f` of the vector at the pair of coordinates the index
    matrix's row `e` selects. -/
theorem gather_pair_apply {N1 N2 M C w : Nat} (hN1 : 0 < N1) (hN2 : 0 < N2)
    (wf : GatherDims.WF ⟨3, ![N1, N2, C]⟩ ⟨2, ![M, 2]⟩ ⟨2, ![M, C]⟩ [1] [0, 1] [] [0, 1] [] 1 ![1, 1, C])
    (x : (⟨3, ![N1, N2, C]⟩ : Shape).Idx → α) (idx : IVec ⟨2, ![M, 2]⟩ w) (e : Fin M) (f : Fin C) :
    Host.gather (pairGather N1 N2 M C wf) x idx (ix2 e f) = x (ix3 (src0 hN1 idx e) (src1 hN2 idx e) f) := by
  unfold Host.gather
  congr 1
  funext a
  refine Fin.ext ?_
  match a with
  | ⟨0, _⟩ => exact pairGather_coord0 hN1 wf idx e f
  | ⟨1, _⟩ => exact pairGather_coord1 hN2 wf idx e f
  | ⟨2, _⟩ => exact pairGather_coord2 wf idx e f

end Idealize.ShloMosaic.GatherPairs

end
-- ==== Proof.LibStack.lean ====
/-
  Row scatters and row gathers read at an index.

  A scatter-add of rows: operand `[N, K]`, one scatter index per update row (indices `[E, 1]`), updates `[E, K]`, each
  update row added onto the operand row its index names (dropped when the index is outside `[0, N)`). Read at `(n, k)`
  it is the operand's element plus the sum over the update rows landing on `n` of their element in column `k`; so a
  column of a scatter of stacked columns is the flat scatter (operand `[N]`, updates `[E]`) of that column.
  A gather of rows likewise: a column of a row gather from a table of stacked columns is the flat gather from that column.
-/
import Idealize.ShloMosaic.Lib.ValueIdx
import Idealize.ShloMosaic.Lib.Pipeline.Value
import Idealize.ShloMosaic.PureOps.Ideal.Laws

noncomputable section

open scoped BigOperators

namespace Idealize.ShloMosaic.Stack

open Idealize.ShloMosaic Idealize.ShloMosaic.ValueIdx

/-! ## Scatters -/

/-- The dimension numbers of a row scatter: operand `[N, K]`, scatter indices `[E, 1]`, updates `[E, K]`. -/
abbrev rowsDims (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The dimension numbers of the flat scatter: operand `[N]`, scatter indices `[E, 1]`, updates `[E]`. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N K E w : Nat} (wf : ScatterDims.WF ⟨2, ![N, K]⟩ ⟨2, ![E, 1]⟩ ⟨2, ![E, K]⟩ [1] [0] [0] 1)

/-- A row scatter's update `(e, k)` starts, on the row axis, at the scatter index of row `e`. -/
theorem rows_start0 (j : (⟨2, ![E, K]⟩ : Shape).Idx) (idx : IVec ⟨2, ![E, 1]⟩ w) :
    (rowsDims N K E wf).start j idx 0 = (idx (ix2 (j 0) ⟨0, Nat.one_pos⟩)).toInt := by
  unfold ScatterDims.start
  rw [dif_pos (show (0 : Fin 2) ∈ (rowsDims N K E wf).scatterDimsToOperandDims from List.mem_singleton.mpr rfl)]
  congr 2
  funext b
  match b with
  | ⟨0, _⟩ => rfl
  | ⟨1, _⟩ => rfl

/-- On the row axis the window coordinate is zero: the axis is inserted. -/
theorem rows_window0 (j : (⟨2, ![E, K]⟩ : Shape).Idx) : (rowsDims N K E wf).window j 0 = 0 := by
  unfold ScatterDims.window; rw [dif_neg (by simp [ScatterDims.sKept, Shape.kept, List.mem_filter, List.mem_finRange])]
/-- On the column axis it is the update's column. -/
theorem rows_window1 (j : (⟨2, ![E, K]⟩ : Shape).Idx) : (rowsDims N K E wf).window j 1 = (j 1).val := by
  unfold ScatterDims.window; rw [dif_pos (by simp [ScatterDims.sKept, Shape.kept, List.mem_filter, List.mem_finRange])]; rfl
/-- On the column axis the window starts at zero: no scatter index names it. -/
theorem rows_start1 (j : (⟨2, ![E, K]⟩ : Shape).Idx) (idx : IVec ⟨2, ![E, 1]⟩ w) : (rowsDims N K E wf).start j idx 1 = 0 := by
  unfold ScatterDims.start; rw [dif_neg (fun h => absurd (congrArg Fin.val (List.mem_singleton.mp h)) Nat.one_ne_zero)]

/-- Update `(e, k)` of a row scatter lands at `(n, k')` iff row `e`'s scatter index is `n` and `k = k'`. -/
theorem rows_resultIdx_iff (j : (⟨2, ![E, K]⟩ : Shape).Idx) (idx : IVec ⟨2, ![E, 1]⟩ w) (i : (⟨2, ![N, K]⟩ : Shape).Idx) :
    (rowsDims N K E wf).resultIdx? j idx = some i
      ↔ (idx (ix2 (j 0) ⟨0, Nat.one_pos⟩)).toInt = ((i 0).val : Int) ∧ (j 1).val = (i 1).val := by
  have hi0 : (i 0).val < N := (i 0).isLt
  have hi1 : (i 1).val < K := (i 1).isLt
  have hj1 : (j 1).val < K := (j 1).isLt
  unfold ScatterDims.resultIdx?
  split
  · next h =>
    rw [Option.some.injEq]
    constructor
    · intro e
      have e0 := congrArg Fin.val (congrFun e 0)
      have e1 := congrArg Fin.val (congrFun e 1)
      have h0 := h 0
      simp only [rows_start0, rows_window0, rows_start1, rows_window1] at e0 e1 h0
      constructor <;> omega
    · rintro ⟨e0, e1⟩
      funext a
      apply Fin.ext
      match a with
      | ⟨0, _⟩ => show ((rowsDims N K E wf).start j idx 0 + ((rowsDims N K E wf).window j 0 : Int)).toNat = (i 0).val; rw [rows_start0, rows_window0, e0]; omega
      | ⟨1, _⟩ => show ((rowsDims N K E wf).start j idx 1 + ((rowsDims N K E wf).window j 1 : Int)).toNat = (i 1).val; rw [rows_start1, rows_window1]; omega
  · next h =>
    constructor
    · intro e; cases e
    · rintro ⟨e0, e1⟩
      exfalso; apply h
      intro a
      match a with
      | ⟨0, _⟩ => show 0 ≤ (rowsDims N K E wf).start j idx 0 + ((rowsDims N K E wf).window j 0 : Int) ∧ (rowsDims N K E wf).start j idx 0 + ((rowsDims N K E wf).window j 0 : Int) < (N : Int); rw [rows_start0, rows_window0, e0]; omega
      | ⟨1, _⟩ => show 0 ≤ (rowsDims N K E wf).start j idx 1 + ((rowsDims N K E wf).window j 1 : Int) ∧ (rowsDims N K E wf).start j idx 1 + ((rowsDims N K E wf).window j 1 : Int) < (K : Int); rw [rows_start1, rows_window1]; omega

/-- A ROW SCATTER-ADD READ AT `(n, k)`: the operand's element plus the sum, over the update rows whose scatter index
    is `n`, of their element in column `k`. -/
theorem rows_scatterAdd_apply (x : (⟨2, ![N, K]⟩ : Shape).Idx → EReal) (idx : IVec ⟨2, ![E, 1]⟩ w)
    (upd : (⟨2, ![E, K]⟩ : Shape).Idx → EReal) (n : Fin N) (k : Fin K) :
    Ideal.hostScatterAdd (rowsDims N K E wf) x idx upd (ix2 n k)
      = x (ix2 n k) + ∑ e ∈ Finset.univ.filter (fun e : Fin E => (idx (ix2 e ⟨0, Nat.one_pos⟩)).toInt = (n.val : Int)), upd (ix2 e k) := by
  unfold Ideal.hostScatterAdd
  congr 1
  refine Finset.sum_nbij' (fun j => (j 0 : Fin E)) (fun e => ix2 e k) ?_ ?_ ?_ ?_ ?_
  · intro j hj
    exact Finset.mem_filter.mpr ⟨Finset.mem_univ _, ((rows_resultIdx_iff wf j idx (ix2 n k)).mp (Finset.mem_filter.mp hj).2).1⟩
  · intro e he
    exact Finset.mem_filter.mpr ⟨Finset.mem_univ _, (rows_resultIdx_iff wf (ix2 e k) idx (ix2 n k)).mpr ⟨(Finset.mem_filter.mp he).2, rfl⟩⟩
  · intro j hj
    have h1 := ((rows_resultIdx_iff wf j idx (ix2 n k)).mp (Finset.mem_filter.mp hj).2).2
    funext a
    match a with
    | ⟨0, _⟩ => rfl
    | ⟨1, _⟩ => exact (Fin.ext h1).symm
  · intro e _; rfl
  · intro j hj
    have h1 := ((rows_resultIdx_iff wf j idx (ix2 n k)).mp (Finset.mem_filter.mp hj).2).2
    congr 1
    funext a
    match a with
    | ⟨0, _⟩ => rfl
    | ⟨1, _⟩ => exact Fin.ext h1

end Rows

section Flat
variable {N E w : Nat} (wf : ScatterDims.WF ⟨1, ![N]⟩ ⟨2, ![E, 1]⟩ ⟨1, ![E]⟩ [] [0] [0] 1)

/-- A flat scatter's update `e` starts at its scatter index. -/
theorem flat_start0 (j : (⟨1, ![E]⟩ : Shape).Idx) (idx : IVec ⟨2, ![E, 1]⟩ w) :
    (flatDims N E wf).start j idx 0 = (idx (ix2 (j 0) ⟨0, Nat.one_pos⟩)).toInt := by
  unfold ScatterDims.start
  rw [dif_pos (show (0 : Fin 1) ∈ (flatDims N E wf).scatterDimsToOperandDims from List.mem_singleton.mpr rfl)]
  congr 2
  funext b
  match b with
  | ⟨0, _⟩ => rfl
  | ⟨1, _⟩ => rfl
/-- Its one operand axis is inserted: no window coordinate. -/
theorem flat_window0 (j : (⟨1, ![E]⟩ : Shape).Idx) : (flatDims N E wf).window j 0 = 0 := by
  unfold ScatterDims.window; rw [dif_neg (by simp [ScatterDims.sKept, Shape.kept, List.mem_filter, List.mem_finRange])]

/-- Update `e` of a flat scatter lands at `n` iff its scatter index is `n`. -/
theorem flat_resultIdx_iff (j : (⟨1, ![E]⟩ : Shape).Idx) (idx : IVec ⟨2, ![E, 1]⟩ w) (i : (⟨1, ![N]⟩ : Shape).Idx) :
    (flatDims N E wf).resultIdx? j idx = some i ↔ (idx (ix2 (j 0) ⟨0, Nat.one_pos⟩)).toInt = ((i 0).val : Int) := by
  have hi0 : (i 0).val < N := (i 0).isLt
  unfold ScatterDims.resultIdx?
  split
  · next h =>
    rw [Option.some.injEq]
    constructor
    · intro e
      have e0 := congrArg Fin.val (congrFun e 0)
      have h0 := h 0
      simp only [flat_start0, flat_window0] at e0 h0
      omega
    · intro e0
      funext a
      apply Fin.ext
      match a with
      | ⟨0, _⟩ => show ((flatDims N E wf).start j idx 0 + ((flatDims N E wf).window j 0 : Int)).toNat = (i 0).val; rw [flat_start0, flat_window0, e0]; omega
  · next h =>
    constructor
    · intro e; cases e
    · intro e0
      exfalso; apply h
      intro a
      match a with
      | ⟨0, _⟩ => show 0 ≤ (flatDims N E wf).start j idx 0 + ((flatDims N E wf).window j 0 : Int) ∧ (flatDims N E wf).start j idx 0 + ((flatDims N E wf).window j 0 : Int) < (N : Int); rw [flat_start0, flat_window0, e0]; omega

/-- A FLAT SCATTER-ADD READ AT `n`: the operand's element plus the sum of the updates whose scatter index is `n`. -/
theorem flat_scatterAdd_apply (y : (⟨1, ![N]⟩ : Shape).Idx → EReal) (idx : IVec ⟨2, ![E, 1]⟩ w)
    (u : (⟨1, ![E]⟩ : Shape).Idx → EReal) (n : Fin N) :
    Ideal.hostScatterAdd (flatDims N E wf) y idx u (ix1 n)
      = y (ix1 n) + ∑ e ∈ Finset.univ.filter (fun e : Fin E => (idx (ix2 e ⟨0, Nat.one_pos⟩)).toInt = (n.val : Int)), u (ix1 e) := by
  unfold Ideal.hostScatterAdd
  congr 1
  refine Finset.sum_nbij' (fun j => (j 0 : Fin E)) (fun e => ix1 e) ?_ ?_ ?_ ?_ ?_
  · intro j hj
    exact Finset.mem_filter.mpr ⟨Finset.mem_univ _, (flat_resultIdx_iff wf j idx (ix1 n)).mp (Finset.mem_filter.mp hj).2⟩
  · intro e he
    exact Finset.mem_filter.mpr ⟨Finset.mem_univ _, (flat_resultIdx_iff wf (ix1 e) idx (ix1 n)).mpr (Finset.mem_filter.mp he).2⟩
  · intro j _; exact (eq_ix1 j).symm
  · intro e _; rfl
  · intro j _; exact congrArg u (eq_ix1 j)

end Flat

/-- A COLUMN OF A ROW SCATTER IS THE FLAT SCATTER OF THE COLUMN: at `(n, k)` a row scatter-add whose operand's column `k`
    is `y` and whose updates' column `k` is `u` is the flat scatter-add of `u` onto `y` at `n`, by the same indices. -/
theorem rows_col_eq_flat {N K E w : Nat} (wf2 : ScatterDims.WF ⟨2, ![N, K]⟩ ⟨2, ![E, 1]⟩ ⟨2, ![E, K]⟩ [1] [0] [0] 1)
    (wf1 : ScatterDims.WF ⟨1, ![N]⟩ ⟨2, ![E, 1]⟩ ⟨1, ![E]⟩ [] [0] [0] 1)
    (x : (⟨2, ![N, K]⟩ : Shape).Idx → EReal) (y : (⟨1, ![N]⟩ : Shape).Idx → EReal) (idx : IVec ⟨2, ![E, 1]⟩ w)
    (upd : (⟨2, ![E, K]⟩ : Shape).Idx → EReal) (u : (⟨1, ![E]⟩ : Shape).Idx → EReal) (n : Fin N) (k : Fin K)
    (hx : x (ix2 n k) = y (ix1 n)) (hu : ∀ e : Fin E, upd (ix2 e k) = u (ix1 e)) :
    Ideal.hostScatterAdd (rowsDims N K E wf2) x idx upd (ix2 n k) = Ideal.hostScatterAdd (flatDims N E wf1) y idx u (ix1 n) := by
  rw [rows_scatterAdd_apply, flat_scatterAdd_apply, hx]
  congr 1
  exact Finset.sum_congr rfl fun e _ => hu e

/-! ## Gathers -/

/-- The dimension numbers of a row gather: table `[N, K]`, start indices `[E, 1]`, result `[E, K]`. -/
abbrev rowGather (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The dimension numbers of the flat gather: table `[N]`, start indices `[E, 1]`, result `[E]`. -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Gathers
variable {α : Type} {N K E w : Nat}

/-- The row a start index names: read signed and clamped into `[0, N − 1]`. -/
abbrev rowOf (hN : 0 < N) (v : BitVec w) : Fin N := ⟨min v.toInt.toNat (N - 1), by omega⟩

/-- THE FLAT GATHER READ AT `e`: the table at the row start index `e` names. -/
theorem flatGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (rowOf hN (idx (ix2 e ⟨0, Nat.one_pos⟩)))) := by
  unfold Host.gather
  congr 1
  funext a
  obtain rfl : a = 0 := Subsingleton.elim _ _
  refine Fin.ext ?_
  show (flatGather N E wf).start (ix1 e) idx 0 + (flatGather N E wf).batchCoord (ix1 e) 0 + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- THE ROW GATHER READ AT `(e, k)`: column `k` of the table's row that start index `e` names. -/
theorem rowGather_apply (hN : 0 < N) (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowGather N K E wf) x idx (ix2 e k) = x (ix2 (rowOf hN (idx (ix2 e ⟨0, Nat.one_pos⟩))) k) := by
  unfold Host.gather
  congr 1
  funext a
  refine Fin.ext ?_
  match a with
  | ⟨0, _⟩ =>
    show (rowGather N K E wf).start (ix2 e k) idx 0 + (rowGather N K E wf).batchCoord (ix2 e k) 0 + (rowGather N K E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N K E wf).startIndexMap from List.mem_singleton.mpr rfl)]
    have hsi : (rowGather N K E wf).siIdx (ix2 e k) ⟨List.idxOf (0 : Fin 2) (rowGather N K E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGather N K E wf).start (ix2 e k) idx 1 + (rowGather N K E wf).batchCoord (ix2 e k) 1 + (rowGather N K E wf).offCoord (ix2 e k) 1 = k.val
    rw [GatherDims.batchCoord_eq_zero _ _ _ List.not_mem_nil]
    unfold GatherDims.start GatherDims.offCoord
    rw [dif_neg (fun h => absurd (congrArg Fin.val (List.mem_singleton.mp h)) Nat.one_ne_zero),
      dif_pos ((GatherDims.mem_sKept _ _).mpr ⟨fun h => absurd (congrArg Fin.val (List.mem_singleton.mp h)) Nat.one_ne_zero, List.not_mem_nil⟩)]
    simp only [Nat.zero_add, Nat.add_zero]
    rfl

/-- A COLUMN OF A ROW GATHER IS THE FLAT GATHER FROM THE COLUMN. -/
theorem rowGather_col_eq_flat (hN : 0 < N) (wf2 : GatherDims.WF ⟨2, ![N, K]⟩ ⟨2, ![E, 1]⟩ ⟨2, ![E, K]⟩ [1] [0] [] [0] [] 1 ![1, K])
    (wf1 : GatherDims.WF ⟨1, ![N]⟩ ⟨2, ![E, 1]⟩ ⟨1, ![E]⟩ [] [0] [] [0] [] 1 ![1])
    (T : (⟨2, ![N, K]⟩ : Shape).Idx → α) (t : (⟨1, ![N]⟩ : Shape).Idx → α) (idx : IVec ⟨2, ![E, 1]⟩ w) (e : Fin E) (k : Fin K)
    (hT : ∀ n : Fin N, T (ix2 n k) = t (ix1 n)) :
    Host.gather (rowGather N K E wf2) T idx (ix2 e k) = Host.gather (flatGather N E wf1) t idx (ix1 e) := by
  rw [rowGather_apply hN, flatGather_apply hN, hT]

end Gathers

/-! ## Columns: slices, stacks and flattenings read at an index -/

section Columns
variable {α β : Type} {M K : Nat}

/-- A column sliced out of `[M, K]` and flattened, read at `n`: the array at `(n, k)`. -/
theorem col_apply (k : Nat) (hk : k < K) (X : (⟨2, ![M, K]⟩ : Shape).Idx → α)
    (hs : (⟨2, ![M, K]⟩ : Shape).Slices ![0, k] ⟨2, ![M, 1]⟩) (hc : (⟨2, ![M, 1]⟩ : Shape).ShapeCasts ⟨1, ![M]⟩) (n : Fin M) :
    shapeCast ⟨1, ![M]⟩ (extractStridedSlice ⟨2, ![M, 1]⟩ ![0, k] X hs) hc (ix1 n) = X (ix2 n ⟨k, hk⟩) := by
  rw [shapeCast_apply _ hc (ix1 n) (ix2 n ⟨0, Nat.one_pos⟩)
    (by rw [Shape.rowMajor_val_two, Shape.rowMajor_val_one]; show n.val * 1 + 0 = n.val; omega)]
  exact extractStridedSlice_apply ![0, k] X hs _ _ (fun a => match a with
    | ⟨0, _⟩ => by show n.val = 0 + n.val; omega
    | ⟨1, _⟩ => by show k = k + 0; omega)

/-- A one-column array flattened, read at `n`. -/
theorem flat_col_apply (x : (⟨2, ![M, 1]⟩ : Shape).Idx → α) (hc : (⟨2, ![M, 1]⟩ : Shape).ShapeCasts ⟨1, ![M]⟩) (n : Fin M) :
    shapeCast ⟨1, ![M]⟩ x hc (ix1 n) = x (ix2 n ⟨0, Nat.one_pos⟩) :=
  shapeCast_apply _ hc (ix1 n) (ix2 n ⟨0, Nat.one_pos⟩)
    (by rw [Shape.rowMajor_val_two, Shape.rowMajor_val_one]; show n.val * 1 + 0 = n.val; omega)

/-- A flat array stood up as one column, read at `(e, 0)`. -/
theorem bcol_apply (u : (⟨1, ![M]⟩ : Shape).Idx → α) (h : (⟨1, ![M]⟩ : Shape).BroadcastsInDim ⟨2, ![M, 1]⟩ ![0]) (e : Fin M) :
    broadcastInDim ⟨2, ![M, 1]⟩ ![0] h u (ix2 e ⟨0, Nat.one_pos⟩) = u (ix1 e) :=
  broadcastInDim_apply ![0] h u _ (ix1 e) (fun a => by
    obtain rfl : a = 0 := Subsingleton.elim _ _
    have he := e.isLt
    show e.val = if M = 1 then 0 else e.val
    split <;> omega)

/-- A flattening and its inverse around an elementwise function of three arrays cancel. -/
theorem shapeCast_map3 {s t : Shape} (h : s.ShapeCasts t) (h' : t.ShapeCasts s) (f : α → α → α → β) (a b c : s.Idx → α) :
    shapeCast s (fun i => f (shapeCast t a h i) (shapeCast t b h i) (shapeCast t c h i)) h' = fun e => f (a e) (b e) (c e) := by
  funext e
  show f (shapeCast s (shapeCast t a h) h' e) (shapeCast s (shapeCast t b h) h' e) (shapeCast s (shapeCast t c h) h' e) = _
  rw [shapeCast_shapeCast, shapeCast_shapeCast, shapeCast_shapeCast]

/-- Two columns stacked, read at `(e, 0)` and at `(e, 1)`. -/
theorem cat2_col0 (x0 x1 : (⟨2, ![M, 1]⟩ : Shape).Idx → α)
    (h : Shape.Concatenates [⟨2, ![M, 1]⟩, ⟨2, ![M, 1]⟩] ⟨2, ![M, 2]⟩ 1) (e : Fin M) :
    concatenate ⟨2, ![M, 2]⟩ 1 [⟨⟨2, ![M, 1]⟩, x0⟩, ⟨⟨2, ![M, 1]⟩, x1⟩] h (ix2 e ⟨0, by omega⟩) = x0 (ix2 e ⟨0, Nat.one_pos⟩) :=
  concatenate_pair_apply_left 1 x0 x1 h _ rfl (ix2 e ⟨0, Nat.one_pos⟩) (fun b => match b with
    | ⟨0, _⟩ => rfl
    | ⟨1, _⟩ => rfl)
theorem cat2_col1 (x0 x1 : (⟨2, ![M, 1]⟩ : Shape).Idx → α)
    (h : Shape.Concatenates [⟨2, ![M, 1]⟩, ⟨2, ![M, 1]⟩] ⟨2, ![M, 2]⟩ 1) (e : Fin M) :
    concatenate ⟨2, ![M, 2]⟩ 1 [⟨⟨2, ![M, 1]⟩, x0⟩, ⟨⟨2, ![M, 1]⟩, x1⟩] h (ix2 e ⟨1, by omega⟩) = x1 (ix2 e ⟨0, Nat.one_pos⟩) :=
  concatenate_pair_apply_right 1 x0 x1 h _ rfl rfl (ix2 e ⟨0, Nat.one_pos⟩) (fun b hb => match b with
    | ⟨0, _⟩ => rfl
    | ⟨1, _⟩ => absurd rfl hb) rfl

/-- Four columns stacked, read at `(e, k)`: column `k` at `(e, 0)`. -/
theorem cat4_col (x : Fin 4 → (⟨2, ![M, 1]⟩ : Shape).Idx → α)
    (h : Shape.Concatenates [⟨2, ![M, 1]⟩, ⟨2, ![M, 1]⟩, ⟨2, ![M, 1]⟩, ⟨2, ![M, 1]⟩] ⟨2, ![M, 4]⟩ 1) (e : Fin M) (k : Fin 4) :
    concatenate ⟨2, ![M, 4]⟩ 1 [⟨⟨2, ![M, 1]⟩, x 0⟩, ⟨⟨2, ![M, 1]⟩, x 1⟩, ⟨⟨2, ![M, 1]⟩, x 2⟩, ⟨⟨2, ![M, 1]⟩, x 3⟩] h (ix2 e k)
      = x k (ix2 e ⟨0, Nat.one_pos⟩) := by
  have hi : ∀ b : Fin 2, b.cast (rfl : (2 : Nat) = 2) ≠ (1 : Fin 2) →
      ((ix2 e (⟨0, Nat.one_pos⟩ : Fin 1)) b).val = ((ix2 e k) (b.cast rfl)).val := fun b hb => match b with
    | ⟨0, _⟩ => rfl
    | ⟨1, _⟩ => absurd rfl hb
  match k with
  | ⟨0, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 0 (show 0 < 4 by omega) _ (x 0) rfl rfl 0 rfl (ix2 e ⟨0, Nat.one_pos⟩) hi rfl
  | ⟨1, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 1 (show 1 < 4 by omega) _ (x 1) rfl rfl 1 rfl (ix2 e ⟨0, Nat.one_pos⟩) hi rfl
  | ⟨2, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 2 (show 2 < 4 by omega) _ (x 2) rfl rfl 2 rfl (ix2 e ⟨0, Nat.one_pos⟩) hi rfl
  | ⟨3, _⟩ => exact concatenate_apply_piece 1 [⟨⟨2, ![M, 1]⟩, x 0⟩, ⟨⟨2, ![M, 1]⟩, x 1⟩, ⟨⟨2, ![M, 1]⟩, x 2⟩, ⟨⟨2, ![M, 1]⟩, x 3⟩] h _ 3 (show 3 < 4 by omega) _ (x 3) rfl rfl 3 rfl (ix2 e ⟨0, Nat.one_pos⟩) hi rfl

end Columns

end Idealize.ShloMosaic.Stack

end
-- ==== Proof.KI.TailRead.lean ====
import proofs.«110368_j31911607009638_1_alg».proof.Proof.KI.Tail
import proofs.«110368_j31911607009638_1_alg».proof.Proof.LibGatherPairs
import proofs.«110368_j31911607009638_1_alg».proof.Proof.LibStack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The end of the program, read at an index

Row `p` of the index matrix holds the two wrapped indices of pair `p`; the gather reads the array of pair
probabilities at that pair, each index clamped into `[0, 511]`. -/

open Idealize.ShloMosaic.ValueIdx Idealize.ShloMosaic.Stack Idealize.ShloMosaic.GatherPairs

/-- An index entry read as a row or column number: signed, clamped into `[0, 511]`. -/
def clamp512 (v : BitVec 32) : Fin 512 := ⟨min v.toInt.toNat 511, by omega⟩

theorem idxMat_col0 (r0 r1 : (⟨S130816, .i32⟩ : BufTy).Contents (Elt F)) (p : Fin 130816) :
    idxMat r0 r1 (ix2 p ⟨0, by omega⟩) = wrap512 r0 (ix1 p) := by
  unfold idxMat
  rw [cat2_col0]
  exact bcol_apply _ _ p

theorem idxMat_col1 (r0 r1 : (⟨S130816, .i32⟩ : BufTy).Contents (Elt F)) (p : Fin 130816) :
    idxMat r0 r1 (ix2 p ⟨1, by omega⟩) = wrap512 r1 (ix1 p) := by
  unfold idxMat
  rw [cat2_col1]
  exact bcol_apply _ _ p

/-- The gather of the tail read at `(p, c)`. -/
theorem tail_gather_apply (P : (⟨S512x512x2, .f32⟩ : BufTy).Contents (Elt F)) (r0 r1 : (⟨S130816, .i32⟩ : BufTy).Contents (Elt F))
    (p : Fin 130816) (c : Fin 2) :
    Host.gather gather_S512x512x2_S130816x2_S130816x2_1_01_n_n_01_1_112 P (idxMat r0 r1) (ix2 p c)
      = P (ix3 (clamp512 (wrap512 r0 (ix1 p))) (clamp512 (wrap512 r1 (ix1 p))) c) := by
  have h := gather_pair_apply (N1 := 512) (N2 := 512) (M := 130816) (C := 2) (by omega) (by omega)
    gather_S512x512x2_S130816x2_S130816x2_1_01_n_n_01_1_112.wf P (idxMat r0 r1) p c
  refine h.trans ?_
  congr 1
  funext a
  refine Fin.ext ?_
  match a with
  | ⟨0, _⟩ => show min ((idxMat r0 r1) (ix2 p 0)).toInt.toNat (512 - 1) = min (wrap512 r0 (ix1 p)).toInt.toNat 511; rw [show (ix2 p (0 : Fin 2) : (⟨2, ![130816, 2]⟩ : Shape).Idx) = ix2 p ⟨0, by omega⟩ from rfl, idxMat_col0]
  | ⟨1, _⟩ => show min ((idxMat r0 r1) (ix2 p 1)).toInt.toNat (512 - 1) = min (wrap512 r1 (ix1 p)).toInt.toNat 511; rw [show (ix2 p (1 : Fin 2) : (⟨2, ![130816, 2]⟩ : Shape).Idx) = ix2 p ⟨1, by omega⟩ from rfl, idxMat_col1]
  | ⟨2, _⟩ => rfl

end Cert.KernelIdeal.Hand

end
-- ==== Proof.RefRunCalls.lean ====
/- The outlined functions of the reference, each as ONE pure function of the literal array types: the composed term of
   the function's printed operations (the same operations, the same literals, the same order, a nested call composed in
   place) over variables for its arguments. A call site's value is the function applied to the operands' values. -/
import proofs.«110368_j31911607009638_1_alg».proof.Proof.Gen.ReferenceIdeal

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@relu`: the maximum with zero. -/
def callRelu (x : Vec F S512x256 .f32) : Vec F S512x256 .f32 :=
  ((maximumf : (⟨S512x256, .f32⟩ : BufTy).Contents (Elt F) → (⟨S512x256, .f32⟩ : BufTy).Contents (Elt F) → (⟨S512x256, .f32⟩ : BufTy).Contents (Elt F)) x (((broadcastInDim S512x256 ![] bcast_S_S512x256) : (⟨S_, .f32⟩ : BufTy).Contents (Elt F) → (⟨S512x256, .f32⟩ : BufTy).Contents (Elt F)) ((constant S_ .f32 0x00000000#32) : (⟨S_, .f32⟩ : BufTy).Contents (Elt F))))

/-- `@triu`: the strict upper triangle of a square array: zero where the row index is at least the column index. -/
def callTriu (x : Vec F S512x512 .f32) : Vec F S512x512 .f32 :=
  ((select : (⟨S512x512, .i1⟩ : BufTy).Contents (Elt F) → (⟨S512x512, .f32⟩ : BufTy).Contents (Elt F) → (⟨S512x512, .f32⟩ : BufTy).Contents (Elt F) → (⟨S512x512, .f32⟩ : BufTy).Contents (Elt F)) (((cmpi .sge) : (⟨S512x512, .i32⟩ : BufTy).Contents (Elt F) → (⟨S512x512, .i32⟩ : BufTy).Contents (Elt F) → (⟨S512x512, .i1⟩ : BufTy).Contents (Elt F)) ((addi : (⟨S512x512, .i32⟩ : BufTy).Contents (Elt F) → (⟨S512x512, .i32⟩ : BufTy).Contents (Elt F) → (⟨S512x512, .i32⟩ : BufTy).Contents (Elt F)) ((iotaInDim S512x512 32 0) : (⟨S512x512, .i32⟩ : BufTy).Contents (Elt F)) (((broadcastInDim S512x512 ![] bcast_S_S512x512) : (⟨S_, .i32⟩ : BufTy).Contents (Elt F) → (⟨S512x512, .i32⟩ : BufTy).Contents (Elt F)) ((constantI S_ 32 0#32) : (⟨S_, .i32⟩ : BufTy).Contents (Elt F)))) ((iotaInDim S512x512 32 1) : (⟨S512x512, .i32⟩ : BufTy).Contents (Elt F))) (((broadcastInDim S512x512 ![] bcast_S_S512x512) : (⟨S_, .f32⟩ : BufTy).Contents (Elt F) → (⟨S512x512, .f32⟩ : BufTy).Contents (Elt F)) ((constant S_ .f32 0x00000000#32) : (⟨S_, .f32⟩ : BufTy).Contents (Elt F))) x)

/-- `@cumsum`: the running sum of a mask, flattened row by row. -/
def callCumsum (x : Vec F S512x512 .i1) : Vec F S262144 .i32 :=
  (((fun x v => Host.reduceWindow IntOp.addi ![262144] ![1] ![262143] ![0] x v reduceWindows_S262144_S262144_w262144s1p262143_0 h_S_) : (⟨S262144, .i32⟩ : BufTy).Contents (Elt F) → (⟨S_, .i32⟩ : BufTy).Contents (Elt F) → (⟨S262144, .i32⟩ : BufTy).Contents (Elt F)) (((extui 32 · natLt_1_32) : (⟨S262144, .i1⟩ : BufTy).Contents (Elt F) → (⟨S262144, .i32⟩ : BufTy).Contents (Elt F)) (((shapeCast S262144 · shapeCasts_S512x512_S262144) : (⟨S512x512, .i1⟩ : BufTy).Contents (Elt F) → (⟨S262144, .i1⟩ : BufTy).Contents (Elt F)) x)) (((broadcastInDim S_ ![] bcast_S_S_) : (⟨S_, .i32⟩ : BufTy).Contents (Elt F) → (⟨S_, .i32⟩ : BufTy).Contents (Elt F)) ((constantI S_ 32 0#32) : (⟨S_, .i32⟩ : BufTy).Contents (Elt F))))

/-- `@clip`: the maximum with a lower bound. -/
def callClip (x : Vec F S262144 .i32) (lo : Vec F S_ .i32) : Vec F S262144 .i32 :=
  ((maxsi : (⟨S262144, .i32⟩ : BufTy).Contents (Elt F) → (⟨S262144, .i32⟩ : BufTy).Contents (Elt F) → (⟨S262144, .i32⟩ : BufTy).Contents (Elt F)) (((broadcastInDim S262144 ![] bcast_S_S262144) : (⟨S_, .i32⟩ : BufTy).Contents (Elt F) → (⟨S262144, .i32⟩ : BufTy).Contents (Elt F)) ((id : (⟨S_, .i32⟩ : BufTy).Contents (Elt F) → (⟨S_, .i32⟩ : BufTy).Contents (Elt F)) lo)) x)

/-- `@cumsum_1`: the running sum of a vector. -/
def callCumsum1 (x : Vec F S130816 .i32) : Vec F S130816 .i32 :=
  (((fun x v => Host.reduceWindow IntOp.addi ![130816] ![1] ![130815] ![0] x v reduceWindows_S130816_S130816_w130816s1p130815_0 h_S_) : (⟨S130816, .i32⟩ : BufTy).Contents (Elt F) → (⟨S_, .i32⟩ : BufTy).Contents (Elt F) → (⟨S130816, .i32⟩ : BufTy).Contents (Elt F)) x (((broadcastInDim S_ ![] bcast_S_S_) : (⟨S_, .i32⟩ : BufTy).Contents (Elt F) → (⟨S_, .i32⟩ : BufTy).Contents (Elt F)) ((constantI S_ 32 0#32) : (⟨S_, .i32⟩ : BufTy).Contents (Elt F))))

/-- `@floor_divide`: integer division rounding toward minus infinity. -/
def callFloorDivide (x : Vec F S130816 .i32) (c : Vec F S_ .i32) : Vec F S130816 .i32 :=
  ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) ((andi : (⟨S130816, .i1⟩ : BufTy).Contents (Elt F) → (⟨S130816, .i1⟩ : BufTy).Contents (Elt F) → (⟨S130816, .i1⟩ : BufTy).Contents (Elt F)) (((cmpi .ne) : (⟨S130816, .i32⟩ : BufTy).Contents (Elt F) → (⟨S130816, .i32⟩ : BufTy).Contents (Elt F) → (⟨S130816, .i1⟩ : BufTy).Contents (Elt F)) ((signi : (⟨S130816, .i32⟩ : BufTy).Contents (Elt F) → (⟨S130816, .i32⟩ : BufTy).Contents (Elt F)) x) (((broadcastInDim S130816 ![] bcast_S_S130816) : (⟨S_, .i32⟩ : BufTy).Contents (Elt F) → (⟨S130816, .i32⟩ : BufTy).Contents (Elt F)) ((signi : (⟨S_, .i32⟩ : BufTy).Contents (Elt F) → (⟨S_, .i32⟩ : BufTy).Contents (Elt F)) c))) (((cmpi .ne) : (⟨S130816, .i32⟩ : BufTy).Contents (Elt F) → (⟨S130816, .i32⟩ : BufTy).Contents (Elt F) → (⟨S130816, .i1⟩ : BufTy).Contents (Elt F)) ((Host.remsi : (⟨S130816, .i32⟩ : BufTy).Contents (Elt F) → (⟨S130816, .i32⟩ : BufTy).Contents (Elt F) → (⟨S130816, .i32⟩ : BufTy).Contents (Elt F)) x (((broadcastInDim S130816 ![] bcast_S_S130816) : (⟨S_, .i32⟩ : BufTy).Contents (Elt F) → (⟨S130816, .i32⟩ : BufTy).Contents (Elt F)) c)) (((broadcastInDim S130816 ![] bcast_S_S130816) : (⟨S_, .i32⟩ : BufTy).Contents (Elt F) → (⟨S130816, .i32⟩ : BufTy).Contents (Elt F)) ((constantI S_ 32 0#32) : (⟨S_, .i32⟩ : BufTy).Contents (Elt F))))) ((subi : (⟨S130816, .i32⟩ : BufTy).Contents (Elt F) → (⟨S130816, .i32⟩ : BufTy).Contents (Elt F) → (⟨S130816, .i32⟩ : BufTy).Contents (Elt F)) ((Host.divsi : (⟨S130816, .i32⟩ : BufTy).Contents (Elt F) → (⟨S130816, .i32⟩ : BufTy).Contents (Elt F) → (⟨S130816, .i32⟩ : BufTy).Contents (Elt F)) x (((broadcastInDim S130816 ![] bcast_S_S130816) : (⟨S_, .i32⟩ : BufTy).Contents (Elt F) → (⟨S130816, .i32⟩ : BufTy).Contents (Elt F)) c)) (((broadcastInDim S130816 ![] bcast_S_S130816) : (⟨S_, .i32⟩ : BufTy).Contents (Elt F) → (⟨S130816, .i32⟩ : BufTy).Contents (Elt F)) ((constantI S_ 32 1#32) : (⟨S_, .i32⟩ : BufTy).Contents (Elt F)))) ((Host.divsi : (⟨S130816, .i32⟩ : BufTy).Contents (Elt F) → (⟨S130816, .i32⟩ : BufTy).Contents (Elt F) → (⟨S130816, .i32⟩ : BufTy).Contents (Elt F)) x (((broadcastInDim S130816 ![] bcast_S_S130816) : (⟨S_, .i32⟩ : BufTy).Contents (Elt F) → (⟨S130816, .i32⟩ : BufTy).Contents (Elt F)) c)))

/-- `@remainder`: the remainder with the divisor's sign, a zero divisor read as one. -/
def callRemainder (x : Vec F S130816 .i32) (c : Vec F S_ .i32) : Vec F S130816 .i32 :=
  ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) ((andi : (⟨S130816, .i1⟩ : BufTy).Contents (Elt F) → (⟨S130816, .i1⟩ : BufTy).Contents (Elt F) → (⟨S130816, .i1⟩ : BufTy).Contents (Elt F)) (((cmpi .ne) : (⟨S130816, .i1⟩ : BufTy).Contents (Elt F) → (⟨S130816, .i1⟩ : BufTy).Contents (Elt F) → (⟨S130816, .i1⟩ : BufTy).Contents (Elt F)) (((cmpi .slt) : (⟨S130816, .i32⟩ : BufTy).Contents (Elt F) → (⟨S130816, .i32⟩ : BufTy).Contents (Elt F) → (⟨S130816, .i1⟩ : BufTy).Contents (Elt F)) ((Host.remsi : (⟨S130816, .i32⟩ : BufTy).Contents (Elt F) → (⟨S130816, .i32⟩ : BufTy).Contents (Elt F) → (⟨S130816, .i32⟩ : BufTy).Contents (Elt F)) x (((broadcastInDim S130816 ![] bcast_S_S130816) : (⟨S_, .i32⟩ : BufTy).Contents (Elt F) → (⟨S130816, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) c) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) c)))) (((broadcastInDim S130816 ![] bcast_S_S130816) : (⟨S_, .i32⟩ : BufTy).Contents (Elt F) → (⟨S130816, .i32⟩ : BufTy).Contents (Elt F)) ((constantI S_ 32 0#32) : (⟨S_, .i32⟩ : BufTy).Contents (Elt F)))) (((broadcastInDim S130816 ![] bcast_S_S130816) : (⟨S_, .i1⟩ : BufTy).Contents (Elt F) → (⟨S130816, .i1⟩ : BufTy).Contents (Elt F)) (((cmpi .slt) : (⟨S_, .i32⟩ : BufTy).Contents (Elt F) → (⟨S_, .i32⟩ : BufTy).Contents (Elt F) → (⟨S_, .i1⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) c) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) c)) ((constantI S_ 32 0#32) : (⟨S_, .i32⟩ : BufTy).Contents (Elt F))))) (((cmpi .ne) : (⟨S130816, .i32⟩ : BufTy).Contents (Elt F) → (⟨S130816, .i32⟩ : BufTy).Contents (Elt F) → (⟨S130816, .i1⟩ : BufTy).Contents (Elt F)) ((Host.remsi : (⟨S130816, .i32⟩ : BufTy).Contents (Elt F) → (⟨S130816, .i32⟩ : BufTy).Contents (Elt F) → (⟨S130816, .i32⟩ : BufTy).Contents (Elt F)) x (((broadcastInDim S130816 ![] bcast_S_S130816) : (⟨S_, .i32⟩ : BufTy).Contents (Elt F) → (⟨S130816, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) c) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) c)))) (((broadcastInDim S130816 ![] bcast_S_S130816) : (⟨S_, .i32⟩ : BufTy).Contents (Elt F) → (⟨S130816, .i32⟩ : BufTy).Contents (Elt F)) ((constantI S_ 32 0#32) : (⟨S_, .i32⟩ : BufTy).Contents (Elt F))))) ((addi : (⟨S130816, .i32⟩ : BufTy).Contents (Elt F) → (⟨S130816, .i32⟩ : BufTy).Contents (Elt F) → (⟨S130816, .i32⟩ : BufTy).Contents (Elt F)) ((Host.remsi : (⟨S130816, .i32⟩ : BufTy).Contents (Elt F) → (⟨S130816, .i32⟩ : BufTy).Contents (Elt F) → (⟨S130816, .i32⟩ : BufTy).Contents (Elt F)) x (((broadcastInDim S130816 ![] bcast_S_S130816) : (⟨S_, .i32⟩ : BufTy).Contents (Elt F) → (⟨S130816, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) c) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) c)))) (((broadcastInDim S130816 ![] bcast_S_S130816) : (⟨S_, .i32⟩ : BufTy).Contents (Elt F) → (⟨S130816, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) c) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) c)))) ((Host.remsi : (⟨S130816, .i32⟩ : BufTy).Contents (Elt F) → (⟨S130816, .i32⟩ : BufTy).Contents (Elt F) → (⟨S130816, .i32⟩ : BufTy).Contents (Elt F)) x (((broadcastInDim S130816 ![] bcast_S_S130816) : (⟨S_, .i32⟩ : BufTy).Contents (Elt F) → (⟨S130816, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) c) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) c)))))

/-- `@relu_4`: the maximum with zero. -/
def callRelu4 (x : Vec F S130816x256 .f32) : Vec F S130816x256 .f32 :=
  ((maximumf : (⟨S130816x256, .f32⟩ : BufTy).Contents (Elt F) → (⟨S130816x256, .f32⟩ : BufTy).Contents (Elt F) → (⟨S130816x256, .f32⟩ : BufTy).Contents (Elt F)) x (((broadcastInDim S130816x256 ![] bcast_S_S130816x256) : (⟨S_, .f32⟩ : BufTy).Contents (Elt F) → (⟨S130816x256, .f32⟩ : BufTy).Contents (Elt F)) ((constant S_ .f32 0x00000000#32) : (⟨S_, .f32⟩ : BufTy).Contents (Elt F))))

/-- `@relu_5`: the maximum with zero. -/
def callRelu5 (x : Vec F S1x256 .f32) : Vec F S1x256 .f32 :=
  ((maximumf : (⟨S1x256, .f32⟩ : BufTy).Contents (Elt F) → (⟨S1x256, .f32⟩ : BufTy).Contents (Elt F) → (⟨S1x256, .f32⟩ : BufTy).Contents (Elt F)) x (((broadcastInDim S1x256 ![] bcast_S_S1x256) : (⟨S_, .f32⟩ : BufTy).Contents (Elt F) → (⟨S1x256, .f32⟩ : BufTy).Contents (Elt F)) ((constant S_ .f32 0x00000000#32) : (⟨S_, .f32⟩ : BufTy).Contents (Elt F))))

end Cert.ReferenceIdeal.RefRun

end
-- ==== Proof.RefRunOpsC.lean ====
/- Operations 211–219 of the reference's straight line: window 2 of the printed program, as a list of host
   operations with every call inlined at its site, cut into consecutive chunks. For each chunk: every buffer it touches
   is a TensorCore reference, every operation determines its results, the list of buffers it writes, and the fact that
   any other buffer keeps its contents through the chunk. Last, the window is the chunks run in order. -/
import proofs.«110368_j31911607009638_1_alg».proof.Proof.Gen.ReferenceIdeal
import Idealize.ShloMosaic.Lib.StableHlo.Run

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 211–217 of the straight line, in order, every call inlined at its site: they end at the buffer `main_v102`. -/
abbrev c17 : List (HloOp τ sig (Elt F)) :=
  [ TRef.nullary main_call10.cst (constant S_ .f32 0x00000000#32),
    TRef.unary main_call10.cst main_call10.v0 (broadcastInDim S1x256 ![] bcast_S_S1x256),
    TRef.binary (.of main_v97 : TRef sig ⟨S1x256, .f32⟩) main_call10.v0 main_call10.v1 maximumf,
    unary main_arg13 main_v99 ((transpose S256x1 [1, 0] · transposes_S1x256_S256x1_1_0) : (⟨S1x256, .f32⟩ : BufTy).Contents (Elt F) → (⟨S256x1, .f32⟩ : BufTy).Contents (Elt F)),
    binary main_v98 main_v99 main_v100 ((fun l r => Host.dotGeneral dot_S1x256_S256x1_S1x1_1_0_0_1_n_n none l r) : (⟨S1x256, .f32⟩ : BufTy).Contents (Elt F) → (⟨S256x1, .f32⟩ : BufTy).Contents (Elt F) → (⟨S1x1, .f32⟩ : BufTy).Contents (Elt F)),
    unary main_arg14 main_v101 (broadcastInDim S1x1 ![1] bcast_S1_S1x1_1 : (⟨S1, .f32⟩ : BufTy).Contents (Elt F) → (⟨S1x1, .f32⟩ : BufTy).Contents (Elt F)),
    binary main_v100 main_v101 main_v102 (addf : (⟨S1x1, .f32⟩ : BufTy).Contents (Elt F) → (⟨S1x1, .f32⟩ : BufTy).Contents (Elt F) → (⟨S1x1, .f32⟩ : BufTy).Contents (Elt F)) ]

theorem c17_sub : (c17 : List (HloOp τ sig (Elt F))).Forall fun op => op.bufs ⊆ tcRefs τ sig :=
  ⟨nullary_bufs_sub .., unary_bufs_sub .., binary_bufs_sub .., unary_bufs_sub .., binary_bufs_sub .., unary_bufs_sub ..,
    binary_bufs_sub ..⟩

/-- Every operation of the chunk determines its results. -/
theorem c17_fresh : (c17 : List (HloOp τ sig (Elt F))).Forall fun op => op.fresh = ∅ :=
  ⟨rfl, rfl, rfl, rfl, rfl, rfl, rfl⟩

/-- The buffers the chunk's operations write, in order. -/
abbrev c17_W : List (Ref sig .tc) := [main_call10_cst, main_call10_v0, main_v98, main_v99, main_v100, main_v101, main_v102]

theorem c17_writes : (c17 : List (HloOp τ sig (Elt F))).Forall fun op =>
    op.writes ⊆ (c17_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c17_keep (V : Valuation τ sig (Elt F)) (r : Ref sig .tc) (h : r ∉ c17_W) :
    after c17 V (Proc.devRef .tc r) = V (Proc.devRef .tc r) :=
  after_of_writes_sub c17 V c17_writes h

/-- Operations 218–219 of the straight line, in order, every call inlined at its site: they end at the buffer `main_v104`. -/
abbrev c18 : List (HloOp τ sig (Elt F)) :=
  [ unary main_v102 main_v103 (broadcastInDim S130816x1 ![0, 1] bcast_S1x1_S130816x1_0_1 : (⟨S1x1, .f32⟩ : BufTy).Contents (Elt F) → (⟨S130816x1, .f32⟩ : BufTy).Contents (Elt F)),
    binary main_v92 main_v103 main_v104 ((fun a b => concatenate S130816x3 1 [⟨S130816x2, a⟩, ⟨S130816x1, b⟩] concatenates_S130816x2_S130816x1_S130816x3_d1) : (⟨S130816x2, .f32⟩ : BufTy).Contents (Elt F) → (⟨S130816x1, .f32⟩ : BufTy).Contents (Elt F) → (⟨S130816x3, .f32⟩ : BufTy).Contents (Elt F)) ]

theorem c18_sub : (c18 : List (HloOp τ sig (Elt F))).Forall fun op => op.bufs ⊆ tcRefs τ sig :=
  ⟨unary_bufs_sub .., binary_bufs_sub ..⟩

/-- Every operation of the chunk determines its results. -/
theorem c18_fresh : (c18 : List (HloOp τ sig (Elt F))).Forall fun op => op.fresh = ∅ :=
  ⟨rfl, rfl⟩

/-- The buffers the chunk's operations write, in order. -/
abbrev c18_W : List (Ref sig .tc) := [main_v103, main_v104]

theorem c18_writes : (c18 : List (HloOp τ sig (Elt F))).Forall fun op =>
    op.writes ⊆ (c18_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c18_keep (V : Valuation τ sig (Elt F)) (r : Ref sig .tc) (h : r ∉ c18_W) :
    after c18 V (Proc.devRef .tc r) = V (Proc.devRef .tc r) :=
  after_of_writes_sub c18 V c18_writes h

set_option maxRecDepth 1024 in
set_option maxHeartbeats 4000000 in
/-- The window is that straight line: the called functions' bodies unfolded at their calls, both sides are one chain of
    operation steps once sequencing is reassociated. -/
theorem main_part2_eq (c : Dev nD) : main_part2 (F := F) c = seq (c17 ++ c18) := by
  simp only [main_part2, fn_relu_5.body, c17, c18, List.cons_append, List.nil_append, seq, bind_assoc, pure_bind]
  all_goals rfl

end Cert.ReferenceIdeal.RefRun

end
-- ==== Proof.RefRunStagesC.lean ====
/- Named stages of the reference's value, its third window: each a pure function of the literal array types, the composed
   term of the printed operations of one chunk (the same operations, the same literals, the same order; an outlined
   call as its one function applied to the operands) over variables for the buffers the chunk reads from before it; and,
   per stage, the fact that after the chunk's operations, from any contents, the stage's buffer holds the stage function
   of those contents. Each fact: every operation's result rewritten at its own buffer; the typed references' transports,
   the identity at these literal references, removed; what is left is the stage's own term. -/
import proofs.«110368_j31911607009638_1_alg».proof.Proof.Gen.ReferenceIdeal
import Idealize.ShloMosaic.Lib.StableHlo.Run
import proofs.«110368_j31911607009638_1_alg».proof.Proof.RefRunCalls
import proofs.«110368_j31911607009638_1_alg».proof.Proof.RefRunOpsC

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Relu, the second value weights, plus bias: the composed term of the operations that end at `main_v102`. -/
def refValPost (pre : Vec F S1x256 .f32) (vfc3w : Vec F S1x256 .f32) (vfc3b : Vec F S1 .f32) : Vec F S1x1 .f32 :=
  ((addf : (⟨S1x1, .f32⟩ : BufTy).Contents (Elt F) → (⟨S1x1, .f32⟩ : BufTy).Contents (Elt F) → (⟨S1x1, .f32⟩ : BufTy).Contents (Elt F)) (((fun l r => Host.dotGeneral dot_S1x256_S256x1_S1x1_1_0_0_1_n_n none l r) : (⟨S1x256, .f32⟩ : BufTy).Contents (Elt F) → (⟨S256x1, .f32⟩ : BufTy).Contents (Elt F) → (⟨S1x1, .f32⟩ : BufTy).Contents (Elt F)) (callRelu5 pre) (((transpose S256x1 [1, 0] · transposes_S1x256_S256x1_1_0) : (⟨S1x256, .f32⟩ : BufTy).Contents (Elt F) → (⟨S256x1, .f32⟩ : BufTy).Contents (Elt F)) vfc3w)) ((broadcastInDim S1x1 ![1] bcast_S1_S1x1_1 : (⟨S1, .f32⟩ : BufTy).Contents (Elt F) → (⟨S1x1, .f32⟩ : BufTy).Contents (Elt F)) vfc3b))

set_option maxRecDepth 16384 in
set_option maxHeartbeats 1000000 in
/-- After the chunk's operations, from any contents, `main_v102` holds `refValPost` of the contents the chunk reads. -/
theorem c17_main_v102 (W : Valuation τ sig (Elt F)) :
    after c17 W (Proc.devRef .tc main_v102) = refValPost (W (Proc.devRef .tc main_v97)) (W (Proc.devRef .tc main_arg13)) (W (Proc.devRef .tc main_arg14)) := by
  simp only [c17]
  after_results_simp
  try simp only [TRef.toBuf, TRef.ofBuf, cast_eq]
  unfold refValPost callRelu5
  rfl

/-- The action pairs beside the broadcast value: the composed term of the operations that end at `main_v104`. -/
def refOut (action : Vec F S130816x2 .f32) (value : Vec F S1x1 .f32) : Vec F S130816x3 .f32 :=
  (((fun a b => concatenate S130816x3 1 [⟨S130816x2, a⟩, ⟨S130816x1, b⟩] concatenates_S130816x2_S130816x1_S130816x3_d1) : (⟨S130816x2, .f32⟩ : BufTy).Contents (Elt F) → (⟨S130816x1, .f32⟩ : BufTy).Contents (Elt F) → (⟨S130816x3, .f32⟩ : BufTy).Contents (Elt F)) action ((broadcastInDim S130816x1 ![0, 1] bcast_S1x1_S130816x1_0_1 : (⟨S1x1, .f32⟩ : BufTy).Contents (Elt F) → (⟨S130816x1, .f32⟩ : BufTy).Contents (Elt F)) value))

set_option maxRecDepth 16384 in
set_option maxHeartbeats 1000000 in
/-- After the chunk's operations, from any contents, `main_v104` holds `refOut` of the contents the chunk reads. -/
theorem c18_main_v104 (W : Valuation τ sig (Elt F)) :
    after c18 W (Proc.devRef .tc main_v104) = refOut (W (Proc.devRef .tc main_v92)) (W (Proc.devRef .tc main_v102)) := by
  simp only [c18]
  after_results_simp
  unfold refOut
  rfl

end Cert.ReferenceIdeal.RefRun

end
-- ==== Proof.KI.BridgeShape.lean ====
import proofs.«110368_j31911607009638_1_alg».proof.Proof.KI.TailRead
import proofs.«110368_j31911607009638_1_alg».proof.Proof.RefRunStagesC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The two programs' results have the same outer shape

Both end by placing the pair probabilities of the 130816 index pairs beside the value head's scalar repeated down a
third column. So the results agree as soon as the two 130816 by 2 arrays agree and the two scalars agree. -/

/-- The kernel's result is the reference's outer operations applied to the kernel's gathered probabilities and value. -/
theorem tailK_eq_refOut (P : (⟨S512x512x2, .f32⟩ : BufTy).Contents (Elt Ideal)) (r0 r1 : (⟨S130816, .i32⟩ : BufTy).Contents (Elt Ideal))
    (v : (⟨S1x1, .f32⟩ : BufTy).Contents (Elt Ideal)) :
    tailK (F := Ideal) P r0 r1 v
      = Cert.ReferenceIdeal.RefRun.refOut (F := Ideal)
          (Host.gather gather_S512x512x2_S130816x2_S130816x2_1_01_n_n_01_1_112 P (idxMat r0 r1)) v := by
  unfold tailK Cert.ReferenceIdeal.RefRun.refOut
  rfl

end Cert.KernelIdeal.Hand

end
-- ==== Proof.LibGatherRows.lean ====
/-
  Row gathers read at an index: `stablehlo.gather` of a rank-1 or rank-2 operand along its first axis at a column
  `[M, 1]` of start indices (what `x[idx]` lowers to) is the operand's row at the start index, read signed and clamped
  into `[0, N − 1]`; with it, the pieces the index column is built from, each read at an index: the broadcast of a
  vector to a column, the wrap of negative indices, and the concatenation of edge endpoints with the self-loop iota.
-/
import Idealize.ShloMosaic.Lib.ValueIdx
import Idealize.ShloMosaic.Lib.Pipeline.Value
import Idealize.ShloMosaic.Lib.IdealHost
import Idealize.ShloMosaic.PureOps.ShapeOps
import Idealize.ShloMosaic.PureOps.Dims

noncomputable section

open Idealize.ShloMosaic Idealize.ShloMosaic.ValueIdx

namespace Idealize.ShloMosaic.GatherRows

variable {α : Type}

/-! ## The two row gathers -/

/-- The dimension numbers of a row gather from a flat operand `[N]` at start indices `[M, 1]` with result `[M]`:
    the one operand axis is collapsed and indexed, the index vector lies on axis 1. -/
abbrev rowGather1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The dimension numbers of a row gather from an operand `[N, C]` at start indices `[M, 1]` with result `[M, C]`:
    axis 0 is collapsed and indexed, axis 1 is taken whole as the result's offset axis. -/
abbrev rowGather2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row that entry `e` of the index column selects: the entry read as a signed integer and clamped into
    `[0, N − 1]`. -/
def src {N M w : Nat} (hN : 0 < N) (idx : IVec ⟨2, ![M, 1]⟩ w) (e : Fin M) : Fin N :=
  ⟨min (idx (ix2 e 0)).toInt.toNat (N - 1), by omega⟩

/-- The value of the selected row number is the clamped signed reading of the index entry. -/
theorem src_val {N M w : Nat} (hN : 0 < N) (idx : IVec ⟨2, ![M, 1]⟩ w) (e : Fin M) :
    (src hN idx e).val = min (idx (ix2 e 0)).toInt.toNat (N - 1) := rfl

/-- The start-indices position that result position `e` of a flat row gather reads is `(e, 0)`. -/
theorem rowGather1_siIdx {N M : Nat} (wf : GatherDims.WF ⟨1, ![N]⟩ ⟨2, ![M, 1]⟩ ⟨1, ![M]⟩ [] [0] [] [0] [] 1 ![1])
    (e : Fin M) (c : Fin (rowGather1 N M wf).startIndexMap.length) :
    (rowGather1 N M wf).siIdx (ix1 e) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- A flat row gather read at `e`: the operand at the row the index column's entry `e` selects. -/
theorem gather_row1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (rowGather1 N M wf) x idx (ix1 e) = x (ix1 (src hN idx e)) := by
  unfold Host.gather
  congr 1
  funext a
  obtain rfl : a = 0 := Subsingleton.elim _ _
  refine Fin.ext ?_
  show (rowGather1 N M wf).start (ix1 e) idx 0 + (rowGather1 N M wf).batchCoord (ix1 e) 0
      + (rowGather1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowGather1 N M wf).startIndexMap from List.mem_singleton.mpr rfl)]
  rw [rowGather1_siIdx]
  rfl

/-- The start-indices position that result position `(e, f)` of a row gather reads is `(e, 0)`. -/
theorem rowGather2_siIdx {N M C : Nat}
    (wf : GatherDims.WF ⟨2, ![N, C]⟩ ⟨2, ![M, 1]⟩ ⟨2, ![M, C]⟩ [1] [0] [] [0] [] 1 ![1, C])
    (e : Fin M) (f : Fin C) (c : Fin (rowGather2 N M C wf).startIndexMap.length) :
    (rowGather2 N M C wf).siIdx (ix2 e f) c = ix2 e 0 := by
  obtain rfl : c = ⟨0, Nat.one_pos⟩ := Fin.ext (Nat.lt_one_iff.mp c.isLt)
  funext b; refine Fin.ext ?_
  match b with
  | ⟨0, _⟩ => rfl
  | ⟨1, _⟩ => rfl

/-- The row coordinate that result position `(e, f)` of a row gather reads: the clamped start index alone. -/
theorem rowGather2_coord0 {N M C w : Nat} (hN : 0 < N)
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 0 + (rowGather2 N M C wf).batchCoord (ix2 e f) 0
      + (rowGather2 N M C wf).offCoord (ix2 e f) 0 = (src hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather2 N M C wf).startIndexMap from List.mem_singleton.mpr rfl)]
  rw [rowGather2_siIdx]
  rfl

/-- The column coordinate that result position `(e, f)` of a row gather reads: the offset `f` alone. -/
theorem rowGather2_coord1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (f : Fin C) :
    (rowGather2 N M C wf).start (ix2 e f) idx 1 + (rowGather2 N M C wf).batchCoord (ix2 e f) 1
      + (rowGather2 N M C wf).offCoord (ix2 e f) 1 = f.val := by
  rw [GatherDims.batchCoord_eq_zero _ _ _ List.not_mem_nil]
  have hs : (rowGather2 N M C wf).start (ix2 e f) idx 1 = 0 := by
    unfold GatherDims.start
    rw [dif_neg (fun h => absurd (List.mem_singleton.mp h) (show ¬ (1 : Fin 2) = 0 by decide))]
  have hmem : (1 : Fin 2) ∈ (rowGather2 N M C wf).sKept :=
    (GatherDims.mem_sKept _ _).mpr ⟨fun h => absurd (List.mem_singleton.mp h) (show ¬ (1 : Fin 2) = 0 by decide), List.not_mem_nil⟩
  rw [hs]
  unfold GatherDims.offCoord
  rw [dif_pos hmem]
  simp only [Nat.zero_add, Nat.add_zero]
  rfl

/-- A row gather read at `(e, f)`: the operand's entry `f` of the row the index column's entry `e` selects. -/
theorem gather_row2_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGather2 N M C wf) x idx (ix2 e f) = x (ix2 (src hN idx e) f) := by
  unfold Host.gather
  congr 1
  funext a
  refine Fin.ext ?_
  match a with
  | ⟨0, _⟩ => exact rowGather2_coord0 hN wf idx e f
  | ⟨1, _⟩ => exact rowGather2_coord1 wf idx e f

/-! ## The index column: a vector broadcast to `[M, 1]` -/

/-- The column of a vector read at `(e, 0)` is the vector's entry `e`. -/
theorem column_apply {M : Nat} (hb : (⟨1, ![M]⟩ : Shape).BroadcastsInDim ⟨2, ![M, 1]⟩ ![0])
    (v : (⟨1, ![M]⟩ : Shape).Idx → α) (e : Fin M) :
    broadcastInDim ⟨2, ![M, 1]⟩ ![0] hb v (ix2 e 0) = v (ix1 e) := by
  refine broadcastInDim_apply _ hb v _ (ix1 e) (fun a => ?_)
  obtain rfl : a = 0 := Subsingleton.elim _ _
  show e.val = if M = 1 then 0 else e.val
  split
  · next h => have := e.isLt; omega
  · rfl

/-! ## The wrap of negative indices leaves an in-range index alone -/

/-- A 32-bit word whose signed reading is not negative is not signed-less-than zero. -/
theorem cmpi_slt_zero_of_nonneg (x : BitVec 32) (h : 0 ≤ x.toInt) : IntOp.cmpi .slt x 0#32 = 0#1 := by
  have hf : x.slt 0#32 = false := by
    rw [Bool.eq_false_iff]
    intro hlt
    have h2 := BitVec.slt_iff_toInt_lt.mp hlt
    simp at h2
    omega
  show BitVec.ofBool (x.slt 0#32) = 0#1
  rw [hf]; rfl

/-- The wrapped index `select (v < 0) (v + n) v` read at `j` is `v`'s entry there when that entry is not negative. -/
theorem wrap_apply_of_nonneg {s : Shape} (v zs ns : IVec s 32) (hz : ∀ j, zs j = 0#32) (j : s.Idx)
    (h : 0 ≤ (v j).toInt) : select (cmpi .slt v zs) (addi v ns) v j = v j := by
  show Scalar.select (IntOp.cmpi .slt (v j) (zs j)) (IntOp.addi (v j) (ns j)) (v j) = v j
  rw [hz, cmpi_slt_zero_of_nonneg _ h, select_zero]

/-- An index entry whose signed reading is a row number `i < N` selects row `i` after the wrap of negative
    indices and the clamp: it is not negative, so the wrap keeps it, and it is at most `N − 1`, so the clamp does. -/
theorem src_wrap_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M) (i : Fin N)
    (h : (v (ix1 e)).toInt = (i.val : Int)) :
    src hN (broadcastInDim ⟨2, ![M, 1]⟩ ![0] hb (select (cmpi .slt v zs) (addi v ns) v)) e = i := by
  apply Fin.ext
  rw [src_val, column_apply, wrap_apply_of_nonneg v zs ns hz _ (by rw [h]; exact Int.natCast_nonneg _), h,
    Int.toNat_natCast]
  have := i.isLt
  omega

/-! ## The self-loop part of the index vector -/

/-- A natural number below `2³¹` as a 32-bit word reads back, signed, as itself. -/
theorem toInt_ofNat_of_lt (n : Nat) (h : n < 2 ^ 31) : (BitVec.ofNat 32 n).toInt = (n : Int) := by
  rw [BitVec.toInt_eq_toNat_cond]
  simp only [BitVec.toNat_ofNat]
  have hm : n % 2 ^ 32 = n := Nat.mod_eq_of_lt (by omega)
  rw [hm, if_pos (by omega)]

/-- The concatenation of `E` edge endpoints with the iota over the `N` nodes, read at position `E + i`, is `i`. -/
theorem selfloop_apply {E N M : Nat} (a : IVec ⟨1, ![E]⟩ 32)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, iotaInDim ⟨1, ![N]⟩ 32 0⟩] hc
      (ix1 ⟨E + i.val, by have := i.isLt; omega⟩) = BitVec.ofNat 32 i.val := by
  rw [concatenate_pair_apply_right 0 a (iotaInDim ⟨1, ![N]⟩ 32 0) hc (ix1 ⟨E + i.val, by have := i.isLt; omega⟩)
    rfl rfl (ix1 i) (fun b hb => absurd (Subsingleton.elim _ _) hb) (by show i.val + E = E + i.val; omega)]
  rfl

/-- Read signed, that entry is the node number `i`, while the node count is below `2³¹`. -/
theorem selfloop_toInt {E N M : Nat} (a : IVec ⟨1, ![E]⟩ 32)
    (hc : Shape.Concatenates [(⟨1, ![E]⟩ : Shape), ⟨1, ![N]⟩] ⟨1, ![M]⟩ 0) (hM : M = E + N) (hN32 : N < 2 ^ 31)
    (i : Fin N) :
    (concatenate ⟨1, ![M]⟩ 0 [⟨⟨1, ![E]⟩, a⟩, ⟨⟨1, ![N]⟩, iotaInDim ⟨1, ![N]⟩ 32 0⟩] hc
      (ix1 ⟨E + i.val, by have := i.isLt; omega⟩)).toInt = (i.val : Int) := by
  rw [selfloop_apply a hc hM i]
  exact toInt_ofNat_of_lt _ (by have := i.isLt; omega)

/-! ## Further readings of the same pieces -/

/-- A concatenation of two flat vectors of lengths `E` and `N`, read at a position `e < E`, is the first vector's
    entry `e`. -/
theorem concat_left_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (e : Fin E) :
    concatenate ⟨1, ![M]⟩ 0 [⟨⟨1, ![E]⟩, a⟩, ⟨⟨1, ![N]⟩, b⟩] hc (ix1 ⟨e.val, by have := e.isLt; omega⟩) = a (ix1 e) := by
  refine concatenate_pair_apply_left 0 a b hc _ rfl (ix1 e) (fun c => ?_)
  obtain rfl : c = 0 := Subsingleton.elim _ _
  rfl

/-- A concatenation of two flat vectors of lengths `E` and `N`, read at position `E + i` with `i < N`, is the second
    vector's entry `i`. -/
theorem concat_right_apply {E N M : Nat} (a : (⟨1, ![E]⟩ : Shape).Idx → α) (b : (⟨1, ![N]⟩ : Shape).Idx → α)
    (hc : Shape.Concatenates [(⟨1, ![E]⟩ : Shape), ⟨1, ![N]⟩] ⟨1, ![M]⟩ 0) (hM : M = E + N) (i : Fin N) :
    concatenate ⟨1, ![M]⟩ 0 [⟨⟨1, ![E]⟩, a⟩, ⟨⟨1, ![N]⟩, b⟩] hc (ix1 ⟨E + i.val, by have := i.isLt; omega⟩) = b (ix1 i) :=
  concatenate_pair_apply_right 0 a b hc (ix1 ⟨E + i.val, by have := i.isLt; omega⟩) rfl rfl (ix1 i)
    (fun c hc' => absurd (Subsingleton.elim _ _) hc') (by show i.val + E = E + i.val; omega)

/-- An index entry whose signed reading lies in `[0, N)` selects, after the wrap of negative indices and the clamp,
    the row whose number is that reading. -/
theorem src_wrap_val_of_inrange {N M : Nat} (hN : 0 < N)
    (hb : (⟨1, ![M]⟩ : Shape).BroadcastsInDim ⟨2, ![M, 1]⟩ ![0])
    (v zs ns : IVec ⟨1, ![M]⟩ 32) (hz : ∀ j, zs j = 0#32) (e : Fin M)
    (h0 : 0 ≤ (v (ix1 e)).toInt) (h1 : (v (ix1 e)).toInt < (N : Int)) :
    (src hN (broadcastInDim ⟨2, ![M, 1]⟩ ![0] hb (select (cmpi .slt v zs) (addi v ns) v)) e).val
      = (v (ix1 e)).toInt.toNat := by
  rw [src_val, column_apply, wrap_apply_of_nonneg v zs ns hz _ h0]
  omega

end Idealize.ShloMosaic.GatherRows

end
-- ==== Proof.LibAttentionPairs.lean ====
/-
  Two whole-matrix functions from which a layer over pairs of rows is assembled. The gathered rows of a matrix h at an
  index vector: row e of the result is the row of h whose number is entry e of the vector, read as a signed integer and
  clamped into the range of h's row numbers. And two matrices with the same number of rows set side by side: the columns
  of the first followed by the columns of the second.

  Each has the host's spelling that denotes it: a gather along the first axis at the index vector broadcast to one
  column, and a concatenation along the column axis.
-/
import proofs.«110368_j31911607009638_1_alg».proof.Proof.LibLayers
import proofs.«110368_j31911607009638_1_alg».proof.Proof.LibGatherRows

noncomputable section

namespace Cert.LibAttention

open Idealize.ShloMosaic Idealize.ShloMosaic.ValueIdx Idealize.ShloMosaic.GatherRows Cert.Layers

/-! ## Gathered rows -/

/-- The row number that entry e of an index vector selects among N rows: the entry read as a signed integer and clamped
    into [0, N − 1]. -/
def rowAt {N M : ℕ} (hN : 0 < N) (idx : IVec ⟨1, ![M]⟩ 32) (e : Fin M) : Fin N :=
  ⟨min (idx (ix1 e)).toInt.toNat (N - 1), by omega⟩

theorem rowAt_val {N M : ℕ} (hN : 0 < N) (idx : IVec ⟨1, ![M]⟩ 32) (e : Fin M) :
    (rowAt hN idx e : Fin N).val = min (idx (ix1 e)).toInt.toNat (N - 1) := rfl

/-- Row e of the result is the row of h that entry e of the index vector selects. -/
def gatheredRows {N C M : ℕ} (hN : 0 < N) (h : Mat N C) (idx : IVec ⟨1, ![M]⟩ 32) : Mat M C :=
  fun i => h (ix2 (rowAt hN idx (i 0)) (i 1))

theorem gatheredRows_apply {N C M : ℕ} (hN : 0 < N) (h : Mat N C) (idx : IVec ⟨1, ![M]⟩ 32) (e : Fin M) (f : Fin C) :
    gatheredRows hN h idx (ix2 e f) = h (ix2 (rowAt hN idx e) f) := rfl

/-- The host's spelling: a gather along the first axis, whole rows, at the index vector broadcast to one column. -/
theorem host_gatheredRows {N C M : ℕ} (hN : 0 < N)
    (wf : GatherDims.WF ⟨2, ![N, C]⟩ ⟨2, ![M, 1]⟩ ⟨2, ![M, C]⟩ [1] [0] [] [0] [] 1 ![1, C])
    (g : GatherDims ⟨2, ![N, C]⟩ ⟨2, ![M, 1]⟩ ⟨2, ![M, C]⟩) (hg : g = rowGather2 N M C wf)
    (hb : (⟨1, ![M]⟩ : Shape).BroadcastsInDim ⟨2, ![M, 1]⟩ ![0])
    (h : FVec Ideal ⟨2, ![N, C]⟩ .f32) (idx : IVec ⟨1, ![M]⟩ 32) :
    Host.gather g h (broadcastInDim ⟨2, ![M, 1]⟩ ![0] hb idx) = gatheredRows hN (h : Mat N C) idx := by
  subst hg
  funext j
  obtain ⟨e, f, rfl⟩ : ∃ (e : Fin M) (f : Fin C), j = ix2 e f := ⟨j 0, j 1, eq_ix2 j⟩
  rw [gather_row2_apply hN wf, gatheredRows_apply]
  refine congrArg (fun r => h (ix2 r f)) (Fin.ext ?_)
  rw [src_val, column_apply, rowAt_val]

/-! ## Side by side -/

/-- Two matrices side by side: columns 0, …, A − 1 from the first, columns A, …, A + B − 1 from the second. -/
def sideBySide {M A B C : ℕ} (hC : A + B = C) (a : Mat M A) (b : Mat M B) : Mat M C := fun i =>
  if h : (i 1).val < A then a (ix2 (i 0) ⟨(i 1).val, h⟩)
  else b (ix2 (i 0) ⟨(i 1).val - A, by have := idx2_lt1 i; omega⟩)

theorem sideBySide_left {M A B C : ℕ} (hC : A + B = C) (a : Mat M A) (b : Mat M B) (p : Fin M) (q : Fin A) :
    sideBySide hC a b (ix2 p ⟨q.val, by have := q.isLt; omega⟩) = a (ix2 p q) := by
  unfold sideBySide
  rw [dif_pos (show ((ix2 p (⟨q.val, by have := q.isLt; omega⟩ : Fin C)) 1).val < A from q.isLt)]
  rfl

theorem sideBySide_right {M A B C : ℕ} (hC : A + B = C) (a : Mat M A) (b : Mat M B) (p : Fin M) (q : Fin B) :
    sideBySide hC a b (ix2 p ⟨A + q.val, by have := q.isLt; omega⟩) = b (ix2 p q) := by
  unfold sideBySide
  rw [dif_neg (show ¬ ((ix2 p (⟨A + q.val, by have := q.isLt; omega⟩ : Fin C)) 1).val < A from by
    show ¬ A + q.val < A; omega)]
  refine congrArg b (funext fun d => Fin.ext ?_)
  match d with
  | ⟨0, _⟩ => rfl
  | ⟨1, _⟩ => show A + q.val - A = q.val; omega

/-- The host's spelling: the concatenation of the two matrices along the column axis. -/
theorem host_sideBySide {M A B C : ℕ} (hC : A + B = C)
    (hc : Shape.Concatenates [(⟨2, ![M, A]⟩ : Shape), ⟨2, ![M, B]⟩] ⟨2, ![M, C]⟩ 1)
    (a : FVec Ideal ⟨2, ![M, A]⟩ .f32) (b : FVec Ideal ⟨2, ![M, B]⟩ .f32) :
    concatenate ⟨2, ![M, C]⟩ 1 [⟨⟨2, ![M, A]⟩, a⟩, ⟨⟨2, ![M, B]⟩, b⟩] hc = sideBySide hC (a : Mat M A) (b : Mat M B) := by
  funext j
  obtain ⟨p, q, rfl⟩ : ∃ (p : Fin M) (q : Fin C), j = ix2 p q := ⟨j 0, j 1, eq_ix2 j⟩
  by_cases hq : q.val < A
  · have e : q = ⟨(⟨q.val, hq⟩ : Fin A).val, by have := q.isLt; omega⟩ := rfl
    rw [e, sideBySide_left hC a b p ⟨q.val, hq⟩]
    refine concatenate_pair_apply_left 1 a b hc _ rfl (ix2 p ⟨q.val, hq⟩) (fun c => ?_)
    match c with
    | ⟨0, _⟩ => rfl
    | ⟨1, _⟩ => rfl
  · have hB : q.val - A < B := by have := q.isLt; omega
    have e : q = ⟨A + (⟨q.val - A, hB⟩ : Fin B).val, by have := q.isLt; omega⟩ := Fin.ext (by show q.val = A + (q.val - A); omega)
    rw [e, sideBySide_right hC a b p ⟨q.val - A, hB⟩]
    refine concatenate_pair_apply_right 1 a b hc _ rfl rfl (ix2 p ⟨q.val - A, hB⟩) (fun c hne => ?_) ?_
    · match c with
      | ⟨0, _⟩ => rfl
      | ⟨1, _⟩ => exact absurd rfl hne
    · show (q.val - A) + A = A + (q.val - A)
      omega

end Cert.LibAttention

end
-- ==== Proof.RefActionValue.lean ====
/-
  The reference's layer over pairs of rows, as one whole-matrix function over the extended reals, and the host's
  operation sequence that computes it.

  With h the 512 × 256 output of the trunk and i0, i1 two vectors of 130816 row numbers, the layer sets the gathered rows
  h[i0] and h[i1] side by side (130816 × 512), applies a dense layer with W2ᵀ and b2 clamped below at zero (130816 × 256),
  a dense layer with W3ᵀ and b3 (130816 × 2), and the softmax along each row of two entries.

  The host spells this with two gathers at the index vectors broadcast to one column, a concatenation along the columns,
  two contractions with transposed weights, biases broadcast in two steps, a maximum against a broadcast zero, and the row
  softmax in the host's spelling; each operation is read through its layer lemma, one rewrite per operation.
-/
import proofs.«110368_j31911607009638_1_alg».proof.Proof.Gen.ReferenceIdeal
import proofs.«110368_j31911607009638_1_alg».proof.Proof.LibAttentionScale
import proofs.«110368_j31911607009638_1_alg».proof.Proof.LibAttentionSoftmax
import proofs.«110368_j31911607009638_1_alg».proof.Proof.LibAttentionPairs

noncomputable section

namespace Cert.ReferenceIdeal.RefActionValue

open Idealize.ShloMosaic Idealize.ShloMosaic.ValueIdx Idealize.ShloMosaic.GatherRows
open Cert.LibMatProd Cert.Layers Cert.LibAttention Cert.RowLogSoftmax
open Cert.ReferenceIdeal Cert.ReferenceIdeal.Gen

/-! ## The specification -/

/-- The gathered rows h[i0] and h[i1] side by side. -/
def pairRows (h : Mat 512 256) (i0 i1 : IVec ⟨1, ![130816]⟩ 32) : Mat 130816 512 :=
  sideBySide (by norm_num : 256 + 256 = 512) (gatheredRows (by norm_num : 0 < 512) h i0)
    (gatheredRows (by norm_num : 0 < 512) h i1)

/-- The hidden layer over pairs: clamp (pairs · W2ᵀ + b2). -/
def pairHidden (h : Mat 512 256) (i0 i1 : IVec ⟨1, ![130816]⟩ 32) (W2 : Mat 256 512)
    (b2 : (⟨1, ![256]⟩ : Shape).Idx → EReal) : Mat 130816 256 :=
  clamp (dense (pairRows h i0 i1) (transposeM W2) (rowOf b2))

/-- The two logits of each pair: hidden · W3ᵀ + b3. -/
def pairLogits (h : Mat 512 256) (i0 i1 : IVec ⟨1, ![130816]⟩ 32) (W2 : Mat 256 512)
    (b2 : (⟨1, ![256]⟩ : Shape).Idx → EReal) (W3 : Mat 2 256) (b3 : (⟨1, ![2]⟩ : Shape).Idx → EReal) : Mat 130816 2 :=
  dense (pairHidden h i0 i1 W2 b2) (transposeM W3) (rowOf b3)

/-- The action probabilities: the softmax of the two logits of each pair. -/
def refActionSpec (h : Mat 512 256) (i0 i1 : IVec ⟨1, ![130816]⟩ 32) (W2 : Mat 256 512)
    (b2 : (⟨1, ![256]⟩ : Shape).Idx → EReal) (W3 : Mat 2 256) (b3 : (⟨1, ![2]⟩ : Shape).Idx → EReal) : Mat 130816 2 :=
  rowSoftmax (pairLogits h i0 i1 W2 b2 W3 b3)

theorem refActionSpec_def (h : Mat 512 256) (i0 i1 : IVec ⟨1, ![130816]⟩ 32) (W2 : Mat 256 512)
    (b2 : (⟨1, ![256]⟩ : Shape).Idx → EReal) (W3 : Mat 2 256) (b3 : (⟨1, ![2]⟩ : Shape).Idx → EReal) :
    refActionSpec h i0 i1 W2 b2 W3 b3
      = rowSoftmax (dense (clamp (dense (sideBySide (by norm_num : 256 + 256 = 512)
          (gatheredRows (by norm_num : 0 < 512) h i0) (gatheredRows (by norm_num : 0 < 512) h i1))
          (transposeM W2) (rowOf b2))) (transposeM W3) (rowOf b3)) := rfl

/-! ## The specification read at an index -/

/-- Entry (p, n) of the hidden layer: the larger of zero's word and the sum over the 512 columns k of the pair's entry
    (p, k) times W2 (n, k), plus b2 n. -/
theorem pairHidden_apply (h : Mat 512 256) (i0 i1 : IVec ⟨1, ![130816]⟩ 32) (W2 : Mat 256 512)
    (b2 : (⟨1, ![256]⟩ : Shape).Idx → EReal) (p : Fin 130816) (n : Fin 256) :
    pairHidden h i0 i1 W2 b2 (ix2 p n)
      = max ((∑ k : Fin 512, pairRows h i0 i1 (ix2 p k) * W2 (ix2 n k)) + b2 (ix1 n)) (Ideal.ofBits .f32 0x00000000#32) := rfl

/-- Entry (p, c) of the logits: the sum over the 256 hidden units n of the hidden entry (p, n) times W3 (c, n), plus b3 c. -/
theorem pairLogits_apply (h : Mat 512 256) (i0 i1 : IVec ⟨1, ![130816]⟩ 32) (W2 : Mat 256 512)
    (b2 : (⟨1, ![256]⟩ : Shape).Idx → EReal) (W3 : Mat 2 256) (b3 : (⟨1, ![2]⟩ : Shape).Idx → EReal)
    (p : Fin 130816) (c : Fin 2) :
    pairLogits h i0 i1 W2 b2 W3 b3 (ix2 p c)
      = (∑ n : Fin 256, pairHidden h i0 i1 W2 b2 (ix2 p n) * W3 (ix2 c n)) + b3 (ix1 c) := rfl

/-- Entry (p, c) of the action probabilities: the exponential of the logit less the row's maximum, divided by the sum of
    the two such exponentials. -/
theorem refActionSpec_apply (h : Mat 512 256) (i0 i1 : IVec ⟨1, ![130816]⟩ 32) (W2 : Mat 256 512)
    (b2 : (⟨1, ![256]⟩ : Shape).Idx → EReal) (W3 : Mat 2 256) (b3 : (⟨1, ![2]⟩ : Shape).Idx → EReal)
    (p : Fin 130816) (c : Fin 2) :
    refActionSpec h i0 i1 W2 b2 W3 b3 (ix2 p c)
      = Ideal.div
          (Ideal.exp (pairLogits h i0 i1 W2 b2 W3 b3 (ix2 p c) - rowMax (pairLogits h i0 i1 W2 b2 W3 b3) p))
          (∑ k : Fin 2, Ideal.exp (pairLogits h i0 i1 W2 b2 W3 b3 (ix2 p k) - rowMax (pairLogits h i0 i1 W2 b2 W3 b3) p)) := rfl

/-- The pair's entry in the first 256 columns is h's entry in the row that i0 selects. -/
theorem pairRows_left (h : Mat 512 256) (i0 i1 : IVec ⟨1, ![130816]⟩ 32) (p : Fin 130816) (q : Fin 256) :
    pairRows h i0 i1 (ix2 p ⟨q.val, by have := q.isLt; omega⟩) = h (ix2 (rowAt (by norm_num : 0 < 512) i0 p) q) :=
  sideBySide_left _ _ _ p q

/-- The pair's entry in the last 256 columns is h's entry in the row that i1 selects. -/
theorem pairRows_right (h : Mat 512 256) (i0 i1 : IVec ⟨1, ![130816]⟩ 32) (p : Fin 130816) (q : Fin 256) :
    pairRows h i0 i1 (ix2 p ⟨256 + q.val, by have := q.isLt; omega⟩) = h (ix2 (rowAt (by norm_num : 0 < 512) i1 p) q) :=
  sideBySide_right _ _ _ p q

/-! ## The host's operation sequence -/

theorem gather_dims :
    gather_S512x256_S130816x1_S130816x256_1_0_n_n_0_1_1256
      = rowGather2 512 130816 256 gather_S512x256_S130816x1_S130816x256_1_0_n_n_0_1_1256_wf := rfl

/-- The two gathers and the concatenation (the printed operations for the wrapped index columns, the gathered rows
    and their concatenation). -/
def opsPairs (h : FVec Ideal S512x256 .f32) (i0 i1 : IVec S130816 32) : FVec Ideal S130816x512 .f32 :=
  concatenate S130816x512 1
    [⟨S130816x256, Host.gather gather_S512x256_S130816x1_S130816x256_1_0_n_n_0_1_1256 h
        (broadcastInDim S130816x1 ![0] bcast_S130816_S130816x1_0 i0)⟩,
     ⟨S130816x256, Host.gather gather_S512x256_S130816x1_S130816x256_1_0_n_n_0_1_1256 h
        (broadcastInDim S130816x1 ![0] bcast_S130816_S130816x1_0 i1)⟩]
    concatenates_S130816x256_S130816x256_S130816x512_d1

theorem opsPairs_eq (h : FVec Ideal S512x256 .f32) (i0 i1 : IVec S130816 32) :
    opsPairs h i0 i1 = pairRows h i0 i1 := by
  unfold opsPairs
  rw [host_gatheredRows (by norm_num : 0 < 512) gather_S512x256_S130816x1_S130816x256_1_0_n_n_0_1_1256_wf _ gather_dims
      bcast_S130816_S130816x1_0 h i0,
    host_gatheredRows (by norm_num : 0 < 512) gather_S512x256_S130816x1_S130816x256_1_0_n_n_0_1_1256_wf _ gather_dims
      bcast_S130816_S130816x1_0 h i1,
    host_sideBySide (by norm_num : 256 + 256 = 512)]
  rfl

/-- The first dense layer and its clamp (transpose, contraction, the bias broadcast in two steps, the sum, the maximum
    against a broadcast zero). -/
def opsHidden (h : FVec Ideal S512x256 .f32) (i0 i1 : IVec S130816 32) (W2 : FVec Ideal S256x512 .f32)
    (b2 : FVec Ideal S256 .f32) : FVec Ideal S130816x256 .f32 :=
  maximumf
    (addf (Host.dotGeneral (F := Ideal) dot_S130816x512_S512x256_S130816x256_1_0_0_1_n_n none (opsPairs h i0 i1)
            (transpose S512x256 [1, 0] W2 transposes_S256x512_S512x256_1_0))
      (broadcastInDim S130816x256 ![0, 1] bcast_S1x256_S130816x256_0_1 (broadcastInDim S1x256 ![1] bcast_S256_S1x256_1 b2)))
    (broadcastInDim S130816x256 ![] bcast_S_S130816x256 (constant (F := Ideal) S_ .f32 0x00000000#32))

theorem opsHidden_eq (h : FVec Ideal S512x256 .f32) (i0 i1 : IVec S130816 32) (W2 : FVec Ideal S256x512 .f32)
    (b2 : FVec Ideal S256 .f32) :
    opsHidden h i0 i1 W2 b2 = pairHidden h i0 i1 W2 b2 := by
  unfold opsHidden
  rw [host_transpose, host_prod dot_S130816x512_S512x256_S130816x256_1_0_0_1_n_n rfl rfl rfl rfl rfl rfl, host_addRow,
    host_clamp, opsPairs_eq]
  rfl

/-- The second dense layer (transpose, contraction, the bias broadcast in two steps, the sum). -/
def opsLogits (h : FVec Ideal S512x256 .f32) (i0 i1 : IVec S130816 32) (W2 : FVec Ideal S256x512 .f32)
    (b2 : FVec Ideal S256 .f32) (W3 : FVec Ideal S2x256 .f32) (b3 : FVec Ideal S2 .f32) : FVec Ideal S130816x2 .f32 :=
  addf (Host.dotGeneral (F := Ideal) dot_S130816x256_S256x2_S130816x2_1_0_0_1_n_n none (opsHidden h i0 i1 W2 b2)
          (transpose S256x2 [1, 0] W3 transposes_S2x256_S256x2_1_0))
    (broadcastInDim S130816x2 ![0, 1] bcast_S1x2_S130816x2_0_1 (broadcastInDim S1x2 ![1] bcast_S2_S1x2_1 b3))

theorem opsLogits_eq (h : FVec Ideal S512x256 .f32) (i0 i1 : IVec S130816 32) (W2 : FVec Ideal S256x512 .f32)
    (b2 : FVec Ideal S256 .f32) (W3 : FVec Ideal S2x256 .f32) (b3 : FVec Ideal S2 .f32) :
    opsLogits h i0 i1 W2 b2 W3 b3 = pairLogits h i0 i1 W2 b2 W3 b3 := by
  unfold opsLogits
  rw [host_transpose, host_prod dot_S130816x256_S256x2_S130816x2_1_0_0_1_n_n rfl rfl rfl rfl rfl rfl, host_addRow,
    opsHidden_eq]
  rfl

/-- The row softmax in the host's spelling, over a matrix v of 130816 rows of two entries (the printed operations from
    the row maximum to the final quotient). -/
def opsSoftmax (v : FVec Ideal S130816x2 .f32) : FVec Ideal S130816x2 .f32 :=
  Host.divf (F := Ideal)
    (Host.exp (F := Ideal) (subf v (broadcastInDim S130816x2 ![0, 1] bcast_S130816x1_S130816x2_0_1
      (broadcastInDim S130816x1 ![0] bcast_S130816_S130816x1_0
        (maximumf (broadcastInDim S130816 ![] bcast_S_S130816 (constant (F := Ideal) S_ .f32 0xFF800000#32))
          (Host.reduce (FloatOps.maximumf (F := Ideal) (φ := .f32)) v (constant (F := Ideal) S_ .f32 0xFF800000#32)
            reducesTo_S130816x2_S130816_d1 h_S_))))))
    (broadcastInDim S130816x2 ![0, 1] bcast_S130816x1_S130816x2_0_1
      (broadcastInDim S130816x1 ![0] bcast_S130816_S130816x1_0
        (Host.reduceAdd (F := Ideal)
          (Host.exp (F := Ideal) (subf v (broadcastInDim S130816x2 ![0, 1] bcast_S130816x1_S130816x2_0_1
            (broadcastInDim S130816x1 ![0] bcast_S130816_S130816x1_0
              (maximumf (broadcastInDim S130816 ![] bcast_S_S130816 (constant (F := Ideal) S_ .f32 0xFF800000#32))
                (Host.reduce (FloatOps.maximumf (F := Ideal) (φ := .f32)) v (constant (F := Ideal) S_ .f32 0xFF800000#32)
                  reducesTo_S130816x2_S130816_d1 h_S_))))))
          (constant (F := Ideal) S_ .f32 0x00000000#32) reducesTo_S130816x2_S130816_d1 h_S_)))

theorem opsSoftmax_eq (v : FVec Ideal S130816x2 .f32) : opsSoftmax v = rowSoftmax (v : Mat 130816 2) := by
  unfold opsSoftmax
  exact host_softmax v reducesTo_S130816x2_S130816_d1 (by decide) h_S_ bcast_S_S130816 bcast_S130816_S130816x1_0
    bcast_S130816x1_S130816x2_0_1

/-- The whole printed sequence, from the two wrapped index vectors to the action probabilities. -/
def opsAction (h : FVec Ideal S512x256 .f32) (i0 i1 : IVec S130816 32) (W2 : FVec Ideal S256x512 .f32)
    (b2 : FVec Ideal S256 .f32) (W3 : FVec Ideal S2x256 .f32) (b3 : FVec Ideal S2 .f32) : FVec Ideal S130816x2 .f32 :=
  opsSoftmax (opsLogits h i0 i1 W2 b2 W3 b3)

/-- The host's operation sequence computes the action probabilities of the specification. -/
theorem opsAction_eq (h : FVec Ideal S512x256 .f32) (i0 i1 : IVec S130816 32) (W2 : FVec Ideal S256x512 .f32)
    (b2 : FVec Ideal S256 .f32) (W3 : FVec Ideal S2x256 .f32) (b3 : FVec Ideal S2 .f32) :
    opsAction h i0 i1 W2 b2 W3 b3 = refActionSpec h i0 i1 W2 b2 W3 b3 := by
  unfold opsAction
  rw [opsSoftmax_eq, opsLogits_eq]
  rfl

end Cert.ReferenceIdeal.RefActionValue

end
-- ==== Proof.KI.PairsBridge.lean ====
/-
  The bridge between the edge classifier's array of all pairs and the reference's pair stage. The two edge projections
  the kernel keeps are the products of the trunk's output `h` with the two halves of the columns of the 256 × 512
  weight matrix, transposed; entry by entry these are the two half sums of the law between the one-product and the
  two-half-products arrangements. The reference's pair stage — the two gathered copies of `h` side by side, a dense
  layer clamped at zero, a dense layer, the softmax along rows of two — read at an entry is then the entry of the array
  of all pairs at the two row numbers the index vectors select.
-/
import proofs.«110368_j31911607009638_1_alg».proof.Proof.KI.TrunkValue
import proofs.«110368_j31911607009638_1_alg».proof.Proof.KI.PairsValueLaw
import proofs.«110368_j31911607009638_1_alg».proof.Proof.KI.TailRead
import proofs.«110368_j31911607009638_1_alg».proof.Proof.LibAttentionPairs
import proofs.«110368_j31911607009638_1_alg».proof.Proof.LibAttentionSoftmax
import proofs.«110368_j31911607009638_1_alg».proof.Proof.RefActionValue

noncomputable section

namespace Cert.KernelIdeal.PairsValue

open Idealize.ShloMosaic Idealize.ShloMosaic.ValueIdx Cert.LibMatProd Cert.Layers Cert.LibAttention Cert.KernelIdeal.TrunkValue
open Cert.RowLogSoftmax
open scoped BigOperators

/-- Entry `(i, k)` of the first edge projection: the sum over the left 256 columns of row `i` of `h` times row `k` of
    the weight matrix. -/
theorem specA_apply (h : Mat 512 256) (W2 : Mat 256 512) (i : Fin 512) (k : Fin 256) :
    specA h W2 (ix2 i k) = ∑ m : Fin 256, h (ix2 i m) * W2 (ix2 k (leftCol m)) := by
  unfold specA
  rw [matProd_apply]
  refine Finset.sum_congr rfl fun m _ => ?_
  rw [transposeM_apply, cols_apply]
  exact congrArg (fun x => h (ix2 i m) * W2 (ix2 k x)) (Fin.ext (Nat.zero_add _))

/-- Entry `(j, k)` of the second edge projection: the sum over the right 256 columns. -/
theorem specB_apply (h : Mat 512 256) (W2 : Mat 256 512) (j : Fin 512) (k : Fin 256) :
    specB h W2 (ix2 j k) = ∑ m : Fin 256, h (ix2 j m) * W2 (ix2 k (rightCol m)) := by
  unfold specB
  rw [matProd_apply]
  refine Finset.sum_congr rfl fun m _ => ?_
  rw [transposeM_apply, cols_apply]
  rfl

/-- So an entry of the array of all pairs, at the kernel's two edge projections, is the reference's class probability
    for the two rows of `h`. -/
theorem pairsFull_spec_eq_ref (h : Mat 512 256) (W2 : Mat 256 512) (bias : Mat 1 256) (w3 : Mat 2 256) (b3 : Mat 1 2)
    (i j : Fin 512) (c : Fin 2) :
    pairsFull (specA h W2) (specB h W2) bias w3 b3 (ix3 i j c)
      = refPairProb (fun m => h (ix2 i m)) (fun m => h (ix2 j m)) (fun k m => W2 (ix2 k m)) (fun k => bias (ix2 (0 : Fin 1) k))
          (fun c k => w3 (ix2 c k)) (fun c => b3 (ix2 (0 : Fin 1) c)) c :=
  pairsFull_eq_ref (specA h W2) (specB h W2) bias w3 b3 h (fun k m => W2 (ix2 k m)) (specA_apply h W2) (specB_apply h W2) i j c

/-! ## The reference's pair stage, entry by entry -/

/-- The maximum of a row of two entries, folded from minus infinity, is the larger of the two. -/
theorem rowMax_two {M : ℕ} (v : Mat M 2) (p : Fin M) : rowMax v p = max (v (ix2 p 0)) (v (ix2 p 1)) := by
  unfold rowMax
  rw [ofBits_neg_inf_f32]
  exact fold_max_two fun k => v (ix2 p k)

/-- The softmax along a row of two entries, written out. -/
theorem rowSoftmax_two {M : ℕ} (v : Mat M 2) (p : Fin M) (c : Fin 2) :
    rowSoftmax v (ix2 p c)
      = Ideal.div (Ideal.exp (v (ix2 p c) - max (v (ix2 p 0)) (v (ix2 p 1))))
          (Ideal.exp (v (ix2 p 0) - max (v (ix2 p 0)) (v (ix2 p 1))) + Ideal.exp (v (ix2 p 1) - max (v (ix2 p 0)) (v (ix2 p 1)))) := by
  rw [rowSoftmax_apply, rowMax_two, Fin.sum_univ_two]

/-- Row `p` of two gathered matrices side by side is the two selected rows of `h` side by side. -/
theorem sideBySide_gathered_apply {P : ℕ} (h : Mat 512 256) (i0 i1 : IVec ⟨1, ![P]⟩ 32) (p : Fin P) (m : Fin 512) :
    sideBySide (A := 256) (B := 256) (C := 512) rfl (gatheredRows (by norm_num) h i0) (gatheredRows (by norm_num) h i1) (ix2 p m)
      = beside (fun m' => h (ix2 (rowAt (N := 512) (by norm_num) i0 p) m')) (fun m' => h (ix2 (rowAt (N := 512) (by norm_num) i1 p) m')) m := rfl

/-- A logit of the pair stage at `(p, c)`: the reference's logit of class `c` for the two rows of `h` that entry `p` of
    the two index vectors selects. -/
theorem pairLayers_logit {P : ℕ} (h : Mat 512 256) (i0 i1 : IVec ⟨1, ![P]⟩ 32) (W2 : Mat 256 512) (b2 : Mat 1 256)
    (W3 : Mat 2 256) (b3 : Mat 1 2) (p : Fin P) (c : Fin 2) :
    dense (clamp (dense (sideBySide (A := 256) (B := 256) (C := 512) rfl (gatheredRows (by norm_num) h i0) (gatheredRows (by norm_num) h i1))
        (transposeM W2) b2)) (transposeM W3) b3 (ix2 p c)
      = refLogit (fun m' => h (ix2 (rowAt (N := 512) (by norm_num) i0 p) m')) (fun m' => h (ix2 (rowAt (N := 512) (by norm_num) i1 p) m'))
          (fun k m => W2 (ix2 k m)) (fun k => b2 (ix2 (0 : Fin 1) k)) (fun c k => W3 (ix2 c k)) (fun c => b3 (ix2 (0 : Fin 1) c)) c := by
  unfold refLogit
  show matProd _ (transposeM W3) (ix2 p c) + b3 (ix2 (0 : Fin 1) c) = _
  rw [matProd_apply]
  refine congrArg (· + b3 (ix2 (0 : Fin 1) c)) (Finset.sum_congr rfl fun k _ => ?_)
  rw [transposeM_apply]
  refine congrArg (· * W3 (ix2 c k)) ?_
  unfold refHidden
  show max (matProd _ (transposeM W2) (ix2 p k) + b2 (ix2 (0 : Fin 1) k)) (Ideal.ofBits .f32 0x00000000#32) = _
  rw [matProd_apply]
  refine congrArg (fun s => max (s + b2 (ix2 (0 : Fin 1) k)) (Ideal.ofBits .f32 0x00000000#32)) (Finset.sum_congr rfl fun m _ => ?_)
  rw [transposeM_apply, sideBySide_gathered_apply]

/-- THE PAIR STAGE at `(p, c)`, over the layer functions: the entry of the array of all pairs at the two selected row
    numbers. -/
theorem pairLayers_apply {P : ℕ} (h : Mat 512 256) (i0 i1 : IVec ⟨1, ![P]⟩ 32) (W2 : Mat 256 512) (b2 : Mat 1 256)
    (W3 : Mat 2 256) (b3 : Mat 1 2) (p : Fin P) (c : Fin 2) :
    rowSoftmax (dense (clamp (dense (sideBySide (A := 256) (B := 256) (C := 512) rfl (gatheredRows (by norm_num) h i0) (gatheredRows (by norm_num) h i1))
        (transposeM W2) b2)) (transposeM W3) b3) (ix2 p c)
      = pairsFull (specA h W2) (specB h W2) b2 W3 b3 (ix3 (rowAt (N := 512) (by norm_num) i0 p) (rowAt (N := 512) (by norm_num) i1 p) c) := by
  rw [pairsFull_spec_eq_ref, rowSoftmax_two]
  unfold refPairProb
  rw [refSoftmax2_eq]
  simp only [pairLayers_logit]

/-- The row number an index entry selects among 512 rows, in the two spellings. -/
theorem rowAt_eq_clamp512 {P : ℕ} (idx : IVec ⟨1, ![P]⟩ 32) (p : Fin P) :
    rowAt (N := 512) (by norm_num) idx p = Cert.KernelIdeal.Hand.clamp512 (idx (ix1 p)) := Fin.ext rfl

/-- THE REFERENCE'S ACTION STAGE at `(p, c)` is the entry of the array of all pairs, at the kernel's two edge
    projections, whose row numbers are the two index entries of pair `p` read signed and clamped into `[0, 511]`. -/
theorem refActionSpec_eq_pairs (h : Mat 512 256) (i0 i1 : IVec ⟨1, ![130816]⟩ 32) (W2 : Mat 256 512)
    (b2 : (⟨1, ![256]⟩ : Shape).Idx → EReal) (W3 : Mat 2 256) (b3 : (⟨1, ![2]⟩ : Shape).Idx → EReal)
    (p : Fin 130816) (c : Fin 2) :
    Cert.ReferenceIdeal.RefActionValue.refActionSpec h i0 i1 W2 b2 W3 b3 (ix2 p c)
      = pairsFull (specA h W2) (specB h W2) (rowOf b2) W3 (rowOf b3)
          (ix3 (Cert.KernelIdeal.Hand.clamp512 (i0 (ix1 p))) (Cert.KernelIdeal.Hand.clamp512 (i1 (ix1 p))) c) := by
  rw [Cert.ReferenceIdeal.RefActionValue.refActionSpec_def, pairLayers_apply, rowAt_eq_clamp512, rowAt_eq_clamp512]

/-- The same with the two bias rows spelled as reshapes of the bias vectors. -/
theorem refActionSpec_eq_pairs_reshaped (h : Mat 512 256) (i0 i1 : IVec ⟨1, ![130816]⟩ 32) (W2 : Mat 256 512)
    (b2 : (⟨1, ![256]⟩ : Shape).Idx → EReal) (W3 : Mat 2 256) (b3 : (⟨1, ![2]⟩ : Shape).Idx → EReal)
    (h2 : (⟨1, ![256]⟩ : Shape).ShapeCasts ⟨2, ![1, 256]⟩) (h3 : (⟨1, ![2]⟩ : Shape).ShapeCasts ⟨2, ![1, 2]⟩)
    (p : Fin 130816) (c : Fin 2) :
    Cert.ReferenceIdeal.RefActionValue.refActionSpec h i0 i1 W2 b2 W3 b3 (ix2 p c)
      = pairsFull (specA h W2) (specB h W2) (shapeCast ⟨2, ![1, 256]⟩ b2 h2) W3 (shapeCast ⟨2, ![1, 2]⟩ b3 h3)
          (ix3 (Cert.KernelIdeal.Hand.clamp512 (i0 (ix1 p))) (Cert.KernelIdeal.Hand.clamp512 (i1 (ix1 p))) c) := by
  rw [reshape_row, reshape_row]
  exact refActionSpec_eq_pairs h i0 i1 W2 b2 W3 b3 p c

end Cert.KernelIdeal.PairsValue

end
-- ==== Proof.RefRunOpsA.lean ====
/- Operations 1–76 of the reference's straight line: window 0 of the printed program, as a list of host
   operations with every call inlined at its site, cut into consecutive chunks. For each chunk: every buffer it touches
   is a TensorCore reference, every operation determines its results, the list of buffers it writes, and the fact that
   any other buffer keeps its contents through the chunk. Last, the window is the chunks run in order. -/
import proofs.«110368_j31911607009638_1_alg».proof.Proof.Gen.ReferenceIdeal
import Idealize.ShloMosaic.Lib.StableHlo.Run

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–8 of the straight line, in order, every call inlined at its site: they end at the buffer `main_v5`. -/
abbrev c01 : List (HloOp τ sig (Elt F)) :=
  [ unary main_arg1 main_v0 ((transpose S128x256 [1, 0] · transposes_S256x128_S128x256_1_0) : (⟨S256x128, .f32⟩ : BufTy).Contents (Elt F) → (⟨S128x256, .f32⟩ : BufTy).Contents (Elt F)),
    binary main_arg0 main_v0 main_v1 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),
    unary main_arg2 main_v2 (broadcastInDim S1x256 ![1] bcast_S256_S1x256_1 : (⟨S256, .f32⟩ : BufTy).Contents (Elt F) → (⟨S1x256, .f32⟩ : BufTy).Contents (Elt F)),
    unary main_v2 main_v3 (broadcastInDim S512x256 ![0, 1] bcast_S1x256_S512x256_0_1 : (⟨S1x256, .f32⟩ : BufTy).Contents (Elt F) → (⟨S512x256, .f32⟩ : BufTy).Contents (Elt F)),
    binary main_v1 main_v3 main_v4 (addf : (⟨S512x256, .f32⟩ : BufTy).Contents (Elt F) → (⟨S512x256, .f32⟩ : BufTy).Contents (Elt F) → (⟨S512x256, .f32⟩ : BufTy).Contents (Elt F)),
    TRef.nullary main_call0.cst (constant S_ .f32 0x00000000#32),
    TRef.unary main_call0.cst main_call0.v0 (broadcastInDim S512x256 ![] bcast_S_S512x256),
    TRef.binary (.of main_v4 : TRef sig ⟨S512x256, .f32⟩) main_call0.v0 main_call0.v1 maximumf ]

theorem c01_sub : (c01 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub ..⟩

/-- Every operation of the chunk determines its results. -/
theorem c01_fresh : (c01 : List (HloOp τ sig (Elt F))).Forall fun op => op.fresh = ∅ :=
  ⟨rfl, rfl, rfl, rfl, rfl, rfl, rfl, rfl⟩

/-- The buffers the chunk's operations write, in order. -/
abbrev c01_W : List (Ref sig .tc) := [main_v0, main_v1, main_v2, main_v3, main_v4, main_call0_cst, main_call0_v0, main_v5]

theorem c01_writes : (c01 : List (HloOp τ sig (Elt F))).Forall fun op =>
    op.writes ⊆ (c01_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c01_keep (V : Valuation τ sig (Elt F)) (r : Ref sig .tc) (h : r ∉ c01_W) :
    after c01 V (Proc.devRef .tc r) = V (Proc.devRef .tc r) :=
  after_of_writes_sub c01 V c01_writes h

/-- Operations 9–13 of the straight line, in order, every call inlined at its site: they end at the buffer `main_v10`. -/
abbrev c02 : List (HloOp τ sig (Elt F)) :=
  [ unary main_arg3 main_v6 ((transpose S256x768 [1, 0] · transposes_S768x256_S256x768_1_0) : (⟨S768x256, .f32⟩ : BufTy).Contents (Elt F) → (⟨S256x768, .f32⟩ : BufTy).Contents (Elt F)),
    binary main_v5 main_v6 main_v7 ((fun l r => Host.dotGeneral dot_S512x256_S256x768_S512x768_1_0_0_1_n_n none l r) : (⟨S512x256, .f32⟩ : BufTy).Contents (Elt F) → (⟨S256x768, .f32⟩ : BufTy).Contents (Elt F) → (⟨S512x768, .f32⟩ : BufTy).Contents (Elt F)),
    unary main_arg4 main_v8 (broadcastInDim S1x768 ![1] bcast_S768_S1x768_1 : (⟨S768, .f32⟩ : BufTy).Contents (Elt F) → (⟨S1x768, .f32⟩ : BufTy).Contents (Elt F)),
    unary main_v8 main_v9 (broadcastInDim S512x768 ![0, 1] bcast_S1x768_S512x768_0_1 : (⟨S1x768, .f32⟩ : BufTy).Contents (Elt F) → (⟨S512x768, .f32⟩ : BufTy).Contents (Elt F)),
    binary main_v7 main_v9 main_v10 (addf : (⟨S512x768, .f32⟩ : BufTy).Contents (Elt F) → (⟨S512x768, .f32⟩ : BufTy).Contents (Elt F) → (⟨S512x768, .f32⟩ : BufTy).Contents (Elt F)) ]

theorem c02_sub : (c02 : List (HloOp τ sig (Elt F))).Forall fun op => op.bufs ⊆ tcRefs τ sig :=
  ⟨unary_bufs_sub .., binary_bufs_sub .., unary_bufs_sub .., unary_bufs_sub .., binary_bufs_sub ..⟩

/-- Every operation of the chunk determines its results. -/
theorem c02_fresh : (c02 : List (HloOp τ sig (Elt F))).Forall fun op => op.fresh = ∅ :=
  ⟨rfl, rfl, rfl, rfl, rfl⟩

/-- The buffers the chunk's operations write, in order. -/
abbrev c02_W : List (Ref sig .tc) := [main_v6, main_v7, main_v8, main_v9, main_v10]

theorem c02_writes : (c02 : List (HloOp τ sig (Elt F))).Forall fun op =>
    op.writes ⊆ (c02_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c02_keep (V : Valuation τ sig (Elt F)) (r : Ref sig .tc) (h : r ∉ c02_W) :
    after c02 V (Proc.devRef .tc r) = V (Proc.devRef .tc r) :=
  after_of_writes_sub c02 V c02_writes h

/-- Operations 14–36 of the straight line, in order, every call inlined at its site: they end at the buffer `main_v29`. -/
abbrev c03 : List (HloOp τ sig (Elt F)) :=
  [ unary main_v10 main_v11 ((extractStridedSlice S512x256 ![0, 0] · slices_S512x768_S512x256_0_0) : (⟨S512x768, .f32⟩ : BufTy).Contents (Elt F) → (⟨S512x256, .f32⟩ : BufTy).Contents (Elt F)),
    unary main_v10 main_v12 ((extractStridedSlice S512x256 ![0, 256] · slices_S512x768_S512x256_0_256) : (⟨S512x768, .f32⟩ : BufTy).Contents (Elt F) → (⟨S512x256, .f32⟩ : BufTy).Contents (Elt F)),
    unary main_v10 main_v13 ((extractStridedSlice S512x256 ![0, 512] · slices_S512x768_S512x256_0_512) : (⟨S512x768, .f32⟩ : BufTy).Contents (Elt F) → (⟨S512x256, .f32⟩ : BufTy).Contents (Elt F)),
    unary main_v12 main_v14 ((transpose S256x512 [1, 0] · transposes_S512x256_S256x512_1_0) : (⟨S512x256, .f32⟩ : BufTy).Contents (Elt F) → (⟨S256x512, .f32⟩ : BufTy).Contents (Elt F)),
    binary main_v11 main_v14 main_v15 ((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)),
    nullary main_cst (constant S_ .f32 0x43800000#32),
    unary main_cst main_v16 (Host.sqrt : (⟨S_, .f32⟩ : BufTy).Contents (Elt F) → (⟨S_, .f32⟩ : BufTy).Contents (Elt F)),
    unary main_v16 main_v17 (broadcastInDim S512x512 ![] bcast_S_S512x512 : (⟨S_, .f32⟩ : BufTy).Contents (Elt F) → (⟨S512x512, .f32⟩ : BufTy).Contents (Elt F)),
    binary main_v15 main_v17 main_v18 (Host.divf : (⟨S512x512, .f32⟩ : BufTy).Contents (Elt F) → (⟨S512x512, .f32⟩ : BufTy).Contents (Elt F) → (⟨S512x512, .f32⟩ : BufTy).Contents (Elt F)),
    nullary main_cst_0 (constant S_ .f32 0xFF800000#32),
    binary main_v18 main_cst_0 main_v19 ((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)),
    nullary main_cst_1 (constant S_ .f32 0xFF800000#32),
    unary main_cst_1 main_v20 (broadcastInDim S512 ![] bcast_S_S512 : (⟨S_, .f32⟩ : BufTy).Contents (Elt F) → (⟨S512, .f32⟩ : BufTy).Contents (Elt F)),
    binary main_v20 main_v19 main_v21 (maximumf : (⟨S512, .f32⟩ : BufTy).Contents (Elt F) → (⟨S512, .f32⟩ : BufTy).Contents (Elt F) → (⟨S512, .f32⟩ : BufTy).Contents (Elt F)),
    unary main_v21 main_v22 (broadcastInDim S512x1 ![0] bcast_S512_S512x1_0 : (⟨S512, .f32⟩ : BufTy).Contents (Elt F) → (⟨S512x1, .f32⟩ : BufTy).Contents (Elt F)),
    unary main_v22 main_v23 (broadcastInDim S512x512 ![0, 1] bcast_S512x1_S512x512_0_1 : (⟨S512x1, .f32⟩ : BufTy).Contents (Elt F) → (⟨S512x512, .f32⟩ : BufTy).Contents (Elt F)),
    binary main_v18 main_v23 main_v24 (subf : (⟨S512x512, .f32⟩ : BufTy).Contents (Elt F) → (⟨S512x512, .f32⟩ : BufTy).Contents (Elt F) → (⟨S512x512, .f32⟩ : BufTy).Contents (Elt F)),
    unary main_v24 main_v25 (Host.exp : (⟨S512x512, .f32⟩ : BufTy).Contents (Elt F) → (⟨S512x512, .f32⟩ : BufTy).Contents (Elt F)),
    nullary main_cst_2 (constant S_ .f32 0x00000000#32),
    binary main_v25 main_cst_2 main_v26 ((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)),
    unary main_v26 main_v27 (broadcastInDim S512x1 ![0] bcast_S512_S512x1_0 : (⟨S512, .f32⟩ : BufTy).Contents (Elt F) → (⟨S512x1, .f32⟩ : BufTy).Contents (Elt F)),
    unary main_v27 main_v28 (broadcastInDim S512x512 ![0, 1] bcast_S512x1_S512x512_0_1 : (⟨S512x1, .f32⟩ : BufTy).Contents (Elt F) → (⟨S512x512, .f32⟩ : BufTy).Contents (Elt F)),
    binary main_v25 main_v28 main_v29 (Host.divf : (⟨S512x512, .f32⟩ : BufTy).Contents (Elt F) → (⟨S512x512, .f32⟩ : BufTy).Contents (Elt F) → (⟨S512x512, .f32⟩ : BufTy).Contents (Elt F)) ]

theorem c03_sub : (c03 : List (HloOp τ sig (Elt F))).Forall fun op => op.bufs ⊆ tcRefs τ sig :=
  ⟨unary_bufs_sub .., unary_bufs_sub .., unary_bufs_sub .., unary_bufs_sub .., binary_bufs_sub .., nullary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub ..⟩

/-- Every operation of the chunk determines its results. -/
theorem c03_fresh : (c03 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl⟩

/-- The buffers the chunk's operations write, in order. -/
abbrev c03_W : List (Ref sig .tc) := [main_v11, main_v12, main_v13, main_v14, main_v15, main_cst, main_v16, main_v17,
    main_v18, main_cst_0, main_v19, main_cst_1, main_v20, main_v21, main_v22, main_v23,
    main_v24, main_v25, main_cst_2, main_v26, main_v27, main_v28, main_v29]

theorem c03_writes : (c03 : List (HloOp τ sig (Elt F))).Forall fun op =>
    op.writes ⊆ (c03_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c03_keep (V : Valuation τ sig (Elt F)) (r : Ref sig .tc) (h : r ∉ c03_W) :
    after c03 V (Proc.devRef .tc r) = V (Proc.devRef .tc r) :=
  after_of_writes_sub c03 V c03_writes h

/-- Operations 37–42 of the straight line, in order, every call inlined at its site: they end at the buffer `main_v35`. -/
abbrev c04 : List (HloOp τ sig (Elt F)) :=
  [ binary main_v29 main_v13 main_v30 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    unary main_arg5 main_v31 ((transpose S256x256 [1, 0] · transposes_S256x256_S256x256_1_0) : (⟨S256x256, .f32⟩ : BufTy).Contents (Elt F) → (⟨S256x256, .f32⟩ : BufTy).Contents (Elt F)),
    binary main_v30 main_v31 main_v32 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)),
    unary main_arg6 main_v33 (broadcastInDim S1x256 ![1] bcast_S256_S1x256_1 : (⟨S256, .f32⟩ : BufTy).Contents (Elt F) → (⟨S1x256, .f32⟩ : BufTy).Contents (Elt F)),
    unary main_v33 main_v34 (broadcastInDim S512x256 ![0, 1] bcast_S1x256_S512x256_0_1 : (⟨S1x256, .f32⟩ : BufTy).Contents (Elt F) → (⟨S512x256, .f32⟩ : BufTy).Contents (Elt F)),
    binary main_v32 main_v34 main_v35 (addf : (⟨S512x256, .f32⟩ : BufTy).Contents (Elt F) → (⟨S512x256, .f32⟩ : BufTy).Contents (Elt F) → (⟨S512x256, .f32⟩ : BufTy).Contents (Elt F)) ]

theorem c04_sub : (c04 : List (HloOp τ sig (Elt F))).Forall fun op => op.bufs ⊆ tcRefs τ sig :=
  ⟨binary_bufs_sub .., unary_bufs_sub .., binary_bufs_sub .., unary_bufs_sub .., unary_bufs_sub .., binary_bufs_sub ..⟩

/-- Every operation of the chunk determines its results. -/
theorem c04_fresh : (c04 : List (HloOp τ sig (Elt F))).Forall fun op => op.fresh = ∅ :=
  ⟨rfl, rfl, rfl, rfl, rfl, rfl⟩

/-- The buffers the chunk's operations write, in order. -/
abbrev c04_W : List (Ref sig .tc) := [main_v30, main_v31, main_v32, main_v33, main_v34, main_v35]

theorem c04_writes : (c04 : List (HloOp τ sig (Elt F))).Forall fun op =>
    op.writes ⊆ (c04_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c04_keep (V : Valuation τ sig (Elt F)) (r : Ref sig .tc) (h : r ∉ c04_W) :
    after c04 V (Proc.devRef .tc r) = V (Proc.devRef .tc r) :=
  after_of_writes_sub c04 V c04_writes h

/-- Operations 43–56 of the straight line, in order, every call inlined at its site: they end at the buffer `main_v39`. -/
abbrev c05 : List (HloOp τ sig (Elt F)) :=
  [ nullary main_cst_3 (constant S_ .f32 0x3F800000#32),
    unary main_cst_3 main_v36 (broadcastInDim S512x512 ![] bcast_S_S512x512 : (⟨S_, .f32⟩ : BufTy).Contents (Elt F) → (⟨S512x512, .f32⟩ : BufTy).Contents (Elt F)),
    TRef.nullary main_call1.v0 (iotaInDim S512x512 32 0),
    TRef.nullary main_call1.c (constantI S_ 32 0#32),
    TRef.unary main_call1.c main_call1.v1 (broadcastInDim S512x512 ![] bcast_S_S512x512),
    TRef.binary main_call1.v0 main_call1.v1 main_call1.v2 addi,
    TRef.nullary main_call1.v3 (iotaInDim S512x512 32 1),
    TRef.binary main_call1.v2 main_call1.v3 main_call1.v4 (cmpi .sge),
    TRef.nullary main_call1.cst (constant S_ .f32 0x00000000#32),
    TRef.unary main_call1.cst main_call1.v5 (broadcastInDim S512x512 ![] bcast_S_S512x512),
    TRef.ternary main_call1.v4 main_call1.v5 (.of main_v36 : TRef sig ⟨S512x512, .f32⟩) main_call1.v6 select,
    nullary main_cst_4 (constant S_ .f32 0x00000000#32),
    unary main_cst_4 main_v38 (broadcastInDim S512x512 ![] bcast_S_S512x512 : (⟨S_, .f32⟩ : BufTy).Contents (Elt F) → (⟨S512x512, .f32⟩ : BufTy).Contents (Elt F)),
    binary main_v37 main_v38 main_v39 (cmpf .une : (⟨S512x512, .f32⟩ : BufTy).Contents (Elt F) → (⟨S512x512, .f32⟩ : BufTy).Contents (Elt F) → (⟨S512x512, .i1⟩ : BufTy).Contents (Elt F)) ]

theorem c05_sub : (c05 : List (HloOp τ sig (Elt F))).Forall fun op => op.bufs ⊆ tcRefs τ sig :=
  ⟨nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub ..⟩

/-- Every operation of the chunk determines its results. -/
theorem c05_fresh : (c05 : List (HloOp τ sig (Elt F))).Forall fun op => op.fresh = ∅ :=
  ⟨rfl, rfl, rfl, rfl, rfl, rfl, rfl, rfl, rfl, rfl, rfl, rfl, rfl, rfl⟩

/-- The buffers the chunk's operations write, in order. -/
abbrev c05_W : List (Ref sig .tc) := [main_cst_3, main_v36, main_call1_v0, main_call1_c, main_call1_v1, main_call1_v2, main_call1_v3, main_call1_v4,
    main_call1_cst, main_call1_v5, main_v37, main_cst_4, main_v38, main_v39]

theorem c05_writes : (c05 : List (HloOp τ sig (Elt F))).Forall fun op =>
    op.writes ⊆ (c05_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c05_keep (V : Valuation τ sig (Elt F)) (r : Ref sig .tc) (h : r ∉ c05_W) :
    after c05 V (Proc.devRef .tc r) = V (Proc.devRef .tc r) :=
  after_of_writes_sub c05 V c05_writes h

/-- Operations 57–61 of the straight line, in order, every call inlined at its site: they end at the buffer `main_v40`. -/
abbrev c06a : List (HloOp τ sig (Elt F)) :=
  [ TRef.reshape (.of main_v39 : TRef sig ⟨S512x512, .i1⟩) main_call2.v0 rfl shapeCasts_S512x512_S262144,
    TRef.unary main_call2.v0 main_call2.v1 (extui 32 · natLt_1_32),
    TRef.nullary main_call2.call0.c (constantI S_ 32 0#32),
    TRef.unary main_call2.call0.c main_call2.call0.v0 (broadcastInDim S_ ![] bcast_S_S_),
    TRef.binary main_call2.v1 main_call2.call0.v0 main_call2.call0.v1 (fun x v => Host.reduceWindow IntOp.addi ![262144] ![1] ![262143] ![0] x v reduceWindows_S262144_S262144_w262144s1p262143_0 h_S_) ]

theorem c06a_sub : (c06a : List (HloOp τ sig (Elt F))).Forall fun op => op.bufs ⊆ tcRefs τ sig :=
  ⟨reshape_bufs_sub .., unary_bufs_sub .., nullary_bufs_sub .., unary_bufs_sub .., binary_bufs_sub ..⟩

/-- Every operation of the chunk determines its results. -/
theorem c06a_fresh : (c06a : List (HloOp τ sig (Elt F))).Forall fun op => op.fresh = ∅ :=
  ⟨rfl, rfl, rfl, rfl, rfl⟩

/-- The buffers the chunk's operations write, in order. -/
abbrev c06a_W : List (Ref sig .tc) := [main_call2_v0, main_call2_v1, main_call2_call0_c, main_call2_call0_v0, main_v40]

theorem c06a_writes : (c06a : List (HloOp τ sig (Elt F))).Forall fun op =>
    op.writes ⊆ (c06a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c06a_keep (V : Valuation τ sig (Elt F)) (r : Ref sig .tc) (h : r ∉ c06a_W) :
    after c06a V (Proc.devRef .tc r) = V (Proc.devRef .tc r) :=
  after_of_writes_sub c06a V c06a_writes h

/-- Operations 62–67 of the straight line, in order, every call inlined at its site: they end at the buffer `main_v42`. -/
abbrev c06b : List (HloOp τ sig (Elt F)) :=
  [ nullary main_c (constantI S_ 32 0#32),
    unary main_c main_v41 (broadcastInDim S130816 ![] bcast_S_S130816 : (⟨S_, .i32⟩ : BufTy).Contents (Elt F) → (⟨S130816, .i32⟩ : BufTy).Contents (Elt F)),
    nullary main_c_5 (constantI S_ 32 0#32),
    TRef.unary (.of main_c_5 : TRef sig ⟨S_, .i32⟩) main_call3.v0 id,
    TRef.unary main_call3.v0 main_call3.v1 (broadcastInDim S262144 ![] bcast_S_S262144),
    TRef.binary main_call3.v1 (.of main_v40 : TRef sig ⟨S262144, .i32⟩) main_call3.v2 maxsi ]

theorem c06b_sub : (c06b : List (HloOp τ sig (Elt F))).Forall fun op => op.bufs ⊆ tcRefs τ sig :=
  ⟨nullary_bufs_sub .., unary_bufs_sub .., nullary_bufs_sub .., unary_bufs_sub .., unary_bufs_sub .., binary_bufs_sub ..⟩

/-- Every operation of the chunk determines its results. -/
theorem c06b_fresh : (c06b : List (HloOp τ sig (Elt F))).Forall fun op => op.fresh = ∅ :=
  ⟨rfl, rfl, rfl, rfl, rfl, rfl⟩

/-- The buffers the chunk's operations write, in order. -/
abbrev c06b_W : List (Ref sig .tc) := [main_c, main_v41, main_c_5, main_call3_v0, main_call3_v1, main_v42]

theorem c06b_writes : (c06b : List (HloOp τ sig (Elt F))).Forall fun op =>
    op.writes ⊆ (c06b_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c06b_keep (V : Valuation τ sig (Elt F)) (r : Ref sig .tc) (h : r ∉ c06b_W) :
    after c06b V (Proc.devRef .tc r) = V (Proc.devRef .tc r) :=
  after_of_writes_sub c06b V c06b_writes h

/-- Operations 68–76 of the straight line, in order, every call inlined at its site: they end at the buffer `main_c_8`. -/
abbrev c06c : List (HloOp τ sig (Elt F)) :=
  [ nullary main_c_6 (constantI S_ 32 0#32),
    unary main_c_6 main_v43 (broadcastInDim S262144 ![] bcast_S_S262144 : (⟨S_, .i32⟩ : BufTy).Contents (Elt F) → (⟨S262144, .i32⟩ : BufTy).Contents (Elt F)),
    binary main_v42 main_v43 main_v44 (cmpi .slt : (⟨S262144, .i32⟩ : BufTy).Contents (Elt F) → (⟨S262144, .i32⟩ : BufTy).Contents (Elt F) → (⟨S262144, .i1⟩ : BufTy).Contents (Elt F)),
    nullary main_c_7 (constantI S_ 32 130816#32),
    unary main_c_7 main_v45 (broadcastInDim S262144 ![] bcast_S_S262144 : (⟨S_, .i32⟩ : BufTy).Contents (Elt F) → (⟨S262144, .i32⟩ : BufTy).Contents (Elt F)),
    binary main_v42 main_v45 main_v46 (addi : (⟨S262144, .i32⟩ : BufTy).Contents (Elt F) → (⟨S262144, .i32⟩ : BufTy).Contents (Elt F) → (⟨S262144, .i32⟩ : BufTy).Contents (Elt F)),
    ternary main_v44 main_v46 main_v42 main_v47 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v47 main_v48 (broadcastInDim S262144x1 ![0] bcast_S262144_S262144x1_0 : (⟨S262144, .i32⟩ : BufTy).Contents (Elt F) → (⟨S262144x1, .i32⟩ : BufTy).Contents (Elt F)),
    nullary main_c_8 (constantI S_ 32 1#32) ]

theorem c06c_sub : (c06c : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub ..⟩

/-- Every operation of the chunk determines its results. -/
theorem c06c_fresh : (c06c : List (HloOp τ sig (Elt F))).Forall fun op => op.fresh = ∅ :=
  ⟨rfl, rfl, rfl, rfl, rfl, rfl, rfl, rfl, rfl⟩

/-- The buffers the chunk's operations write, in order. -/
abbrev c06c_W : List (Ref sig .tc) := [main_c_6, main_v43, main_v44, main_c_7, main_v45, main_v46, main_v47, main_v48,
    main_c_8]

theorem c06c_writes : (c06c : List (HloOp τ sig (Elt F))).Forall fun op =>
    op.writes ⊆ (c06c_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c06c_keep (V : Valuation τ sig (Elt F)) (r : Ref sig .tc) (h : r ∉ c06c_W) :
    after c06c V (Proc.devRef .tc r) = V (Proc.devRef .tc r) :=
  after_of_writes_sub c06c V c06c_writes h

set_option maxRecDepth 4096 in
set_option maxHeartbeats 4000000 in
/-- The window is that straight line: the called functions' bodies unfolded at their calls, both sides are one chain of
    operation steps once sequencing is reassociated. -/
theorem main_part0_eq (c : Dev nD) : main_part0 (F := F) c = seq (c01 ++ c02 ++ c03 ++ c04 ++ c05 ++ c06a ++ c06b ++ c06c) := by
  simp only [main_part0, fn_relu.body, fn_triu.body, fn_cumsum.body, fn_cumsum_0.body, fn_clip.body, c01, c02, c03, c04, c05, c06a, c06b, c06c, List.cons_append, List.nil_append, seq, bind_assoc, pure_bind]
  rfl

end Cert.ReferenceIdeal.RefRun

end
-- ==== Proof.RefRunStagesA.lean ====
/- Named stages of the reference's value, its first window: each a pure function of the literal array types, the composed
   term of the printed operations of one chunk (the same operations, the same literals, the same order; an outlined
   call as its one function applied to the operands) over variables for the buffers the chunk reads from before it; and,
   per stage, the fact that after the chunk's operations, from any contents, the stage's buffer holds the stage function
   of those contents. Each fact: every operation's result rewritten at its own buffer; the typed references' transports,
   the identity at these literal references, removed; what is left is the stage's own term. -/
import proofs.«110368_j31911607009638_1_alg».proof.Proof.Gen.ReferenceIdeal
import Idealize.ShloMosaic.Lib.StableHlo.Run
import proofs.«110368_j31911607009638_1_alg».proof.Proof.RefRunCalls
import proofs.«110368_j31911607009638_1_alg».proof.Proof.RefRunOpsA

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Relu of the first product plus bias: the composed term of the operations that end at `main_v5`. -/
def refHid (x : Vec F S512x128 .f32) (w1 : Vec F S256x128 .f32) (b1 : Vec F S256 .f32) : Vec F S512x256 .f32 :=
  (callRelu ((addf : (⟨S512x256, .f32⟩ : BufTy).Contents (Elt F) → (⟨S512x256, .f32⟩ : BufTy).Contents (Elt F) → (⟨S512x256, .f32⟩ : BufTy).Contents (Elt F)) (((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)) x (((transpose S128x256 [1, 0] · transposes_S256x128_S128x256_1_0) : (⟨S256x128, .f32⟩ : BufTy).Contents (Elt F) → (⟨S128x256, .f32⟩ : BufTy).Contents (Elt F)) w1)) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) b1))))

set_option maxRecDepth 16384 in
set_option maxHeartbeats 1000000 in
/-- After the chunk's operations, from any contents, `main_v5` holds `refHid` of the contents the chunk reads. -/
theorem c01_main_v5 (W : Valuation τ sig (Elt F)) :
    after c01 W (Proc.devRef .tc main_v5) = refHid (W (Proc.devRef .tc main_arg0)) (W (Proc.devRef .tc main_arg1)) (W (Proc.devRef .tc main_arg2)) := by
  simp only [c01]
  after_results_simp
  try simp only [TRef.toBuf, TRef.ofBuf, cast_eq]
  unfold refHid callRelu
  rfl

/-- The joint query–key–value projection plus bias: the composed term of the operations that end at `main_v10`. -/
def refQkv (hid : Vec F S512x256 .f32) (inw : Vec F S768x256 .f32) (inb : Vec F S768 .f32) : Vec F S512x768 .f32 :=
  ((addf : (⟨S512x768, .f32⟩ : BufTy).Contents (Elt F) → (⟨S512x768, .f32⟩ : BufTy).Contents (Elt F) → (⟨S512x768, .f32⟩ : BufTy).Contents (Elt F)) (((fun l r => Host.dotGeneral dot_S512x256_S256x768_S512x768_1_0_0_1_n_n none l r) : (⟨S512x256, .f32⟩ : BufTy).Contents (Elt F) → (⟨S256x768, .f32⟩ : BufTy).Contents (Elt F) → (⟨S512x768, .f32⟩ : BufTy).Contents (Elt F)) hid (((transpose S256x768 [1, 0] · transposes_S768x256_S256x768_1_0) : (⟨S768x256, .f32⟩ : BufTy).Contents (Elt F) → (⟨S256x768, .f32⟩ : BufTy).Contents (Elt F)) inw)) ((broadcastInDim S512x768 ![0, 1] bcast_S1x768_S512x768_0_1 : (⟨S1x768, .f32⟩ : BufTy).Contents (Elt F) → (⟨S512x768, .f32⟩ : BufTy).Contents (Elt F)) ((broadcastInDim S1x768 ![1] bcast_S768_S1x768_1 : (⟨S768, .f32⟩ : BufTy).Contents (Elt F) → (⟨S1x768, .f32⟩ : BufTy).Contents (Elt F)) inb)))

set_option maxRecDepth 16384 in
set_option maxHeartbeats 1000000 in
/-- After the chunk's operations, from any contents, `main_v10` holds `refQkv` of the contents the chunk reads. -/
theorem c02_main_v10 (W : Valuation τ sig (Elt F)) :
    after c02 W (Proc.devRef .tc main_v10) = refQkv (W (Proc.devRef .tc main_v5)) (W (Proc.devRef .tc main_arg3)) (W (Proc.devRef .tc main_arg4)) := by
  simp only [c02]
  after_results_simp
  unfold refQkv
  rfl

/-- The row softmax of q·kᵀ divided by the square root of the constant 256: the composed term of the operations that end at `main_v29`. -/
def refAttn (qkv : Vec F S512x768 .f32) : Vec F S512x512 .f32 :=
  ((Host.divf : (⟨S512x512, .f32⟩ : BufTy).Contents (Elt F) → (⟨S512x512, .f32⟩ : BufTy).Contents (Elt F) → (⟨S512x512, .f32⟩ : BufTy).Contents (Elt F)) ((Host.exp : (⟨S512x512, .f32⟩ : BufTy).Contents (Elt F) → (⟨S512x512, .f32⟩ : BufTy).Contents (Elt F)) ((subf : (⟨S512x512, .f32⟩ : BufTy).Contents (Elt F) → (⟨S512x512, .f32⟩ : BufTy).Contents (Elt F) → (⟨S512x512, .f32⟩ : BufTy).Contents (Elt F)) ((Host.divf : (⟨S512x512, .f32⟩ : BufTy).Contents (Elt F) → (⟨S512x512, .f32⟩ : BufTy).Contents (Elt F) → (⟨S512x512, .f32⟩ : BufTy).Contents (Elt F)) (((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)) (((extractStridedSlice S512x256 ![0, 0] · slices_S512x768_S512x256_0_0) : (⟨S512x768, .f32⟩ : BufTy).Contents (Elt F) → (⟨S512x256, .f32⟩ : BufTy).Contents (Elt F)) qkv) (((transpose S256x512 [1, 0] · transposes_S512x256_S256x512_1_0) : (⟨S512x256, .f32⟩ : BufTy).Contents (Elt F) → (⟨S256x512, .f32⟩ : BufTy).Contents (Elt F)) (((extractStridedSlice S512x256 ![0, 256] · slices_S512x768_S512x256_0_256) : (⟨S512x768, .f32⟩ : BufTy).Contents (Elt F) → (⟨S512x256, .f32⟩ : BufTy).Contents (Elt F)) qkv))) ((broadcastInDim S512x512 ![] bcast_S_S512x512 : (⟨S_, .f32⟩ : BufTy).Contents (Elt F) → (⟨S512x512, .f32⟩ : BufTy).Contents (Elt F)) ((Host.sqrt : (⟨S_, .f32⟩ : BufTy).Contents (Elt F) → (⟨S_, .f32⟩ : BufTy).Contents (Elt F)) ((constant S_ .f32 0x43800000#32) : (⟨S_, .f32⟩ : BufTy).Contents (Elt F))))) ((broadcastInDim S512x512 ![0, 1] bcast_S512x1_S512x512_0_1 : (⟨S512x1, .f32⟩ : BufTy).Contents (Elt F) → (⟨S512x512, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf : (⟨S512, .f32⟩ : BufTy).Contents (Elt F) → (⟨S512, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) ((constant S_ .f32 0xFF800000#32) : (⟨S_, .f32⟩ : BufTy).Contents (Elt F))) (((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)) ((Host.divf : (⟨S512x512, .f32⟩ : BufTy).Contents (Elt F) → (⟨S512x512, .f32⟩ : BufTy).Contents (Elt F) → (⟨S512x512, .f32⟩ : BufTy).Contents (Elt F)) (((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)) (((extractStridedSlice S512x256 ![0, 0] · slices_S512x768_S512x256_0_0) : (⟨S512x768, .f32⟩ : BufTy).Contents (Elt F) → (⟨S512x256, .f32⟩ : BufTy).Contents (Elt F)) qkv) (((transpose S256x512 [1, 0] · transposes_S512x256_S256x512_1_0) : (⟨S512x256, .f32⟩ : BufTy).Contents (Elt F) → (⟨S256x512, .f32⟩ : BufTy).Contents (Elt F)) (((extractStridedSlice S512x256 ![0, 256] · slices_S512x768_S512x256_0_256) : (⟨S512x768, .f32⟩ : BufTy).Contents (Elt F) → (⟨S512x256, .f32⟩ : BufTy).Contents (Elt F)) qkv))) ((broadcastInDim S512x512 ![] bcast_S_S512x512 : (⟨S_, .f32⟩ : BufTy).Contents (Elt F) → (⟨S512x512, .f32⟩ : BufTy).Contents (Elt F)) ((Host.sqrt : (⟨S_, .f32⟩ : BufTy).Contents (Elt F) → (⟨S_, .f32⟩ : BufTy).Contents (Elt F)) ((constant S_ .f32 0x43800000#32) : (⟨S_, .f32⟩ : BufTy).Contents (Elt F))))) ((constant S_ .f32 0xFF800000#32) : (⟨S_, .f32⟩ : BufTy).Contents (Elt F)))))))) ((broadcastInDim S512x512 ![0, 1] bcast_S512x1_S512x512_0_1 : (⟨S512x1, .f32⟩ : BufTy).Contents (Elt F) → (⟨S512x512, .f32⟩ : BufTy).Contents (Elt F)) ((broadcastInDim S512x1 ![0] bcast_S512_S512x1_0 : (⟨S512, .f32⟩ : BufTy).Contents (Elt F) → (⟨S512x1, .f32⟩ : BufTy).Contents (Elt F)) (((fun x v => Host.reduceAdd x v reducesTo_S512x512_S512_d1 h_S_) : (⟨S512x512, .f32⟩ : BufTy).Contents (Elt F) → (⟨S_, .f32⟩ : BufTy).Contents (Elt F) → (⟨S512, .f32⟩ : BufTy).Contents (Elt F)) ((Host.exp : (⟨S512x512, .f32⟩ : BufTy).Contents (Elt F) → (⟨S512x512, .f32⟩ : BufTy).Contents (Elt F)) ((subf : (⟨S512x512, .f32⟩ : BufTy).Contents (Elt F) → (⟨S512x512, .f32⟩ : BufTy).Contents (Elt F) → (⟨S512x512, .f32⟩ : BufTy).Contents (Elt F)) ((Host.divf : (⟨S512x512, .f32⟩ : BufTy).Contents (Elt F) → (⟨S512x512, .f32⟩ : BufTy).Contents (Elt F) → (⟨S512x512, .f32⟩ : BufTy).Contents (Elt F)) (((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)) (((extractStridedSlice S512x256 ![0, 0] · slices_S512x768_S512x256_0_0) : (⟨S512x768, .f32⟩ : BufTy).Contents (Elt F) → (⟨S512x256, .f32⟩ : BufTy).Contents (Elt F)) qkv) (((transpose S256x512 [1, 0] · transposes_S512x256_S256x512_1_0) : (⟨S512x256, .f32⟩ : BufTy).Contents (Elt F) → (⟨S256x512, .f32⟩ : BufTy).Contents (Elt F)) (((extractStridedSlice S512x256 ![0, 256] · slices_S512x768_S512x256_0_256) : (⟨S512x768, .f32⟩ : BufTy).Contents (Elt F) → (⟨S512x256, .f32⟩ : BufTy).Contents (Elt F)) qkv))) ((broadcastInDim S512x512 ![] bcast_S_S512x512 : (⟨S_, .f32⟩ : BufTy).Contents (Elt F) → (⟨S512x512, .f32⟩ : BufTy).Contents (Elt F)) ((Host.sqrt : (⟨S_, .f32⟩ : BufTy).Contents (Elt F) → (⟨S_, .f32⟩ : BufTy).Contents (Elt F)) ((constant S_ .f32 0x43800000#32) : (⟨S_, .f32⟩ : BufTy).Contents (Elt F))))) ((broadcastInDim S512x512 ![0, 1] bcast_S512x1_S512x512_0_1 : (⟨S512x1, .f32⟩ : BufTy).Contents (Elt F) → (⟨S512x512, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf : (⟨S512, .f32⟩ : BufTy).Contents (Elt F) → (⟨S512, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) ((constant S_ .f32 0xFF800000#32) : (⟨S_, .f32⟩ : BufTy).Contents (Elt F))) (((fun x v => Host.reduce FloatOps.maximumf x v reducesTo_S512x512_S512_d1 h_S_) : (⟨S512x512, .f32⟩ : BufTy).Contents (Elt F) → (⟨S_, .f32⟩ : BufTy).Contents (Elt F) → (⟨S512, .f32⟩ : BufTy).Contents (Elt F)) ((Host.divf : (⟨S512x512, .f32⟩ : BufTy).Contents (Elt F) → (⟨S512x512, .f32⟩ : BufTy).Contents (Elt F) → (⟨S512x512, .f32⟩ : BufTy).Contents (Elt F)) (((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)) (((extractStridedSlice S512x256 ![0, 0] · slices_S512x768_S512x256_0_0) : (⟨S512x768, .f32⟩ : BufTy).Contents (Elt F) → (⟨S512x256, .f32⟩ : BufTy).Contents (Elt F)) qkv) (((transpose S256x512 [1, 0] · transposes_S512x256_S256x512_1_0) : (⟨S512x256, .f32⟩ : BufTy).Contents (Elt F) → (⟨S256x512, .f32⟩ : BufTy).Contents (Elt F)) (((extractStridedSlice S512x256 ![0, 256] · slices_S512x768_S512x256_0_256) : (⟨S512x768, .f32⟩ : BufTy).Contents (Elt F) → (⟨S512x256, .f32⟩ : BufTy).Contents (Elt F)) qkv))) ((broadcastInDim S512x512 ![] bcast_S_S512x512 : (⟨S_, .f32⟩ : BufTy).Contents (Elt F) → (⟨S512x512, .f32⟩ : BufTy).Contents (Elt F)) ((Host.sqrt : (⟨S_, .f32⟩ : BufTy).Contents (Elt F) → (⟨S_, .f32⟩ : BufTy).Contents (Elt F)) ((constant S_ .f32 0x43800000#32) : (⟨S_, .f32⟩ : BufTy).Contents (Elt F))))) ((constant S_ .f32 0xFF800000#32) : (⟨S_, .f32⟩ : BufTy).Contents (Elt F)))))))) ((constant S_ .f32 0x00000000#32) : (⟨S_, .f32⟩ : BufTy).Contents (Elt F))))))

set_option maxRecDepth 16384 in
set_option maxHeartbeats 1000000 in
/-- After the chunk's operations, from any contents, `main_v29` holds `refAttn` of the contents the chunk reads. -/
theorem c03_main_v29 (W : Valuation τ sig (Elt F)) :
    after c03 W (Proc.devRef .tc main_v29) = refAttn (W (Proc.devRef .tc main_v10)) := by
  simp only [c03]
  after_results_simp
  unfold refAttn
  rfl

/-- The value columns of the joint projection: the composed term of the operations that end at `main_v13`. -/
def refVal (qkv : Vec F S512x768 .f32) : Vec F S512x256 .f32 :=
  (((extractStridedSlice S512x256 ![0, 512] · slices_S512x768_S512x256_0_512) : (⟨S512x768, .f32⟩ : BufTy).Contents (Elt F) → (⟨S512x256, .f32⟩ : BufTy).Contents (Elt F)) qkv)

set_option maxRecDepth 16384 in
set_option maxHeartbeats 1000000 in
/-- After the chunk's operations, from any contents, `main_v13` holds `refVal` of the contents the chunk reads. -/
theorem c03_main_v13 (W : Valuation τ sig (Elt F)) :
    after c03 W (Proc.devRef .tc main_v13) = refVal (W (Proc.devRef .tc main_v10)) := by
  simp only [c03]
  after_results_simp
  unfold refVal
  rfl

/-- Attention applied to the values, then the output projection plus bias: the composed term of the operations that end at `main_v35`. -/
def refHCore (attn : Vec F S512x512 .f32) (v : Vec F S512x256 .f32) (outw : Vec F S256x256 .f32) (outb : Vec F S256 .f32) : Vec F S512x256 .f32 :=
  ((addf : (⟨S512x256, .f32⟩ : BufTy).Contents (Elt F) → (⟨S512x256, .f32⟩ : BufTy).Contents (Elt F) → (⟨S512x256, .f32⟩ : BufTy).Contents (Elt F)) (((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F)) (((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)) attn v) (((transpose S256x256 [1, 0] · transposes_S256x256_S256x256_1_0) : (⟨S256x256, .f32⟩ : BufTy).Contents (Elt F) → (⟨S256x256, .f32⟩ : BufTy).Contents (Elt F)) outw)) ((broadcastInDim S512x256 ![0, 1] bcast_S1x256_S512x256_0_1 : (⟨S1x256, .f32⟩ : BufTy).Contents (Elt F) → (⟨S512x256, .f32⟩ : BufTy).Contents (Elt F)) ((broadcastInDim S1x256 ![1] bcast_S256_S1x256_1 : (⟨S256, .f32⟩ : BufTy).Contents (Elt F) → (⟨S1x256, .f32⟩ : BufTy).Contents (Elt F)) outb)))

set_option maxRecDepth 16384 in
set_option maxHeartbeats 1000000 in
/-- After the chunk's operations, from any contents, `main_v35` holds `refHCore` of the contents the chunk reads. -/
theorem c04_main_v35 (W : Valuation τ sig (Elt F)) :
    after c04 W (Proc.devRef .tc main_v35) = refHCore (W (Proc.devRef .tc main_v29)) (W (Proc.devRef .tc main_v13)) (W (Proc.devRef .tc main_arg5)) (W (Proc.devRef .tc main_arg6)) := by
  simp only [c04]
  after_results_simp
  unfold refHCore
  rfl

/-- Where the strict upper triangle of ones is nonzero: the composed term of the operations that end at `main_v39`. -/
def refMask : Vec F S512x512 .i1 :=
  ((cmpf .une : (⟨S512x512, .f32⟩ : BufTy).Contents (Elt F) → (⟨S512x512, .f32⟩ : BufTy).Contents (Elt F) → (⟨S512x512, .i1⟩ : BufTy).Contents (Elt F)) (callTriu ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))

set_option maxRecDepth 16384 in
set_option maxHeartbeats 1000000 in
/-- After the chunk's operations, from any contents, `main_v39` holds `refMask` of the contents the chunk reads. -/
theorem c05_main_v39 (W : Valuation τ sig (Elt F)) :
    after c05 W (Proc.devRef .tc main_v39) = refMask := by
  simp only [c05]
  after_results_simp
  try simp only [TRef.toBuf, TRef.ofBuf, cast_eq]
  unfold refMask callTriu
  rfl

/-- The running count of the flattened mask: the composed term of the operations that end at `main_v40`. -/
def refCum (mask : Vec F S512x512 .i1) : Vec F S262144 .i32 :=
  (callCumsum mask)

set_option maxRecDepth 16384 in
set_option maxHeartbeats 1000000 in
/-- After the chunk's operations, from any contents, `main_v40` holds `refCum` of the contents the chunk reads. -/
theorem c06a_main_v40 (W : Valuation τ sig (Elt F)) :
    after c06a W (Proc.devRef .tc main_v40) = refCum (W (Proc.devRef .tc main_v39)) := by
  simp only [c06a]
  after_results_simp
  try simp only [TRef.toBuf, TRef.ofBuf, cast_eq]
  unfold refCum callCumsum
  rfl

/-- The zero vector the scatter starts from: the composed term of the operations that end at `main_v41`. -/
def refZeros : Vec F S130816 .i32 :=
  ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F)))

set_option maxRecDepth 16384 in
set_option maxHeartbeats 1000000 in
/-- After the chunk's operations, from any contents, `main_v41` holds `refZeros` of the contents the chunk reads. -/
theorem c06b_main_v41 (W : Valuation τ sig (Elt F)) :
    after c06b W (Proc.devRef .tc main_v41) = refZeros := by
  simp only [c06b]
  after_results_simp
  try simp only [TRef.toBuf, TRef.ofBuf, cast_eq]
  unfold refZeros
  rfl

/-- The running count clipped below at zero: the composed term of the operations that end at `main_v42`. -/
def refClip (cum : Vec F S262144 .i32) : Vec F S262144 .i32 :=
  (callClip cum ((constantI S_ 32 0#32) : (⟨S_, .i32⟩ : BufTy).Contents (Elt F)))

set_option maxRecDepth 16384 in
set_option maxHeartbeats 1000000 in
/-- After the chunk's operations, from any contents, `main_v42` holds `refClip` of the contents the chunk reads. -/
theorem c06b_main_v42 (W : Valuation τ sig (Elt F)) :
    after c06b W (Proc.devRef .tc main_v42) = refClip (W (Proc.devRef .tc main_v40)) := by
  simp only [c06b]
  after_results_simp
  try simp only [TRef.toBuf, TRef.ofBuf, cast_eq]
  unfold refClip callClip
  rfl

/-- The scalar one: the composed term of the operations that end at `main_c_8`. -/
def refOne : Vec F S_ .i32 :=
  ((constantI S_ 32 1#32) : (⟨S_, .i32⟩ : BufTy).Contents (Elt F))

set_option maxRecDepth 16384 in
set_option maxHeartbeats 1000000 in
/-- After the chunk's operations, from any contents, `main_c_8` holds `refOne` of the contents the chunk reads. -/
theorem c06c_main_c_8 (W : Valuation τ sig (Elt F)) :
    after c06c W (Proc.devRef .tc main_c_8) = refOne := by
  simp only [c06c]
  after_results_simp
  unfold refOne
  rfl

/-- A negative position moved up by the vector's length, as a column of positions: the composed term of the operations that end at `main_v48`. -/
def refPosCol (clip : Vec F S262144 .i32) : Vec F S262144x1 .i32 :=
  ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) clip ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) clip ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) clip))

set_option maxRecDepth 16384 in
set_option maxHeartbeats 1000000 in
/-- After the chunk's operations, from any contents, `main_v48` holds `refPosCol` of the contents the chunk reads. -/
theorem c06c_main_v48 (W : Valuation τ sig (Elt F)) :
    after c06c W (Proc.devRef .tc main_v48) = refPosCol (W (Proc.devRef .tc main_v42)) := by
  simp only [c06c]
  after_results_simp
  unfold refPosCol
  rfl

end Cert.ReferenceIdeal.RefRun

end
-- ==== Proof.RefTrunkValue.lean ====
/-
  The reference's trunk, stage by stage, as the whole-matrix functions of the specification. Each stage of the reference is
  a short sequence of host operations — a transpose, a contraction, a bias broadcast in two steps and added, a maximum
  against a broadcast zero, column cuts, the quotient by the square root of 256, the row softmax in the host's spelling —
  and each operation is read through its layer lemma, one rewrite per operation. A bias arrives as a vector and enters the
  specification as the one-row matrix it is re-laid as.
-/
import proofs.«110368_j31911607009638_1_alg».proof.Proof.RefRunStagesA
import proofs.«110368_j31911607009638_1_alg».proof.Proof.KI.TrunkValue

noncomputable section

namespace Cert.ReferenceIdeal.RefTrunkValue

open Idealize.ShloMosaic Idealize.ShloMosaic.ValueIdx Cert.LibMatProd Cert.Layers Cert.LibAttention
open Cert.KernelIdeal.TrunkValue
open Cert.ReferenceIdeal Cert.ReferenceIdeal.Gen Cert.ReferenceIdeal.RefRun

/-- The reference's hidden layer is clamp (X · W1ᵀ + b1). -/
theorem refHid_eq (x : Vec Ideal S512x128 .f32) (w1 : Vec Ideal S256x128 .f32) (b1 : Vec Ideal S256 .f32) :
    refHid (F := Ideal) x w1 b1 = specHid x w1 (rowOf b1) := by
  unfold refHid callRelu
  dsimp only
  rw [host_transpose, host_prod dot_S512x128_S128x256_S512x256_1_0_0_1_n_n rfl rfl rfl rfl rfl rfl, host_addRow, host_clamp]
  rfl

/-- The reference's joint projection is hid · Winᵀ + bin. -/
theorem refQkv_eq (hid : Vec Ideal S512x256 .f32) (inw : Vec Ideal S768x256 .f32) (inb : Vec Ideal S768 .f32) :
    refQkv (F := Ideal) hid inw inb = specQkv hid inw (rowOf inb) := by
  unfold refQkv
  dsimp only
  rw [host_transpose, host_prod dot_S512x256_S256x768_S512x768_1_0_0_1_n_n rfl rfl rfl rfl rfl rfl, host_addRow]
  rfl

/-- The reference's attention weights are the row softmax of (q · kᵀ) / 16. -/
theorem refAttn_eq (qkv : Vec Ideal S512x768 .f32) : refAttn (F := Ideal) qkv = specAttn qkv := by
  unfold refAttn
  dsimp only
  refine (host_softmax _ reducesTo_S512x512_S512_d1 (by decide) h_S_ bcast_S_S512 bcast_S512_S512x1_0
    bcast_S512x1_S512x512_0_1).trans ?_
  rw [host_scale, host_transpose, host_prod dot_S512x256_S256x512_S512x512_1_0_0_1_n_n rfl rfl rfl rfl rfl rfl,
    slice_cols 0 slices_S512x768_S512x256_0_0 (by norm_num), slice_cols 256 slices_S512x768_S512x256_0_256 (by norm_num)]
  rfl

/-- The reference's values are the third column group of the joint projection. -/
theorem refVal_eq (qkv : Vec Ideal S512x768 .f32) : refVal (F := Ideal) qkv = specV qkv := by
  unfold refVal
  dsimp only
  rw [slice_cols 512 slices_S512x768_S512x256_0_512 (by norm_num)]
  rfl

/-- The reference's output projection of the weighted values is (attn · v) · Woutᵀ + bout. -/
theorem refHCore_v_eq (attn : Vec Ideal S512x512 .f32) (v : Vec Ideal S512x256 .f32) (outw : Vec Ideal S256x256 .f32)
    (outb : Vec Ideal S256 .f32) :
    refHCore (F := Ideal) attn v outw outb = specHv attn v outw (rowOf outb) := by
  unfold refHCore
  dsimp only
  rw [host_transpose, host_prod dot_S512x512_S512x256_S512x256_1_0_0_1_n_n rfl rfl rfl rfl rfl rfl,
    host_prod dot_S512x256_S256x256_S512x256_1_0_0_1_n_n rfl rfl rfl rfl rfl rfl, host_addRow]
  rfl

/-- The reference's trunk output from given attention weights and the joint projection: (attn · v) · Woutᵀ + bout with v
    the values of the joint projection. -/
theorem refHCore_eq (attn : Vec Ideal S512x512 .f32) (qkv : Vec Ideal S512x768 .f32) (outw : Vec Ideal S256x256 .f32)
    (outb : Vec Ideal S256 .f32) :
    refHCore (F := Ideal) attn (refVal (F := Ideal) qkv) outw outb = specH attn qkv outw (rowOf outb) := by
  rw [refHCore_v_eq, refVal_eq]
  rfl

/-- The reference's trunk output, from the joint projection alone: specH of its own attention weights. -/
theorem refH_full_eq (qkv : Vec Ideal S512x768 .f32) (outw : Vec Ideal S256x256 .f32) (outb : Vec Ideal S256 .f32) :
    refHCore (F := Ideal) (refAttn (F := Ideal) qkv) (refVal (F := Ideal) qkv) outw outb
      = specH (specAttn qkv) qkv outw (rowOf outb) := by
  rw [refHCore_eq, refAttn_eq]

/-! ## A bias re-laid as one row by a reshape -/

/-- The hidden layer with its bias re-laid as one row by a reshape is the hidden layer with the bias as a row. -/
theorem specHid_reshaped (x : Mat 512 128) (w1 : Mat 256 128) (b1 : (⟨1, ![256]⟩ : Shape).Idx → EReal)
    (h : (⟨1, ![256]⟩ : Shape).ShapeCasts ⟨2, ![1, 256]⟩) :
    specHid x w1 (shapeCast ⟨2, ![1, 256]⟩ b1 h) = specHid x w1 (rowOf b1) := by
  rw [reshape_row]

/-- The joint projection with its bias re-laid as one row by a reshape. -/
theorem specQkv_reshaped (hid : Mat 512 256) (inw : Mat 768 256) (inb : (⟨1, ![768]⟩ : Shape).Idx → EReal)
    (h : (⟨1, ![768]⟩ : Shape).ShapeCasts ⟨2, ![1, 768]⟩) :
    specQkv hid inw (shapeCast ⟨2, ![1, 768]⟩ inb h) = specQkv hid inw (rowOf inb) := by
  rw [reshape_row]

/-- The trunk's output with its bias re-laid as one row by a reshape. -/
theorem specH_reshaped (attn : Mat 512 512) (qkv : Mat 512 768) (outw : Mat 256 256) (outb : (⟨1, ![256]⟩ : Shape).Idx → EReal)
    (h : (⟨1, ![256]⟩ : Shape).ShapeCasts ⟨2, ![1, 256]⟩) :
    specH attn qkv outw (shapeCast ⟨2, ![1, 256]⟩ outb h) = specH attn qkv outw (rowOf outb) := by
  rw [reshape_row]

/-- The output projection of the weighted values with its bias re-laid as one row by a reshape. -/
theorem specHv_reshaped (attn : Mat 512 512) (v : Mat 512 256) (outw : Mat 256 256) (outb : (⟨1, ![256]⟩ : Shape).Idx → EReal)
    (h : (⟨1, ![256]⟩ : Shape).ShapeCasts ⟨2, ![1, 256]⟩) :
    specHv attn v outw (shapeCast ⟨2, ![1, 256]⟩ outb h) = specHv attn v outw (rowOf outb) := by
  rw [reshape_row]

end Cert.ReferenceIdeal.RefTrunkValue

end
-- ==== Proof.RefRunOpsB.lean ====
/- Operations 77–210 of the reference's straight line: window 1 of the printed program, as a list of host
   operations with every call inlined at its site, cut into consecutive chunks. For each chunk: every buffer it touches
   is a TensorCore reference, every operation determines its results, the list of buffers it writes, and the fact that
   any other buffer keeps its contents through the chunk. Last, the window is the chunks run in order. -/
import proofs.«110368_j31911607009638_1_alg».proof.Proof.Gen.ReferenceIdeal
import Idealize.ShloMosaic.Lib.StableHlo.Run

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 77–81 of the straight line, in order, every call inlined at its site: they end at the buffer `main_v51`. -/
abbrev c07 : List (HloOp τ sig (Elt F)) :=
  [ unary main_c_8 main_v49 (broadcastInDim S262144 ![] bcast_S_S262144 : (⟨S_, .i32⟩ : BufTy).Contents (Elt F) → (⟨S262144, .i32⟩ : BufTy).Contents (Elt F)),
    ternary main_v41 main_v48 main_v49 main_v50 ((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)),
    TRef.nullary main_call4.call0.c (constantI S_ 32 0#32),
    TRef.unary main_call4.call0.c main_call4.call0.v0 (broadcastInDim S_ ![] bcast_S_S_),
    TRef.binary (.of main_v50 : TRef sig ⟨S130816, .i32⟩) main_call4.call0.v0 main_call4.call0.v1 (fun x v => Host.reduceWindow IntOp.addi ![130816] ![1] ![130815] ![0] x v reduceWindows_S130816_S130816_w130816s1p130815_0 h_S_) ]

theorem c07_sub : (c07 : List (HloOp τ sig (Elt F))).Forall fun op => op.bufs ⊆ tcRefs τ sig :=
  ⟨unary_bufs_sub .., ternary_bufs_sub .., nullary_bufs_sub .., unary_bufs_sub .., binary_bufs_sub ..⟩

/-- Every operation of the chunk determines its results. -/
theorem c07_fresh : (c07 : List (HloOp τ sig (Elt F))).Forall fun op => op.fresh = ∅ :=
  ⟨rfl, rfl, rfl, rfl, rfl⟩

/-- The buffers the chunk's operations write, in order. -/
abbrev c07_W : List (Ref sig .tc) := [main_v49, main_v50, main_call4_call0_c, main_call4_call0_v0, main_v51]

theorem c07_writes : (c07 : List (HloOp τ sig (Elt F))).Forall fun op =>
    op.writes ⊆ (c07_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c07_keep (V : Valuation τ sig (Elt F)) (r : Ref sig .tc) (h : r ∉ c07_W) :
    after c07 V (Proc.devRef .tc r) = V (Proc.devRef .tc r) :=
  after_of_writes_sub c07 V c07_writes h

/-- Operations 82–98 of the straight line, in order, every call inlined at its site: they end at the buffer `main_v52`. -/
abbrev c08 : List (HloOp τ sig (Elt F)) :=
  [ nullary main_c_9 (constantI S_ 32 512#32),
    TRef.unary (.of main_c_9 : TRef sig ⟨S_, .i32⟩) main_call5.v0 (broadcastInDim S130816 ![] bcast_S_S130816),
    TRef.binary (.of main_v51 : TRef sig ⟨S130816, .i32⟩) main_call5.v0 main_call5.v1 Host.divsi,
    TRef.unary (.of main_v51 : TRef sig ⟨S130816, .i32⟩) main_call5.v2 signi,
    TRef.unary (.of main_c_9 : TRef sig ⟨S_, .i32⟩) main_call5.v3 signi,
    TRef.unary main_call5.v3 main_call5.v4 (broadcastInDim S130816 ![] bcast_S_S130816),
    TRef.binary main_call5.v2 main_call5.v4 main_call5.v5 (cmpi .ne),
    TRef.unary (.of main_c_9 : TRef sig ⟨S_, .i32⟩) main_call5.v6 (broadcastInDim S130816 ![] bcast_S_S130816),
    TRef.binary (.of main_v51 : TRef sig ⟨S130816, .i32⟩) main_call5.v6 main_call5.v7 Host.remsi,
    TRef.nullary main_call5.c (constantI S_ 32 0#32),
    TRef.unary main_call5.c main_call5.v8 (broadcastInDim S130816 ![] bcast_S_S130816),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S130816 ![] bcast_S_S130816),
    TRef.binary main_call5.v1 main_call5.v11 main_call5.v12 subi,
    TRef.ternary main_call5.v10 main_call5.v12 main_call5.v1 main_call5.call0.v0 select ]

theorem c08_sub : (c08 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

/-- Every operation of the chunk determines its results. -/
theorem c08_fresh : (c08 : List (HloOp τ sig (Elt F))).Forall fun op => op.fresh = ∅ :=
  ⟨rfl, rfl, rfl, rfl, rfl, rfl, rfl, rfl, rfl, rfl, rfl, rfl, rfl, rfl, rfl, rfl, rfl⟩

/-- The buffers the chunk's operations write, in order. -/
abbrev c08_W : List (Ref sig .tc) := [main_c_9, main_call5_v0, main_call5_v1, main_call5_v2, main_call5_v3, main_call5_v4, main_call5_v5, main_call5_v6,
    main_call5_v7, main_call5_c, main_call5_v8, main_call5_v9, main_call5_v10, main_call5_c_0, main_call5_v11, main_call5_v12,
    main_v52]

theorem c08_writes : (c08 : List (HloOp τ sig (Elt F))).Forall fun op =>
    op.writes ⊆ (c08_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c08_keep (V : Valuation τ sig (Elt F)) (r : Ref sig .tc) (h : r ∉ c08_W) :
    after c08 V (Proc.devRef .tc r) = V (Proc.devRef .tc r) :=
  after_of_writes_sub c08 V c08_writes h

/-- Operations 99–120 of the straight line, in order, every call inlined at its site: they end at the buffer `main_v53`. -/
abbrev c09 : List (HloOp τ sig (Elt F)) :=
  [ nullary main_c_10 (constantI S_ 32 512#32),
    TRef.unary (.of main_c_10 : TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S130816 ![] bcast_S_S130816),
    TRef.binary (.of main_v52 : TRef sig ⟨S130816, .i32⟩) main_call6.v3 main_call6.v4 Host.remsi,
    TRef.nullary main_call6.c_1 (constantI S_ 32 0#32),
    TRef.unary main_call6.c_1 main_call6.v5 (broadcastInDim S130816 ![] bcast_S_S130816),
    TRef.binary main_call6.v4 main_call6.v5 main_call6.v6 (cmpi .ne),
    TRef.nullary main_call6.c_2 (constantI S_ 32 0#32),
    TRef.unary main_call6.c_2 main_call6.v7 (broadcastInDim S130816 ![] bcast_S_S130816),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S130816 ![] bcast_S_S130816),
    TRef.binary main_call6.v8 main_call6.v10 main_call6.v11 (cmpi .ne),
    TRef.binary main_call6.v11 main_call6.v6 main_call6.v12 andi,
    TRef.unary main_call6.call0.v0 main_call6.v13 (broadcastInDim S130816 ![] bcast_S_S130816),
    TRef.binary main_call6.v4 main_call6.v13 main_call6.v14 addi,
    TRef.ternary main_call6.v12 main_call6.v14 main_call6.v4 main_call6.v15 select ]

theorem c09_sub : (c09 : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩

/-- Every operation of the chunk determines its results. -/
theorem c09_fresh : (c09 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

/-- The buffers the chunk's operations write, in order. -/
abbrev c09_W : List (Ref sig .tc) := [main_c_10, main_call6_v0, main_call6_c, main_call6_v1, main_call6_c_0, main_call6_v2, main_call6_v3, main_call6_v4,
    main_call6_c_1, main_call6_v5, main_call6_v6, main_call6_c_2, main_call6_v7, main_call6_v8, main_call6_c_3, main_call6_v9,
    main_call6_v10, main_call6_v11, main_call6_v12, main_call6_v13, main_call6_v14, main_v53]

theorem c09_writes : (c09 : List (HloOp τ sig (Elt F))).Forall fun op =>
    op.writes ⊆ (c09_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c09_keep (V : Valuation τ sig (Elt F)) (r : Ref sig .tc) (h : r ∉ c09_W) :
    after c09 V (Proc.devRef .tc r) = V (Proc.devRef .tc r) :=
  after_of_writes_sub c09 V c09_writes h

/-- Operations 121–137 of the straight line, in order, every call inlined at its site: they end at the buffer `main_v54`. -/
abbrev c10 : List (HloOp τ sig (Elt F)) :=
  [ nullary main_c_11 (constantI S_ 32 1#32),
    TRef.unary (.of main_c_11 : TRef sig ⟨S_, .i32⟩) main_call7.v0 (broadcastInDim S130816 ![] bcast_S_S130816),
    TRef.binary (.of main_v51 : TRef sig ⟨S130816, .i32⟩) main_call7.v0 main_call7.v1 Host.divsi,
    TRef.unary (.of main_v51 : TRef sig ⟨S130816, .i32⟩) main_call7.v2 signi,
    TRef.unary (.of main_c_11 : TRef sig ⟨S_, .i32⟩) main_call7.v3 signi,
    TRef.unary main_call7.v3 main_call7.v4 (broadcastInDim S130816 ![] bcast_S_S130816),
    TRef.binary main_call7.v2 main_call7.v4 main_call7.v5 (cmpi .ne),
    TRef.unary (.of main_c_11 : TRef sig ⟨S_, .i32⟩) main_call7.v6 (broadcastInDim S130816 ![] bcast_S_S130816),
    TRef.binary (.of main_v51 : TRef sig ⟨S130816, .i32⟩) main_call7.v6 main_call7.v7 Host.remsi,
    TRef.nullary main_call7.c (constantI S_ 32 0#32),
    TRef.unary main_call7.c main_call7.v8 (broadcastInDim S130816 ![] bcast_S_S130816),
    TRef.binary main_call7.v7 main_call7.v8 main_call7.v9 (cmpi .ne),
    TRef.binary main_call7.v5 main_call7.v9 main_call7.v10 andi,
    TRef.nullary main_call7.c_0 (constantI S_ 32 1#32),
    TRef.unary main_call7.c_0 main_call7.v11 (broadcastInDim S130816 ![] bcast_S_S130816),
    TRef.binary main_call7.v1 main_call7.v11 main_call7.v12 subi,
    TRef.ternary main_call7.v10 main_call7.v12 main_call7.v1 main_call7.call0.v0 select ]

theorem c10_sub : (c10 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩

/-- Every operation of the chunk determines its results. -/
theorem c10_fresh : (c10 : List (HloOp τ sig (Elt F))).Forall fun op => op.fresh = ∅ :=
  ⟨rfl, rfl, rfl, rfl, rfl, rfl, rfl, rfl, rfl, rfl, rfl, rfl, rfl, rfl, rfl, rfl, rfl⟩

/-- The buffers the chunk's operations write, in order. -/
abbrev c10_W : List (Ref sig .tc) := [main_c_11, main_call7_v0, main_call7_v1, main_call7_v2, main_call7_v3, main_call7_v4, main_call7_v5, main_call7_v6,
    main_call7_v7, main_call7_c, main_call7_v8, main_call7_v9, main_call7_v10, main_call7_c_0, main_call7_v11, main_call7_v12,
    main_v54]

theorem c10_writes : (c10 : List (HloOp τ sig (Elt F))).Forall fun op =>
    op.writes ⊆ (c10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c10_keep (V : Valuation τ sig (Elt F)) (r : Ref sig .tc) (h : r ∉ c10_W) :
    after c10 V (Proc.devRef .tc r) = V (Proc.devRef .tc r) :=
  after_of_writes_sub c10 V c10_writes h

/-- Operations 138–159 of the straight line, in order, every call inlined at its site: they end at the buffer `main_v55`. -/
abbrev c11 : List (HloOp τ sig (Elt F)) :=
  [ nullary main_c_12 (constantI S_ 32 512#32),
    TRef.unary (.of main_c_12 : TRef sig ⟨S_, .i32⟩) main_call8.v0 id,
    TRef.nullary main_call8.c (constantI S_ 32 0#32),
    TRef.binary main_call8.v0 main_call8.c main_call8.v1 (cmpi .eq),
    TRef.nullary main_call8.c_0 (constantI S_ 32 1#32),
    TRef.ternary main_call8.v1 main_call8.c_0 main_call8.v0 main_call8.call0.v0 select,
    TRef.unary main_call8.call0.v0 main_call8.v3 (broadcastInDim S130816 ![] bcast_S_S130816),
    TRef.binary (.of main_v54 : TRef sig ⟨S130816, .i32⟩) main_call8.v3 main_call8.v4 Host.remsi,
    TRef.nullary main_call8.c_1 (constantI S_ 32 0#32),
    TRef.unary main_call8.c_1 main_call8.v5 (broadcastInDim S130816 ![] bcast_S_S130816),
    TRef.binary main_call8.v4 main_call8.v5 main_call8.v6 (cmpi .ne),
    TRef.nullary main_call8.c_2 (constantI S_ 32 0#32),
    TRef.unary main_call8.c_2 main_call8.v7 (broadcastInDim S130816 ![] bcast_S_S130816),
    TRef.binary main_call8.v4 main_call8.v7 main_call8.v8 (cmpi .slt),
    TRef.nullary main_call8.c_3 (constantI S_ 32 0#32),
    TRef.binary main_call8.call0.v0 main_call8.c_3 main_call8.v9 (cmpi .slt),
    TRef.unary main_call8.v9 main_call8.v10 (broadcastInDim S130816 ![] bcast_S_S130816),
    TRef.binary main_call8.v8 main_call8.v10 main_call8.v11 (cmpi .ne),
    TRef.binary main_call8.v11 main_call8.v6 main_call8.v12 andi,
    TRef.unary main_call8.call0.v0 main_call8.v13 (broadcastInDim S130816 ![] bcast_S_S130816),
    TRef.binary main_call8.v4 main_call8.v13 main_call8.v14 addi,
    TRef.ternary main_call8.v12 main_call8.v14 main_call8.v4 main_call8.v15 select ]

theorem c11_sub : (c11 : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩

/-- Every operation of the chunk determines its results. -/
theorem c11_fresh : (c11 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

/-- The buffers the chunk's operations write, in order. -/
abbrev c11_W : List (Ref sig .tc) := [main_c_12, main_call8_v0, main_call8_c, main_call8_v1, main_call8_c_0, main_call8_v2, main_call8_v3, main_call8_v4,
    main_call8_c_1, main_call8_v5, main_call8_v6, main_call8_c_2, main_call8_v7, main_call8_v8, main_call8_c_3, main_call8_v9,
    main_call8_v10, main_call8_v11, main_call8_v12, main_call8_v13, main_call8_v14, main_v55]

theorem c11_writes : (c11 : List (HloOp τ sig (Elt F))).Forall fun op =>
    op.writes ⊆ (c11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c11_keep (V : Valuation τ sig (Elt F)) (r : Ref sig .tc) (h : r ∉ c11_W) :
    after c11 V (Proc.devRef .tc r) = V (Proc.devRef .tc r) :=
  after_of_writes_sub c11 V c11_writes h

/-- Operations 160–166 of the straight line, in order, every call inlined at its site: they end at the buffer `main_v60`. -/
abbrev c12 : List (HloOp τ sig (Elt F)) :=
  [ nullary main_c_13 (constantI S_ 32 0#32),
    unary main_c_13 main_v56 (broadcastInDim S130816 ![] bcast_S_S130816 : (⟨S_, .i32⟩ : BufTy).Contents (Elt F) → (⟨S130816, .i32⟩ : BufTy).Contents (Elt F)),
    binary main_v53 main_v56 main_v57 (cmpi .slt : (⟨S130816, .i32⟩ : BufTy).Contents (Elt F) → (⟨S130816, .i32⟩ : BufTy).Contents (Elt F) → (⟨S130816, .i1⟩ : BufTy).Contents (Elt F)),
    nullary main_c_14 (constantI S_ 32 512#32),
    unary main_c_14 main_v58 (broadcastInDim S130816 ![] bcast_S_S130816 : (⟨S_, .i32⟩ : BufTy).Contents (Elt F) → (⟨S130816, .i32⟩ : BufTy).Contents (Elt F)),
    binary main_v53 main_v58 main_v59 (addi : (⟨S130816, .i32⟩ : BufTy).Contents (Elt F) → (⟨S130816, .i32⟩ : BufTy).Contents (Elt F) → (⟨S130816, .i32⟩ : BufTy).Contents (Elt F)),
    ternary main_v57 main_v59 main_v53 main_v60 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) ]

theorem c12_sub : (c12 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub ..⟩

/-- Every operation of the chunk determines its results. -/
theorem c12_fresh : (c12 : List (HloOp τ sig (Elt F))).Forall fun op => op.fresh = ∅ :=
  ⟨rfl, rfl, rfl, rfl, rfl, rfl, rfl⟩

/-- The buffers the chunk's operations write, in order. -/
abbrev c12_W : List (Ref sig .tc) := [main_c_13, main_v56, main_v57, main_c_14, main_v58, main_v59, main_v60]

theorem c12_writes : (c12 : List (HloOp τ sig (Elt F))).Forall fun op =>
    op.writes ⊆ (c12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c12_keep (V : Valuation τ sig (Elt F)) (r : Ref sig .tc) (h : r ∉ c12_W) :
    after c12 V (Proc.devRef .tc r) = V (Proc.devRef .tc r) :=
  after_of_writes_sub c12 V c12_writes h

/-- Operations 167–168 of the straight line, in order, every call inlined at its site: they end at the buffer `main_v62`. -/
abbrev c13 : List (HloOp τ sig (Elt F)) :=
  [ unary main_v60 main_v61 (broadcastInDim S130816x1 ![0] bcast_S130816_S130816x1_0 : (⟨S130816, .i32⟩ : BufTy).Contents (Elt F) → (⟨S130816x1, .i32⟩ : BufTy).Contents (Elt F)),
    binary main_v35 main_v61 main_v62 ((fun x i => Host.gather gather_S512x256_S130816x1_S130816x256_1_0_n_n_0_1_1256 x i) : (⟨S512x256, .f32⟩ : BufTy).Contents (Elt F) → (⟨S130816x1, .i32⟩ : BufTy).Contents (Elt F) → (⟨S130816x256, .f32⟩ : BufTy).Contents (Elt F)) ]

theorem c13_sub : (c13 : List (HloOp τ sig (Elt F))).Forall fun op => op.bufs ⊆ tcRefs τ sig :=
  ⟨unary_bufs_sub .., binary_bufs_sub ..⟩

/-- Every operation of the chunk determines its results. -/
theorem c13_fresh : (c13 : List (HloOp τ sig (Elt F))).Forall fun op => op.fresh = ∅ :=
  ⟨rfl, rfl⟩

/-- The buffers the chunk's operations write, in order. -/
abbrev c13_W : List (Ref sig .tc) := [main_v61, main_v62]

theorem c13_writes : (c13 : List (HloOp τ sig (Elt F))).Forall fun op =>
    op.writes ⊆ (c13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c13_keep (V : Valuation τ sig (Elt F)) (r : Ref sig .tc) (h : r ∉ c13_W) :
    after c13 V (Proc.devRef .tc r) = V (Proc.devRef .tc r) :=
  after_of_writes_sub c13 V c13_writes h

/-- Operations 169–175 of the straight line, in order, every call inlined at its site: they end at the buffer `main_v67`. -/
abbrev c14 : List (HloOp τ sig (Elt F)) :=
  [ nullary main_c_15 (constantI S_ 32 0#32),
    unary main_c_15 main_v63 (broadcastInDim S130816 ![] bcast_S_S130816 : (⟨S_, .i32⟩ : BufTy).Contents (Elt F) → (⟨S130816, .i32⟩ : BufTy).Contents (Elt F)),
    binary main_v55 main_v63 main_v64 (cmpi .slt : (⟨S130816, .i32⟩ : BufTy).Contents (Elt F) → (⟨S130816, .i32⟩ : BufTy).Contents (Elt F) → (⟨S130816, .i1⟩ : BufTy).Contents (Elt F)),
    nullary main_c_16 (constantI S_ 32 512#32),
    unary main_c_16 main_v65 (broadcastInDim S130816 ![] bcast_S_S130816 : (⟨S_, .i32⟩ : BufTy).Contents (Elt F) → (⟨S130816, .i32⟩ : BufTy).Contents (Elt F)),
    binary main_v55 main_v65 main_v66 (addi : (⟨S130816, .i32⟩ : BufTy).Contents (Elt F) → (⟨S130816, .i32⟩ : BufTy).Contents (Elt F) → (⟨S130816, .i32⟩ : BufTy).Contents (Elt F)),
    ternary main_v64 main_v66 main_v55 main_v67 (select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) ]

theorem c14_sub : (c14 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub ..⟩

/-- Every operation of the chunk determines its results. -/
theorem c14_fresh : (c14 : List (HloOp τ sig (Elt F))).Forall fun op => op.fresh = ∅ :=
  ⟨rfl, rfl, rfl, rfl, rfl, rfl, rfl⟩

/-- The buffers the chunk's operations write, in order. -/
abbrev c14_W : List (Ref sig .tc) := [main_c_15, main_v63, main_v64, main_c_16, main_v65, main_v66, main_v67]

theorem c14_writes : (c14 : List (HloOp τ sig (Elt F))).Forall fun op =>
    op.writes ⊆ (c14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c14_keep (V : Valuation τ sig (Elt F)) (r : Ref sig .tc) (h : r ∉ c14_W) :
    after c14 V (Proc.devRef .tc r) = V (Proc.devRef .tc r) :=
  after_of_writes_sub c14 V c14_writes h

/-- Operations 176–205 of the straight line, in order, every call inlined at its site: they end at the buffer `main_v92`. -/
abbrev c15 : List (HloOp τ sig (Elt F)) :=
  [ unary main_v67 main_v68 (broadcastInDim S130816x1 ![0] bcast_S130816_S130816x1_0 : (⟨S130816, .i32⟩ : BufTy).Contents (Elt F) → (⟨S130816x1, .i32⟩ : BufTy).Contents (Elt F)),
    binary main_v35 main_v68 main_v69 ((fun x i => Host.gather gather_S512x256_S130816x1_S130816x256_1_0_n_n_0_1_1256 x i) : (⟨S512x256, .f32⟩ : BufTy).Contents (Elt F) → (⟨S130816x1, .i32⟩ : BufTy).Contents (Elt F) → (⟨S130816x256, .f32⟩ : BufTy).Contents (Elt F)),
    binary main_v62 main_v69 main_v70 ((fun a b => concatenate S130816x512 1 [⟨S130816x256, a⟩, ⟨S130816x256, b⟩] concatenates_S130816x256_S130816x256_S130816x512_d1) : (⟨S130816x256, .f32⟩ : BufTy).Contents (Elt F) → (⟨S130816x256, .f32⟩ : BufTy).Contents (Elt F) → (⟨S130816x512, .f32⟩ : BufTy).Contents (Elt F)),
    unary main_arg7 main_v71 ((transpose S512x256 [1, 0] · transposes_S256x512_S512x256_1_0) : (⟨S256x512, .f32⟩ : BufTy).Contents (Elt F) → (⟨S512x256, .f32⟩ : BufTy).Contents (Elt F)),
    binary main_v70 main_v71 main_v72 ((fun l r => Host.dotGeneral dot_S130816x512_S512x256_S130816x256_1_0_0_1_n_n none l r) : (⟨S130816x512, .f32⟩ : BufTy).Contents (Elt F) → (⟨S512x256, .f32⟩ : BufTy).Contents (Elt F) → (⟨S130816x256, .f32⟩ : BufTy).Contents (Elt F)),
    unary main_arg8 main_v73 (broadcastInDim S1x256 ![1] bcast_S256_S1x256_1 : (⟨S256, .f32⟩ : BufTy).Contents (Elt F) → (⟨S1x256, .f32⟩ : BufTy).Contents (Elt F)),
    unary main_v73 main_v74 (broadcastInDim S130816x256 ![0, 1] bcast_S1x256_S130816x256_0_1 : (⟨S1x256, .f32⟩ : BufTy).Contents (Elt F) → (⟨S130816x256, .f32⟩ : BufTy).Contents (Elt F)),
    binary main_v72 main_v74 main_v75 (addf : (⟨S130816x256, .f32⟩ : BufTy).Contents (Elt F) → (⟨S130816x256, .f32⟩ : BufTy).Contents (Elt F) → (⟨S130816x256, .f32⟩ : BufTy).Contents (Elt F)),
    TRef.nullary main_call9.cst (constant S_ .f32 0x00000000#32),
    TRef.unary main_call9.cst main_call9.v0 (broadcastInDim S130816x256 ![] bcast_S_S130816x256),
    TRef.binary (.of main_v75 : TRef sig ⟨S130816x256, .f32⟩) main_call9.v0 main_call9.v1 maximumf,
    unary main_arg9 main_v77 ((transpose S256x2 [1, 0] · transposes_S2x256_S256x2_1_0) : (⟨S2x256, .f32⟩ : BufTy).Contents (Elt F) → (⟨S256x2, .f32⟩ : BufTy).Contents (Elt F)),
    binary main_v76 main_v77 main_v78 ((fun l r => Host.dotGeneral dot_S130816x256_S256x2_S130816x2_1_0_0_1_n_n none l r) : (⟨S130816x256, .f32⟩ : BufTy).Contents (Elt F) → (⟨S256x2, .f32⟩ : BufTy).Contents (Elt F) → (⟨S130816x2, .f32⟩ : BufTy).Contents (Elt F)),
    unary main_arg10 main_v79 (broadcastInDim S1x2 ![1] bcast_S2_S1x2_1 : (⟨S2, .f32⟩ : BufTy).Contents (Elt F) → (⟨S1x2, .f32⟩ : BufTy).Contents (Elt F)),
    unary main_v79 main_v80 (broadcastInDim S130816x2 ![0, 1] bcast_S1x2_S130816x2_0_1 : (⟨S1x2, .f32⟩ : BufTy).Contents (Elt F) → (⟨S130816x2, .f32⟩ : BufTy).Contents (Elt F)),
    binary main_v78 main_v80 main_v81 (addf : (⟨S130816x2, .f32⟩ : BufTy).Contents (Elt F) → (⟨S130816x2, .f32⟩ : BufTy).Contents (Elt F) → (⟨S130816x2, .f32⟩ : BufTy).Contents (Elt F)),
    nullary main_cst_17 (constant S_ .f32 0xFF800000#32),
    binary main_v81 main_cst_17 main_v82 ((fun x v => Host.reduce FloatOps.maximumf x v reducesTo_S130816x2_S130816_d1 h_S_) : (⟨S130816x2, .f32⟩ : BufTy).Contents (Elt F) → (⟨S_, .f32⟩ : BufTy).Contents (Elt F) → (⟨S130816, .f32⟩ : BufTy).Contents (Elt F)),
    nullary main_cst_18 (constant S_ .f32 0xFF800000#32),
    unary main_cst_18 main_v83 (broadcastInDim S130816 ![] bcast_S_S130816 : (⟨S_, .f32⟩ : BufTy).Contents (Elt F) → (⟨S130816, .f32⟩ : BufTy).Contents (Elt F)),
    binary main_v83 main_v82 main_v84 (maximumf : (⟨S130816, .f32⟩ : BufTy).Contents (Elt F) → (⟨S130816, .f32⟩ : BufTy).Contents (Elt F) → (⟨S130816, .f32⟩ : BufTy).Contents (Elt F)),
    unary main_v84 main_v85 (broadcastInDim S130816x1 ![0] bcast_S130816_S130816x1_0 : (⟨S130816, .f32⟩ : BufTy).Contents (Elt F) → (⟨S130816x1, .f32⟩ : BufTy).Contents (Elt F)),
    unary main_v85 main_v86 (broadcastInDim S130816x2 ![0, 1] bcast_S130816x1_S130816x2_0_1 : (⟨S130816x1, .f32⟩ : BufTy).Contents (Elt F) → (⟨S130816x2, .f32⟩ : BufTy).Contents (Elt F)),
    binary main_v81 main_v86 main_v87 (subf : (⟨S130816x2, .f32⟩ : BufTy).Contents (Elt F) → (⟨S130816x2, .f32⟩ : BufTy).Contents (Elt F) → (⟨S130816x2, .f32⟩ : BufTy).Contents (Elt F)),
    unary main_v87 main_v88 (Host.exp : (⟨S130816x2, .f32⟩ : BufTy).Contents (Elt F) → (⟨S130816x2, .f32⟩ : BufTy).Contents (Elt F)),
    nullary main_cst_19 (constant S_ .f32 0x00000000#32),
    binary main_v88 main_cst_19 main_v89 ((fun x v => Host.reduceAdd x v reducesTo_S130816x2_S130816_d1 h_S_) : (⟨S130816x2, .f32⟩ : BufTy).Contents (Elt F) → (⟨S_, .f32⟩ : BufTy).Contents (Elt F) → (⟨S130816, .f32⟩ : BufTy).Contents (Elt F)),
    unary main_v89 main_v90 (broadcastInDim S130816x1 ![0] bcast_S130816_S130816x1_0 : (⟨S130816, .f32⟩ : BufTy).Contents (Elt F) → (⟨S130816x1, .f32⟩ : BufTy).Contents (Elt F)),
    unary main_v90 main_v91 (broadcastInDim S130816x2 ![0, 1] bcast_S130816x1_S130816x2_0_1 : (⟨S130816x1, .f32⟩ : BufTy).Contents (Elt F) → (⟨S130816x2, .f32⟩ : BufTy).Contents (Elt F)),
    binary main_v88 main_v91 main_v92 (Host.divf : (⟨S130816x2, .f32⟩ : BufTy).Contents (Elt F) → (⟨S130816x2, .f32⟩ : BufTy).Contents (Elt F) → (⟨S130816x2, .f32⟩ : BufTy).Contents (Elt F)) ]

theorem c15_sub : (c15 : List (HloOp τ sig (Elt F))).Forall fun op => op.bufs ⊆ tcRefs τ sig :=
  ⟨unary_bufs_sub .., binary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..⟩

/-- Every operation of the chunk determines its results. -/
theorem c15_fresh : (c15 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

/-- The buffers the chunk's operations write, in order. -/
abbrev c15_W : List (Ref sig .tc) := [main_v68, main_v69, main_v70, main_v71, main_v72, main_v73, main_v74, main_v75,
    main_call9_cst, main_call9_v0, main_v76, main_v77, main_v78, main_v79, main_v80, main_v81,
    main_cst_17, main_v82, main_cst_18, main_v83, main_v84, main_v85, main_v86, main_v87,
    main_v88, main_cst_19, main_v89, main_v90, main_v91, main_v92]

theorem c15_writes : (c15 : List (HloOp τ sig (Elt F))).Forall fun op =>
    op.writes ⊆ (c15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c15_keep (V : Valuation τ sig (Elt F)) (r : Ref sig .tc) (h : r ∉ c15_W) :
    after c15 V (Proc.devRef .tc r) = V (Proc.devRef .tc r) :=
  after_of_writes_sub c15 V c15_writes h

/-- Operations 206–210 of the straight line, in order, every call inlined at its site: they end at the buffer `main_v97`. -/
abbrev c16 : List (HloOp τ sig (Elt F)) :=
  [ reshape main_v5 main_v93 rfl shapeCasts_S512x256_S1x131072,
    unary main_arg11 main_v94 ((transpose S131072x256 [1, 0] · transposes_S256x131072_S131072x256_1_0) : (⟨S256x131072, .f32⟩ : BufTy).Contents (Elt F) → (⟨S131072x256, .f32⟩ : BufTy).Contents (Elt F)),
    binary main_v93 main_v94 main_v95 ((fun l r => Host.dotGeneral dot_S1x131072_S131072x256_S1x256_1_0_0_1_n_n none l r) : (⟨S1x131072, .f32⟩ : BufTy).Contents (Elt F) → (⟨S131072x256, .f32⟩ : BufTy).Contents (Elt F) → (⟨S1x256, .f32⟩ : BufTy).Contents (Elt F)),
    unary main_arg12 main_v96 (broadcastInDim S1x256 ![1] bcast_S256_S1x256_1 : (⟨S256, .f32⟩ : BufTy).Contents (Elt F) → (⟨S1x256, .f32⟩ : BufTy).Contents (Elt F)),
    binary main_v95 main_v96 main_v97 (addf : (⟨S1x256, .f32⟩ : BufTy).Contents (Elt F) → (⟨S1x256, .f32⟩ : BufTy).Contents (Elt F) → (⟨S1x256, .f32⟩ : BufTy).Contents (Elt F)) ]

theorem c16_sub : (c16 : List (HloOp τ sig (Elt F))).Forall fun op => op.bufs ⊆ tcRefs τ sig :=
  ⟨reshape_bufs_sub .., unary_bufs_sub .., binary_bufs_sub .., unary_bufs_sub .., binary_bufs_sub ..⟩

/-- Every operation of the chunk determines its results. -/
theorem c16_fresh : (c16 : List (HloOp τ sig (Elt F))).Forall fun op => op.fresh = ∅ :=
  ⟨rfl, rfl, rfl, rfl, rfl⟩

/-- The buffers the chunk's operations write, in order. -/
abbrev c16_W : List (Ref sig .tc) := [main_v93, main_v94, main_v95, main_v96, main_v97]

theorem c16_writes : (c16 : List (HloOp τ sig (Elt F))).Forall fun op =>
    op.writes ⊆ (c16_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the chunk does not write keeps its contents through it. -/
theorem c16_keep (V : Valuation τ sig (Elt F)) (r : Ref sig .tc) (h : r ∉ c16_W) :
    after c16 V (Proc.devRef .tc r) = V (Proc.devRef .tc r) :=
  after_of_writes_sub c16 V c16_writes h

set_option maxRecDepth 8192 in
set_option maxHeartbeats 4000000 in
/-- The window is that straight line: the called functions' bodies unfolded at their calls, both sides are one chain of
    operation steps once sequencing is reassociated. -/
theorem main_part1_eq (c : Dev nD) : main_part1 (F := F) c = seq (c07 ++ c08 ++ c09 ++ c10 ++ c11 ++ c12 ++ c13 ++ c14 ++ c15 ++ c16) := by
  simp only [main_part1, fn_cumsum_2.body, fn_floor_divide.body, fn_where.body, fn_remainder.body, fn_where_3.body, fn_relu_4.body, fn_cumsum_1.body, c07, c08, c09, c10, c11, c12, c13, c14, c15, c16, List.cons_append, List.nil_append, seq, bind_assoc, pure_bind]
  rfl

end Cert.ReferenceIdeal.RefRun

end
-- ==== Proof.RefRunStagesB.lean ====
/- Named stages of the reference's value, its second window: each a pure function of the literal array types, the composed
   term of the printed operations of one chunk (the same operations, the same literals, the same order; an outlined
   call as its one function applied to the operands) over variables for the buffers the chunk reads from before it; and,
   per stage, the fact that after the chunk's operations, from any contents, the stage's buffer holds the stage function
   of those contents. Each fact: every operation's result rewritten at its own buffer; the typed references' transports,
   the identity at these literal references, removed; what is left is the stage's own term. -/
import proofs.«110368_j31911607009638_1_alg».proof.Proof.Gen.ReferenceIdeal
import Idealize.ShloMosaic.Lib.StableHlo.Run
import proofs.«110368_j31911607009638_1_alg».proof.Proof.RefRunCalls
import proofs.«110368_j31911607009638_1_alg».proof.Proof.RefRunOpsB

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The running sum of the scatter-added ones: the composed term of the operations that end at `main_v51`. -/
def refCount (one : Vec F S_ .i32) (zeros : Vec F S130816 .i32) (pos : Vec F S262144x1 .i32) : Vec F S130816 .i32 :=
  (callCumsum1 (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) zeros pos ((broadcastInDim S262144 ![] bcast_S_S262144 : (⟨S_, .i32⟩ : BufTy).Contents (Elt F) → (⟨S262144, .i32⟩ : BufTy).Contents (Elt F)) one)))

set_option maxRecDepth 16384 in
set_option maxHeartbeats 1000000 in
/-- After the chunk's operations, from any contents, `main_v51` holds `refCount` of the contents the chunk reads. -/
theorem c07_main_v51 (W : Valuation τ sig (Elt F)) :
    after c07 W (Proc.devRef .tc main_v51) = refCount (W (Proc.devRef .tc main_c_8)) (W (Proc.devRef .tc main_v41)) (W (Proc.devRef .tc main_v48)) := by
  simp only [c07]
  after_results_simp
  try simp only [TRef.toBuf, TRef.ofBuf, cast_eq]
  unfold refCount callCumsum1
  rfl

/-- Floor division by 512: the composed term of the operations that end at `main_v52`. -/
def refDiv512 (cnt : Vec F S130816 .i32) : Vec F S130816 .i32 :=
  (callFloorDivide cnt ((constantI S_ 32 512#32) : (⟨S_, .i32⟩ : BufTy).Contents (Elt F)))

set_option maxRecDepth 16384 in
set_option maxHeartbeats 1000000 in
/-- After the chunk's operations, from any contents, `main_v52` holds `refDiv512` of the contents the chunk reads. -/
theorem c08_main_v52 (W : Valuation τ sig (Elt F)) :
    after c08 W (Proc.devRef .tc main_v52) = refDiv512 (W (Proc.devRef .tc main_v51)) := by
  simp only [c08]
  after_results_simp
  try simp only [TRef.toBuf, TRef.ofBuf, cast_eq]
  unfold refDiv512 callFloorDivide
  rfl

/-- Remainder modulo 512, sign following the divisor: the composed term of the operations that end at `main_v53`. -/
def refRem512 (q : Vec F S130816 .i32) : Vec F S130816 .i32 :=
  (callRemainder q ((constantI S_ 32 512#32) : (⟨S_, .i32⟩ : BufTy).Contents (Elt F)))

set_option maxRecDepth 16384 in
set_option maxHeartbeats 1000000 in
/-- After the chunk's operations, from any contents, `main_v53` holds `refRem512` of the contents the chunk reads. -/
theorem c09_main_v53 (W : Valuation τ sig (Elt F)) :
    after c09 W (Proc.devRef .tc main_v53) = refRem512 (W (Proc.devRef .tc main_v52)) := by
  simp only [c09]
  after_results_simp
  try simp only [TRef.toBuf, TRef.ofBuf, cast_eq]
  unfold refRem512 callRemainder
  rfl

/-- Floor division by 1: the composed term of the operations that end at `main_v54`. -/
def refDiv1 (cnt : Vec F S130816 .i32) : Vec F S130816 .i32 :=
  (callFloorDivide cnt ((constantI S_ 32 1#32) : (⟨S_, .i32⟩ : BufTy).Contents (Elt F)))

set_option maxRecDepth 16384 in
set_option maxHeartbeats 1000000 in
/-- After the chunk's operations, from any contents, `main_v54` holds `refDiv1` of the contents the chunk reads. -/
theorem c10_main_v54 (W : Valuation τ sig (Elt F)) :
    after c10 W (Proc.devRef .tc main_v54) = refDiv1 (W (Proc.devRef .tc main_v51)) := by
  simp only [c10]
  after_results_simp
  try simp only [TRef.toBuf, TRef.ofBuf, cast_eq]
  unfold refDiv1 callFloorDivide
  rfl

set_option maxRecDepth 16384 in
set_option maxHeartbeats 1000000 in
/-- After the chunk's operations, from any contents, `main_v55` holds `refRem512` of the contents the chunk reads. -/
theorem c11_main_v55 (W : Valuation τ sig (Elt F)) :
    after c11 W (Proc.devRef .tc main_v55) = refRem512 (W (Proc.devRef .tc main_v54)) := by
  simp only [c11]
  after_results_simp
  try simp only [TRef.toBuf, TRef.ofBuf, cast_eq]
  unfold refRem512 callRemainder
  rfl

/-- A negative index moved up by 512: the composed term of the operations that end at `main_v60`. -/
def refWrap (r : Vec F S130816 .i32) : Vec F S130816 .i32 :=
  ((select : (⟨S130816, .i1⟩ : BufTy).Contents (Elt F) → (⟨S130816, .i32⟩ : BufTy).Contents (Elt F) → (⟨S130816, .i32⟩ : BufTy).Contents (Elt F) → (⟨S130816, .i32⟩ : BufTy).Contents (Elt F)) ((cmpi .slt : (⟨S130816, .i32⟩ : BufTy).Contents (Elt F) → (⟨S130816, .i32⟩ : BufTy).Contents (Elt F) → (⟨S130816, .i1⟩ : BufTy).Contents (Elt F)) r ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F)))) ((addi : (⟨S130816, .i32⟩ : BufTy).Contents (Elt F) → (⟨S130816, .i32⟩ : BufTy).Contents (Elt F) → (⟨S130816, .i32⟩ : BufTy).Contents (Elt F)) r ((broadcastInDim S130816 ![] bcast_S_S130816 : (⟨S_, .i32⟩ : BufTy).Contents (Elt F) → (⟨S130816, .i32⟩ : BufTy).Contents (Elt F)) ((constantI S_ 32 512#32) : (⟨S_, .i32⟩ : BufTy).Contents (Elt F)))) r)

set_option maxRecDepth 16384 in
set_option maxHeartbeats 1000000 in
/-- After the chunk's operations, from any contents, `main_v60` holds `refWrap` of the contents the chunk reads. -/
theorem c12_main_v60 (W : Valuation τ sig (Elt F)) :
    after c12 W (Proc.devRef .tc main_v60) = refWrap (W (Proc.devRef .tc main_v53)) := by
  simp only [c12]
  after_results_simp
  unfold refWrap
  rfl

/-- The rows of h at the first index vector: the composed term of the operations that end at `main_v62`. -/
def refGather0 (h : Vec F S512x256 .f32) (idx0 : Vec F S130816 .i32) : Vec F S130816x256 .f32 :=
  (((fun x i => Host.gather gather_S512x256_S130816x1_S130816x256_1_0_n_n_0_1_1256 x i) : (⟨S512x256, .f32⟩ : BufTy).Contents (Elt F) → (⟨S130816x1, .i32⟩ : BufTy).Contents (Elt F) → (⟨S130816x256, .f32⟩ : BufTy).Contents (Elt F)) h ((broadcastInDim S130816x1 ![0] bcast_S130816_S130816x1_0 : (⟨S130816, .i32⟩ : BufTy).Contents (Elt F) → (⟨S130816x1, .i32⟩ : BufTy).Contents (Elt F)) idx0))

set_option maxRecDepth 16384 in
set_option maxHeartbeats 1000000 in
/-- After the chunk's operations, from any contents, `main_v62` holds `refGather0` of the contents the chunk reads. -/
theorem c13_main_v62 (W : Valuation τ sig (Elt F)) :
    after c13 W (Proc.devRef .tc main_v62) = refGather0 (W (Proc.devRef .tc main_v35)) (W (Proc.devRef .tc main_v60)) := by
  simp only [c13]
  after_results_simp
  unfold refGather0
  rfl

set_option maxRecDepth 16384 in
set_option maxHeartbeats 1000000 in
/-- After the chunk's operations, from any contents, `main_v67` holds `refWrap` of the contents the chunk reads. -/
theorem c14_main_v67 (W : Valuation τ sig (Elt F)) :
    after c14 W (Proc.devRef .tc main_v67) = refWrap (W (Proc.devRef .tc main_v55)) := by
  simp only [c14]
  after_results_simp
  unfold refWrap
  rfl

/-- The second row gather, the concatenation, two affine layers with a relu between, the 2-way softmax: the composed term of the operations that end at `main_v92`. -/
def refActCore (h : Vec F S512x256 .f32) (g0 : Vec F S130816x256 .f32) (idx1 : Vec F S130816 .i32) (fc2w : Vec F S256x512 .f32) (fc2b : Vec F S256 .f32) (fc3w : Vec F S2x256 .f32) (fc3b : Vec F S2 .f32) : Vec F S130816x2 .f32 :=
  ((Host.divf : (⟨S130816x2, .f32⟩ : BufTy).Contents (Elt F) → (⟨S130816x2, .f32⟩ : BufTy).Contents (Elt F) → (⟨S130816x2, .f32⟩ : BufTy).Contents (Elt F)) ((Host.exp : (⟨S130816x2, .f32⟩ : BufTy).Contents (Elt F) → (⟨S130816x2, .f32⟩ : BufTy).Contents (Elt F)) ((subf : (⟨S130816x2, .f32⟩ : BufTy).Contents (Elt F) → (⟨S130816x2, .f32⟩ : BufTy).Contents (Elt F) → (⟨S130816x2, .f32⟩ : BufTy).Contents (Elt F)) ((addf : (⟨S130816x2, .f32⟩ : BufTy).Contents (Elt F) → (⟨S130816x2, .f32⟩ : BufTy).Contents (Elt F) → (⟨S130816x2, .f32⟩ : BufTy).Contents (Elt F)) (((fun l r => Host.dotGeneral dot_S130816x256_S256x2_S130816x2_1_0_0_1_n_n none l r) : (⟨S130816x256, .f32⟩ : BufTy).Contents (Elt F) → (⟨S256x2, .f32⟩ : BufTy).Contents (Elt F) → (⟨S130816x2, .f32⟩ : BufTy).Contents (Elt F)) (callRelu4 ((addf : (⟨S130816x256, .f32⟩ : BufTy).Contents (Elt F) → (⟨S130816x256, .f32⟩ : BufTy).Contents (Elt F) → (⟨S130816x256, .f32⟩ : BufTy).Contents (Elt F)) (((fun l r => Host.dotGeneral dot_S130816x512_S512x256_S130816x256_1_0_0_1_n_n none l r) : (⟨S130816x512, .f32⟩ : BufTy).Contents (Elt F) → (⟨S512x256, .f32⟩ : BufTy).Contents (Elt F) → (⟨S130816x256, .f32⟩ : BufTy).Contents (Elt F)) (((fun a b => concatenate S130816x512 1 [⟨S130816x256, a⟩, ⟨S130816x256, b⟩] concatenates_S130816x256_S130816x256_S130816x512_d1) : (⟨S130816x256, .f32⟩ : BufTy).Contents (Elt F) → (⟨S130816x256, .f32⟩ : BufTy).Contents (Elt F) → (⟨S130816x512, .f32⟩ : BufTy).Contents (Elt F)) g0 (((fun x i => Host.gather gather_S512x256_S130816x1_S130816x256_1_0_n_n_0_1_1256 x i) : (⟨S512x256, .f32⟩ : BufTy).Contents (Elt F) → (⟨S130816x1, .i32⟩ : BufTy).Contents (Elt F) → (⟨S130816x256, .f32⟩ : BufTy).Contents (Elt F)) h ((broadcastInDim S130816x1 ![0] bcast_S130816_S130816x1_0 : (⟨S130816, .i32⟩ : BufTy).Contents (Elt F) → (⟨S130816x1, .i32⟩ : BufTy).Contents (Elt F)) idx1))) (((transpose S512x256 [1, 0] · transposes_S256x512_S512x256_1_0) : (⟨S256x512, .f32⟩ : BufTy).Contents (Elt F) → (⟨S512x256, .f32⟩ : BufTy).Contents (Elt F)) fc2w)) ((broadcastInDim S130816x256 ![0, 1] bcast_S1x256_S130816x256_0_1 : (⟨S1x256, .f32⟩ : BufTy).Contents (Elt F) → (⟨S130816x256, .f32⟩ : BufTy).Contents (Elt F)) ((broadcastInDim S1x256 ![1] bcast_S256_S1x256_1 : (⟨S256, .f32⟩ : BufTy).Contents (Elt F) → (⟨S1x256, .f32⟩ : BufTy).Contents (Elt F)) fc2b)))) (((transpose S256x2 [1, 0] · transposes_S2x256_S256x2_1_0) : (⟨S2x256, .f32⟩ : BufTy).Contents (Elt F) → (⟨S256x2, .f32⟩ : BufTy).Contents (Elt F)) fc3w)) ((broadcastInDim S130816x2 ![0, 1] bcast_S1x2_S130816x2_0_1 : (⟨S1x2, .f32⟩ : BufTy).Contents (Elt F) → (⟨S130816x2, .f32⟩ : BufTy).Contents (Elt F)) ((broadcastInDim S1x2 ![1] bcast_S2_S1x2_1 : (⟨S2, .f32⟩ : BufTy).Contents (Elt F) → (⟨S1x2, .f32⟩ : BufTy).Contents (Elt F)) fc3b))) ((broadcastInDim S130816x2 ![0, 1] bcast_S130816x1_S130816x2_0_1 : (⟨S130816x1, .f32⟩ : BufTy).Contents (Elt F) → (⟨S130816x2, .f32⟩ : BufTy).Contents (Elt F)) ((broadcastInDim S130816x1 ![0] bcast_S130816_S130816x1_0 : (⟨S130816, .f32⟩ : BufTy).Contents (Elt F) → (⟨S130816x1, .f32⟩ : BufTy).Contents (Elt F)) ((maximumf : (⟨S130816, .f32⟩ : BufTy).Contents (Elt F) → (⟨S130816, .f32⟩ : BufTy).Contents (Elt F) → (⟨S130816, .f32⟩ : BufTy).Contents (Elt F)) ((broadcastInDim S130816 ![] bcast_S_S130816 : (⟨S_, .f32⟩ : BufTy).Contents (Elt F) → (⟨S130816, .f32⟩ : BufTy).Contents (Elt F)) ((constant S_ .f32 0xFF800000#32) : (⟨S_, .f32⟩ : BufTy).Contents (Elt F))) (((fun x v => Host.reduce FloatOps.maximumf x v reducesTo_S130816x2_S130816_d1 h_S_) : (⟨S130816x2, .f32⟩ : BufTy).Contents (Elt F) → (⟨S_, .f32⟩ : BufTy).Contents (Elt F) → (⟨S130816, .f32⟩ : BufTy).Contents (Elt F)) ((addf : (⟨S130816x2, .f32⟩ : BufTy).Contents (Elt F) → (⟨S130816x2, .f32⟩ : BufTy).Contents (Elt F) → (⟨S130816x2, .f32⟩ : BufTy).Contents (Elt F)) (((fun l r => Host.dotGeneral dot_S130816x256_S256x2_S130816x2_1_0_0_1_n_n none l r) : (⟨S130816x256, .f32⟩ : BufTy).Contents (Elt F) → (⟨S256x2, .f32⟩ : BufTy).Contents (Elt F) → (⟨S130816x2, .f32⟩ : BufTy).Contents (Elt F)) (callRelu4 ((addf : (⟨S130816x256, .f32⟩ : BufTy).Contents (Elt F) → (⟨S130816x256, .f32⟩ : BufTy).Contents (Elt F) → (⟨S130816x256, .f32⟩ : BufTy).Contents (Elt F)) (((fun l r => Host.dotGeneral dot_S130816x512_S512x256_S130816x256_1_0_0_1_n_n none l r) : (⟨S130816x512, .f32⟩ : BufTy).Contents (Elt F) → (⟨S512x256, .f32⟩ : BufTy).Contents (Elt F) → (⟨S130816x256, .f32⟩ : BufTy).Contents (Elt F)) (((fun a b => concatenate S130816x512 1 [⟨S130816x256, a⟩, ⟨S130816x256, b⟩] concatenates_S130816x256_S130816x256_S130816x512_d1) : (⟨S130816x256, .f32⟩ : BufTy).Contents (Elt F) → (⟨S130816x256, .f32⟩ : BufTy).Contents (Elt F) → (⟨S130816x512, .f32⟩ : BufTy).Contents (Elt F)) g0 (((fun x i => Host.gather gather_S512x256_S130816x1_S130816x256_1_0_n_n_0_1_1256 x i) : (⟨S512x256, .f32⟩ : BufTy).Contents (Elt F) → (⟨S130816x1, .i32⟩ : BufTy).Contents (Elt F) → (⟨S130816x256, .f32⟩ : BufTy).Contents (Elt F)) h ((broadcastInDim S130816x1 ![0] bcast_S130816_S130816x1_0 : (⟨S130816, .i32⟩ : BufTy).Contents (Elt F) → (⟨S130816x1, .i32⟩ : BufTy).Contents (Elt F)) idx1))) (((transpose S512x256 [1, 0] · transposes_S256x512_S512x256_1_0) : (⟨S256x512, .f32⟩ : BufTy).Contents (Elt F) → (⟨S512x256, .f32⟩ : BufTy).Contents (Elt F)) fc2w)) ((broadcastInDim S130816x256 ![0, 1] bcast_S1x256_S130816x256_0_1 : (⟨S1x256, .f32⟩ : BufTy).Contents (Elt F) → (⟨S130816x256, .f32⟩ : BufTy).Contents (Elt F)) ((broadcastInDim S1x256 ![1] bcast_S256_S1x256_1 : (⟨S256, .f32⟩ : BufTy).Contents (Elt F) → (⟨S1x256, .f32⟩ : BufTy).Contents (Elt F)) fc2b)))) (((transpose S256x2 [1, 0] · transposes_S2x256_S256x2_1_0) : (⟨S2x256, .f32⟩ : BufTy).Contents (Elt F) → (⟨S256x2, .f32⟩ : BufTy).Contents (Elt F)) fc3w)) ((broadcastInDim S130816x2 ![0, 1] bcast_S1x2_S130816x2_0_1 : (⟨S1x2, .f32⟩ : BufTy).Contents (Elt F) → (⟨S130816x2, .f32⟩ : BufTy).Contents (Elt F)) ((broadcastInDim S1x2 ![1] bcast_S2_S1x2_1 : (⟨S2, .f32⟩ : BufTy).Contents (Elt F) → (⟨S1x2, .f32⟩ : BufTy).Contents (Elt F)) fc3b))) ((constant S_ .f32 0xFF800000#32) : (⟨S_, .f32⟩ : BufTy).Contents (Elt F)))))))) ((broadcastInDim S130816x2 ![0, 1] bcast_S130816x1_S130816x2_0_1 : (⟨S130816x1, .f32⟩ : BufTy).Contents (Elt F) → (⟨S130816x2, .f32⟩ : BufTy).Contents (Elt F)) ((broadcastInDim S130816x1 ![0] bcast_S130816_S130816x1_0 : (⟨S130816, .f32⟩ : BufTy).Contents (Elt F) → (⟨S130816x1, .f32⟩ : BufTy).Contents (Elt F)) (((fun x v => Host.reduceAdd x v reducesTo_S130816x2_S130816_d1 h_S_) : (⟨S130816x2, .f32⟩ : BufTy).Contents (Elt F) → (⟨S_, .f32⟩ : BufTy).Contents (Elt F) → (⟨S130816, .f32⟩ : BufTy).Contents (Elt F)) ((Host.exp : (⟨S130816x2, .f32⟩ : BufTy).Contents (Elt F) → (⟨S130816x2, .f32⟩ : BufTy).Contents (Elt F)) ((subf : (⟨S130816x2, .f32⟩ : BufTy).Contents (Elt F) → (⟨S130816x2, .f32⟩ : BufTy).Contents (Elt F) → (⟨S130816x2, .f32⟩ : BufTy).Contents (Elt F)) ((addf : (⟨S130816x2, .f32⟩ : BufTy).Contents (Elt F) → (⟨S130816x2, .f32⟩ : BufTy).Contents (Elt F) → (⟨S130816x2, .f32⟩ : BufTy).Contents (Elt F)) (((fun l r => Host.dotGeneral dot_S130816x256_S256x2_S130816x2_1_0_0_1_n_n none l r) : (⟨S130816x256, .f32⟩ : BufTy).Contents (Elt F) → (⟨S256x2, .f32⟩ : BufTy).Contents (Elt F) → (⟨S130816x2, .f32⟩ : BufTy).Contents (Elt F)) (callRelu4 ((addf : (⟨S130816x256, .f32⟩ : BufTy).Contents (Elt F) → (⟨S130816x256, .f32⟩ : BufTy).Contents (Elt F) → (⟨S130816x256, .f32⟩ : BufTy).Contents (Elt F)) (((fun l r => Host.dotGeneral dot_S130816x512_S512x256_S130816x256_1_0_0_1_n_n none l r) : (⟨S130816x512, .f32⟩ : BufTy).Contents (Elt F) → (⟨S512x256, .f32⟩ : BufTy).Contents (Elt F) → (⟨S130816x256, .f32⟩ : BufTy).Contents (Elt F)) (((fun a b => concatenate S130816x512 1 [⟨S130816x256, a⟩, ⟨S130816x256, b⟩] concatenates_S130816x256_S130816x256_S130816x512_d1) : (⟨S130816x256, .f32⟩ : BufTy).Contents (Elt F) → (⟨S130816x256, .f32⟩ : BufTy).Contents (Elt F) → (⟨S130816x512, .f32⟩ : BufTy).Contents (Elt F)) g0 (((fun x i => Host.gather gather_S512x256_S130816x1_S130816x256_1_0_n_n_0_1_1256 x i) : (⟨S512x256, .f32⟩ : BufTy).Contents (Elt F) → (⟨S130816x1, .i32⟩ : BufTy).Contents (Elt F) → (⟨S130816x256, .f32⟩ : BufTy).Contents (Elt F)) h ((broadcastInDim S130816x1 ![0] bcast_S130816_S130816x1_0 : (⟨S130816, .i32⟩ : BufTy).Contents (Elt F) → (⟨S130816x1, .i32⟩ : BufTy).Contents (Elt F)) idx1))) (((transpose S512x256 [1, 0] · transposes_S256x512_S512x256_1_0) : (⟨S256x512, .f32⟩ : BufTy).Contents (Elt F) → (⟨S512x256, .f32⟩ : BufTy).Contents (Elt F)) fc2w)) ((broadcastInDim S130816x256 ![0, 1] bcast_S1x256_S130816x256_0_1 : (⟨S1x256, .f32⟩ : BufTy).Contents (Elt F) → (⟨S130816x256, .f32⟩ : BufTy).Contents (Elt F)) ((broadcastInDim S1x256 ![1] bcast_S256_S1x256_1 : (⟨S256, .f32⟩ : BufTy).Contents (Elt F) → (⟨S1x256, .f32⟩ : BufTy).Contents (Elt F)) fc2b)))) (((transpose S256x2 [1, 0] · transposes_S2x256_S256x2_1_0) : (⟨S2x256, .f32⟩ : BufTy).Contents (Elt F) → (⟨S256x2, .f32⟩ : BufTy).Contents (Elt F)) fc3w)) ((broadcastInDim S130816x2 ![0, 1] bcast_S1x2_S130816x2_0_1 : (⟨S1x2, .f32⟩ : BufTy).Contents (Elt F) → (⟨S130816x2, .f32⟩ : BufTy).Contents (Elt F)) ((broadcastInDim S1x2 ![1] bcast_S2_S1x2_1 : (⟨S2, .f32⟩ : BufTy).Contents (Elt F) → (⟨S1x2, .f32⟩ : BufTy).Contents (Elt F)) fc3b))) ((broadcastInDim S130816x2 ![0, 1] bcast_S130816x1_S130816x2_0_1 : (⟨S130816x1, .f32⟩ : BufTy).Contents (Elt F) → (⟨S130816x2, .f32⟩ : BufTy).Contents (Elt F)) ((broadcastInDim S130816x1 ![0] bcast_S130816_S130816x1_0 : (⟨S130816, .f32⟩ : BufTy).Contents (Elt F) → (⟨S130816x1, .f32⟩ : BufTy).Contents (Elt F)) ((maximumf : (⟨S130816, .f32⟩ : BufTy).Contents (Elt F) → (⟨S130816, .f32⟩ : BufTy).Contents (Elt F) → (⟨S130816, .f32⟩ : BufTy).Contents (Elt F)) ((broadcastInDim S130816 ![] bcast_S_S130816 : (⟨S_, .f32⟩ : BufTy).Contents (Elt F) → (⟨S130816, .f32⟩ : BufTy).Contents (Elt F)) ((constant S_ .f32 0xFF800000#32) : (⟨S_, .f32⟩ : BufTy).Contents (Elt F))) (((fun x v => Host.reduce FloatOps.maximumf x v reducesTo_S130816x2_S130816_d1 h_S_) : (⟨S130816x2, .f32⟩ : BufTy).Contents (Elt F) → (⟨S_, .f32⟩ : BufTy).Contents (Elt F) → (⟨S130816, .f32⟩ : BufTy).Contents (Elt F)) ((addf : (⟨S130816x2, .f32⟩ : BufTy).Contents (Elt F) → (⟨S130816x2, .f32⟩ : BufTy).Contents (Elt F) → (⟨S130816x2, .f32⟩ : BufTy).Contents (Elt F)) (((fun l r => Host.dotGeneral dot_S130816x256_S256x2_S130816x2_1_0_0_1_n_n none l r) : (⟨S130816x256, .f32⟩ : BufTy).Contents (Elt F) → (⟨S256x2, .f32⟩ : BufTy).Contents (Elt F) → (⟨S130816x2, .f32⟩ : BufTy).Contents (Elt F)) (callRelu4 ((addf : (⟨S130816x256, .f32⟩ : BufTy).Contents (Elt F) → (⟨S130816x256, .f32⟩ : BufTy).Contents (Elt F) → (⟨S130816x256, .f32⟩ : BufTy).Contents (Elt F)) (((fun l r => Host.dotGeneral dot_S130816x512_S512x256_S130816x256_1_0_0_1_n_n none l r) : (⟨S130816x512, .f32⟩ : BufTy).Contents (Elt F) → (⟨S512x256, .f32⟩ : BufTy).Contents (Elt F) → (⟨S130816x256, .f32⟩ : BufTy).Contents (Elt F)) (((fun a b => concatenate S130816x512 1 [⟨S130816x256, a⟩, ⟨S130816x256, b⟩] concatenates_S130816x256_S130816x256_S130816x512_d1) : (⟨S130816x256, .f32⟩ : BufTy).Contents (Elt F) → (⟨S130816x256, .f32⟩ : BufTy).Contents (Elt F) → (⟨S130816x512, .f32⟩ : BufTy).Contents (Elt F)) g0 (((fun x i => Host.gather gather_S512x256_S130816x1_S130816x256_1_0_n_n_0_1_1256 x i) : (⟨S512x256, .f32⟩ : BufTy).Contents (Elt F) → (⟨S130816x1, .i32⟩ : BufTy).Contents (Elt F) → (⟨S130816x256, .f32⟩ : BufTy).Contents (Elt F)) h ((broadcastInDim S130816x1 ![0] bcast_S130816_S130816x1_0 : (⟨S130816, .i32⟩ : BufTy).Contents (Elt F) → (⟨S130816x1, .i32⟩ : BufTy).Contents (Elt F)) idx1))) (((transpose S512x256 [1, 0] · transposes_S256x512_S512x256_1_0) : (⟨S256x512, .f32⟩ : BufTy).Contents (Elt F) → (⟨S512x256, .f32⟩ : BufTy).Contents (Elt F)) fc2w)) ((broadcastInDim S130816x256 ![0, 1] bcast_S1x256_S130816x256_0_1 : (⟨S1x256, .f32⟩ : BufTy).Contents (Elt F) → (⟨S130816x256, .f32⟩ : BufTy).Contents (Elt F)) ((broadcastInDim S1x256 ![1] bcast_S256_S1x256_1 : (⟨S256, .f32⟩ : BufTy).Contents (Elt F) → (⟨S1x256, .f32⟩ : BufTy).Contents (Elt F)) fc2b)))) (((transpose S256x2 [1, 0] · transposes_S2x256_S256x2_1_0) : (⟨S2x256, .f32⟩ : BufTy).Contents (Elt F) → (⟨S256x2, .f32⟩ : BufTy).Contents (Elt F)) fc3w)) ((broadcastInDim S130816x2 ![0, 1] bcast_S1x2_S130816x2_0_1 : (⟨S1x2, .f32⟩ : BufTy).Contents (Elt F) → (⟨S130816x2, .f32⟩ : BufTy).Contents (Elt F)) ((broadcastInDim S1x2 ![1] bcast_S2_S1x2_1 : (⟨S2, .f32⟩ : BufTy).Contents (Elt F) → (⟨S1x2, .f32⟩ : BufTy).Contents (Elt F)) fc3b))) ((constant S_ .f32 0xFF800000#32) : (⟨S_, .f32⟩ : BufTy).Contents (Elt F)))))))) ((constant S_ .f32 0x00000000#32) : (⟨S_, .f32⟩ : BufTy).Contents (Elt F))))))

set_option maxRecDepth 16384 in
set_option maxHeartbeats 1000000 in
/-- After the chunk's operations, from any contents, `main_v92` holds `refActCore` of the contents the chunk reads. -/
theorem c15_main_v92 (W : Valuation τ sig (Elt F)) :
    after c15 W (Proc.devRef .tc main_v92) = refActCore (W (Proc.devRef .tc main_v35)) (W (Proc.devRef .tc main_v62)) (W (Proc.devRef .tc main_v67)) (W (Proc.devRef .tc main_arg7)) (W (Proc.devRef .tc main_arg8)) (W (Proc.devRef .tc main_arg9)) (W (Proc.devRef .tc main_arg10)) := by
  simp only [c15]
  after_results_simp
  try simp only [TRef.toBuf, TRef.ofBuf, cast_eq]
  unfold refActCore callRelu4
  rfl

/-- The flattened hidden layer times the first value weights, plus bias: the composed term of the operations that end at `main_v97`. -/
def refValPre (hid : Vec F S512x256 .f32) (vfc2w : Vec F S256x131072 .f32) (vfc2b : Vec F S256 .f32) : Vec F S1x256 .f32 :=
  ((addf : (⟨S1x256, .f32⟩ : BufTy).Contents (Elt F) → (⟨S1x256, .f32⟩ : BufTy).Contents (Elt F) → (⟨S1x256, .f32⟩ : BufTy).Contents (Elt F)) (((fun l r => Host.dotGeneral dot_S1x131072_S131072x256_S1x256_1_0_0_1_n_n none l r) : (⟨S1x131072, .f32⟩ : BufTy).Contents (Elt F) → (⟨S131072x256, .f32⟩ : BufTy).Contents (Elt F) → (⟨S1x256, .f32⟩ : BufTy).Contents (Elt F)) (((shapeCast S1x131072 · shapeCasts_S512x256_S1x131072) : (⟨S512x256, .f32⟩ : BufTy).Contents (Elt F) → (⟨S1x131072, .f32⟩ : BufTy).Contents (Elt F)) hid) (((transpose S131072x256 [1, 0] · transposes_S256x131072_S131072x256_1_0) : (⟨S256x131072, .f32⟩ : BufTy).Contents (Elt F) → (⟨S131072x256, .f32⟩ : BufTy).Contents (Elt F)) vfc2w)) ((broadcastInDim S1x256 ![1] bcast_S256_S1x256_1 : (⟨S256, .f32⟩ : BufTy).Contents (Elt F) → (⟨S1x256, .f32⟩ : BufTy).Contents (Elt F)) vfc2b))

set_option maxRecDepth 16384 in
set_option maxHeartbeats 1000000 in
/-- After the chunk's operations, from any contents, `main_v97` holds `refValPre` of the contents the chunk reads. -/
theorem c16_main_v97 (W : Valuation τ sig (Elt F)) :
    after c16 W (Proc.devRef .tc main_v97) = refValPre (W (Proc.devRef .tc main_v5)) (W (Proc.devRef .tc main_arg11)) (W (Proc.devRef .tc main_arg12)) := by
  simp only [c16]
  after_results_simp
  unfold refValPre
  rfl

end Cert.ReferenceIdeal.RefRun

end
-- ==== Proof.RefActionStage.lean ====
/-
  The reference's stage over pairs of rows, as its stage functions spell it, is the action probabilities of the
  specification: the stage functions are the host's operation sequence, which is read operation by operation in the
  module this one imports.
-/
import proofs.«110368_j31911607009638_1_alg».proof.Proof.RefRunStagesB
import proofs.«110368_j31911607009638_1_alg».proof.Proof.RefActionValue

noncomputable section

namespace Cert.ReferenceIdeal.RefActionValue

open Idealize.ShloMosaic Idealize.ShloMosaic.ValueIdx Cert.LibMatProd Cert.Layers Cert.LibAttention
open Cert.ReferenceIdeal Cert.ReferenceIdeal.Gen Cert.ReferenceIdeal.RefRun

/-- The first gather of the reference is the gathered rows. -/
theorem refGather0_eq (h : Vec Ideal S512x256 .f32) (i0 : Vec Ideal S130816 .i32) :
    refGather0 (F := Ideal) h i0 = gatheredRows (by norm_num : 0 < 512) (h : Mat 512 256) i0 := by
  unfold refGather0
  dsimp only
  exact host_gatheredRows (by norm_num : 0 < 512) gather_S512x256_S130816x1_S130816x256_1_0_n_n_0_1_1256_wf _ gather_dims
    bcast_S130816_S130816x1_0 h i0

/-- The reference's action stage computes the action probabilities of the specification. -/
theorem refActCore_eq (h : Vec Ideal S512x256 .f32) (i0 i1 : Vec Ideal S130816 .i32) (fc2w : Vec Ideal S256x512 .f32)
    (fc2b : Vec Ideal S256 .f32) (fc3w : Vec Ideal S2x256 .f32) (fc3b : Vec Ideal S2 .f32) :
    refActCore (F := Ideal) h (refGather0 (F := Ideal) h i0) i1 fc2w fc2b fc3w fc3b
      = refActionSpec h i0 i1 fc2w fc2b fc3w fc3b := by
  unfold refActCore refGather0 callRelu4
  dsimp only
  exact opsAction_eq h i0 i1 fc2w fc2b fc3w fc3b

end Cert.ReferenceIdeal.RefActionValue

end
-- ==== Proof.RefValueHead.lean ====
import proofs.«110368_j31911607009638_1_alg».proof.Proof.Gen.ReferenceIdeal
import proofs.«110368_j31911607009638_1_alg».proof.Proof.KI.ValueHead
import proofs.«110368_j31911607009638_1_alg».proof.Proof.LibLayers
import proofs.«110368_j31911607009638_1_alg».proof.Proof.LibAttentionScale

set_option maxRecDepth 16384

noncomputable section

namespace Cert.ReferenceIdeal.RefValueHead

open Cert.ReferenceIdeal Cert.ReferenceIdeal.Facts₀ Cert.ReferenceIdeal.Facts
open Idealize.ShloMosaic Idealize.ShloMosaic.ValueIdx
open Cert.Layers Cert.LibAttention Cert.LibMatProd Cert.LibPlainDot
open Cert.KernelIdeal.Hand (valueSpec addf_row row0)

/-! # The reference's value head, at the extended reals, as the one whole-array function

The reference re-lays the embedding as one row, contracts it with the transposed weights, adds the bias as a row, clamps
below at zero, contracts with the transposed second weights and adds the second bias as a 1 x 1 row. Each host
operation is the matrix function it spells, so the sequence is the value head of its five arrays. -/

/-! ## A vector as a one-row matrix, by a broadcast or by a reshape -/

/-- A vector broadcast to one row is the vector as a one-row matrix. -/
theorem bcast_row {N : ℕ} (b : (⟨1, ![N]⟩ : Shape).Idx → EReal) (hr : (⟨1, ![N]⟩ : Shape).BroadcastsInDim ⟨2, ![1, N]⟩ ![1]) :
    broadcastInDim ⟨2, ![1, N]⟩ ![1] hr b = rowOf b := by
  funext j
  obtain ⟨u, q, rfl⟩ : ∃ (u : Fin 1) (q : Fin N), j = ix2 u q := ⟨j 0, j 1, eq_ix2 j⟩
  exact bcast_a_1a_apply b hr u q

/-- Re-laid as one row by a reshape or broadcast to one row, a vector is the same one-row matrix. -/
theorem reshape_eq_bcast {N : ℕ} (b : (⟨1, ![N]⟩ : Shape).Idx → EReal) (h : (⟨1, ![N]⟩ : Shape).ShapeCasts ⟨2, ![1, N]⟩)
    (hr : (⟨1, ![N]⟩ : Shape).BroadcastsInDim ⟨2, ![1, N]⟩ ![1]) :
    shapeCast ⟨2, ![1, N]⟩ b h = broadcastInDim ⟨2, ![1, N]⟩ ![1] hr b :=
  (reshape_row b h).trans (bcast_row b hr).symm

/-- The 256-vector re-laid as a 1 x 256 row by a reshape: the vector as a one-row matrix. -/
theorem reshape_row_256 (v : (⟨1, ![256]⟩ : Shape).Idx → EReal) (h : (⟨1, ![256]⟩ : Shape).ShapeCasts ⟨2, ![1, 256]⟩) :
    shapeCast ⟨2, ![1, 256]⟩ v h = rowOf v := reshape_row v h

/-- The 256-vector broadcast to a 1 x 256 row: the same one-row matrix. -/
theorem bcast_row_256 (v : (⟨1, ![256]⟩ : Shape).Idx → EReal) (hr : (⟨1, ![256]⟩ : Shape).BroadcastsInDim ⟨2, ![1, 256]⟩ ![1]) :
    broadcastInDim ⟨2, ![1, 256]⟩ ![1] hr v = rowOf v := bcast_row v hr

/-- The 1-vector re-laid as a 1 x 1 row by a reshape: the vector as a one-row matrix. -/
theorem reshape_row_1 (v : (⟨1, ![1]⟩ : Shape).Idx → EReal) (h : (⟨1, ![1]⟩ : Shape).ShapeCasts ⟨2, ![1, 1]⟩) :
    shapeCast ⟨2, ![1, 1]⟩ v h = rowOf v := reshape_row v h

/-- The 1-vector broadcast to a 1 x 1 row: the same one-row matrix. -/
theorem bcast_row_1 (v : (⟨1, ![1]⟩ : Shape).Idx → EReal) (hr : (⟨1, ![1]⟩ : Shape).BroadcastsInDim ⟨2, ![1, 1]⟩ ![1]) :
    broadcastInDim ⟨2, ![1, 1]⟩ ![1] hr v = rowOf v := bcast_row v hr

/-- A one-row matrix plus a vector broadcast to one row is the row addition of the vector as a row. -/
theorem host_addRow1 {N : ℕ} (a : FVec Ideal ⟨2, ![1, N]⟩ .f32) (b : FVec Ideal ⟨1, ![N]⟩ .f32)
    (hr : (⟨1, ![N]⟩ : Shape).BroadcastsInDim ⟨2, ![1, N]⟩ ![1]) :
    addf a (broadcastInDim ⟨2, ![1, N]⟩ ![1] hr b) = addRow (a : Mat 1 N) (rowOf b) := by
  rw [bcast_row]
  exact addf_row a (rowOf b)

/-! ## The reference's operation sequence -/

/-- The reference's value head over its five arrays, operation by operation: the embedding re-laid as one row (%93), the
    weights transposed (%94), their contraction (%95), the bias broadcast to a row (%96) and added (%97), the maximum
    against the broadcast zero (%98), the second weights transposed (%99), the contraction (%100), the second bias
    broadcast to a 1 x 1 row (%101) and added (%102). -/
def refValueOps (hid : FVec Ideal S512x256 .f32) (W : FVec Ideal S256x131072 .f32) (vb : FVec Ideal S256 .f32)
    (w3 : FVec Ideal S1x256 .f32) (b3 : FVec Ideal S1 .f32) : FVec Ideal S1x1 .f32 :=
  addf
    (Host.dotGeneral (F := Ideal) dot_S1x256_S256x1_S1x1_1_0_0_1_n_n none
      (maximumf
        (addf
          (Host.dotGeneral (F := Ideal) dot_S1x131072_S131072x256_S1x256_1_0_0_1_n_n none
            (shapeCast S1x131072 hid shapeCasts_S512x256_S1x131072)
            (transpose S131072x256 [1, 0] W transposes_S256x131072_S131072x256_1_0))
          (broadcastInDim S1x256 ![1] bcast_S256_S1x256_1 vb))
        (broadcastInDim S1x256 ![] bcast_S_S1x256 (constant (F := Ideal) S_ .f32 0x00000000#32)))
      (transpose S256x1 [1, 0] w3 transposes_S1x256_S256x1_1_0))
    (broadcastInDim S1x1 ![1] bcast_S1_S1x1_1 b3)

/-- The first layer (%93 … %97): the re-laid embedding times the transposed weights, plus the bias as a row. -/
theorem ref_layer1 (hid : FVec Ideal S512x256 .f32) (W : FVec Ideal S256x131072 .f32) (vb : FVec Ideal S256 .f32) :
    addf
        (Host.dotGeneral (F := Ideal) dot_S1x131072_S131072x256_S1x256_1_0_0_1_n_n none
          (shapeCast S1x131072 hid shapeCasts_S512x256_S1x131072)
          (transpose S131072x256 [1, 0] W transposes_S256x131072_S131072x256_1_0))
        (broadcastInDim S1x256 ![1] bcast_S256_S1x256_1 vb)
      = dense (shapeCast S1x131072 hid shapeCasts_S512x256_S1x131072 : Mat 1 131072) (transposeM (W : Mat 256 131072)) (rowOf vb) := by
  rw [host_transpose, host_prod dot_S1x131072_S131072x256_S1x256_1_0_0_1_n_n rfl rfl rfl rfl rfl rfl, host_addRow1]
  rfl

/-- The second layer (%99 … %102) of a clamped row: times the transposed second weights, plus the second bias as a row. -/
theorem ref_layer2 (a : FVec Ideal S1x256 .f32) (w3 : FVec Ideal S1x256 .f32) (b3 : FVec Ideal S1 .f32) :
    addf
        (Host.dotGeneral (F := Ideal) dot_S1x256_S256x1_S1x1_1_0_0_1_n_n none a
          (transpose S256x1 [1, 0] w3 transposes_S1x256_S256x1_1_0))
        (broadcastInDim S1x1 ![1] bcast_S1_S1x1_1 b3)
      = dense (a : Mat 1 256) (transposeM (w3 : Mat 1 256)) (rowOf b3) := by
  rw [host_transpose, host_prod dot_S1x256_S256x1_S1x1_1_0_0_1_n_n rfl rfl rfl rfl rfl rfl, host_addRow1]
  rfl

/-- The reference's operation sequence is the value head of the weights, the embedding re-laid as one row, the bias as a
    row, the second weights and the second bias as a 1 x 1 row. -/
theorem refValueOps_eq (hid : FVec Ideal S512x256 .f32) (W : FVec Ideal S256x131072 .f32) (vb : FVec Ideal S256 .f32)
    (w3 : FVec Ideal S1x256 .f32) (b3 : FVec Ideal S1 .f32) :
    refValueOps hid W vb w3 b3
      = valueSpec W (shapeCast S1x131072 hid shapeCasts_S512x256_S1x131072) (rowOf vb) w3 (rowOf b3) := by
  unfold refValueOps
  rw [ref_layer2, ref_layer1, host_clamp]
  rfl

end Cert.ReferenceIdeal.RefValueHead

end
-- ==== Proof.RefValueHeadStages.lean ====
import proofs.«110368_j31911607009638_1_alg».proof.Proof.RefValueHead
import proofs.«110368_j31911607009638_1_alg».proof.Proof.RefRunStagesB
import proofs.«110368_j31911607009638_1_alg».proof.Proof.RefRunStagesC

set_option maxRecDepth 16384

noncomputable section

namespace Cert.ReferenceIdeal.RefValueHead

open Cert.ReferenceIdeal Cert.ReferenceIdeal.Facts₀ Cert.ReferenceIdeal.Facts
open Idealize.ShloMosaic Idealize.ShloMosaic.ValueIdx
open Cert.Layers Cert.LibAttention Cert.LibMatProd
open Cert.ReferenceIdeal.RefRun (refValPre refValPost callRelu5)
open Cert.KernelIdeal.Hand (valueSpec)

/-! # The reference's two value stages are the value head -/

/-- The reference's two value stages, composed, are its operation sequence %93 … %102. -/
theorem refVal_eq_ops (hid : Vec Ideal S512x256 .f32) (vfc2w : Vec Ideal S256x131072 .f32) (vfc2b : Vec Ideal S256 .f32)
    (vfc3w : Vec Ideal S1x256 .f32) (vfc3b : Vec Ideal S1 .f32) :
    refValPost (F := Ideal) (refValPre (F := Ideal) hid vfc2w vfc2b) vfc3w vfc3b = refValueOps hid vfc2w vfc2b vfc3w vfc3b := by
  unfold refValPost refValPre callRelu5 refValueOps
  rfl

/-- The reference's value stages are the value head of the weights, the embedding re-laid as one row, the bias as a row,
    the second weights and the second bias as a 1 x 1 row. -/
theorem refVal_eq (hid : Vec Ideal S512x256 .f32) (vfc2w : Vec Ideal S256x131072 .f32) (vfc2b : Vec Ideal S256 .f32)
    (vfc3w : Vec Ideal S1x256 .f32) (vfc3b : Vec Ideal S1 .f32) :
    refValPost (F := Ideal) (refValPre (F := Ideal) hid vfc2w vfc2b) vfc3w vfc3b
      = valueSpec vfc2w (shapeCast S1x131072 hid shapeCasts_S512x256_S1x131072) (rowOf vfc2b) vfc3w (rowOf vfc3b) :=
  (refVal_eq_ops hid vfc2w vfc2b vfc3w vfc3b).trans (refValueOps_eq hid vfc2w vfc2b vfc3w vfc3b)

/-- The kernel's rows — the bias and the second bias re-laid as one row by a reshape — are the same one-row matrices:
    the value head at them is the value head at the vectors as rows. -/
theorem valueSpec_reshaped_rows (W : Mat 256 131072) (x : Mat 1 131072) (vb : (⟨1, ![256]⟩ : Shape).Idx → EReal) (w3 : Mat 1 256)
    (b3 : (⟨1, ![1]⟩ : Shape).Idx → EReal) (h256 : (⟨1, ![256]⟩ : Shape).ShapeCasts ⟨2, ![1, 256]⟩)
    (h1 : (⟨1, ![1]⟩ : Shape).ShapeCasts ⟨2, ![1, 1]⟩) :
    valueSpec W x (shapeCast ⟨2, ![1, 256]⟩ vb h256) w3 (shapeCast ⟨2, ![1, 1]⟩ b3 h1) = valueSpec W x (rowOf vb) w3 (rowOf b3) := by
  rw [reshape_row_256, reshape_row_1]

end Cert.ReferenceIdeal.RefValueHead

end
-- ==== Proof.RefRunIdx.lean ====
/- The two index vectors of the strict upper triangle, closed terms of no argument: the running count of the triangle's
   mask scattered as ones and summed again; its floor quotient by 512, and by 1, each reduced modulo 512 — the raw vectors;
   and each raw vector with its negative entries moved up by 512 — the vectors the rows are gathered at. -/
import proofs.«110368_j31911607009638_1_alg».proof.Proof.Gen.ReferenceIdeal
import proofs.«110368_j31911607009638_1_alg».proof.Proof.RefRunCalls
import proofs.«110368_j31911607009638_1_alg».proof.Proof.RefRunStagesA
import proofs.«110368_j31911607009638_1_alg».proof.Proof.RefRunStagesB

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The running count the two index vectors are read from (buffer `main_v51`). -/
def refCnt : Vec F S130816 .i32 :=
  refCount (F := F) refOne refZeros (refPosCol (refClip (refCum refMask)))

/-- The first raw index vector (buffer `main_v53`). -/
def refIdxRaw0 : Vec F S130816 .i32 :=
  refRem512 (F := F) (refDiv512 refCnt)

/-- The second raw index vector (buffer `main_v55`). -/
def refIdxRaw1 : Vec F S130816 .i32 :=
  refRem512 (F := F) (refDiv1 refCnt)

/-- The first index vector (buffer `main_v60`). -/
def refIdx0 : Vec F S130816 .i32 :=
  refWrap (F := F) refIdxRaw0

/-- The second index vector (buffer `main_v67`). -/
def refIdx1 : Vec F S130816 .i32 :=
  refWrap (F := F) refIdxRaw1

theorem refIdxRaw0_eq : (refIdxRaw0 : Vec F S130816 .i32) = refRem512 (refDiv512 refCnt) := rfl
theorem refIdxRaw1_eq : (refIdxRaw1 : Vec F S130816 .i32) = refRem512 (refDiv1 refCnt) := rfl
theorem refIdx0_eq : (refIdx0 : Vec F S130816 .i32) = refWrap refIdxRaw0 := rfl
theorem refIdx1_eq : (refIdx1 : Vec F S130816 .i32) = refWrap refIdxRaw1 := rfl

/-- The wrap, spelt out: an entry below zero is moved up by 512. -/
theorem refWrap_eq (r : Vec F S130816 .i32) :
    refWrap (F := F) r = select (cmpi .slt r (broadcastInDim S130816 ![] bcast_S_S130816 (constantI S_ 32 0#32)))
      (addi r (broadcastInDim S130816 ![] bcast_S_S130816 (constantI S_ 32 512#32))) r := rfl

end Cert.ReferenceIdeal.RefRun

end
-- ==== Proof.KI.BridgeCore.lean ====
import proofs.«110368_j31911607009638_1_alg».proof.Proof.KI.KernelValue
import proofs.«110368_j31911607009638_1_alg».proof.Proof.KI.BridgeShape
import proofs.«110368_j31911607009638_1_alg».proof.Proof.KI.PairsBridge
import proofs.«110368_j31911607009638_1_alg».proof.Proof.RefTrunkValue
import proofs.«110368_j31911607009638_1_alg».proof.Proof.RefActionStage
import proofs.«110368_j31911607009638_1_alg».proof.Proof.RefValueHeadStages
import proofs.«110368_j31911607009638_1_alg».proof.Proof.RefRunIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The two results are one function of the arguments

At the ideal instance both programs compute, for every index pair of the strict upper triangle, the two class
probabilities of the pair's edge, and beside them the value head's scalar. The kernel program reaches the edge layer's
pre-activation as a sum of two projections of the attention output, one per endpoint; the reference as one product
with the two endpoints' rows side by side: the same number, a sum over 512 terms split into its two halves. The
value head's sum over 131072 terms is regrouped into sixteen blocks. Nothing else differs but the spelling. -/

open Cert.KernelIdeal.TrunkValue Cert.KernelIdeal.PairsValue Cert.Layers Cert.LibAttention
open Cert.ReferenceIdeal.RefRun Cert.ReferenceIdeal.RefActionValue

variable (m : (ℓ : Loc nD τ sig) → Buf (Elt Ideal) ℓ) (ρ : Dev nD → PrngReg)

/-- The wrap of a raw index vector is the same operations in both programs. -/
theorem wrap512_eq_refWrap (r : (⟨S130816, .i32⟩ : BufTy).Contents (Elt Ideal)) : wrap512 (F := Ideal) r = refWrap (F := Ideal) r := by
  unfold wrap512 refWrap
  rfl

/-- The kernel program's result is the reference's operations applied to the same arguments, given that the two
    programs' raw index vectors agree. -/
theorem bridge_core (c : Dev nD)
    (h0 : B22 m ρ c main_v28 = (refRem512 (F := Ideal) (refDiv512 (F := Ideal) (refCnt (F := Ideal))))) (h1 : B22 m ρ c main_v30 = (refRem512 (F := Ideal) (refDiv1 (F := Ideal) (refCnt (F := Ideal))))) :
    B23 m ρ c main_v46 = refOut (F := Ideal) (refActCore (F := Ideal) (refHCore (F := Ideal) (refAttn (F := Ideal) (refQkv (F := Ideal) (refHid (F := Ideal) (m ((c : Thread nD τ).loc main_arg0)) (m ((c : Thread nD τ).loc main_arg1)) (m ((c : Thread nD τ).loc main_arg2))) (m ((c : Thread nD τ).loc main_arg3)) (m ((c : Thread nD τ).loc main_arg4)))) (refVal (F := Ideal) (refQkv (F := Ideal) (refHid (F := Ideal) (m ((c : Thread nD τ).loc main_arg0)) (m ((c : Thread nD τ).loc main_arg1)) (m ((c : Thread nD τ).loc main_arg2))) (m ((c : Thread nD τ).loc main_arg3)) (m ((c : Thread nD τ).loc main_arg4)))) (m ((c : Thread nD τ).loc main_arg5)) (m ((c : Thread nD τ).loc main_arg6))) (refGather0 (F := Ideal) (refHCore (F := Ideal) (refAttn (F := Ideal) (refQkv (F := Ideal) (refHid (F := Ideal) (m ((c : Thread nD τ).loc main_arg0)) (m ((c : Thread nD τ).loc main_arg1)) (m ((c : Thread nD τ).loc main_arg2))) (m ((c : Thread nD τ).loc main_arg3)) (m ((c : Thread nD τ).loc main_arg4)))) (refVal (F := Ideal) (refQkv (F := Ideal) (refHid (F := Ideal) (m ((c : Thread nD τ).loc main_arg0)) (m ((c : Thread nD τ).loc main_arg1)) (m ((c : Thread nD τ).loc main_arg2))) (m ((c : Thread nD τ).loc main_arg3)) (m ((c : Thread nD τ).loc main_arg4)))) (m ((c : Thread nD τ).loc main_arg5)) (m ((c : Thread nD τ).loc main_arg6))) (refWrap (F := Ideal) (refRem512 (F := Ideal) (refDiv512 (F := Ideal) (refCnt (F := Ideal)))))) (refWrap (F := Ideal) (refRem512 (F := Ideal) (refDiv1 (F := Ideal) (refCnt (F := Ideal))))) (m ((c : Thread nD τ).loc main_arg7)) (m ((c : Thread nD τ).loc main_arg8)) (m ((c : Thread nD τ).loc main_arg9)) (m ((c : Thread nD τ).loc main_arg10))) (refValPost (F := Ideal) (refValPre (F := Ideal) (refHid (F := Ideal) (m ((c : Thread nD τ).loc main_arg0)) (m ((c : Thread nD τ).loc main_arg1)) (m ((c : Thread nD τ).loc main_arg2))) (m ((c : Thread nD τ).loc main_arg11)) (m ((c : Thread nD τ).loc main_arg12))) (m ((c : Thread nD τ).loc main_arg13)) (m ((c : Thread nD τ).loc main_arg14))) := by
  rw [kernel_result, tailK_eq_refOut]
  -- the reference's stages as the layers they spell
  rw [Cert.ReferenceIdeal.RefTrunkValue.refHid_eq, Cert.ReferenceIdeal.RefTrunkValue.refQkv_eq,
    Cert.ReferenceIdeal.RefTrunkValue.refAttn_eq, Cert.ReferenceIdeal.RefTrunkValue.refHCore_eq,
    refActCore_eq, Cert.ReferenceIdeal.RefValueHead.refVal_eq]
  -- the kernel side's reshaped bias rows are the reference's rows
  simp only [reshape_row]
  congr 1
  funext i
  obtain ⟨p, k, rfl⟩ : ∃ (p : Fin 130816) (k : Fin 2), i = ValueIdx.ix2 p k := ⟨i 0, i 1, ValueIdx.eq_ix2 i⟩
  refine (tail_gather_apply (F := Ideal) _ _ _ p k).trans ?_
  rw [h0, h1, wrap512_eq_refWrap, wrap512_eq_refWrap]
  exact (refActionSpec_eq_pairs _ _ _ _ _ _ _ p k).symm

end Cert.KernelIdeal.Hand

end
-- ==== Proof.KI.IdxChain.lean ====
/- The kernel program computes the two raw index vectors of the strict upper triangle by the same host operations as the
   reference, in its own buffers. Stretch by stretch, from any contents: the stretch's result buffer holds a pure function
   of the contents it reads — an outlined call the reference's function of that call, a plain stretch the composed term
   of its operations. Chained through the contents after each item of the program, with a buffer a stretch does not
   write carried across it, the two vectors are closed terms of no argument: the reference's own. -/
import proofs.«110368_j31911607009638_1_alg».proof.Proof.KI.Run
import proofs.«110368_j31911607009638_1_alg».proof.Proof.RefRunCalls
import proofs.«110368_j31911607009638_1_alg».proof.Proof.RefRunIdx

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

set_option maxRecDepth 16384 in
set_option maxHeartbeats 1000000 in
/-- The stretch from any contents: `main_v11` after it, as a pure function of the contents it reads. -/
theorem hostOps3_main_v11 (W : Valuation τ sig (Elt F)) :
    StableHlo.after hostOps3 W (Proc.devRef .tc main_v11) = ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F))) := by
  simp only [hostOps3]
  after_results_simp
  all_goals rfl
theorem B7_main_v11 (c : Dev nD) : B7 m ρ c main_v11 = ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F))) := by
  rw [show B7 m ρ c main_v11 = StableHlo.after hostOps3 (B6 m ρ c) (Proc.devRef .tc main_v11) from rfl, hostOps3_main_v11]

set_option maxRecDepth 16384 in
set_option maxHeartbeats 1000000 in
/-- The stretch from any contents: `main_v12` after it, as a pure function of the contents it reads. -/
theorem hostOps3_1_main_v12 (W : Valuation τ sig (Elt F)) :
    StableHlo.after hostOps3_1 W (Proc.devRef .tc main_v12) = Cert.ReferenceIdeal.RefRun.callTriu (F := F) (W (Proc.devRef .tc main_v11)) := by
  simp only [hostOps3_1]
  after_results_simp
  try simp only [StableHlo.TRef.toBuf, StableHlo.TRef.ofBuf, cast_eq]
  unfold Cert.ReferenceIdeal.RefRun.callTriu
  all_goals rfl
theorem B8_main_v12 (c : Dev nD) : B8 m ρ c main_v12 = (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) := by
  rw [show B8 m ρ c main_v12 = StableHlo.after hostOps3_1 (B7 m ρ c) (Proc.devRef .tc main_v12) from rfl, hostOps3_1_main_v12, B7_main_v11 m ρ c]

set_option maxRecDepth 16384 in
set_option maxHeartbeats 1000000 in
/-- The stretch from any contents: `main_v14` after it, as a pure function of the contents it reads. -/
theorem hostOps3_2_main_v14 (W : Valuation τ sig (Elt F)) :
    StableHlo.after hostOps3_2 W (Proc.devRef .tc main_v14) = ((cmpf .une : (⟨S512x512, .f32⟩ : BufTy).Contents (Elt F) → (⟨S512x512, .f32⟩ : BufTy).Contents (Elt F) → (⟨S512x512, .i1⟩ : BufTy).Contents (Elt F)) (W (Proc.devRef .tc main_v12)) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F)))) := by
  simp only [hostOps3_2]
  after_results_simp
  all_goals rfl
theorem B9_main_v14 (c : Dev nD) : B9 m ρ c main_v14 = ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F)))) := by
  rw [show B9 m ρ c main_v14 = StableHlo.after hostOps3_2 (B8 m ρ c) (Proc.devRef .tc main_v14) from rfl, hostOps3_2_main_v14, B8_main_v12 m ρ c]

set_option maxRecDepth 16384 in
set_option maxHeartbeats 1000000 in
/-- The stretch from any contents: `main_v15` after it, as a pure function of the contents it reads. -/
theorem hostOps3_3_main_v15 (W : Valuation τ sig (Elt F)) :
    StableHlo.after hostOps3_3 W (Proc.devRef .tc main_v15) = Cert.ReferenceIdeal.RefRun.callCumsum (F := F) (W (Proc.devRef .tc main_v14)) := by
  simp only [hostOps3_3]
  after_results_simp
  try simp only [StableHlo.TRef.toBuf, StableHlo.TRef.ofBuf, cast_eq]
  unfold Cert.ReferenceIdeal.RefRun.callCumsum
  all_goals rfl
theorem B10_main_v15 (c : Dev nD) : B10 m ρ c main_v15 = (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) := by
  rw [show B10 m ρ c main_v15 = StableHlo.after hostOps3_3 (B9 m ρ c) (Proc.devRef .tc main_v15) from rfl, hostOps3_3_main_v15, B9_main_v14 m ρ c]

set_option maxRecDepth 16384 in
set_option maxHeartbeats 1000000 in
/-- The stretch from any contents: `main_v16` after it, as a pure function of the contents it reads. -/
theorem hostOps3_4_main_v16 (W : Valuation τ sig (Elt F)) :
    StableHlo.after hostOps3_4 W (Proc.devRef .tc main_v16) = ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) := by
  simp only [hostOps3_4]
  after_results_simp
  all_goals rfl
theorem B11_main_v16 (c : Dev nD) : B11 m ρ c main_v16 = ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) := by
  rw [show B11 m ρ c main_v16 = StableHlo.after hostOps3_4 (B10 m ρ c) (Proc.devRef .tc main_v16) from rfl, hostOps3_4_main_v16]

set_option maxRecDepth 16384 in
set_option maxHeartbeats 1000000 in
/-- The stretch from any contents: `main_c_1` after it, as a pure function of the contents it reads. -/
theorem hostOps3_4_main_c_1 (W : Valuation τ sig (Elt F)) :
    StableHlo.after hostOps3_4 W (Proc.devRef .tc main_c_1) = ((constantI S_ 32 0#32) : (⟨S_, .i32⟩ : BufTy).Contents (Elt F)) := by
  simp only [hostOps3_4]
  after_results_simp
  all_goals rfl
theorem B11_main_c_1 (c : Dev nD) : B11 m ρ c main_c_1 = ((constantI S_ 32 0#32) : (⟨S_, .i32⟩ : BufTy).Contents (Elt F)) := by
  rw [show B11 m ρ c main_c_1 = StableHlo.after hostOps3_4 (B10 m ρ c) (Proc.devRef .tc main_c_1) from rfl, hostOps3_4_main_c_1]
theorem B11_main_v15 (c : Dev nD) : B11 m ρ c main_v15 = (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) :=
  (B11_of m ρ c main_v15 (by decide)).trans (B10_main_v15 m ρ c)

set_option maxRecDepth 16384 in
set_option maxHeartbeats 1000000 in
/-- The stretch from any contents: `main_v17` after it, as a pure function of the contents it reads. -/
theorem hostOps3_5_main_v17 (W : Valuation τ sig (Elt F)) :
    StableHlo.after hostOps3_5 W (Proc.devRef .tc main_v17) = Cert.ReferenceIdeal.RefRun.callClip (F := F) (W (Proc.devRef .tc main_v15)) (W (Proc.devRef .tc main_c_1)) := by
  simp only [hostOps3_5]
  after_results_simp
  try simp only [StableHlo.TRef.toBuf, StableHlo.TRef.ofBuf, cast_eq]
  unfold Cert.ReferenceIdeal.RefRun.callClip
  all_goals rfl
theorem B12_main_v17 (c : Dev nD) : B12 m ρ c main_v17 = (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) := by
  rw [show B12 m ρ c main_v17 = StableHlo.after hostOps3_5 (B11 m ρ c) (Proc.devRef .tc main_v17) from rfl, hostOps3_5_main_v17, B11_main_v15 m ρ c, B11_main_c_1 m ρ c]
theorem B12_main_v16 (c : Dev nD) : B12 m ρ c main_v16 = ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) :=
  (B12_of m ρ c main_v16 (by decide)).trans (B11_main_v16 m ρ c)

set_option maxRecDepth 16384 in
set_option maxHeartbeats 1000000 in
/-- The stretch from any contents: `main_v25` after it, as a pure function of the contents it reads. -/
theorem hostOps3_6_main_v25 (W : Valuation τ sig (Elt F)) :
    StableHlo.after hostOps3_6 W (Proc.devRef .tc main_v25) = (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) (W (Proc.devRef .tc main_v16)) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (W (Proc.devRef .tc main_v17)) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (W (Proc.devRef .tc main_v17)) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (W (Proc.devRef .tc main_v17)))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F)))) := by
  simp only [hostOps3_6]
  after_results_simp
  all_goals rfl
theorem B13_main_v25 (c : Dev nD) : B13 m ρ c main_v25 = (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F)))) := by
  rw [show B13 m ρ c main_v25 = StableHlo.after hostOps3_6 (B12 m ρ c) (Proc.devRef .tc main_v25) from rfl, hostOps3_6_main_v25, B12_main_v16 m ρ c, B12_main_v17 m ρ c]

set_option maxRecDepth 16384 in
set_option maxHeartbeats 1000000 in
/-- The stretch from any contents: `main_v26` after it, as a pure function of the contents it reads. -/
theorem hostOps3_7_main_v26 (W : Valuation τ sig (Elt F)) :
    StableHlo.after hostOps3_7 W (Proc.devRef .tc main_v26) = Cert.ReferenceIdeal.RefRun.callCumsum1 (F := F) (W (Proc.devRef .tc main_v25)) := by
  simp only [hostOps3_7]
  after_results_simp
  try simp only [StableHlo.TRef.toBuf, StableHlo.TRef.ofBuf, cast_eq]
  unfold Cert.ReferenceIdeal.RefRun.callCumsum1
  all_goals rfl
theorem B14_main_v26 (c : Dev nD) : B14 m ρ c main_v26 = (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) := by
  rw [show B14 m ρ c main_v26 = StableHlo.after hostOps3_7 (B13 m ρ c) (Proc.devRef .tc main_v26) from rfl, hostOps3_7_main_v26, B13_main_v25 m ρ c]

set_option maxRecDepth 16384 in
set_option maxHeartbeats 1000000 in
/-- The stretch from any contents: `main_c_5` after it, as a pure function of the contents it reads. -/
theorem hostOps3_8_main_c_5 (W : Valuation τ sig (Elt F)) :
    StableHlo.after hostOps3_8 W (Proc.devRef .tc main_c_5) = ((constantI S_ 32 512#32) : (⟨S_, .i32⟩ : BufTy).Contents (Elt F)) := by
  simp only [hostOps3_8]
  after_results_simp
  all_goals rfl
theorem B15_main_c_5 (c : Dev nD) : B15 m ρ c main_c_5 = ((constantI S_ 32 512#32) : (⟨S_, .i32⟩ : BufTy).Contents (Elt F)) := by
  rw [show B15 m ρ c main_c_5 = StableHlo.after hostOps3_8 (B14 m ρ c) (Proc.devRef .tc main_c_5) from rfl, hostOps3_8_main_c_5]
theorem B15_main_v26 (c : Dev nD) : B15 m ρ c main_v26 = (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) :=
  (B15_of m ρ c main_v26 (by decide)).trans (B14_main_v26 m ρ c)

set_option maxRecDepth 16384 in
set_option maxHeartbeats 1000000 in
/-- The stretch from any contents: `main_v27` after it, as a pure function of the contents it reads. -/
theorem hostOps3_9_main_v27 (W : Valuation τ sig (Elt F)) :
    StableHlo.after hostOps3_9 W (Proc.devRef .tc main_v27) = Cert.ReferenceIdeal.RefRun.callFloorDivide (F := F) (W (Proc.devRef .tc main_v26)) (W (Proc.devRef .tc main_c_5)) := by
  simp only [hostOps3_9]
  after_results_simp
  try simp only [StableHlo.TRef.toBuf, StableHlo.TRef.ofBuf, cast_eq]
  unfold Cert.ReferenceIdeal.RefRun.callFloorDivide
  all_goals rfl
theorem B16_main_v27 (c : Dev nD) : B16 m ρ c main_v27 = (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 512#32) : (⟨S_, .i32⟩ : BufTy).Contents (Elt F))) := by
  rw [show B16 m ρ c main_v27 = StableHlo.after hostOps3_9 (B15 m ρ c) (Proc.devRef .tc main_v27) from rfl, hostOps3_9_main_v27, B15_main_v26 m ρ c, B15_main_c_5 m ρ c]
theorem B16_main_v26 (c : Dev nD) : B16 m ρ c main_v26 = (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) :=
  (B16_of m ρ c main_v26 (by decide)).trans (B15_main_v26 m ρ c)

set_option maxRecDepth 16384 in
set_option maxHeartbeats 1000000 in
/-- The stretch from any contents: `main_c_6` after it, as a pure function of the contents it reads. -/
theorem hostOps3_10_main_c_6 (W : Valuation τ sig (Elt F)) :
    StableHlo.after hostOps3_10 W (Proc.devRef .tc main_c_6) = ((constantI S_ 32 512#32) : (⟨S_, .i32⟩ : BufTy).Contents (Elt F)) := by
  simp only [hostOps3_10]
  after_results_simp
  all_goals rfl
theorem B17_main_c_6 (c : Dev nD) : B17 m ρ c main_c_6 = ((constantI S_ 32 512#32) : (⟨S_, .i32⟩ : BufTy).Contents (Elt F)) := by
  rw [show B17 m ρ c main_c_6 = StableHlo.after hostOps3_10 (B16 m ρ c) (Proc.devRef .tc main_c_6) from rfl, hostOps3_10_main_c_6]
theorem B17_main_v26 (c : Dev nD) : B17 m ρ c main_v26 = (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) :=
  (B17_of m ρ c main_v26 (by decide)).trans (B16_main_v26 m ρ c)
theorem B17_main_v27 (c : Dev nD) : B17 m ρ c main_v27 = (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 512#32) : (⟨S_, .i32⟩ : BufTy).Contents (Elt F))) :=
  (B17_of m ρ c main_v27 (by decide)).trans (B16_main_v27 m ρ c)

set_option maxRecDepth 16384 in
set_option maxHeartbeats 1000000 in
/-- The stretch from any contents: `main_v28` after it, as a pure function of the contents it reads. -/
theorem hostOps3_11_main_v28 (W : Valuation τ sig (Elt F)) :
    StableHlo.after hostOps3_11 W (Proc.devRef .tc main_v28) = Cert.ReferenceIdeal.RefRun.callRemainder (F := F) (W (Proc.devRef .tc main_v27)) (W (Proc.devRef .tc main_c_6)) := by
  simp only [hostOps3_11]
  after_results_simp
  try simp only [StableHlo.TRef.toBuf, StableHlo.TRef.ofBuf, cast_eq]
  unfold Cert.ReferenceIdeal.RefRun.callRemainder
  all_goals rfl
theorem B18_main_v28 (c : Dev nD) : B18 m ρ c main_v28 = (Cert.ReferenceIdeal.RefRun.callRemainder (F := F) (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 512#32) : (⟨S_, .i32⟩ : BufTy).Contents (Elt F))) ((constantI S_ 32 512#32) : (⟨S_, .i32⟩ : BufTy).Contents (Elt F))) := by
  rw [show B18 m ρ c main_v28 = StableHlo.after hostOps3_11 (B17 m ρ c) (Proc.devRef .tc main_v28) from rfl, hostOps3_11_main_v28, B17_main_v27 m ρ c, B17_main_c_6 m ρ c]
theorem B18_main_v26 (c : Dev nD) : B18 m ρ c main_v26 = (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) :=
  (B18_of m ρ c main_v26 (by decide)).trans (B17_main_v26 m ρ c)

set_option maxRecDepth 16384 in
set_option maxHeartbeats 1000000 in
/-- The stretch from any contents: `main_c_7` after it, as a pure function of the contents it reads. -/
theorem hostOps3_12_main_c_7 (W : Valuation τ sig (Elt F)) :
    StableHlo.after hostOps3_12 W (Proc.devRef .tc main_c_7) = ((constantI S_ 32 1#32) : (⟨S_, .i32⟩ : BufTy).Contents (Elt F)) := by
  simp only [hostOps3_12]
  after_results_simp
  all_goals rfl
theorem B19_main_c_7 (c : Dev nD) : B19 m ρ c main_c_7 = ((constantI S_ 32 1#32) : (⟨S_, .i32⟩ : BufTy).Contents (Elt F)) := by
  rw [show B19 m ρ c main_c_7 = StableHlo.after hostOps3_12 (B18 m ρ c) (Proc.devRef .tc main_c_7) from rfl, hostOps3_12_main_c_7]
theorem B19_main_v26 (c : Dev nD) : B19 m ρ c main_v26 = (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) :=
  (B19_of m ρ c main_v26 (by decide)).trans (B18_main_v26 m ρ c)
theorem B19_main_v28 (c : Dev nD) : B19 m ρ c main_v28 = (Cert.ReferenceIdeal.RefRun.callRemainder (F := F) (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 512#32) : (⟨S_, .i32⟩ : BufTy).Contents (Elt F))) ((constantI S_ 32 512#32) : (⟨S_, .i32⟩ : BufTy).Contents (Elt F))) :=
  (B19_of m ρ c main_v28 (by decide)).trans (B18_main_v28 m ρ c)

set_option maxRecDepth 16384 in
set_option maxHeartbeats 1000000 in
/-- The stretch from any contents: `main_v29` after it, as a pure function of the contents it reads. -/
theorem hostOps3_13_main_v29 (W : Valuation τ sig (Elt F)) :
    StableHlo.after hostOps3_13 W (Proc.devRef .tc main_v29) = Cert.ReferenceIdeal.RefRun.callFloorDivide (F := F) (W (Proc.devRef .tc main_v26)) (W (Proc.devRef .tc main_c_7)) := by
  simp only [hostOps3_13]
  after_results_simp
  try simp only [StableHlo.TRef.toBuf, StableHlo.TRef.ofBuf, cast_eq]
  unfold Cert.ReferenceIdeal.RefRun.callFloorDivide
  all_goals rfl
theorem B20_main_v29 (c : Dev nD) : B20 m ρ c main_v29 = (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 1#32) : (⟨S_, .i32⟩ : BufTy).Contents (Elt F))) := by
  rw [show B20 m ρ c main_v29 = StableHlo.after hostOps3_13 (B19 m ρ c) (Proc.devRef .tc main_v29) from rfl, hostOps3_13_main_v29, B19_main_v26 m ρ c, B19_main_c_7 m ρ c]
theorem B20_main_v28 (c : Dev nD) : B20 m ρ c main_v28 = (Cert.ReferenceIdeal.RefRun.callRemainder (F := F) (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 512#32) : (⟨S_, .i32⟩ : BufTy).Contents (Elt F))) ((constantI S_ 32 512#32) : (⟨S_, .i32⟩ : BufTy).Contents (Elt F))) :=
  (B20_of m ρ c main_v28 (by decide)).trans (B19_main_v28 m ρ c)

set_option maxRecDepth 16384 in
set_option maxHeartbeats 1000000 in
/-- The stretch from any contents: `main_c_8` after it, as a pure function of the contents it reads. -/
theorem hostOps3_14_main_c_8 (W : Valuation τ sig (Elt F)) :
    StableHlo.after hostOps3_14 W (Proc.devRef .tc main_c_8) = ((constantI S_ 32 512#32) : (⟨S_, .i32⟩ : BufTy).Contents (Elt F)) := by
  simp only [hostOps3_14]
  after_results_simp
  all_goals rfl
theorem B21_main_c_8 (c : Dev nD) : B21 m ρ c main_c_8 = ((constantI S_ 32 512#32) : (⟨S_, .i32⟩ : BufTy).Contents (Elt F)) := by
  rw [show B21 m ρ c main_c_8 = StableHlo.after hostOps3_14 (B20 m ρ c) (Proc.devRef .tc main_c_8) from rfl, hostOps3_14_main_c_8]
theorem B21_main_v28 (c : Dev nD) : B21 m ρ c main_v28 = (Cert.ReferenceIdeal.RefRun.callRemainder (F := F) (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 512#32) : (⟨S_, .i32⟩ : BufTy).Contents (Elt F))) ((constantI S_ 32 512#32) : (⟨S_, .i32⟩ : BufTy).Contents (Elt F))) :=
  (B21_of m ρ c main_v28 (by decide)).trans (B20_main_v28 m ρ c)
theorem B21_main_v29 (c : Dev nD) : B21 m ρ c main_v29 = (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 1#32) : (⟨S_, .i32⟩ : BufTy).Contents (Elt F))) :=
  (B21_of m ρ c main_v29 (by decide)).trans (B20_main_v29 m ρ c)

set_option maxRecDepth 16384 in
set_option maxHeartbeats 1000000 in
/-- The stretch from any contents: `main_v30` after it, as a pure function of the contents it reads. -/
theorem hostOps3_15_main_v30 (W : Valuation τ sig (Elt F)) :
    StableHlo.after hostOps3_15 W (Proc.devRef .tc main_v30) = Cert.ReferenceIdeal.RefRun.callRemainder (F := F) (W (Proc.devRef .tc main_v29)) (W (Proc.devRef .tc main_c_8)) := by
  simp only [hostOps3_15]
  after_results_simp
  try simp only [StableHlo.TRef.toBuf, StableHlo.TRef.ofBuf, cast_eq]
  unfold Cert.ReferenceIdeal.RefRun.callRemainder
  all_goals rfl
theorem B22_main_v30' (c : Dev nD) : B22 m ρ c main_v30 = (Cert.ReferenceIdeal.RefRun.callRemainder (F := F) (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 1#32) : (⟨S_, .i32⟩ : BufTy).Contents (Elt F))) ((constantI S_ 32 512#32) : (⟨S_, .i32⟩ : BufTy).Contents (Elt F))) := by
  rw [show B22 m ρ c main_v30 = StableHlo.after hostOps3_15 (B21 m ρ c) (Proc.devRef .tc main_v30) from rfl, hostOps3_15_main_v30, B21_main_v29 m ρ c, B21_main_c_8 m ρ c]
theorem B22_main_v28' (c : Dev nD) : B22 m ρ c main_v28 = (Cert.ReferenceIdeal.RefRun.callRemainder (F := F) (Cert.ReferenceIdeal.RefRun.callFloorDivide (F := F) (Cert.ReferenceIdeal.RefRun.callCumsum1 (F := F) (((fun x i u => Host.scatter scatter_S130816_S262144x1_S262144_n_0_0_1 IntOp.addi x i u) : (⟨S130816, .i32⟩ : BufTy).Contents (Elt F) → (⟨S262144x1, .i32⟩ : BufTy).Contents (Elt F) → (⟨S262144, .i32⟩ : BufTy).Contents (Elt F) → (⟨S130816, .i32⟩ : BufTy).Contents (Elt F)) ((broadcastInDim S130816 ![] bcast_S_S130816 : (⟨S_, .i32⟩ : BufTy).Contents (Elt F) → (⟨S130816, .i32⟩ : BufTy).Contents (Elt F)) ((constantI S_ 32 0#32) : (⟨S_, .i32⟩ : BufTy).Contents (Elt F))) ((broadcastInDim S262144x1 ![0] bcast_S262144_S262144x1_0 : (⟨S262144, .i32⟩ : BufTy).Contents (Elt F) → (⟨S262144x1, .i32⟩ : BufTy).Contents (Elt F)) ((select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ((cmpi .slt : (⟨S262144, .i32⟩ : BufTy).Contents (Elt F) → (⟨S262144, .i32⟩ : BufTy).Contents (Elt F) → (⟨S262144, .i1⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 0#32) : (⟨S_, .i32⟩ : BufTy).Contents (Elt F)))) ((addi : (⟨S262144, .i32⟩ : BufTy).Contents (Elt F) → (⟨S262144, .i32⟩ : BufTy).Contents (Elt F) → (⟨S262144, .i32⟩ : BufTy).Contents (Elt F)) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))) ((broadcastInDim S262144 ![] bcast_S_S262144 : (⟨S_, .i32⟩ : BufTy).Contents (Elt F) → (⟨S262144, .i32⟩ : BufTy).Contents (Elt F)) ((constantI S_ 32 130816#32) : (⟨S_, .i32⟩ : BufTy).Contents (Elt F)))) (Cert.ReferenceIdeal.RefRun.callClip (F := F) (Cert.ReferenceIdeal.RefRun.callCumsum (F := F) ((cmpf .une : (⟨S512x512, .f32⟩ : BufTy).Contents (Elt F) → (⟨S512x512, .f32⟩ : BufTy).Contents (Elt F) → (⟨S512x512, .i1⟩ : BufTy).Contents (Elt F)) (Cert.ReferenceIdeal.RefRun.callTriu (F := F) ((broadcastInDim S512x512 ![] bcast_S_S512x512 : (⟨S_, .f32⟩ : BufTy).Contents (Elt F) → (⟨S512x512, .f32⟩ : BufTy).Contents (Elt F)) ((constant S_ .f32 0x3F800000#32) : (⟨S_, .f32⟩ : BufTy).Contents (Elt F)))) ((broadcastInDim S512x512 ![] bcast_S_S512x512 : (⟨S_, .f32⟩ : BufTy).Contents (Elt F) → (⟨S512x512, .f32⟩ : BufTy).Contents (Elt F)) ((constant S_ .f32 0x00000000#32) : (⟨S_, .f32⟩ : BufTy).Contents (Elt F))))) ((constantI S_ 32 0#32) : (⟨S_, .i32⟩ : BufTy).Contents (Elt F))))) ((broadcastInDim S262144 ![] bcast_S_S262144 : (⟨S_, .i32⟩ : BufTy).Contents (Elt F) → (⟨S262144, .i32⟩ : BufTy).Contents (Elt F)) ((constantI S_ 32 1#32) : (⟨S_, .i32⟩ : BufTy).Contents (Elt F))))) ((constantI S_ 32 512#32) : (⟨S_, .i32⟩ : BufTy).Contents (Elt F))) ((constantI S_ 32 512#32) : (⟨S_, .i32⟩ : BufTy).Contents (Elt F))) :=
  (B22_of m ρ c main_v28 (by decide)).trans (B21_main_v28 m ρ c)

/-- The kernel's first raw index vector is the reference's. -/
theorem B22_main_v28 (c : Dev nD) : B22 m ρ c main_v28 = Cert.ReferenceIdeal.RefRun.refRem512 (F := F) (Cert.ReferenceIdeal.RefRun.refDiv512 (F := F) (Cert.ReferenceIdeal.RefRun.refCnt (F := F))) := by
  rw [B22_main_v28']
  unfold Cert.ReferenceIdeal.RefRun.refRem512 Cert.ReferenceIdeal.RefRun.refCnt Cert.ReferenceIdeal.RefRun.refCount Cert.ReferenceIdeal.RefRun.refOne Cert.ReferenceIdeal.RefRun.refZeros Cert.ReferenceIdeal.RefRun.refPosCol Cert.ReferenceIdeal.RefRun.refClip Cert.ReferenceIdeal.RefRun.refCum Cert.ReferenceIdeal.RefRun.refMask Cert.ReferenceIdeal.RefRun.refDiv512
  rfl

/-- The kernel's second raw index vector is the reference's. -/
theorem B22_main_v30 (c : Dev nD) : B22 m ρ c main_v30 = Cert.ReferenceIdeal.RefRun.refRem512 (F := F) (Cert.ReferenceIdeal.RefRun.refDiv1 (F := F) (Cert.ReferenceIdeal.RefRun.refCnt (F := F))) := by
  rw [B22_main_v30']
  unfold Cert.ReferenceIdeal.RefRun.refRem512 Cert.ReferenceIdeal.RefRun.refCnt Cert.ReferenceIdeal.RefRun.refCount Cert.ReferenceIdeal.RefRun.refOne Cert.ReferenceIdeal.RefRun.refZeros Cert.ReferenceIdeal.RefRun.refPosCol Cert.ReferenceIdeal.RefRun.refClip Cert.ReferenceIdeal.RefRun.refCum Cert.ReferenceIdeal.RefRun.refMask Cert.ReferenceIdeal.RefRun.refDiv1
  rfl

end Cert.KernelIdeal.Hand

end
-- ==== Proof.RefRunOps.lean ====
/- The reference's whole straight line: its 219 host operations in order, every call inlined at its site, as the
   20 consecutive chunks of the three windows. The program is that line run in order; every buffer the line
   touches is a TensorCore reference and every operation determines its results, so from any memory with zero counters
   every weakly fair execution terminates with each TensorCore buffer at the line's fold over the launch contents; and
   a buffer that no operation of the line writes keeps its contents through the fold. -/
import proofs.«110368_j31911607009638_1_alg».proof.Proof.Gen.ReferenceIdeal
import Idealize.ShloMosaic.Lib.StableHlo.Run
import proofs.«110368_j31911607009638_1_alg».proof.Proof.RefRunOpsA
import proofs.«110368_j31911607009638_1_alg».proof.Proof.RefRunOpsB
import proofs.«110368_j31911607009638_1_alg».proof.Proof.RefRunOpsC

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem mem_app {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-- The fold of two lines run one after the other is the second's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- If each of two lines keeps every buffer outside its own list of written buffers, the two run one after the other
    keep every buffer outside both lists. -/
theorem keep_app {l₁ l₂ : List (HloOp τ sig (Elt F))} {W₁ W₂ : List (Ref sig .tc)}
    (k₁ : ∀ (V : Valuation τ sig (Elt F)) (r : Ref sig .tc), r ∉ W₁ → after l₁ V (Proc.devRef .tc r) = V (Proc.devRef .tc r))
    (k₂ : ∀ (V : Valuation τ sig (Elt F)) (r : Ref sig .tc), r ∉ W₂ → after l₂ V (Proc.devRef .tc r) = V (Proc.devRef .tc r))
    (V : Valuation τ sig (Elt F)) (r : Ref sig .tc) (h : r ∉ W₁ ++ W₂) :
    after (l₁ ++ l₂) V (Proc.devRef .tc r) = V (Proc.devRef .tc r) := by
  rw [after_app, k₂ _ r (fun h2 => h (List.mem_append_right _ h2)), k₁ V r (fun h1 => h (List.mem_append_left _ h1))]

/-- The reference's 219 operations, in order. -/
abbrev ops : List (HloOp τ sig (Elt F)) :=
  c01 ++ (c02 ++ (c03 ++ (c04 ++ (c05 ++ (c06a ++ (c06b ++ (c06c ++ (c07 ++ (c08 ++ (c09 ++ (c10 ++ (c11 ++ (c12 ++ (c13 ++ (c14 ++ (c15 ++ (c16 ++ (c17 ++ (c18)))))))))))))))))))

theorem ops_def : (ops : List (HloOp τ sig (Elt F))) = c01 ++ (c02 ++ (c03 ++ (c04 ++ (c05 ++ (c06a ++ (c06b ++ (c06c ++ (c07 ++ (c08 ++ (c09 ++ (c10 ++ (c11 ++ (c12 ++ (c13 ++ (c14 ++ (c15 ++ (c16 ++ (c17 ++ (c18))))))))))))))))))) := rfl

/-- The program is the line: its three windows, each the chunks it prints, run in order. -/
theorem main_eq (c : Dev nD) : main (F := F) c = seq ops := by
  have e : (c01 ++ (c02 ++ (c03 ++ (c04 ++ (c05 ++ (c06a ++ (c06b ++ (c06c ++ (c07 ++ (c08 ++ (c09 ++ (c10 ++ (c11 ++ (c12 ++ (c13 ++ (c14 ++ (c15 ++ (c16 ++ (c17 ++ (c18))))))))))))))))))) : List (HloOp τ sig (Elt F))) = (c01 ++ c02 ++ c03 ++ c04 ++ c05 ++ c06a ++ c06b ++ c06c) ++ ((c07 ++ c08 ++ c09 ++ c10 ++ c11 ++ c12 ++ c13 ++ c14 ++ c15 ++ c16) ++ (c17 ++ c18)) := by
    simp only [List.append_assoc]
  rw [ops_def, e, seq_append (c01 ++ c02 ++ c03 ++ c04 ++ c05 ++ c06a ++ c06b ++ c06c) ((c07 ++ c08 ++ c09 ++ c10 ++ c11 ++ c12 ++ c13 ++ c14 ++ c15 ++ c16) ++ (c17 ++ c18)), seq_append (c07 ++ c08 ++ c09 ++ c10 ++ c11 ++ c12 ++ c13 ++ c14 ++ c15 ++ c16) (c17 ++ c18),
    ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : ∀ op ∈ (ops : List (HloOp τ sig (Elt F))), op.bufs ⊆ tcRefs τ sig :=
  show ∀ op ∈ (c01 ++ (c02 ++ (c03 ++ (c04 ++ (c05 ++ (c06a ++ (c06b ++ (c06c ++ (c07 ++ (c08 ++ (c09 ++ (c10 ++ (c11 ++ (c12 ++ (c13 ++ (c14 ++ (c15 ++ (c16 ++ (c17 ++ (c18))))))))))))))))))) : List (HloOp τ sig (Elt F))), op.bufs ⊆ tcRefs τ sig from
  mem_app (List.forall_iff_forall_mem.mp c01_sub) (mem_app (List.forall_iff_forall_mem.mp c02_sub) (mem_app (List.forall_iff_forall_mem.mp c03_sub) (mem_app (List.forall_iff_forall_mem.mp c04_sub) (mem_app (List.forall_iff_forall_mem.mp c05_sub) (mem_app (List.forall_iff_forall_mem.mp c06a_sub) (mem_app (List.forall_iff_forall_mem.mp c06b_sub) (mem_app (List.forall_iff_forall_mem.mp c06c_sub) (mem_app (List.forall_iff_forall_mem.mp c07_sub) (mem_app (List.forall_iff_forall_mem.mp c08_sub) (mem_app (List.forall_iff_forall_mem.mp c09_sub) (mem_app (List.forall_iff_forall_mem.mp c10_sub) (mem_app (List.forall_iff_forall_mem.mp c11_sub) (mem_app (List.forall_iff_forall_mem.mp c12_sub) (mem_app (List.forall_iff_forall_mem.mp c13_sub) (mem_app (List.forall_iff_forall_mem.mp c14_sub) (mem_app (List.forall_iff_forall_mem.mp c15_sub) (mem_app (List.forall_iff_forall_mem.mp c16_sub) (mem_app (List.forall_iff_forall_mem.mp c17_sub) (List.forall_iff_forall_mem.mp c18_sub)))))))))))))))))))

/-- Every operation of the line determines its results. -/
theorem ops_fresh : ∀ op ∈ (ops : List (HloOp τ sig (Elt F))), op.fresh = ∅ :=
  show ∀ op ∈ (c01 ++ (c02 ++ (c03 ++ (c04 ++ (c05 ++ (c06a ++ (c06b ++ (c06c ++ (c07 ++ (c08 ++ (c09 ++ (c10 ++ (c11 ++ (c12 ++ (c13 ++ (c14 ++ (c15 ++ (c16 ++ (c17 ++ (c18))))))))))))))))))) : List (HloOp τ sig (Elt F))), op.fresh = ∅ from
  mem_app (List.forall_iff_forall_mem.mp c01_fresh) (mem_app (List.forall_iff_forall_mem.mp c02_fresh) (mem_app (List.forall_iff_forall_mem.mp c03_fresh) (mem_app (List.forall_iff_forall_mem.mp c04_fresh) (mem_app (List.forall_iff_forall_mem.mp c05_fresh) (mem_app (List.forall_iff_forall_mem.mp c06a_fresh) (mem_app (List.forall_iff_forall_mem.mp c06b_fresh) (mem_app (List.forall_iff_forall_mem.mp c06c_fresh) (mem_app (List.forall_iff_forall_mem.mp c07_fresh) (mem_app (List.forall_iff_forall_mem.mp c08_fresh) (mem_app (List.forall_iff_forall_mem.mp c09_fresh) (mem_app (List.forall_iff_forall_mem.mp c10_fresh) (mem_app (List.forall_iff_forall_mem.mp c11_fresh) (mem_app (List.forall_iff_forall_mem.mp c12_fresh) (mem_app (List.forall_iff_forall_mem.mp c13_fresh) (mem_app (List.forall_iff_forall_mem.mp c14_fresh) (mem_app (List.forall_iff_forall_mem.mp c15_fresh) (mem_app (List.forall_iff_forall_mem.mp c16_fresh) (mem_app (List.forall_iff_forall_mem.mp c17_fresh) (List.forall_iff_forall_mem.mp c18_fresh)))))))))))))))))))

/-- The buffers the line writes, in order: 219 of them, none an argument. -/
abbrev ops_W : List (Ref sig .tc) :=
  c01_W ++ (c02_W ++ (c03_W ++ (c04_W ++ (c05_W ++ (c06a_W ++ (c06b_W ++ (c06c_W ++ (c07_W ++ (c08_W ++ (c09_W ++ (c10_W ++ (c11_W ++ (c12_W ++ (c13_W ++ (c14_W ++ (c15_W ++ (c16_W ++ (c17_W ++ (c18_W)))))))))))))))))))

/-- A buffer the line does not write keeps its contents through it. -/
theorem ops_keep (V : Valuation τ sig (Elt F)) (r : Ref sig .tc) (h : r ∉ ops_W) :
    after ops V (Proc.devRef .tc r) = V (Proc.devRef .tc r) :=
  show after (c01 ++ (c02 ++ (c03 ++ (c04 ++ (c05 ++ (c06a ++ (c06b ++ (c06c ++ (c07 ++ (c08 ++ (c09 ++ (c10 ++ (c11 ++ (c12 ++ (c13 ++ (c14 ++ (c15 ++ (c16 ++ (c17 ++ (c18)))))))))))))))))))) V (Proc.devRef .tc r) = V (Proc.devRef .tc r) from
  keep_app c01_keep (keep_app c02_keep (keep_app c03_keep (keep_app c04_keep (keep_app c05_keep (keep_app c06a_keep (keep_app c06b_keep (keep_app c06c_keep (keep_app c07_keep (keep_app c08_keep (keep_app c09_keep (keep_app c10_keep (keep_app c11_keep (keep_app c12_keep (keep_app c13_keep (keep_app c14_keep (keep_app c15_keep (keep_app c16_keep (keep_app c17_keep (c18_keep))))))))))))))))))) V r h

/-- At the compiled mesh, for any float values, from any memory with zero counters: every weakly fair execution of the
    program on the TensorCores terminates, and every final state has each TensorCore buffer at the line's fold over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq
    (fun _ => List.forall_iff_forall_mem.mpr ops_sub) m ρ (fun _ => ops_fresh)

end Cert.ReferenceIdeal.RefRun

end
-- ==== Proof.RefRun.lean ====
/- The reference's run, with its result named stage by stage. The composite stages: the attention block's output from
   the attention weights and the joint projection; the action head from the attended rows and the two index vectors; the
   value head from the hidden layer. Then the contents of the device's buffers chunk by chunk: after each chunk, every
   buffer a later chunk reads holds its stage of the launch contents of the arguments — a stage buffer by the chunk's own
   stage lemma, an earlier one because the chunk does not write it. Last, the run: every weakly fair execution terminates
   with the result buffer at the stages' composition over the launch contents, the fifteen arguments unchanged. -/
import proofs.«110368_j31911607009638_1_alg».proof.Proof.Gen.ReferenceIdeal
import Idealize.ShloMosaic.Lib.StableHlo.Run
import proofs.«110368_j31911607009638_1_alg».proof.Proof.RefRunOps
import proofs.«110368_j31911607009638_1_alg».proof.Proof.RefRunStagesA
import proofs.«110368_j31911607009638_1_alg».proof.Proof.RefRunStagesB
import proofs.«110368_j31911607009638_1_alg».proof.Proof.RefRunStagesC
import proofs.«110368_j31911607009638_1_alg».proof.Proof.RefRunIdx

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The attention block's output: attention applied to the value columns of the joint projection, then the output
    projection plus bias (buffer `main_v35`). -/
def refH (attn : Vec F S512x512 .f32) (qkv : Vec F S512x768 .f32) (outw : Vec F S256x256 .f32) (outb : Vec F S256 .f32) : Vec F S512x256 .f32 :=
  refHCore attn (refVal qkv) outw outb

/-- The action head: the rows of `h` at the two index vectors side by side, two affine layers with a relu between, the
    2-way softmax (buffer `main_v92`). -/
def refAction (h : Vec F S512x256 .f32) (idx0 : Vec F S130816 .i32) (idx1 : Vec F S130816 .i32) (fc2w : Vec F S256x512 .f32) (fc2b : Vec F S256 .f32)
    (fc3w : Vec F S2x256 .f32) (fc3b : Vec F S2 .f32) : Vec F S130816x2 .f32 :=
  refActCore h (refGather0 h idx0) idx1 fc2w fc2b fc3w fc3b

/-- The value head: the flattened hidden layer through two affine layers with a relu between (buffer `main_v102`). -/
def refValue (hid : Vec F S512x256 .f32) (vfc2w : Vec F S256x131072 .f32) (vfc2b : Vec F S256 .f32) (vfc3w : Vec F S1x256 .f32) (vfc3b : Vec F S1 .f32) :
    Vec F S1x1 .f32 :=
  refValPost (refValPre hid vfc2w vfc2b) vfc3w vfc3b

/-- The contents the fold starts from. -/
def val00 (V : Valuation τ sig (Elt F)) : Valuation τ sig (Elt F) := V
/-- The device's buffer contents after the first 1 chunk. -/
def val01 (V : Valuation τ sig (Elt F)) : Valuation τ sig (Elt F) := after c01 (val00 V)
theorem val01_def (V : Valuation τ sig (Elt F)) : val01 V = after c01 (val00 V) := rfl
/-- The device's buffer contents after the first 2 chunks. -/
def val02 (V : Valuation τ sig (Elt F)) : Valuation τ sig (Elt F) := after c02 (val01 V)
theorem val02_def (V : Valuation τ sig (Elt F)) : val02 V = after c02 (val01 V) := rfl
/-- The device's buffer contents after the first 3 chunks. -/
def val03 (V : Valuation τ sig (Elt F)) : Valuation τ sig (Elt F) := after c03 (val02 V)
theorem val03_def (V : Valuation τ sig (Elt F)) : val03 V = after c03 (val02 V) := rfl
/-- The device's buffer contents after the first 4 chunks. -/
def val04 (V : Valuation τ sig (Elt F)) : Valuation τ sig (Elt F) := after c04 (val03 V)
theorem val04_def (V : Valuation τ sig (Elt F)) : val04 V = after c04 (val03 V) := rfl
/-- The device's buffer contents after the first 5 chunks. -/
def val05 (V : Valuation τ sig (Elt F)) : Valuation τ sig (Elt F) := after c05 (val04 V)
theorem val05_def (V : Valuation τ sig (Elt F)) : val05 V = after c05 (val04 V) := rfl
/-- The device's buffer contents after the first 6 chunks. -/
def val06 (V : Valuation τ sig (Elt F)) : Valuation τ sig (Elt F) := after c06a (val05 V)
theorem val06_def (V : Valuation τ sig (Elt F)) : val06 V = after c06a (val05 V) := rfl
/-- The device's buffer contents after the first 7 chunks. -/
def val07 (V : Valuation τ sig (Elt F)) : Valuation τ sig (Elt F) := after c06b (val06 V)
theorem val07_def (V : Valuation τ sig (Elt F)) : val07 V = after c06b (val06 V) := rfl
/-- The device's buffer contents after the first 8 chunks. -/
def val08 (V : Valuation τ sig (Elt F)) : Valuation τ sig (Elt F) := after c06c (val07 V)
theorem val08_def (V : Valuation τ sig (Elt F)) : val08 V = after c06c (val07 V) := rfl
/-- The device's buffer contents after the first 9 chunks. -/
def val09 (V : Valuation τ sig (Elt F)) : Valuation τ sig (Elt F) := after c07 (val08 V)
theorem val09_def (V : Valuation τ sig (Elt F)) : val09 V = after c07 (val08 V) := rfl
/-- The device's buffer contents after the first 10 chunks. -/
def val10 (V : Valuation τ sig (Elt F)) : Valuation τ sig (Elt F) := after c08 (val09 V)
theorem val10_def (V : Valuation τ sig (Elt F)) : val10 V = after c08 (val09 V) := rfl
/-- The device's buffer contents after the first 11 chunks. -/
def val11 (V : Valuation τ sig (Elt F)) : Valuation τ sig (Elt F) := after c09 (val10 V)
theorem val11_def (V : Valuation τ sig (Elt F)) : val11 V = after c09 (val10 V) := rfl
/-- The device's buffer contents after the first 12 chunks. -/
def val12 (V : Valuation τ sig (Elt F)) : Valuation τ sig (Elt F) := after c10 (val11 V)
theorem val12_def (V : Valuation τ sig (Elt F)) : val12 V = after c10 (val11 V) := rfl
/-- The device's buffer contents after the first 13 chunks. -/
def val13 (V : Valuation τ sig (Elt F)) : Valuation τ sig (Elt F) := after c11 (val12 V)
theorem val13_def (V : Valuation τ sig (Elt F)) : val13 V = after c11 (val12 V) := rfl
/-- The device's buffer contents after the first 14 chunks. -/
def val14 (V : Valuation τ sig (Elt F)) : Valuation τ sig (Elt F) := after c12 (val13 V)
theorem val14_def (V : Valuation τ sig (Elt F)) : val14 V = after c12 (val13 V) := rfl
/-- The device's buffer contents after the first 15 chunks. -/
def val15 (V : Valuation τ sig (Elt F)) : Valuation τ sig (Elt F) := after c13 (val14 V)
theorem val15_def (V : Valuation τ sig (Elt F)) : val15 V = after c13 (val14 V) := rfl
/-- The device's buffer contents after the first 16 chunks. -/
def val16 (V : Valuation τ sig (Elt F)) : Valuation τ sig (Elt F) := after c14 (val15 V)
theorem val16_def (V : Valuation τ sig (Elt F)) : val16 V = after c14 (val15 V) := rfl
/-- The device's buffer contents after the first 17 chunks. -/
def val17 (V : Valuation τ sig (Elt F)) : Valuation τ sig (Elt F) := after c15 (val16 V)
theorem val17_def (V : Valuation τ sig (Elt F)) : val17 V = after c15 (val16 V) := rfl
/-- The device's buffer contents after the first 18 chunks. -/
def val18 (V : Valuation τ sig (Elt F)) : Valuation τ sig (Elt F) := after c16 (val17 V)
theorem val18_def (V : Valuation τ sig (Elt F)) : val18 V = after c16 (val17 V) := rfl
/-- The device's buffer contents after the first 19 chunks. -/
def val19 (V : Valuation τ sig (Elt F)) : Valuation τ sig (Elt F) := after c17 (val18 V)
theorem val19_def (V : Valuation τ sig (Elt F)) : val19 V = after c17 (val18 V) := rfl
/-- The device's buffer contents after the first 20 chunks. -/
def val20 (V : Valuation τ sig (Elt F)) : Valuation τ sig (Elt F) := after c18 (val19 V)
theorem val20_def (V : Valuation τ sig (Elt F)) : val20 V = after c18 (val19 V) := rfl

/-- The whole line's fold is the chunks' folds in order. -/
theorem after_ops (V : Valuation τ sig (Elt F)) : after ops V = val20 V := by
  simp only [ops_def, after_app]
  rfl
theorem val00_main_arg1 (V : Valuation τ sig (Elt F)) : val00 V (Proc.devRef .tc main_arg1) = V (Proc.devRef .tc main_arg1) := rfl
theorem val00_main_arg0 (V : Valuation τ sig (Elt F)) : val00 V (Proc.devRef .tc main_arg0) = V (Proc.devRef .tc main_arg0) := rfl
theorem val00_main_arg2 (V : Valuation τ sig (Elt F)) : val00 V (Proc.devRef .tc main_arg2) = V (Proc.devRef .tc main_arg2) := rfl
theorem val00_main_arg3 (V : Valuation τ sig (Elt F)) : val00 V (Proc.devRef .tc main_arg3) = V (Proc.devRef .tc main_arg3) := rfl
theorem val00_main_arg4 (V : Valuation τ sig (Elt F)) : val00 V (Proc.devRef .tc main_arg4) = V (Proc.devRef .tc main_arg4) := rfl
theorem val00_main_arg5 (V : Valuation τ sig (Elt F)) : val00 V (Proc.devRef .tc main_arg5) = V (Proc.devRef .tc main_arg5) := rfl
theorem val00_main_arg6 (V : Valuation τ sig (Elt F)) : val00 V (Proc.devRef .tc main_arg6) = V (Proc.devRef .tc main_arg6) := rfl
theorem val00_main_arg7 (V : Valuation τ sig (Elt F)) : val00 V (Proc.devRef .tc main_arg7) = V (Proc.devRef .tc main_arg7) := rfl
theorem val00_main_arg8 (V : Valuation τ sig (Elt F)) : val00 V (Proc.devRef .tc main_arg8) = V (Proc.devRef .tc main_arg8) := rfl
theorem val00_main_arg9 (V : Valuation τ sig (Elt F)) : val00 V (Proc.devRef .tc main_arg9) = V (Proc.devRef .tc main_arg9) := rfl
theorem val00_main_arg10 (V : Valuation τ sig (Elt F)) : val00 V (Proc.devRef .tc main_arg10) = V (Proc.devRef .tc main_arg10) := rfl
theorem val00_main_arg11 (V : Valuation τ sig (Elt F)) : val00 V (Proc.devRef .tc main_arg11) = V (Proc.devRef .tc main_arg11) := rfl
theorem val00_main_arg12 (V : Valuation τ sig (Elt F)) : val00 V (Proc.devRef .tc main_arg12) = V (Proc.devRef .tc main_arg12) := rfl
theorem val00_main_arg13 (V : Valuation τ sig (Elt F)) : val00 V (Proc.devRef .tc main_arg13) = V (Proc.devRef .tc main_arg13) := rfl
theorem val00_main_arg14 (V : Valuation τ sig (Elt F)) : val00 V (Proc.devRef .tc main_arg14) = V (Proc.devRef .tc main_arg14) := rfl
theorem val01_main_arg3 (V : Valuation τ sig (Elt F)) : val01 V (Proc.devRef .tc main_arg3) = V (Proc.devRef .tc main_arg3) := by
  rw [val01_def, c01_keep _ _ (by decide), val00_main_arg3]
theorem val01_main_v5 (V : Valuation τ sig (Elt F)) : val01 V (Proc.devRef .tc main_v5) = refHid (V (Proc.devRef .tc main_arg0)) (V (Proc.devRef .tc main_arg1)) (V (Proc.devRef .tc main_arg2)) := by
  rw [val01_def, c01_main_v5, val00_main_arg0, val00_main_arg1, val00_main_arg2]
theorem val01_main_arg4 (V : Valuation τ sig (Elt F)) : val01 V (Proc.devRef .tc main_arg4) = V (Proc.devRef .tc main_arg4) := by
  rw [val01_def, c01_keep _ _ (by decide), val00_main_arg4]
theorem val01_main_arg5 (V : Valuation τ sig (Elt F)) : val01 V (Proc.devRef .tc main_arg5) = V (Proc.devRef .tc main_arg5) := by
  rw [val01_def, c01_keep _ _ (by decide), val00_main_arg5]
theorem val01_main_arg6 (V : Valuation τ sig (Elt F)) : val01 V (Proc.devRef .tc main_arg6) = V (Proc.devRef .tc main_arg6) := by
  rw [val01_def, c01_keep _ _ (by decide), val00_main_arg6]
theorem val01_main_arg7 (V : Valuation τ sig (Elt F)) : val01 V (Proc.devRef .tc main_arg7) = V (Proc.devRef .tc main_arg7) := by
  rw [val01_def, c01_keep _ _ (by decide), val00_main_arg7]
theorem val01_main_arg8 (V : Valuation τ sig (Elt F)) : val01 V (Proc.devRef .tc main_arg8) = V (Proc.devRef .tc main_arg8) := by
  rw [val01_def, c01_keep _ _ (by decide), val00_main_arg8]
theorem val01_main_arg9 (V : Valuation τ sig (Elt F)) : val01 V (Proc.devRef .tc main_arg9) = V (Proc.devRef .tc main_arg9) := by
  rw [val01_def, c01_keep _ _ (by decide), val00_main_arg9]
theorem val01_main_arg10 (V : Valuation τ sig (Elt F)) : val01 V (Proc.devRef .tc main_arg10) = V (Proc.devRef .tc main_arg10) := by
  rw [val01_def, c01_keep _ _ (by decide), val00_main_arg10]
theorem val01_main_arg11 (V : Valuation τ sig (Elt F)) : val01 V (Proc.devRef .tc main_arg11) = V (Proc.devRef .tc main_arg11) := by
  rw [val01_def, c01_keep _ _ (by decide), val00_main_arg11]
theorem val01_main_arg12 (V : Valuation τ sig (Elt F)) : val01 V (Proc.devRef .tc main_arg12) = V (Proc.devRef .tc main_arg12) := by
  rw [val01_def, c01_keep _ _ (by decide), val00_main_arg12]
theorem val01_main_arg13 (V : Valuation τ sig (Elt F)) : val01 V (Proc.devRef .tc main_arg13) = V (Proc.devRef .tc main_arg13) := by
  rw [val01_def, c01_keep _ _ (by decide), val00_main_arg13]
theorem val01_main_arg14 (V : Valuation τ sig (Elt F)) : val01 V (Proc.devRef .tc main_arg14) = V (Proc.devRef .tc main_arg14) := by
  rw [val01_def, c01_keep _ _ (by decide), val00_main_arg14]
theorem val02_main_v10 (V : Valuation τ sig (Elt F)) : val02 V (Proc.devRef .tc main_v10) = refQkv (refHid (V (Proc.devRef .tc main_arg0)) (V (Proc.devRef .tc main_arg1)) (V (Proc.devRef .tc main_arg2))) (V (Proc.devRef .tc main_arg3)) (V (Proc.devRef .tc main_arg4)) := by
  rw [val02_def, c02_main_v10, val01_main_v5, val01_main_arg3, val01_main_arg4]
theorem val02_main_arg5 (V : Valuation τ sig (Elt F)) : val02 V (Proc.devRef .tc main_arg5) = V (Proc.devRef .tc main_arg5) := by
  rw [val02_def, c02_keep _ _ (by decide), val01_main_arg5]
theorem val02_main_arg6 (V : Valuation τ sig (Elt F)) : val02 V (Proc.devRef .tc main_arg6) = V (Proc.devRef .tc main_arg6) := by
  rw [val02_def, c02_keep _ _ (by decide), val01_main_arg6]
theorem val02_main_arg7 (V : Valuation τ sig (Elt F)) : val02 V (Proc.devRef .tc main_arg7) = V (Proc.devRef .tc main_arg7) := by
  rw [val02_def, c02_keep _ _ (by decide), val01_main_arg7]
theorem val02_main_arg8 (V : Valuation τ sig (Elt F)) : val02 V (Proc.devRef .tc main_arg8) = V (Proc.devRef .tc main_arg8) := by
  rw [val02_def, c02_keep _ _ (by decide), val01_main_arg8]
theorem val02_main_arg9 (V : Valuation τ sig (Elt F)) : val02 V (Proc.devRef .tc main_arg9) = V (Proc.devRef .tc main_arg9) := by
  rw [val02_def, c02_keep _ _ (by decide), val01_main_arg9]
theorem val02_main_arg10 (V : Valuation τ sig (Elt F)) : val02 V (Proc.devRef .tc main_arg10) = V (Proc.devRef .tc main_arg10) := by
  rw [val02_def, c02_keep _ _ (by decide), val01_main_arg10]
theorem val02_main_v5 (V : Valuation τ sig (Elt F)) : val02 V (Proc.devRef .tc main_v5) = refHid (V (Proc.devRef .tc main_arg0)) (V (Proc.devRef .tc main_arg1)) (V (Proc.devRef .tc main_arg2)) := by
  rw [val02_def, c02_keep _ _ (by decide), val01_main_v5]
theorem val02_main_arg11 (V : Valuation τ sig (Elt F)) : val02 V (Proc.devRef .tc main_arg11) = V (Proc.devRef .tc main_arg11) := by
  rw [val02_def, c02_keep _ _ (by decide), val01_main_arg11]
theorem val02_main_arg12 (V : Valuation τ sig (Elt F)) : val02 V (Proc.devRef .tc main_arg12) = V (Proc.devRef .tc main_arg12) := by
  rw [val02_def, c02_keep _ _ (by decide), val01_main_arg12]
theorem val02_main_arg13 (V : Valuation τ sig (Elt F)) : val02 V (Proc.devRef .tc main_arg13) = V (Proc.devRef .tc main_arg13) := by
  rw [val02_def, c02_keep _ _ (by decide), val01_main_arg13]
theorem val02_main_arg14 (V : Valuation τ sig (Elt F)) : val02 V (Proc.devRef .tc main_arg14) = V (Proc.devRef .tc main_arg14) := by
  rw [val02_def, c02_keep _ _ (by decide), val01_main_arg14]
theorem val03_main_v29 (V : Valuation τ sig (Elt F)) : val03 V (Proc.devRef .tc main_v29) = refAttn (refQkv (refHid (V (Proc.devRef .tc main_arg0)) (V (Proc.devRef .tc main_arg1)) (V (Proc.devRef .tc main_arg2))) (V (Proc.devRef .tc main_arg3)) (V (Proc.devRef .tc main_arg4))) := by
  rw [val03_def, c03_main_v29, val02_main_v10]
theorem val03_main_v13 (V : Valuation τ sig (Elt F)) : val03 V (Proc.devRef .tc main_v13) = refVal (refQkv (refHid (V (Proc.devRef .tc main_arg0)) (V (Proc.devRef .tc main_arg1)) (V (Proc.devRef .tc main_arg2))) (V (Proc.devRef .tc main_arg3)) (V (Proc.devRef .tc main_arg4))) := by
  rw [val03_def, c03_main_v13, val02_main_v10]
theorem val03_main_arg5 (V : Valuation τ sig (Elt F)) : val03 V (Proc.devRef .tc main_arg5) = V (Proc.devRef .tc main_arg5) := by
  rw [val03_def, c03_keep _ _ (by decide), val02_main_arg5]
theorem val03_main_arg6 (V : Valuation τ sig (Elt F)) : val03 V (Proc.devRef .tc main_arg6) = V (Proc.devRef .tc main_arg6) := by
  rw [val03_def, c03_keep _ _ (by decide), val02_main_arg6]
theorem val03_main_arg7 (V : Valuation τ sig (Elt F)) : val03 V (Proc.devRef .tc main_arg7) = V (Proc.devRef .tc main_arg7) := by
  rw [val03_def, c03_keep _ _ (by decide), val02_main_arg7]
theorem val03_main_arg8 (V : Valuation τ sig (Elt F)) : val03 V (Proc.devRef .tc main_arg8) = V (Proc.devRef .tc main_arg8) := by
  rw [val03_def, c03_keep _ _ (by decide), val02_main_arg8]
theorem val03_main_arg9 (V : Valuation τ sig (Elt F)) : val03 V (Proc.devRef .tc main_arg9) = V (Proc.devRef .tc main_arg9) := by
  rw [val03_def, c03_keep _ _ (by decide), val02_main_arg9]
theorem val03_main_arg10 (V : Valuation τ sig (Elt F)) : val03 V (Proc.devRef .tc main_arg10) = V (Proc.devRef .tc main_arg10) := by
  rw [val03_def, c03_keep _ _ (by decide), val02_main_arg10]
theorem val03_main_v5 (V : Valuation τ sig (Elt F)) : val03 V (Proc.devRef .tc main_v5) = refHid (V (Proc.devRef .tc main_arg0)) (V (Proc.devRef .tc main_arg1)) (V (Proc.devRef .tc main_arg2)) := by
  rw [val03_def, c03_keep _ _ (by decide), val02_main_v5]
theorem val03_main_arg11 (V : Valuation τ sig (Elt F)) : val03 V (Proc.devRef .tc main_arg11) = V (Proc.devRef .tc main_arg11) := by
  rw [val03_def, c03_keep _ _ (by decide), val02_main_arg11]
theorem val03_main_arg12 (V : Valuation τ sig (Elt F)) : val03 V (Proc.devRef .tc main_arg12) = V (Proc.devRef .tc main_arg12) := by
  rw [val03_def, c03_keep _ _ (by decide), val02_main_arg12]
theorem val03_main_arg13 (V : Valuation τ sig (Elt F)) : val03 V (Proc.devRef .tc main_arg13) = V (Proc.devRef .tc main_arg13) := by
  rw [val03_def, c03_keep _ _ (by decide), val02_main_arg13]
theorem val03_main_arg14 (V : Valuation τ sig (Elt F)) : val03 V (Proc.devRef .tc main_arg14) = V (Proc.devRef .tc main_arg14) := by
  rw [val03_def, c03_keep _ _ (by decide), val02_main_arg14]
theorem val04_main_v35 (V : Valuation τ sig (Elt F)) : val04 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val04_def, c04_main_v35, val03_main_v29, val03_main_v13, val03_main_arg5, val03_main_arg6]
theorem val04_main_arg7 (V : Valuation τ sig (Elt F)) : val04 V (Proc.devRef .tc main_arg7) = V (Proc.devRef .tc main_arg7) := by
  rw [val04_def, c04_keep _ _ (by decide), val03_main_arg7]
theorem val04_main_arg8 (V : Valuation τ sig (Elt F)) : val04 V (Proc.devRef .tc main_arg8) = V (Proc.devRef .tc main_arg8) := by
  rw [val04_def, c04_keep _ _ (by decide), val03_main_arg8]
theorem val04_main_arg9 (V : Valuation τ sig (Elt F)) : val04 V (Proc.devRef .tc main_arg9) = V (Proc.devRef .tc main_arg9) := by
  rw [val04_def, c04_keep _ _ (by decide), val03_main_arg9]
theorem val04_main_arg10 (V : Valuation τ sig (Elt F)) : val04 V (Proc.devRef .tc main_arg10) = V (Proc.devRef .tc main_arg10) := by
  rw [val04_def, c04_keep _ _ (by decide), val03_main_arg10]
theorem val04_main_v5 (V : Valuation τ sig (Elt F)) : val04 V (Proc.devRef .tc main_v5) = refHid (V (Proc.devRef .tc main_arg0)) (V (Proc.devRef .tc main_arg1)) (V (Proc.devRef .tc main_arg2)) := by
  rw [val04_def, c04_keep _ _ (by decide), val03_main_v5]
theorem val04_main_arg11 (V : Valuation τ sig (Elt F)) : val04 V (Proc.devRef .tc main_arg11) = V (Proc.devRef .tc main_arg11) := by
  rw [val04_def, c04_keep _ _ (by decide), val03_main_arg11]
theorem val04_main_arg12 (V : Valuation τ sig (Elt F)) : val04 V (Proc.devRef .tc main_arg12) = V (Proc.devRef .tc main_arg12) := by
  rw [val04_def, c04_keep _ _ (by decide), val03_main_arg12]
theorem val04_main_arg13 (V : Valuation τ sig (Elt F)) : val04 V (Proc.devRef .tc main_arg13) = V (Proc.devRef .tc main_arg13) := by
  rw [val04_def, c04_keep _ _ (by decide), val03_main_arg13]
theorem val04_main_arg14 (V : Valuation τ sig (Elt F)) : val04 V (Proc.devRef .tc main_arg14) = V (Proc.devRef .tc main_arg14) := by
  rw [val04_def, c04_keep _ _ (by decide), val03_main_arg14]
theorem val05_main_v39 (V : Valuation τ sig (Elt F)) : val05 V (Proc.devRef .tc main_v39) = refMask := by
  rw [val05_def, c05_main_v39]
theorem val05_main_v35 (V : Valuation τ sig (Elt F)) : val05 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val05_def, c05_keep _ _ (by decide), val04_main_v35]
theorem val05_main_arg7 (V : Valuation τ sig (Elt F)) : val05 V (Proc.devRef .tc main_arg7) = V (Proc.devRef .tc main_arg7) := by
  rw [val05_def, c05_keep _ _ (by decide), val04_main_arg7]
theorem val05_main_arg8 (V : Valuation τ sig (Elt F)) : val05 V (Proc.devRef .tc main_arg8) = V (Proc.devRef .tc main_arg8) := by
  rw [val05_def, c05_keep _ _ (by decide), val04_main_arg8]
theorem val05_main_arg9 (V : Valuation τ sig (Elt F)) : val05 V (Proc.devRef .tc main_arg9) = V (Proc.devRef .tc main_arg9) := by
  rw [val05_def, c05_keep _ _ (by decide), val04_main_arg9]
theorem val05_main_arg10 (V : Valuation τ sig (Elt F)) : val05 V (Proc.devRef .tc main_arg10) = V (Proc.devRef .tc main_arg10) := by
  rw [val05_def, c05_keep _ _ (by decide), val04_main_arg10]
theorem val05_main_v5 (V : Valuation τ sig (Elt F)) : val05 V (Proc.devRef .tc main_v5) = refHid (V (Proc.devRef .tc main_arg0)) (V (Proc.devRef .tc main_arg1)) (V (Proc.devRef .tc main_arg2)) := by
  rw [val05_def, c05_keep _ _ (by decide), val04_main_v5]
theorem val05_main_arg11 (V : Valuation τ sig (Elt F)) : val05 V (Proc.devRef .tc main_arg11) = V (Proc.devRef .tc main_arg11) := by
  rw [val05_def, c05_keep _ _ (by decide), val04_main_arg11]
theorem val05_main_arg12 (V : Valuation τ sig (Elt F)) : val05 V (Proc.devRef .tc main_arg12) = V (Proc.devRef .tc main_arg12) := by
  rw [val05_def, c05_keep _ _ (by decide), val04_main_arg12]
theorem val05_main_arg13 (V : Valuation τ sig (Elt F)) : val05 V (Proc.devRef .tc main_arg13) = V (Proc.devRef .tc main_arg13) := by
  rw [val05_def, c05_keep _ _ (by decide), val04_main_arg13]
theorem val05_main_arg14 (V : Valuation τ sig (Elt F)) : val05 V (Proc.devRef .tc main_arg14) = V (Proc.devRef .tc main_arg14) := by
  rw [val05_def, c05_keep _ _ (by decide), val04_main_arg14]
theorem val06_main_v40 (V : Valuation τ sig (Elt F)) : val06 V (Proc.devRef .tc main_v40) = refCum (refMask) := by
  rw [val06_def, c06a_main_v40, val05_main_v39]
theorem val06_main_v35 (V : Valuation τ sig (Elt F)) : val06 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val06_def, c06a_keep _ _ (by decide), val05_main_v35]
theorem val06_main_arg7 (V : Valuation τ sig (Elt F)) : val06 V (Proc.devRef .tc main_arg7) = V (Proc.devRef .tc main_arg7) := by
  rw [val06_def, c06a_keep _ _ (by decide), val05_main_arg7]
theorem val06_main_arg8 (V : Valuation τ sig (Elt F)) : val06 V (Proc.devRef .tc main_arg8) = V (Proc.devRef .tc main_arg8) := by
  rw [val06_def, c06a_keep _ _ (by decide), val05_main_arg8]
theorem val06_main_arg9 (V : Valuation τ sig (Elt F)) : val06 V (Proc.devRef .tc main_arg9) = V (Proc.devRef .tc main_arg9) := by
  rw [val06_def, c06a_keep _ _ (by decide), val05_main_arg9]
theorem val06_main_arg10 (V : Valuation τ sig (Elt F)) : val06 V (Proc.devRef .tc main_arg10) = V (Proc.devRef .tc main_arg10) := by
  rw [val06_def, c06a_keep _ _ (by decide), val05_main_arg10]
theorem val06_main_v5 (V : Valuation τ sig (Elt F)) : val06 V (Proc.devRef .tc main_v5) = refHid (V (Proc.devRef .tc main_arg0)) (V (Proc.devRef .tc main_arg1)) (V (Proc.devRef .tc main_arg2)) := by
  rw [val06_def, c06a_keep _ _ (by decide), val05_main_v5]
theorem val06_main_arg11 (V : Valuation τ sig (Elt F)) : val06 V (Proc.devRef .tc main_arg11) = V (Proc.devRef .tc main_arg11) := by
  rw [val06_def, c06a_keep _ _ (by decide), val05_main_arg11]
theorem val06_main_arg12 (V : Valuation τ sig (Elt F)) : val06 V (Proc.devRef .tc main_arg12) = V (Proc.devRef .tc main_arg12) := by
  rw [val06_def, c06a_keep _ _ (by decide), val05_main_arg12]
theorem val06_main_arg13 (V : Valuation τ sig (Elt F)) : val06 V (Proc.devRef .tc main_arg13) = V (Proc.devRef .tc main_arg13) := by
  rw [val06_def, c06a_keep _ _ (by decide), val05_main_arg13]
theorem val06_main_arg14 (V : Valuation τ sig (Elt F)) : val06 V (Proc.devRef .tc main_arg14) = V (Proc.devRef .tc main_arg14) := by
  rw [val06_def, c06a_keep _ _ (by decide), val05_main_arg14]
theorem val07_main_v42 (V : Valuation τ sig (Elt F)) : val07 V (Proc.devRef .tc main_v42) = refClip (refCum (refMask)) := by
  rw [val07_def, c06b_main_v42, val06_main_v40]
theorem val07_main_v41 (V : Valuation τ sig (Elt F)) : val07 V (Proc.devRef .tc main_v41) = refZeros := by
  rw [val07_def, c06b_main_v41]
theorem val07_main_v35 (V : Valuation τ sig (Elt F)) : val07 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val07_def, c06b_keep _ _ (by decide), val06_main_v35]
theorem val07_main_arg7 (V : Valuation τ sig (Elt F)) : val07 V (Proc.devRef .tc main_arg7) = V (Proc.devRef .tc main_arg7) := by
  rw [val07_def, c06b_keep _ _ (by decide), val06_main_arg7]
theorem val07_main_arg8 (V : Valuation τ sig (Elt F)) : val07 V (Proc.devRef .tc main_arg8) = V (Proc.devRef .tc main_arg8) := by
  rw [val07_def, c06b_keep _ _ (by decide), val06_main_arg8]
theorem val07_main_arg9 (V : Valuation τ sig (Elt F)) : val07 V (Proc.devRef .tc main_arg9) = V (Proc.devRef .tc main_arg9) := by
  rw [val07_def, c06b_keep _ _ (by decide), val06_main_arg9]
theorem val07_main_arg10 (V : Valuation τ sig (Elt F)) : val07 V (Proc.devRef .tc main_arg10) = V (Proc.devRef .tc main_arg10) := by
  rw [val07_def, c06b_keep _ _ (by decide), val06_main_arg10]
theorem val07_main_v5 (V : Valuation τ sig (Elt F)) : val07 V (Proc.devRef .tc main_v5) = refHid (V (Proc.devRef .tc main_arg0)) (V (Proc.devRef .tc main_arg1)) (V (Proc.devRef .tc main_arg2)) := by
  rw [val07_def, c06b_keep _ _ (by decide), val06_main_v5]
theorem val07_main_arg11 (V : Valuation τ sig (Elt F)) : val07 V (Proc.devRef .tc main_arg11) = V (Proc.devRef .tc main_arg11) := by
  rw [val07_def, c06b_keep _ _ (by decide), val06_main_arg11]
theorem val07_main_arg12 (V : Valuation τ sig (Elt F)) : val07 V (Proc.devRef .tc main_arg12) = V (Proc.devRef .tc main_arg12) := by
  rw [val07_def, c06b_keep _ _ (by decide), val06_main_arg12]
theorem val07_main_arg13 (V : Valuation τ sig (Elt F)) : val07 V (Proc.devRef .tc main_arg13) = V (Proc.devRef .tc main_arg13) := by
  rw [val07_def, c06b_keep _ _ (by decide), val06_main_arg13]
theorem val07_main_arg14 (V : Valuation τ sig (Elt F)) : val07 V (Proc.devRef .tc main_arg14) = V (Proc.devRef .tc main_arg14) := by
  rw [val07_def, c06b_keep _ _ (by decide), val06_main_arg14]
theorem val08_main_c_8 (V : Valuation τ sig (Elt F)) : val08 V (Proc.devRef .tc main_c_8) = refOne := by
  rw [val08_def, c06c_main_c_8]
theorem val08_main_v41 (V : Valuation τ sig (Elt F)) : val08 V (Proc.devRef .tc main_v41) = refZeros := by
  rw [val08_def, c06c_keep _ _ (by decide), val07_main_v41]
theorem val08_main_v48 (V : Valuation τ sig (Elt F)) : val08 V (Proc.devRef .tc main_v48) = refPosCol (refClip (refCum (refMask))) := by
  rw [val08_def, c06c_main_v48, val07_main_v42]
theorem val08_main_v35 (V : Valuation τ sig (Elt F)) : val08 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val08_def, c06c_keep _ _ (by decide), val07_main_v35]
theorem val08_main_arg7 (V : Valuation τ sig (Elt F)) : val08 V (Proc.devRef .tc main_arg7) = V (Proc.devRef .tc main_arg7) := by
  rw [val08_def, c06c_keep _ _ (by decide), val07_main_arg7]
theorem val08_main_arg8 (V : Valuation τ sig (Elt F)) : val08 V (Proc.devRef .tc main_arg8) = V (Proc.devRef .tc main_arg8) := by
  rw [val08_def, c06c_keep _ _ (by decide), val07_main_arg8]
theorem val08_main_arg9 (V : Valuation τ sig (Elt F)) : val08 V (Proc.devRef .tc main_arg9) = V (Proc.devRef .tc main_arg9) := by
  rw [val08_def, c06c_keep _ _ (by decide), val07_main_arg9]
theorem val08_main_arg10 (V : Valuation τ sig (Elt F)) : val08 V (Proc.devRef .tc main_arg10) = V (Proc.devRef .tc main_arg10) := by
  rw [val08_def, c06c_keep _ _ (by decide), val07_main_arg10]
theorem val08_main_v5 (V : Valuation τ sig (Elt F)) : val08 V (Proc.devRef .tc main_v5) = refHid (V (Proc.devRef .tc main_arg0)) (V (Proc.devRef .tc main_arg1)) (V (Proc.devRef .tc main_arg2)) := by
  rw [val08_def, c06c_keep _ _ (by decide), val07_main_v5]
theorem val08_main_arg11 (V : Valuation τ sig (Elt F)) : val08 V (Proc.devRef .tc main_arg11) = V (Proc.devRef .tc main_arg11) := by
  rw [val08_def, c06c_keep _ _ (by decide), val07_main_arg11]
theorem val08_main_arg12 (V : Valuation τ sig (Elt F)) : val08 V (Proc.devRef .tc main_arg12) = V (Proc.devRef .tc main_arg12) := by
  rw [val08_def, c06c_keep _ _ (by decide), val07_main_arg12]
theorem val08_main_arg13 (V : Valuation τ sig (Elt F)) : val08 V (Proc.devRef .tc main_arg13) = V (Proc.devRef .tc main_arg13) := by
  rw [val08_def, c06c_keep _ _ (by decide), val07_main_arg13]
theorem val08_main_arg14 (V : Valuation τ sig (Elt F)) : val08 V (Proc.devRef .tc main_arg14) = V (Proc.devRef .tc main_arg14) := by
  rw [val08_def, c06c_keep _ _ (by decide), val07_main_arg14]
theorem val09_main_v51 (V : Valuation τ sig (Elt F)) : val09 V (Proc.devRef .tc main_v51) = refCount (refOne) (refZeros) (refPosCol (refClip (refCum (refMask)))) := by
  rw [val09_def, c07_main_v51, val08_main_c_8, val08_main_v41, val08_main_v48]
theorem val09_main_v35 (V : Valuation τ sig (Elt F)) : val09 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val09_def, c07_keep _ _ (by decide), val08_main_v35]
theorem val09_main_arg7 (V : Valuation τ sig (Elt F)) : val09 V (Proc.devRef .tc main_arg7) = V (Proc.devRef .tc main_arg7) := by
  rw [val09_def, c07_keep _ _ (by decide), val08_main_arg7]
theorem val09_main_arg8 (V : Valuation τ sig (Elt F)) : val09 V (Proc.devRef .tc main_arg8) = V (Proc.devRef .tc main_arg8) := by
  rw [val09_def, c07_keep _ _ (by decide), val08_main_arg8]
theorem val09_main_arg9 (V : Valuation τ sig (Elt F)) : val09 V (Proc.devRef .tc main_arg9) = V (Proc.devRef .tc main_arg9) := by
  rw [val09_def, c07_keep _ _ (by decide), val08_main_arg9]
theorem val09_main_arg10 (V : Valuation τ sig (Elt F)) : val09 V (Proc.devRef .tc main_arg10) = V (Proc.devRef .tc main_arg10) := by
  rw [val09_def, c07_keep _ _ (by decide), val08_main_arg10]
theorem val09_main_v5 (V : Valuation τ sig (Elt F)) : val09 V (Proc.devRef .tc main_v5) = refHid (V (Proc.devRef .tc main_arg0)) (V (Proc.devRef .tc main_arg1)) (V (Proc.devRef .tc main_arg2)) := by
  rw [val09_def, c07_keep _ _ (by decide), val08_main_v5]
theorem val09_main_arg11 (V : Valuation τ sig (Elt F)) : val09 V (Proc.devRef .tc main_arg11) = V (Proc.devRef .tc main_arg11) := by
  rw [val09_def, c07_keep _ _ (by decide), val08_main_arg11]
theorem val09_main_arg12 (V : Valuation τ sig (Elt F)) : val09 V (Proc.devRef .tc main_arg12) = V (Proc.devRef .tc main_arg12) := by
  rw [val09_def, c07_keep _ _ (by decide), val08_main_arg12]
theorem val09_main_arg13 (V : Valuation τ sig (Elt F)) : val09 V (Proc.devRef .tc main_arg13) = V (Proc.devRef .tc main_arg13) := by
  rw [val09_def, c07_keep _ _ (by decide), val08_main_arg13]
theorem val09_main_arg14 (V : Valuation τ sig (Elt F)) : val09 V (Proc.devRef .tc main_arg14) = V (Proc.devRef .tc main_arg14) := by
  rw [val09_def, c07_keep _ _ (by decide), val08_main_arg14]
theorem val10_main_v52 (V : Valuation τ sig (Elt F)) : val10 V (Proc.devRef .tc main_v52) = refDiv512 (refCount (refOne) (refZeros) (refPosCol (refClip (refCum (refMask))))) := by
  rw [val10_def, c08_main_v52, val09_main_v51]
theorem val10_main_v51 (V : Valuation τ sig (Elt F)) : val10 V (Proc.devRef .tc main_v51) = refCount (refOne) (refZeros) (refPosCol (refClip (refCum (refMask)))) := by
  rw [val10_def, c08_keep _ _ (by decide), val09_main_v51]
theorem val10_main_v35 (V : Valuation τ sig (Elt F)) : val10 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val10_def, c08_keep _ _ (by decide), val09_main_v35]
theorem val10_main_arg7 (V : Valuation τ sig (Elt F)) : val10 V (Proc.devRef .tc main_arg7) = V (Proc.devRef .tc main_arg7) := by
  rw [val10_def, c08_keep _ _ (by decide), val09_main_arg7]
theorem val10_main_arg8 (V : Valuation τ sig (Elt F)) : val10 V (Proc.devRef .tc main_arg8) = V (Proc.devRef .tc main_arg8) := by
  rw [val10_def, c08_keep _ _ (by decide), val09_main_arg8]
theorem val10_main_arg9 (V : Valuation τ sig (Elt F)) : val10 V (Proc.devRef .tc main_arg9) = V (Proc.devRef .tc main_arg9) := by
  rw [val10_def, c08_keep _ _ (by decide), val09_main_arg9]
theorem val10_main_arg10 (V : Valuation τ sig (Elt F)) : val10 V (Proc.devRef .tc main_arg10) = V (Proc.devRef .tc main_arg10) := by
  rw [val10_def, c08_keep _ _ (by decide), val09_main_arg10]
theorem val10_main_v5 (V : Valuation τ sig (Elt F)) : val10 V (Proc.devRef .tc main_v5) = refHid (V (Proc.devRef .tc main_arg0)) (V (Proc.devRef .tc main_arg1)) (V (Proc.devRef .tc main_arg2)) := by
  rw [val10_def, c08_keep _ _ (by decide), val09_main_v5]
theorem val10_main_arg11 (V : Valuation τ sig (Elt F)) : val10 V (Proc.devRef .tc main_arg11) = V (Proc.devRef .tc main_arg11) := by
  rw [val10_def, c08_keep _ _ (by decide), val09_main_arg11]
theorem val10_main_arg12 (V : Valuation τ sig (Elt F)) : val10 V (Proc.devRef .tc main_arg12) = V (Proc.devRef .tc main_arg12) := by
  rw [val10_def, c08_keep _ _ (by decide), val09_main_arg12]
theorem val10_main_arg13 (V : Valuation τ sig (Elt F)) : val10 V (Proc.devRef .tc main_arg13) = V (Proc.devRef .tc main_arg13) := by
  rw [val10_def, c08_keep _ _ (by decide), val09_main_arg13]
theorem val10_main_arg14 (V : Valuation τ sig (Elt F)) : val10 V (Proc.devRef .tc main_arg14) = V (Proc.devRef .tc main_arg14) := by
  rw [val10_def, c08_keep _ _ (by decide), val09_main_arg14]
theorem val11_main_v51 (V : Valuation τ sig (Elt F)) : val11 V (Proc.devRef .tc main_v51) = refCount (refOne) (refZeros) (refPosCol (refClip (refCum (refMask)))) := by
  rw [val11_def, c09_keep _ _ (by decide), val10_main_v51]
theorem val11_main_v53 (V : Valuation τ sig (Elt F)) : val11 V (Proc.devRef .tc main_v53) = refRem512 (refDiv512 (refCount (refOne) (refZeros) (refPosCol (refClip (refCum (refMask)))))) := by
  rw [val11_def, c09_main_v53, val10_main_v52]
theorem val11_main_v35 (V : Valuation τ sig (Elt F)) : val11 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val11_def, c09_keep _ _ (by decide), val10_main_v35]
theorem val11_main_arg7 (V : Valuation τ sig (Elt F)) : val11 V (Proc.devRef .tc main_arg7) = V (Proc.devRef .tc main_arg7) := by
  rw [val11_def, c09_keep _ _ (by decide), val10_main_arg7]
theorem val11_main_arg8 (V : Valuation τ sig (Elt F)) : val11 V (Proc.devRef .tc main_arg8) = V (Proc.devRef .tc main_arg8) := by
  rw [val11_def, c09_keep _ _ (by decide), val10_main_arg8]
theorem val11_main_arg9 (V : Valuation τ sig (Elt F)) : val11 V (Proc.devRef .tc main_arg9) = V (Proc.devRef .tc main_arg9) := by
  rw [val11_def, c09_keep _ _ (by decide), val10_main_arg9]
theorem val11_main_arg10 (V : Valuation τ sig (Elt F)) : val11 V (Proc.devRef .tc main_arg10) = V (Proc.devRef .tc main_arg10) := by
  rw [val11_def, c09_keep _ _ (by decide), val10_main_arg10]
theorem val11_main_v5 (V : Valuation τ sig (Elt F)) : val11 V (Proc.devRef .tc main_v5) = refHid (V (Proc.devRef .tc main_arg0)) (V (Proc.devRef .tc main_arg1)) (V (Proc.devRef .tc main_arg2)) := by
  rw [val11_def, c09_keep _ _ (by decide), val10_main_v5]
theorem val11_main_arg11 (V : Valuation τ sig (Elt F)) : val11 V (Proc.devRef .tc main_arg11) = V (Proc.devRef .tc main_arg11) := by
  rw [val11_def, c09_keep _ _ (by decide), val10_main_arg11]
theorem val11_main_arg12 (V : Valuation τ sig (Elt F)) : val11 V (Proc.devRef .tc main_arg12) = V (Proc.devRef .tc main_arg12) := by
  rw [val11_def, c09_keep _ _ (by decide), val10_main_arg12]
theorem val11_main_arg13 (V : Valuation τ sig (Elt F)) : val11 V (Proc.devRef .tc main_arg13) = V (Proc.devRef .tc main_arg13) := by
  rw [val11_def, c09_keep _ _ (by decide), val10_main_arg13]
theorem val11_main_arg14 (V : Valuation τ sig (Elt F)) : val11 V (Proc.devRef .tc main_arg14) = V (Proc.devRef .tc main_arg14) := by
  rw [val11_def, c09_keep _ _ (by decide), val10_main_arg14]
theorem val12_main_v54 (V : Valuation τ sig (Elt F)) : val12 V (Proc.devRef .tc main_v54) = refDiv1 (refCount (refOne) (refZeros) (refPosCol (refClip (refCum (refMask))))) := by
  rw [val12_def, c10_main_v54, val11_main_v51]
theorem val12_main_v53 (V : Valuation τ sig (Elt F)) : val12 V (Proc.devRef .tc main_v53) = refRem512 (refDiv512 (refCount (refOne) (refZeros) (refPosCol (refClip (refCum (refMask)))))) := by
  rw [val12_def, c10_keep _ _ (by decide), val11_main_v53]
theorem val12_main_v35 (V : Valuation τ sig (Elt F)) : val12 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val12_def, c10_keep _ _ (by decide), val11_main_v35]
theorem val12_main_arg7 (V : Valuation τ sig (Elt F)) : val12 V (Proc.devRef .tc main_arg7) = V (Proc.devRef .tc main_arg7) := by
  rw [val12_def, c10_keep _ _ (by decide), val11_main_arg7]
theorem val12_main_arg8 (V : Valuation τ sig (Elt F)) : val12 V (Proc.devRef .tc main_arg8) = V (Proc.devRef .tc main_arg8) := by
  rw [val12_def, c10_keep _ _ (by decide), val11_main_arg8]
theorem val12_main_arg9 (V : Valuation τ sig (Elt F)) : val12 V (Proc.devRef .tc main_arg9) = V (Proc.devRef .tc main_arg9) := by
  rw [val12_def, c10_keep _ _ (by decide), val11_main_arg9]
theorem val12_main_arg10 (V : Valuation τ sig (Elt F)) : val12 V (Proc.devRef .tc main_arg10) = V (Proc.devRef .tc main_arg10) := by
  rw [val12_def, c10_keep _ _ (by decide), val11_main_arg10]
theorem val12_main_v5 (V : Valuation τ sig (Elt F)) : val12 V (Proc.devRef .tc main_v5) = refHid (V (Proc.devRef .tc main_arg0)) (V (Proc.devRef .tc main_arg1)) (V (Proc.devRef .tc main_arg2)) := by
  rw [val12_def, c10_keep _ _ (by decide), val11_main_v5]
theorem val12_main_arg11 (V : Valuation τ sig (Elt F)) : val12 V (Proc.devRef .tc main_arg11) = V (Proc.devRef .tc main_arg11) := by
  rw [val12_def, c10_keep _ _ (by decide), val11_main_arg11]
theorem val12_main_arg12 (V : Valuation τ sig (Elt F)) : val12 V (Proc.devRef .tc main_arg12) = V (Proc.devRef .tc main_arg12) := by
  rw [val12_def, c10_keep _ _ (by decide), val11_main_arg12]
theorem val12_main_arg13 (V : Valuation τ sig (Elt F)) : val12 V (Proc.devRef .tc main_arg13) = V (Proc.devRef .tc main_arg13) := by
  rw [val12_def, c10_keep _ _ (by decide), val11_main_arg13]
theorem val12_main_arg14 (V : Valuation τ sig (Elt F)) : val12 V (Proc.devRef .tc main_arg14) = V (Proc.devRef .tc main_arg14) := by
  rw [val12_def, c10_keep _ _ (by decide), val11_main_arg14]
theorem val13_main_v53 (V : Valuation τ sig (Elt F)) : val13 V (Proc.devRef .tc main_v53) = refRem512 (refDiv512 (refCount (refOne) (refZeros) (refPosCol (refClip (refCum (refMask)))))) := by
  rw [val13_def, c11_keep _ _ (by decide), val12_main_v53]
theorem val13_main_v35 (V : Valuation τ sig (Elt F)) : val13 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val13_def, c11_keep _ _ (by decide), val12_main_v35]
theorem val13_main_v55 (V : Valuation τ sig (Elt F)) : val13 V (Proc.devRef .tc main_v55) = refRem512 (refDiv1 (refCount (refOne) (refZeros) (refPosCol (refClip (refCum (refMask)))))) := by
  rw [val13_def, c11_main_v55, val12_main_v54]
theorem val13_main_arg7 (V : Valuation τ sig (Elt F)) : val13 V (Proc.devRef .tc main_arg7) = V (Proc.devRef .tc main_arg7) := by
  rw [val13_def, c11_keep _ _ (by decide), val12_main_arg7]
theorem val13_main_arg8 (V : Valuation τ sig (Elt F)) : val13 V (Proc.devRef .tc main_arg8) = V (Proc.devRef .tc main_arg8) := by
  rw [val13_def, c11_keep _ _ (by decide), val12_main_arg8]
theorem val13_main_arg9 (V : Valuation τ sig (Elt F)) : val13 V (Proc.devRef .tc main_arg9) = V (Proc.devRef .tc main_arg9) := by
  rw [val13_def, c11_keep _ _ (by decide), val12_main_arg9]
theorem val13_main_arg10 (V : Valuation τ sig (Elt F)) : val13 V (Proc.devRef .tc main_arg10) = V (Proc.devRef .tc main_arg10) := by
  rw [val13_def, c11_keep _ _ (by decide), val12_main_arg10]
theorem val13_main_v5 (V : Valuation τ sig (Elt F)) : val13 V (Proc.devRef .tc main_v5) = refHid (V (Proc.devRef .tc main_arg0)) (V (Proc.devRef .tc main_arg1)) (V (Proc.devRef .tc main_arg2)) := by
  rw [val13_def, c11_keep _ _ (by decide), val12_main_v5]
theorem val13_main_arg11 (V : Valuation τ sig (Elt F)) : val13 V (Proc.devRef .tc main_arg11) = V (Proc.devRef .tc main_arg11) := by
  rw [val13_def, c11_keep _ _ (by decide), val12_main_arg11]
theorem val13_main_arg12 (V : Valuation τ sig (Elt F)) : val13 V (Proc.devRef .tc main_arg12) = V (Proc.devRef .tc main_arg12) := by
  rw [val13_def, c11_keep _ _ (by decide), val12_main_arg12]
theorem val13_main_arg13 (V : Valuation τ sig (Elt F)) : val13 V (Proc.devRef .tc main_arg13) = V (Proc.devRef .tc main_arg13) := by
  rw [val13_def, c11_keep _ _ (by decide), val12_main_arg13]
theorem val13_main_arg14 (V : Valuation τ sig (Elt F)) : val13 V (Proc.devRef .tc main_arg14) = V (Proc.devRef .tc main_arg14) := by
  rw [val13_def, c11_keep _ _ (by decide), val12_main_arg14]
theorem val14_main_v60 (V : Valuation τ sig (Elt F)) : val14 V (Proc.devRef .tc main_v60) = refWrap (refRem512 (refDiv512 (refCount (refOne) (refZeros) (refPosCol (refClip (refCum (refMask))))))) := by
  rw [val14_def, c12_main_v60, val13_main_v53]
theorem val14_main_v35 (V : Valuation τ sig (Elt F)) : val14 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val14_def, c12_keep _ _ (by decide), val13_main_v35]
theorem val14_main_v55 (V : Valuation τ sig (Elt F)) : val14 V (Proc.devRef .tc main_v55) = refRem512 (refDiv1 (refCount (refOne) (refZeros) (refPosCol (refClip (refCum (refMask)))))) := by
  rw [val14_def, c12_keep _ _ (by decide), val13_main_v55]
theorem val14_main_arg7 (V : Valuation τ sig (Elt F)) : val14 V (Proc.devRef .tc main_arg7) = V (Proc.devRef .tc main_arg7) := by
  rw [val14_def, c12_keep _ _ (by decide), val13_main_arg7]
theorem val14_main_arg8 (V : Valuation τ sig (Elt F)) : val14 V (Proc.devRef .tc main_arg8) = V (Proc.devRef .tc main_arg8) := by
  rw [val14_def, c12_keep _ _ (by decide), val13_main_arg8]
theorem val14_main_arg9 (V : Valuation τ sig (Elt F)) : val14 V (Proc.devRef .tc main_arg9) = V (Proc.devRef .tc main_arg9) := by
  rw [val14_def, c12_keep _ _ (by decide), val13_main_arg9]
theorem val14_main_arg10 (V : Valuation τ sig (Elt F)) : val14 V (Proc.devRef .tc main_arg10) = V (Proc.devRef .tc main_arg10) := by
  rw [val14_def, c12_keep _ _ (by decide), val13_main_arg10]
theorem val14_main_v5 (V : Valuation τ sig (Elt F)) : val14 V (Proc.devRef .tc main_v5) = refHid (V (Proc.devRef .tc main_arg0)) (V (Proc.devRef .tc main_arg1)) (V (Proc.devRef .tc main_arg2)) := by
  rw [val14_def, c12_keep _ _ (by decide), val13_main_v5]
theorem val14_main_arg11 (V : Valuation τ sig (Elt F)) : val14 V (Proc.devRef .tc main_arg11) = V (Proc.devRef .tc main_arg11) := by
  rw [val14_def, c12_keep _ _ (by decide), val13_main_arg11]
theorem val14_main_arg12 (V : Valuation τ sig (Elt F)) : val14 V (Proc.devRef .tc main_arg12) = V (Proc.devRef .tc main_arg12) := by
  rw [val14_def, c12_keep _ _ (by decide), val13_main_arg12]
theorem val14_main_arg13 (V : Valuation τ sig (Elt F)) : val14 V (Proc.devRef .tc main_arg13) = V (Proc.devRef .tc main_arg13) := by
  rw [val14_def, c12_keep _ _ (by decide), val13_main_arg13]
theorem val14_main_arg14 (V : Valuation τ sig (Elt F)) : val14 V (Proc.devRef .tc main_arg14) = V (Proc.devRef .tc main_arg14) := by
  rw [val14_def, c12_keep _ _ (by decide), val13_main_arg14]
theorem val15_main_v55 (V : Valuation τ sig (Elt F)) : val15 V (Proc.devRef .tc main_v55) = refRem512 (refDiv1 (refCount (refOne) (refZeros) (refPosCol (refClip (refCum (refMask)))))) := by
  rw [val15_def, c13_keep _ _ (by decide), val14_main_v55]
theorem val15_main_v35 (V : Valuation τ sig (Elt F)) : val15 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val15_def, c13_keep _ _ (by decide), val14_main_v35]
theorem val15_main_v62 (V : Valuation τ sig (Elt F)) : val15 V (Proc.devRef .tc main_v62) = refGather0 (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refWrap (refRem512 (refDiv512 (refCount (refOne) (refZeros) (refPosCol (refClip (refCum (refMask)))))))) := by
  rw [val15_def, c13_main_v62, val14_main_v35, val14_main_v60]
theorem val15_main_arg7 (V : Valuation τ sig (Elt F)) : val15 V (Proc.devRef .tc main_arg7) = V (Proc.devRef .tc main_arg7) := by
  rw [val15_def, c13_keep _ _ (by decide), val14_main_arg7]
theorem val15_main_arg8 (V : Valuation τ sig (Elt F)) : val15 V (Proc.devRef .tc main_arg8) = V (Proc.devRef .tc main_arg8) := by
  rw [val15_def, c13_keep _ _ (by decide), val14_main_arg8]
theorem val15_main_arg9 (V : Valuation τ sig (Elt F)) : val15 V (Proc.devRef .tc main_arg9) = V (Proc.devRef .tc main_arg9) := by
  rw [val15_def, c13_keep _ _ (by decide), val14_main_arg9]
theorem val15_main_arg10 (V : Valuation τ sig (Elt F)) : val15 V (Proc.devRef .tc main_arg10) = V (Proc.devRef .tc main_arg10) := by
  rw [val15_def, c13_keep _ _ (by decide), val14_main_arg10]
theorem val15_main_v5 (V : Valuation τ sig (Elt F)) : val15 V (Proc.devRef .tc main_v5) = refHid (V (Proc.devRef .tc main_arg0)) (V (Proc.devRef .tc main_arg1)) (V (Proc.devRef .tc main_arg2)) := by
  rw [val15_def, c13_keep _ _ (by decide), val14_main_v5]
theorem val15_main_arg11 (V : Valuation τ sig (Elt F)) : val15 V (Proc.devRef .tc main_arg11) = V (Proc.devRef .tc main_arg11) := by
  rw [val15_def, c13_keep _ _ (by decide), val14_main_arg11]
theorem val15_main_arg12 (V : Valuation τ sig (Elt F)) : val15 V (Proc.devRef .tc main_arg12) = V (Proc.devRef .tc main_arg12) := by
  rw [val15_def, c13_keep _ _ (by decide), val14_main_arg12]
theorem val15_main_arg13 (V : Valuation τ sig (Elt F)) : val15 V (Proc.devRef .tc main_arg13) = V (Proc.devRef .tc main_arg13) := by
  rw [val15_def, c13_keep _ _ (by decide), val14_main_arg13]
theorem val15_main_arg14 (V : Valuation τ sig (Elt F)) : val15 V (Proc.devRef .tc main_arg14) = V (Proc.devRef .tc main_arg14) := by
  rw [val15_def, c13_keep _ _ (by decide), val14_main_arg14]
theorem val16_main_v67 (V : Valuation τ sig (Elt F)) : val16 V (Proc.devRef .tc main_v67) = refWrap (refRem512 (refDiv1 (refCount (refOne) (refZeros) (refPosCol (refClip (refCum (refMask))))))) := by
  rw [val16_def, c14_main_v67, val15_main_v55]
theorem val16_main_v35 (V : Valuation τ sig (Elt F)) : val16 V (Proc.devRef .tc main_v35) = refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6)) := by
  rw [val16_def, c14_keep _ _ (by decide), val15_main_v35]
theorem val16_main_v62 (V : Valuation τ sig (Elt F)) : val16 V (Proc.devRef .tc main_v62) = refGather0 (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refWrap (refRem512 (refDiv512 (refCount (refOne) (refZeros) (refPosCol (refClip (refCum (refMask)))))))) := by
  rw [val16_def, c14_keep _ _ (by decide), val15_main_v62]
theorem val16_main_arg7 (V : Valuation τ sig (Elt F)) : val16 V (Proc.devRef .tc main_arg7) = V (Proc.devRef .tc main_arg7) := by
  rw [val16_def, c14_keep _ _ (by decide), val15_main_arg7]
theorem val16_main_arg8 (V : Valuation τ sig (Elt F)) : val16 V (Proc.devRef .tc main_arg8) = V (Proc.devRef .tc main_arg8) := by
  rw [val16_def, c14_keep _ _ (by decide), val15_main_arg8]
theorem val16_main_arg9 (V : Valuation τ sig (Elt F)) : val16 V (Proc.devRef .tc main_arg9) = V (Proc.devRef .tc main_arg9) := by
  rw [val16_def, c14_keep _ _ (by decide), val15_main_arg9]
theorem val16_main_arg10 (V : Valuation τ sig (Elt F)) : val16 V (Proc.devRef .tc main_arg10) = V (Proc.devRef .tc main_arg10) := by
  rw [val16_def, c14_keep _ _ (by decide), val15_main_arg10]
theorem val16_main_v5 (V : Valuation τ sig (Elt F)) : val16 V (Proc.devRef .tc main_v5) = refHid (V (Proc.devRef .tc main_arg0)) (V (Proc.devRef .tc main_arg1)) (V (Proc.devRef .tc main_arg2)) := by
  rw [val16_def, c14_keep _ _ (by decide), val15_main_v5]
theorem val16_main_arg11 (V : Valuation τ sig (Elt F)) : val16 V (Proc.devRef .tc main_arg11) = V (Proc.devRef .tc main_arg11) := by
  rw [val16_def, c14_keep _ _ (by decide), val15_main_arg11]
theorem val16_main_arg12 (V : Valuation τ sig (Elt F)) : val16 V (Proc.devRef .tc main_arg12) = V (Proc.devRef .tc main_arg12) := by
  rw [val16_def, c14_keep _ _ (by decide), val15_main_arg12]
theorem val16_main_arg13 (V : Valuation τ sig (Elt F)) : val16 V (Proc.devRef .tc main_arg13) = V (Proc.devRef .tc main_arg13) := by
  rw [val16_def, c14_keep _ _ (by decide), val15_main_arg13]
theorem val16_main_arg14 (V : Valuation τ sig (Elt F)) : val16 V (Proc.devRef .tc main_arg14) = V (Proc.devRef .tc main_arg14) := by
  rw [val16_def, c14_keep _ _ (by decide), val15_main_arg14]
theorem val17_main_v5 (V : Valuation τ sig (Elt F)) : val17 V (Proc.devRef .tc main_v5) = refHid (V (Proc.devRef .tc main_arg0)) (V (Proc.devRef .tc main_arg1)) (V (Proc.devRef .tc main_arg2)) := by
  rw [val17_def, c15_keep _ _ (by decide), val16_main_v5]
theorem val17_main_arg11 (V : Valuation τ sig (Elt F)) : val17 V (Proc.devRef .tc main_arg11) = V (Proc.devRef .tc main_arg11) := by
  rw [val17_def, c15_keep _ _ (by decide), val16_main_arg11]
theorem val17_main_arg12 (V : Valuation τ sig (Elt F)) : val17 V (Proc.devRef .tc main_arg12) = V (Proc.devRef .tc main_arg12) := by
  rw [val17_def, c15_keep _ _ (by decide), val16_main_arg12]
theorem val17_main_arg13 (V : Valuation τ sig (Elt F)) : val17 V (Proc.devRef .tc main_arg13) = V (Proc.devRef .tc main_arg13) := by
  rw [val17_def, c15_keep _ _ (by decide), val16_main_arg13]
theorem val17_main_arg14 (V : Valuation τ sig (Elt F)) : val17 V (Proc.devRef .tc main_arg14) = V (Proc.devRef .tc main_arg14) := by
  rw [val17_def, c15_keep _ _ (by decide), val16_main_arg14]
theorem val17_main_v92 (V : Valuation τ sig (Elt F)) : val17 V (Proc.devRef .tc main_v92) = refActCore (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refGather0 (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refWrap (refRem512 (refDiv512 (refCount (refOne) (refZeros) (refPosCol (refClip (refCum (refMask))))))))) (refWrap (refRem512 (refDiv1 (refCount (refOne) (refZeros) (refPosCol (refClip (refCum (refMask)))))))) (V (Proc.devRef .tc main_arg7)) (V (Proc.devRef .tc main_arg8)) (V (Proc.devRef .tc main_arg9)) (V (Proc.devRef .tc main_arg10)) := by
  rw [val17_def, c15_main_v92, val16_main_v35, val16_main_v62, val16_main_v67, val16_main_arg7, val16_main_arg8, val16_main_arg9, val16_main_arg10]
theorem val18_main_v97 (V : Valuation τ sig (Elt F)) : val18 V (Proc.devRef .tc main_v97) = refValPre (refHid (V (Proc.devRef .tc main_arg0)) (V (Proc.devRef .tc main_arg1)) (V (Proc.devRef .tc main_arg2))) (V (Proc.devRef .tc main_arg11)) (V (Proc.devRef .tc main_arg12)) := by
  rw [val18_def, c16_main_v97, val17_main_v5, val17_main_arg11, val17_main_arg12]
theorem val18_main_arg13 (V : Valuation τ sig (Elt F)) : val18 V (Proc.devRef .tc main_arg13) = V (Proc.devRef .tc main_arg13) := by
  rw [val18_def, c16_keep _ _ (by decide), val17_main_arg13]
theorem val18_main_arg14 (V : Valuation τ sig (Elt F)) : val18 V (Proc.devRef .tc main_arg14) = V (Proc.devRef .tc main_arg14) := by
  rw [val18_def, c16_keep _ _ (by decide), val17_main_arg14]
theorem val18_main_v92 (V : Valuation τ sig (Elt F)) : val18 V (Proc.devRef .tc main_v92) = refActCore (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refGather0 (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refWrap (refRem512 (refDiv512 (refCount (refOne) (refZeros) (refPosCol (refClip (refCum (refMask))))))))) (refWrap (refRem512 (refDiv1 (refCount (refOne) (refZeros) (refPosCol (refClip (refCum (refMask)))))))) (V (Proc.devRef .tc main_arg7)) (V (Proc.devRef .tc main_arg8)) (V (Proc.devRef .tc main_arg9)) (V (Proc.devRef .tc main_arg10)) := by
  rw [val18_def, c16_keep _ _ (by decide), val17_main_v92]
theorem val19_main_v102 (V : Valuation τ sig (Elt F)) : val19 V (Proc.devRef .tc main_v102) = refValPost (refValPre (refHid (V (Proc.devRef .tc main_arg0)) (V (Proc.devRef .tc main_arg1)) (V (Proc.devRef .tc main_arg2))) (V (Proc.devRef .tc main_arg11)) (V (Proc.devRef .tc main_arg12))) (V (Proc.devRef .tc main_arg13)) (V (Proc.devRef .tc main_arg14)) := by
  rw [val19_def, c17_main_v102, val18_main_v97, val18_main_arg13, val18_main_arg14]
theorem val19_main_v92 (V : Valuation τ sig (Elt F)) : val19 V (Proc.devRef .tc main_v92) = refActCore (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refGather0 (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refWrap (refRem512 (refDiv512 (refCount (refOne) (refZeros) (refPosCol (refClip (refCum (refMask))))))))) (refWrap (refRem512 (refDiv1 (refCount (refOne) (refZeros) (refPosCol (refClip (refCum (refMask)))))))) (V (Proc.devRef .tc main_arg7)) (V (Proc.devRef .tc main_arg8)) (V (Proc.devRef .tc main_arg9)) (V (Proc.devRef .tc main_arg10)) := by
  rw [val19_def, c17_keep _ _ (by decide), val18_main_v92]
theorem val20_main_v104 (V : Valuation τ sig (Elt F)) : val20 V (Proc.devRef .tc main_v104) = refOut (refActCore (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refGather0 (refHCore (refAttn (refQkv (refHid (V (Proc.devRef .tc main_arg0)) (V (Proc.devRef .tc main_arg1)) (V (Proc.devRef .tc main_arg2))) (V (Proc.devRef .tc main_arg3)) (V (Proc.devRef .tc main_arg4)))) (refVal (refQkv (refHid (V (Proc.devRef .tc main_arg0)) (V (Proc.devRef .tc main_arg1)) (V (Proc.devRef .tc main_arg2))) (V (Proc.devRef .tc main_arg3)) (V (Proc.devRef .tc main_arg4)))) (V (Proc.devRef .tc main_arg5)) (V (Proc.devRef .tc main_arg6))) (refWrap (refRem512 (refDiv512 (refCount (refOne) (refZeros) (refPosCol (refClip (refCum (refMask))))))))) (refWrap (refRem512 (refDiv1 (refCount (refOne) (refZeros) (refPosCol (refClip (refCum (refMask)))))))) (V (Proc.devRef .tc main_arg7)) (V (Proc.devRef .tc main_arg8)) (V (Proc.devRef .tc main_arg9)) (V (Proc.devRef .tc main_arg10))) (refValPost (refValPre (refHid (V (Proc.devRef .tc main_arg0)) (V (Proc.devRef .tc main_arg1)) (V (Proc.devRef .tc main_arg2))) (V (Proc.devRef .tc main_arg11)) (V (Proc.devRef .tc main_arg12))) (V (Proc.devRef .tc main_arg13)) (V (Proc.devRef .tc main_arg14))) := by
  rw [val20_def, c18_main_v104, val19_main_v92, val19_main_v102]

/-- The result buffer after the whole line, as the composite stages of the arguments' contents. -/
theorem after_ops_main_v104 (V : Valuation τ sig (Elt F)) :
    after ops V (Proc.devRef .tc main_v104)
      = refOut (refAction (refH (refAttn (refQkv (refHid (V (Proc.devRef .tc main_arg0)) (V (Proc.devRef .tc main_arg1)) (V (Proc.devRef .tc main_arg2))) (V (Proc.devRef .tc main_arg3)) (V (Proc.devRef .tc main_arg4)))) (refQkv (refHid (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6))) refIdx0 refIdx1 (V (Proc.devRef .tc main_arg7)) (V (Proc.devRef .tc main_arg8)) (V (Proc.devRef .tc main_arg9)) (V (Proc.devRef .tc main_arg10)))
          (refValue (refHid (V (Proc.devRef .tc main_arg0)) (V (Proc.devRef .tc main_arg1)) (V (Proc.devRef .tc main_arg2))) (V (Proc.devRef .tc main_arg11)) (V (Proc.devRef .tc main_arg12)) (V (Proc.devRef .tc main_arg13)) (V (Proc.devRef .tc main_arg14))) := by
  rw [after_ops, val20_main_v104]
  unfold refAction refH refIdx0 refIdx1 refIdxRaw0 refIdxRaw1 refCnt refValue
  rfl

/-- At the compiled mesh, for any float values, from any memory with zero counters: every weakly fair execution of the
    program terminates with the result at the stages' composition over the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = refOut (refAction (refH (refAttn (refQkv (refHid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)))) (refQkv (refHid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) (m ((c.tc : Thread nD τ).loc main_arg5)) (m ((c.tc : Thread nD τ).loc main_arg6))) refIdx0 refIdx1 (m ((c.tc : Thread nD τ).loc main_arg7)) (m ((c.tc : Thread nD τ).loc main_arg8)) (m ((c.tc : Thread nD τ).loc main_arg9)) (m ((c.tc : Thread nD τ).loc main_arg10))) (refValue (refHid (m ((c.tc : Thread nD τ).loc main_arg0)) (m ((c.tc : Thread nD τ).loc main_arg1)) (m ((c.tc : Thread nD τ).loc main_arg2))) (m ((c.tc : Thread nD τ).loc main_arg11)) (m ((c.tc : Thread nD τ).loc main_arg12)) (m ((c.tc : Thread nD τ).loc main_arg13)) (m ((c.tc : Thread nD τ).loc main_arg14)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono
    (fun _ h c => ⟨(h c main_v104).trans (after_ops_main_v104 (launchContents m c)),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide))⟩)
    (run_after m ρ)

end Cert.ReferenceIdeal.RefRun

end
-- ==== Proof.KI.Bridge.lean ====
import proofs.«110368_j31911607009638_1_alg».proof.Proof.KI.BridgeCore
import proofs.«110368_j31911607009638_1_alg».proof.Proof.KI.IdxChain
import proofs.«110368_j31911607009638_1_alg».proof.Proof.RefRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The kernel program's result is the reference's result of the same arguments -/

open Cert.ReferenceIdeal.RefRun

variable (m : (ℓ : Loc nD τ sig) → Buf (Elt Ideal) ℓ) (ρ : Dev nD → PrngReg)

/-- Both programs compute the raw index vectors of the strict upper triangle by the same host operations, so the
    core equality applies; the reference's named stages unfold to the operations it is stated over. -/
theorem bridge (c : Dev nD) :
    B23 m ρ c main_v46 = refOut (F := Ideal) (refAction (F := Ideal) (refH (F := Ideal) (refAttn (F := Ideal) (refQkv (F := Ideal) (refHid (F := Ideal) (m ((c : Thread nD τ).loc main_arg0)) (m ((c : Thread nD τ).loc main_arg1)) (m ((c : Thread nD τ).loc main_arg2))) (m ((c : Thread nD τ).loc main_arg3)) (m ((c : Thread nD τ).loc main_arg4)))) (refQkv (F := Ideal) (refHid (F := Ideal) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg5)) (m ((c : Thread nD τ).loc main_arg6))) (refIdx0 (F := Ideal)) (refIdx1 (F := Ideal)) (m ((c : Thread nD τ).loc main_arg7)) (m ((c : Thread nD τ).loc main_arg8)) (m ((c : Thread nD τ).loc main_arg9)) (m ((c : Thread nD τ).loc main_arg10))) (refValue (F := Ideal) (refHid (F := Ideal) (m ((c : Thread nD τ).loc main_arg0)) (m ((c : Thread nD τ).loc main_arg1)) (m ((c : Thread nD τ).loc main_arg2))) (m ((c : Thread nD τ).loc main_arg11)) (m ((c : Thread nD τ).loc main_arg12)) (m ((c : Thread nD τ).loc main_arg13)) (m ((c : Thread nD τ).loc main_arg14))) :=
  bridge_core m ρ c (B22_main_v28 (F := Ideal) m ρ c) (B22_main_v30 (F := Ideal) m ρ c)

end Cert.KernelIdeal.Hand

end
-- ==== Proof.RefRunFrame.lean ====
/- The reference's frame: it runs to its end, faults nowhere, and leaves its fifteen argument arrays unchanged. The run
   ends with every TensorCore buffer at the fold of the 219 operations over the launch contents; none of the 219 buffers
   the operations write is an argument, so the fold at each argument is the launch contents there. -/
import proofs.«110368_j31911607009638_1_alg».proof.Defs
import proofs.«110368_j31911607009638_1_alg».proof.Proof.RefRunOps

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution of the idealized reference terminates without a fault, each argument array ending as
    it was launched. -/
theorem frame_ri [hPre_finite_inputs : Cert.Pre_finite_inputs.Facts] : Cert.frame_ReferenceIdeal := fun m g _ =>
  (θ_run (Cert.ReferenceIdeal.defs (F := Ideal)) _ _).mono
    (fun _ h c => ⟨(h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide))⟩)
    (run_after (F := Ideal) m g)

end Cert.ReferenceIdeal.RefRun

end
-- ==== Proof.lean ====
/- The certificate's claim: three frames, the idealization's ledger (empty), and the equality of the two idealized
   programs' results over the extended reals.

   The kernel program runs three kernel regions among stretches of host operations. Its frame, at either float
   instance, is the run of that list of items: each region's body leaves its input buffers as they were and its output
   buffers at a function of the input blocks, and no item writes an argument array. The reference program is a line
   of host operations, and its frame is its run with the result dropped.

   At the ideal instance the kernel program's result, read off the same run, is a function of the fifteen argument
   arrays; the reference's result, read off its run, is the same function: the attention trunk differs only in
   spelling (a product with 1/16 against a quotient by the square root of 256), the edge classifier in splitting a
   sum of 512 terms into its two halves, the value head in regrouping a sum of 131072 terms into sixteen blocks.
   No step uses that the inputs are finite. -/
import proofs.«110368_j31911607009638_1_alg».proof.Defs
import proofs.«110368_j31911607009638_1_alg».proof.Proof.Gen.Kernel
import proofs.«110368_j31911607009638_1_alg».proof.Proof.Gen.KernelIdeal
import proofs.«110368_j31911607009638_1_alg».proof.Proof.Gen.ReferenceIdeal
import proofs.«110368_j31911607009638_1_alg».proof.Proof.Gen.Pre_finite_inputs
import proofs.«110368_j31911607009638_1_alg».proof.Proof.K.Frame
import proofs.«110368_j31911607009638_1_alg».proof.Proof.KI.Frame
import proofs.«110368_j31911607009638_1_alg».proof.Proof.KI.RunResult
import proofs.«110368_j31911607009638_1_alg».proof.Proof.KI.Bridge
import proofs.«110368_j31911607009638_1_alg».proof.Proof.RefRunFrame
import proofs.«110368_j31911607009638_1_alg».proof.Proof.RefRun

noncomputable section

namespace Cert.Proof

open Idealize.ShloMosaic Idealize.SL.Sem

/-- The word-level kernel program runs to the end and leaves its fifteen argument arrays as launched. -/
theorem frame_p : Cert.frame_Kernel (hKernel := Cert.Kernel.Gen.facts) (hPre_finite_inputs := Cert.Pre_finite_inputs.Gen.facts) :=
  fun m ρ _ => Cert.Kernel.Hand.frame (F := Bits) m ρ

/-- The idealized kernel program runs to the end and leaves its fifteen argument arrays as launched. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The idealized reference runs to the end and leaves its arguments as launched. -/
theorem frame_ri : Cert.frame_ReferenceIdeal (hReferenceIdeal := Cert.ReferenceIdeal.Gen.facts) (hPre_finite_inputs := Cert.Pre_finite_inputs.Gen.facts) :=
  Cert.ReferenceIdeal.RefRun.frame_ri (hPre_finite_inputs := Cert.Pre_finite_inputs.Gen.facts)

/-- The idealization rewrote no operation. -/
theorem preserves : Cert.preserves_Kernel_KernelIdeal := trivial

/-- From memories agreeing on the arguments both idealized programs run to the end with the same result: the kernel
    program's run leaves its result buffer at a function of the arguments, the reference's run leaves its own at the
    reference's function of the same arguments, and the two functions agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.B23 m ρ c (Proc.devRef .tc Cert.KernelIdeal.main_v46), Cert.KernelIdeal.Hand.run_result (F := Ideal) m ρ, ?_⟩
  refine (θ_run (Cert.ReferenceIdeal.defs (F := Ideal)) _ _).mono (fun r h c => ⟨(h c).1.trans ?_, (h c).2⟩)
    (Cert.ReferenceIdeal.RefRun.run (F := Ideal) m' ρ')
  obtain ⟨e0, e1, e2, e3, e4, e5, e6, e7, e8, e9, e10, e11, e12, e13, e14⟩ := hagree c
  rw [e0, e1, e2, e3, e4, e5, e6, e7, e8, e9, e10, e11, e12, e13, e14]
  exact (Cert.KernelIdeal.Hand.bridge m ρ c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
